-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v117)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v117) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v195) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S5x128x128 : Shape := ⟨3, ![5, 128, 128]⟩
abbrev S4x128 : Shape := ⟨2, ![4, 128]⟩
abbrev S512x128 : Shape := ⟨2, ![512, 128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S5x128x128 : S_.BroadcastsInDim S5x128x128 (![] : Fin 0 → Fin S5x128x128.rank)
  reducesTo_S5x128x128_S_d0_1_2 : S5x128x128.ReducesTo [0, 1, 2] S_
  bcast_S_S4x128 : S_.BroadcastsInDim S4x128 (![] : Fin 0 → Fin S4x128.rank)
  reducesTo_S4x128_S_d0_1 : S4x128.ReducesTo [0, 1] S_
  bcast_S_S512x128 : S_.BroadcastsInDim S512x128 (![] : Fin 0 → Fin S512x128.rank)
  reducesTo_S512x128_S_d0_1 : S512x128.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S4x128 .f32) (main_arg5 : FVec F S4x128 .f32) (main_arg6 : FVec F S512x128 .f32) (main_arg7 : FVec F S128 .f32) (main_v13 : IVec S_ 1) (main_v16 : IVec S5x128x128 1) : IVec S_ 1 :=
  let main_c_5 : IVec S_ 1 := constantI S_ 1 1#1
  let main_v17 : IVec S_ 1 := (fun x v => Host.reduce IntOp.andi x v reducesTo_S5x128x128_S_d0_1_2 h_S_) main_v16 main_c_5
  let main_v18 : IVec S_ 1 := andi main_v13 main_v17
  let main_v19 : FVec F S4x128 .f32 := Host.absf main_arg4
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg5
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S512x128 .f32 := Host.absf main_arg6
  let main_cst_10 : FVec F S_ .f32 := constant S_ .f32 0x7F800000#32
  let main_v30 : FVec F S512x128 .f32 := broadcastInDim S512x128 ![] bcast_S_S512x128 main_cst_10
  let main_v31 : IVec S512x128 1 := cmpf .olt main_v29 main_v30
  let main_c_11 : IVec S_ 1 := constantI S_ 1 1#1
  let main_v32 : IVec S_ 1 := (fun x v => Host.reduce IntOp.andi x v reducesTo_S512x128_S_d0_1 h_S_) main_v31 main_c_11
  let main_v33 : IVec S_ 1 := andi main_v28 main_v32
  fn_part2 (F := F) main_arg7 main_v33

def fn {F : FTy → Type} [FloatOps F] (main_arg0 : FVec F S100000x128 .f32) (main_arg1 : FVec F S128x128 .f32) (main_arg2 : FVec F S128 .f32) (main_arg3 : FVec F S5x128x128 .f32) (main_arg4 : FVec F S4x128 .f32) (main_arg5 : FVec F S4x128 .f32) (main_arg6 : FVec F S512x128 .f32) (main_arg7 : FVec F S128 .f32) (main_arg8 : IVec S1600000 32) (main_arg9 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S5x128x128 .f32 := Host.absf main_arg3
  let main_cst_4 : FVec F S_ .f32 := constant S_ .f32 0x7F800000#32
  let main_v15 : FVec F S5x128x128 .f32 := broadcastInDim S5x128x128 ![] bcast_S_S5x128x128 main_cst_4
  let main_v16 : IVec S5x128x128 1 := cmpf .olt main_v14 main_v15
  fn_part1 (F := F) main_arg4 main_arg5 main_arg6 main_arg7 main_v13 main_v16
-- ==== Kernel.lean ====
abbrev S100000x128 : Shape := ⟨2, ![100000, 128]⟩
abbrev S128x128 : Shape := ⟨2, ![128, 128]⟩
abbrev S128 : Shape := ⟨1, ![128]⟩
abbrev S5x128x128 : Shape := ⟨3, ![5, 128, 128]⟩
abbrev S4x128 : Shape := ⟨2, ![4, 128]⟩
abbrev S512x128 : Shape := ⟨2, ![512, 128]⟩
abbrev S1600000 : Shape := ⟨1, ![1600000]⟩
abbrev S1x128 : Shape := ⟨2, ![1, 128]⟩
abbrev S5000x128 : Shape := ⟨2, ![5000, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S100000x512 : Shape := ⟨2, ![100000, 512]⟩
abbrev S5000x512 : Shape := ⟨2, ![5000, 512]⟩

abbrev nBuf : Space → Nat
  | .hbm => 218
  | .vmem => 71
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S5x128x128, .f32⟩
  | 4 => ⟨S4x128, .f32⟩
  | 5 => ⟨S4x128, .f32⟩
  | 6 => ⟨S512x128, .f32⟩
  | 7 => ⟨S128, .f32⟩
  | 8 => ⟨S1600000, .i32⟩
  | 9 => ⟨S1600000, .i32⟩
  | 10 => ⟨S1x128, .f32⟩
  | 11 => ⟨S100000x128, .f32⟩
  | 12 => ⟨S_, .i32⟩
  | 13 => ⟨S1600000, .i32⟩
  | 14 => ⟨S1600000, .i1⟩
  | 15 => ⟨S_, .i32⟩
  | 16 => ⟨S1600000, .i32⟩
  | 17 => ⟨S1600000, .i32⟩
  | 18 => ⟨S1600000, .i32⟩
  | 19 => ⟨S1600000x1, .i32⟩
  | 20 => ⟨S1600000x128, .f32⟩
  | 21 => ⟨S_, .f32⟩
  | 22 => ⟨S100000x128, .f32⟩
  | 23 => ⟨S1600000x1, .i32⟩
  | 24 => ⟨S100000x128, .f32⟩
  | 25 => ⟨S1x128x128, .f32⟩
  | 26 => ⟨S128x128, .f32⟩
  | 27 => ⟨S100000x128, .f32⟩
  | 28 => ⟨S_, .f32⟩
  | 29 => ⟨S128, .f32⟩
  | 30 => ⟨S_, .f32⟩
  | 31 => ⟨S128, .f32⟩
  | 32 => ⟨S128, .f32⟩
  | 33 => ⟨S_, .i32⟩
  | 34 => ⟨S_, .f32⟩
  | 35 => ⟨S128, .f32⟩
  | 36 => ⟨S1x128, .f32⟩
  | 37 => ⟨S_, .f32⟩
  | 38 => ⟨S1x128, .f32⟩
  | 39 => ⟨S1x128, .f32⟩
  | 40 => ⟨S100000x128, .f32⟩
  | 41 => ⟨S100000x128, .f32⟩
  | 42 => ⟨S100000x128, .f32⟩
  | 43 => ⟨S_, .f32⟩
  | 44 => ⟨S_, .f32⟩
  | 45 => ⟨S_, .f32⟩
  | 46 => ⟨S_, .f32⟩
  | 47 => ⟨S128, .f32⟩
  | 48 => ⟨S128, .f32⟩
  | 49 => ⟨S128, .f32⟩
  | 50 => ⟨S_, .f32⟩
  | 51 => ⟨S_, .i1⟩
  | 52 => ⟨S_, .f32⟩
  | 53 => ⟨S_, .f32⟩
  | 54 => ⟨S128, .f32⟩
  | 55 => ⟨S128, .f32⟩
  | 56 => ⟨S_, .f32⟩
  | 57 => ⟨S128, .f32⟩
  | 58 => ⟨S128, .f32⟩
  | 59 => ⟨S128, .f32⟩
  | 60 => ⟨S1x128, .f32⟩
  | 61 => ⟨S128, .f32⟩
  | 62 => ⟨S1x128, .f32⟩
  | 63 => ⟨S128, .f32⟩
  | 64 => ⟨S1x128, .f32⟩
  | 65 => ⟨S1x128, .f32⟩
  | 66 => ⟨S1x128, .f32⟩
  | 67 => ⟨S1x128, .f32⟩
  | 68 => ⟨S100000x128, .f32⟩
  | 69 => ⟨S_, .i32⟩
  | 70 => ⟨S1600000, .i32⟩
  | 71 => ⟨S1600000, .i1⟩
  | 72 => ⟨S_, .i32⟩
  | 73 => ⟨S1600000, .i32⟩
  | 74 => ⟨S1600000, .i32⟩
  | 75 => ⟨S1600000, .i32⟩
  | 76 => ⟨S1600000x1, .i32⟩
  | 77 => ⟨S1600000x128, .f32⟩
  | 78 => ⟨S_, .f32⟩
  | 79 => ⟨S100000x128, .f32⟩
  | 80 => ⟨S1600000x1, .i32⟩
  | 81 => ⟨S100000x128, .f32⟩
  | 82 => ⟨S1x128x128, .f32⟩
  | 83 => ⟨S128x128, .f32⟩
  | 84 => ⟨S100000x128, .f32⟩
  | 85 => ⟨S_, .f32⟩
  | 86 => ⟨S128, .f32⟩
  | 87 => ⟨S_, .f32⟩
  | 88 => ⟨S128, .f32⟩
  | 89 => ⟨S128, .f32⟩
  | 90 => ⟨S_, .i32⟩
  | 91 => ⟨S_, .f32⟩
  | 92 => ⟨S128, .f32⟩
  | 93 => ⟨S1x128, .f32⟩
  | 94 => ⟨S_, .f32⟩
  | 95 => ⟨S1x128, .f32⟩
  | 96 => ⟨S1x128, .f32⟩
  | 97 => ⟨S100000x128, .f32⟩
  | 98 => ⟨S100000x128, .f32⟩
  | 99 => ⟨S100000x128, .f32⟩
  | 100 => ⟨S_, .f32⟩
  | 101 => ⟨S_, .f32⟩
  | 102 => ⟨S_, .f32⟩
  | 103 => ⟨S_, .f32⟩
  | 104 => ⟨S128, .f32⟩
  | 105 => ⟨S128, .f32⟩
  | 106 => ⟨S128, .f32⟩
  | 107 => ⟨S_, .f32⟩
  | 108 => ⟨S_, .i1⟩
  | 109 => ⟨S_, .f32⟩
  | 110 => ⟨S_, .f32⟩
  | 111 => ⟨S128, .f32⟩
  | 112 => ⟨S128, .f32⟩
  | 113 => ⟨S_, .f32⟩
  | 114 => ⟨S128, .f32⟩
  | 115 => ⟨S128, .f32⟩
  | 116 => ⟨S128, .f32⟩
  | 117 => ⟨S1x128, .f32⟩
  | 118 => ⟨S128, .f32⟩
  | 119 => ⟨S1x128, .f32⟩
  | 120 => ⟨S128, .f32⟩
  | 121 => ⟨S1x128, .f32⟩
  | 122 => ⟨S1x128, .f32⟩
  | 123 => ⟨S1x128, .f32⟩
  | 124 => ⟨S1x128, .f32⟩
  | 125 => ⟨S100000x128, .f32⟩
  | 126 => ⟨S_, .i32⟩
  | 127 => ⟨S1600000, .i32⟩
  | _ => ⟨S100000x128, .f32⟩

abbrev hbmTy0_1 (i : Nat) : BufTy := match i % 128 with
  | 0 => ⟨S1600000, .i1⟩
  | 1 => ⟨S_, .i32⟩
  | 2 => ⟨S1600000, .i32⟩
  | 3 => ⟨S1600000, .i32⟩
  | 4 => ⟨S1600000, .i32⟩
  | 5 => ⟨S1600000x1, .i32⟩
  | 6 => ⟨S1600000x128, .f32⟩
  | 7 => ⟨S_, .f32⟩
  | 8 => ⟨S100000x128, .f32⟩
  | 9 => ⟨S1600000x1, .i32⟩
  | 10 => ⟨S100000x128, .f32⟩
  | 11 => ⟨S1x128x128, .f32⟩
  | 12 => ⟨S128x128, .f32⟩
  | 13 => ⟨S100000x128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S_, .f32⟩
  | 43 => ⟨S128, .f32⟩
  | 44 => ⟨S128, .f32⟩
  | 45 => ⟨S128, .f32⟩
  | 46 => ⟨S1x128, .f32⟩
  | 47 => ⟨S128, .f32⟩
  | 48 => ⟨S1x128, .f32⟩
  | 49 => ⟨S128, .f32⟩
  | 50 => ⟨S1x128, .f32⟩
  | 51 => ⟨S1x128, .f32⟩
  | 52 => ⟨S1x128, .f32⟩
  | 53 => ⟨S1x128, .f32⟩
  | 54 => ⟨S100000x128, .f32⟩
  | 55 => ⟨S_, .i32⟩
  | 56 => ⟨S1600000, .i32⟩
  | 57 => ⟨S1600000, .i1⟩
  | 58 => ⟨S_, .i32⟩
  | 59 => ⟨S1600000, .i32⟩
  | 60 => ⟨S1600000, .i32⟩
  | 61 => ⟨S1600000, .i32⟩
  | 62 => ⟨S1600000x1, .i32⟩
  | 63 => ⟨S1600000x128, .f32⟩
  | 64 => ⟨S_, .f32⟩
  | 65 => ⟨S100000x128, .f32⟩
  | 66 => ⟨S1600000x1, .i32⟩
  | 67 => ⟨S100000x128, .f32⟩
  | 68 => ⟨S1x128x128, .f32⟩
  | 69 => ⟨S128x128, .f32⟩
  | 70 => ⟨S100000x128, .f32⟩
  | 71 => ⟨S100000x512, .f32⟩
  | 72 => ⟨S1x128, .f32⟩
  | 73 => ⟨S100000x128, .f32⟩
  | 74 => ⟨S_, .i32⟩
  | 75 => ⟨S1600000, .i32⟩
  | 76 => ⟨S1600000, .i1⟩
  | 77 => ⟨S_, .i32⟩
  | 78 => ⟨S1600000, .i32⟩
  | 79 => ⟨S1600000, .i32⟩
  | 80 => ⟨S1600000, .i32⟩
  | 81 => ⟨S1600000x1, .i32⟩
  | 82 => ⟨S1600000x128, .f32⟩
  | 83 => ⟨S_, .f32⟩
  | 84 => ⟨S100000x128, .f32⟩
  | 85 => ⟨S1600000x1, .i32⟩
  | 86 => ⟨S100000x128, .f32⟩
  | 87 => ⟨S1x128x128, .f32⟩
  | 88 => ⟨S128x128, .f32⟩
  | 89 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S128x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S1x128, .f32⟩
  | .local _ .vmem, ⟨31, _⟩ => ⟨S1x128, .f32⟩
  | .local _ .vmem, ⟨32, _⟩ => ⟨S1x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S5000x128, .f32⟩
  | .local _ .vmem, ⟨39, _⟩ => ⟨S5000x128, .f32⟩
  | .local _ .vmem, ⟨40, _⟩ => ⟨S128x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S5000x128, .f32⟩
  | .local _ .vmem, ⟨55, _⟩ => ⟨S128x128, .f32⟩
  | .local _ .vmem, ⟨56, _⟩ => ⟨S5000x128, .f32⟩
  | .local _ .vmem, ⟨57, _⟩ => ⟨S5000x128, .f32⟩
  | .local _ .vmem, ⟨58, _⟩ => ⟨S5000x512, .f32⟩
  | .local _ .vmem, ⟨59, _⟩ => ⟨S5000x512, .f32⟩
  | .local _ .vmem, ⟨60, _⟩ => ⟨S512x128, .f32⟩
  | .local _ .vmem, ⟨61, _⟩ => ⟨S1x128, .f32⟩
  | .local _ .vmem, ⟨62, _⟩ => ⟨S5000x128, .f32⟩
  | .local _ .vmem, ⟨63, _⟩ => ⟨S5000x128, .f32⟩
  | .local _ .vmem, ⟨64, _⟩ => ⟨S5000x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S128x128, .f32⟩
  | .local _ .vmem, ⟨69, _⟩ => ⟨S5000x128, .f32⟩
  | .local _ .vmem, ⟨70, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | _, _ => false

abbrev semScoped : Fin 0 → Bool
  | ⟨_, h⟩ => absurd h (Nat.not_lt_zero _)

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  ofTc nBuf bufTy 0 71 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_v3 : Ref sig .tc := ⟨.hbm, 14, rfl⟩
abbrev main_c_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_cst_1 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_c_3 : Ref sig .tc := ⟨.hbm, 33, rfl⟩
abbrev main_call0_cst : Ref sig .tc := ⟨.hbm, 34, rfl⟩
abbrev main_call0_v0 : Ref sig .tc := ⟨.hbm, 35, rfl⟩
abbrev main_call0_v1 : Ref sig .tc := ⟨.hbm, 36, rfl⟩
abbrev main_call0_cst_0 : Ref sig .tc := ⟨.hbm, 37, rfl⟩
abbrev main_call0_v2 : Ref sig .tc := ⟨.hbm, 38, rfl⟩
abbrev main_call0_v3 : Ref sig .tc := ⟨.hbm, 39, rfl⟩
abbrev main_call0_v4 : Ref sig .tc := ⟨.hbm, 40, rfl⟩
abbrev main_call0_v5 : Ref sig .tc := ⟨.hbm, 41, rfl⟩
abbrev main_call0_v6 : Ref sig .tc := ⟨.hbm, 42, rfl⟩
abbrev main_call0_v7 : Ref sig .tc := ⟨.hbm, 43, rfl⟩
abbrev main_call0_cst_1 : Ref sig .tc := ⟨.hbm, 44, rfl⟩
abbrev main_call0_v8 : Ref sig .tc := ⟨.hbm, 45, rfl⟩
abbrev main_call0_cst_2 : Ref sig .tc := ⟨.hbm, 46, rfl⟩
abbrev main_call0_v9 : Ref sig .tc := ⟨.hbm, 47, rfl⟩
abbrev main_call0_v10 : Ref sig .tc := ⟨.hbm, 48, rfl⟩
abbrev main_call0_v11 : Ref sig .tc := ⟨.hbm, 49, rfl⟩
abbrev main_call0_cst_3 : Ref sig .tc := ⟨.hbm, 50, rfl⟩
abbrev main_call0_v12 : Ref sig .tc := ⟨.hbm, 51, rfl⟩
abbrev main_call0_cst_4 : Ref sig .tc := ⟨.hbm, 52, rfl⟩
abbrev main_call0_call0_v0 : Ref sig .tc := ⟨.hbm, 53, rfl⟩
abbrev main_call0_call0_v1 : Ref sig .tc := ⟨.hbm, 54, rfl⟩
abbrev main_v18 : Ref sig .tc := ⟨.hbm, 55, rfl⟩
abbrev main_cst_4 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_c_5 : Ref sig .tc := ⟨.hbm, 69, rfl⟩
abbrev main_v31 : Ref sig .tc := ⟨.hbm, 70, rfl⟩
abbrev main_v32 : Ref sig .tc := ⟨.hbm, 71, rfl⟩
abbrev main_c_6 : Ref sig .tc := ⟨.hbm, 72, rfl⟩
abbrev main_v33 : Ref sig .tc := ⟨.hbm, 73, rfl⟩
abbrev main_v34 : Ref sig .tc := ⟨.hbm, 74, rfl⟩
abbrev main_v35 : Ref sig .tc := ⟨.hbm, 75, rfl⟩
abbrev main_v36 : Ref sig .tc := ⟨.hbm, 76, rfl⟩
abbrev main_v37 : Ref sig .tc := ⟨.hbm, 77, rfl⟩
abbrev main_cst_7 : Ref sig .tc := ⟨.hbm, 78, rfl⟩
abbrev main_v38 : Ref sig .tc := ⟨.hbm, 79, rfl⟩
abbrev main_v39 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_cst_8 : Ref sig .tc := ⟨.hbm, 85, rfl⟩
abbrev main_v44 : Ref sig .tc := ⟨.hbm, 86, rfl⟩
abbrev main_cst_9 : Ref sig .tc := ⟨.hbm, 87, rfl⟩
abbrev main_v45 : Ref sig .tc := ⟨.hbm, 88, rfl⟩
abbrev main_v46 : Ref sig .tc := ⟨.hbm, 89, rfl⟩
abbrev main_c_10 : Ref sig .tc := ⟨.hbm, 90, rfl⟩
abbrev main_call1_cst : Ref sig .tc := ⟨.hbm, 91, rfl⟩
abbrev main_call1_v0 : Ref sig .tc := ⟨.hbm, 92, rfl⟩
abbrev main_call1_v1 : Ref sig .tc := ⟨.hbm, 93, rfl⟩
abbrev main_call1_cst_0 : Ref sig .tc := ⟨.hbm, 94, rfl⟩
abbrev main_call1_v2 : Ref sig .tc := ⟨.hbm, 95, rfl⟩
abbrev main_call1_v3 : Ref sig .tc := ⟨.hbm, 96, rfl⟩
abbrev main_call1_v4 : Ref sig .tc := ⟨.hbm, 97, rfl⟩
abbrev main_call1_v5 : Ref sig .tc := ⟨.hbm, 98, rfl⟩
abbrev main_call1_v6 : Ref sig .tc := ⟨.hbm, 99, rfl⟩
abbrev main_call1_v7 : Ref sig .tc := ⟨.hbm, 100, rfl⟩
abbrev main_call1_cst_1 : Ref sig .tc := ⟨.hbm, 101, rfl⟩
abbrev main_call1_v8 : Ref sig .tc := ⟨.hbm, 102, rfl⟩
abbrev main_call1_cst_2 : Ref sig .tc := ⟨.hbm, 103, rfl⟩
abbrev main_call1_v9 : Ref sig .tc := ⟨.hbm, 104, rfl⟩
abbrev main_call1_v10 : Ref sig .tc := ⟨.hbm, 105, rfl⟩
abbrev main_call1_v11 : Ref sig .tc := ⟨.hbm, 106, rfl⟩
abbrev main_call1_cst_3 : Ref sig .tc := ⟨.hbm, 107, rfl⟩
abbrev main_call1_v12 : Ref sig .tc := ⟨.hbm, 108, rfl⟩
abbrev main_call1_cst_4 : Ref sig .tc := ⟨.hbm, 109, rfl⟩
abbrev main_call1_call0_v0 : Ref sig .tc := ⟨.hbm, 110, rfl⟩
abbrev main_call1_call0_v1 : Ref sig .tc := ⟨.hbm, 111, rfl⟩
abbrev main_v47 : Ref sig .tc := ⟨.hbm, 112, rfl⟩
abbrev main_cst_11 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_v53 : Ref sig .tc := ⟨.hbm, 119, rfl⟩
abbrev main_v54 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_v58 : Ref sig .tc := ⟨.hbm, 124, rfl⟩
abbrev main_v59 : Ref sig .tc := ⟨.hbm, 125, rfl⟩
abbrev main_c_12 : Ref sig .tc := ⟨.hbm, 126, rfl⟩
abbrev main_v60 : Ref sig .tc := ⟨.hbm, 127, rfl⟩
abbrev main_v61 : Ref sig .tc := ⟨.hbm, 128, rfl⟩
abbrev main_c_13 : Ref sig .tc := ⟨.hbm, 129, rfl⟩
abbrev main_v62 : Ref sig .tc := ⟨.hbm, 130, rfl⟩
abbrev main_v63 : Ref sig .tc := ⟨.hbm, 131, rfl⟩
abbrev main_v64 : Ref sig .tc := ⟨.hbm, 132, rfl⟩
abbrev main_v65 : Ref sig .tc := ⟨.hbm, 133, rfl⟩
abbrev main_v66 : Ref sig .tc := ⟨.hbm, 134, rfl⟩
abbrev main_cst_14 : Ref sig .tc := ⟨.hbm, 135, rfl⟩
abbrev main_v67 : Ref sig .tc := ⟨.hbm, 136, rfl⟩
abbrev main_v68 : Ref sig .tc := ⟨.hbm, 137, rfl⟩
abbrev main_v69 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_cst_15 : Ref sig .tc := ⟨.hbm, 142, rfl⟩
abbrev main_v73 : Ref sig .tc := ⟨.hbm, 143, rfl⟩
abbrev main_cst_16 : Ref sig .tc := ⟨.hbm, 144, rfl⟩
abbrev main_v74 : Ref sig .tc := ⟨.hbm, 145, rfl⟩
abbrev main_v75 : Ref sig .tc := ⟨.hbm, 146, rfl⟩
abbrev main_c_17 : Ref sig .tc := ⟨.hbm, 147, rfl⟩
abbrev main_call2_cst : Ref sig .tc := ⟨.hbm, 148, rfl⟩
abbrev main_call2_v0 : Ref sig .tc := ⟨.hbm, 149, rfl⟩
abbrev main_call2_v1 : Ref sig .tc := ⟨.hbm, 150, rfl⟩
abbrev main_call2_cst_0 : Ref sig .tc := ⟨.hbm, 151, rfl⟩
abbrev main_call2_v2 : Ref sig .tc := ⟨.hbm, 152, rfl⟩
abbrev main_call2_v3 : Ref sig .tc := ⟨.hbm, 153, rfl⟩
abbrev main_call2_v4 : Ref sig .tc := ⟨.hbm, 154, rfl⟩
abbrev main_call2_v5 : Ref sig .tc := ⟨.hbm, 155, rfl⟩
abbrev main_call2_v6 : Ref sig .tc := ⟨.hbm, 156, rfl⟩
abbrev main_call2_v7 : Ref sig .tc := ⟨.hbm, 157, rfl⟩
abbrev main_call2_cst_1 : Ref sig .tc := ⟨.hbm, 158, rfl⟩
abbrev main_call2_v8 : Ref sig .tc := ⟨.hbm, 159, rfl⟩
abbrev main_call2_cst_2 : Ref sig .tc := ⟨.hbm, 160, rfl⟩
abbrev main_call2_v9 : Ref sig .tc := ⟨.hbm, 161, rfl⟩
abbrev main_call2_v10 : Ref sig .tc := ⟨.hbm, 162, rfl⟩
abbrev main_call2_v11 : Ref sig .tc := ⟨.hbm, 163, rfl⟩
abbrev main_call2_cst_3 : Ref sig .tc := ⟨.hbm, 164, rfl⟩
abbrev main_call2_v12 : Ref sig .tc := ⟨.hbm, 165, rfl⟩
abbrev main_call2_cst_4 : Ref sig .tc := ⟨.hbm, 166, rfl⟩
abbrev main_call2_call0_v0 : Ref sig .tc := ⟨.hbm, 167, rfl⟩
abbrev main_call2_call0_v1 : Ref sig .tc := ⟨.hbm, 168, rfl⟩
abbrev main_v76 : Ref sig .tc := ⟨.hbm, 169, rfl⟩
abbrev main_cst_18 : Ref sig .tc := ⟨.hbm, 170, rfl⟩
abbrev main_v77 : Ref sig .tc := ⟨.hbm, 171, rfl⟩
abbrev main_v78 : Ref sig .tc := ⟨.hbm, 172, rfl⟩
abbrev main_v79 : Ref sig .tc := ⟨.hbm, 173, rfl⟩
abbrev main_v80 : Ref sig .tc := ⟨.hbm, 174, rfl⟩
abbrev main_v81 : Ref sig .tc := ⟨.hbm, 175, rfl⟩
abbrev main_v82 : Ref sig .tc := ⟨.hbm, 176, rfl⟩
abbrev main_v83 : Ref sig .tc := ⟨.hbm, 177, rfl⟩
abbrev main_v84 : Ref sig .tc := ⟨.hbm, 178, rfl⟩
abbrev main_v85 : Ref sig .tc := ⟨.hbm, 179, rfl⟩
abbrev main_v86 : Ref sig .tc := ⟨.hbm, 180, rfl⟩
abbrev main_v87 : Ref sig .tc := ⟨.hbm, 181, rfl⟩
abbrev main_v88 : Ref sig .tc := ⟨.hbm, 182, rfl⟩
abbrev main_c_19 : Ref sig .tc := ⟨.hbm, 183, rfl⟩
abbrev main_v89 : Ref sig .tc := ⟨.hbm, 184, rfl⟩
abbrev main_v90 : Ref sig .tc := ⟨.hbm, 185, rfl⟩
abbrev main_c_20 : Ref sig .tc := ⟨.hbm, 186, rfl⟩
abbrev main_v91 : Ref sig .tc := ⟨.hbm, 187, rfl⟩
abbrev main_v92 : Ref sig .tc := ⟨.hbm, 188, rfl⟩
abbrev main_v93 : Ref sig .tc := ⟨.hbm, 189, rfl⟩
abbrev main_v94 : Ref sig .tc := ⟨.hbm, 190, rfl⟩
abbrev main_v95 : Ref sig .tc := ⟨.hbm, 191, rfl⟩
abbrev main_cst_21 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_v99 : Ref sig .tc := ⟨.hbm, 196, rfl⟩
abbrev main_v100 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_v104 : Ref sig .tc := ⟨.hbm, 201, rfl⟩
abbrev main_c_22 : Ref sig .tc := ⟨.hbm, 202, rfl⟩
abbrev main_v105 : Ref sig .tc := ⟨.hbm, 203, rfl⟩
abbrev main_v106 : Ref sig .tc := ⟨.hbm, 204, rfl⟩
abbrev main_c_23 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_v110 : Ref sig .tc := ⟨.hbm, 209, rfl⟩
abbrev main_v111 : Ref sig .tc := ⟨.hbm, 210, rfl⟩
abbrev main_cst_24 : Ref sig .tc := ⟨.hbm, 211, rfl⟩
abbrev main_v112 : Ref sig .tc := ⟨.hbm, 212, rfl⟩
abbrev main_v113 : Ref sig .tc := ⟨.hbm, 213, rfl⟩
abbrev main_v114 : Ref sig .tc := ⟨.hbm, 214, rfl⟩
abbrev main_v115 : Ref sig .tc := ⟨.hbm, 215, rfl⟩
abbrev main_v116 : Ref sig .tc := ⟨.hbm, 216, rfl⟩
abbrev main_v117 : Ref sig .tc := ⟨.hbm, 217, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg5_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg4_0 : Ref sig .tc := ⟨.vmem, 33, rfl⟩
abbrev cc4_stg5_0 : Ref sig .tc := ⟨.vmem, 34, rfl⟩
abbrev cc4_stg5_1 : Ref sig .tc := ⟨.vmem, 35, rfl⟩
abbrev cc5_stg0_0 : Ref sig .tc := ⟨.vmem, 36, rfl⟩
abbrev cc5_stg0_1 : Ref sig .tc := ⟨.vmem, 37, rfl⟩
abbrev cc5_stg1_0 : Ref sig .tc := ⟨.vmem, 38, rfl⟩
abbrev cc5_stg1_1 : Ref sig .tc := ⟨.vmem, 39, rfl⟩
abbrev cc5_stg2_0 : Ref sig .tc := ⟨.vmem, 40, rfl⟩
abbrev cc5_stg3_0 : Ref sig .tc := ⟨.vmem, 41, rfl⟩
abbrev cc5_stg3_1 : Ref sig .tc := ⟨.vmem, 42, rfl⟩
abbrev cc6_stg0_0 : Ref sig .tc := ⟨.vmem, 43, rfl⟩
abbrev cc6_stg0_1 : Ref sig .tc := ⟨.vmem, 44, rfl⟩
abbrev cc6_stg1_0 : Ref sig .tc := ⟨.vmem, 45, rfl⟩
abbrev cc6_stg2_0 : Ref sig .tc := ⟨.vmem, 46, rfl⟩
abbrev cc6_stg3_0 : Ref sig .tc := ⟨.vmem, 47, rfl⟩
abbrev cc6_stg4_0 : Ref sig .tc := ⟨.vmem, 48, rfl⟩
abbrev cc6_stg5_0 : Ref sig .tc := ⟨.vmem, 49, rfl⟩
abbrev cc6_stg5_1 : Ref sig .tc := ⟨.vmem, 50, rfl⟩
abbrev cc7_stg0_0 : Ref sig .tc := ⟨.vmem, 51, rfl⟩
abbrev cc7_stg0_1 : Ref sig .tc := ⟨.vmem, 52, rfl⟩
abbrev cc7_stg1_0 : Ref sig .tc := ⟨.vmem, 53, rfl⟩
abbrev cc7_stg1_1 : Ref sig .tc := ⟨.vmem, 54, rfl⟩
abbrev cc7_stg2_0 : Ref sig .tc := ⟨.vmem, 55, rfl⟩
abbrev cc7_stg3_0 : Ref sig .tc := ⟨.vmem, 56, rfl⟩
abbrev cc7_stg3_1 : Ref sig .tc := ⟨.vmem, 57, rfl⟩
abbrev cc8_stg0_0 : Ref sig .tc := ⟨.vmem, 58, rfl⟩
abbrev cc8_stg0_1 : Ref sig .tc := ⟨.vmem, 59, rfl⟩
abbrev cc8_stg1_0 : Ref sig .tc := ⟨.vmem, 60, rfl⟩
abbrev cc8_stg2_0 : Ref sig .tc := ⟨.vmem, 61, rfl⟩
abbrev cc8_stg3_0 : Ref sig .tc := ⟨.vmem, 62, rfl⟩
abbrev cc8_stg3_1 : Ref sig .tc := ⟨.vmem, 63, rfl⟩
abbrev cc9_stg0_0 : Ref sig .tc := ⟨.vmem, 64, rfl⟩
abbrev cc9_stg0_1 : Ref sig .tc := ⟨.vmem, 65, rfl⟩
abbrev cc9_stg1_0 : Ref sig .tc := ⟨.vmem, 66, rfl⟩
abbrev cc9_stg1_1 : Ref sig .tc := ⟨.vmem, 67, rfl⟩
abbrev cc9_stg2_0 : Ref sig .tc := ⟨.vmem, 68, rfl⟩
abbrev cc9_stg3_0 : Ref sig .tc := ⟨.vmem, 69, rfl⟩
abbrev cc9_stg3_1 : Ref sig .tc := ⟨.vmem, 70, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem5_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem4_0 : DmaSem sig := 33
abbrev cc4_sem5_0 : DmaSem sig := 34
abbrev cc4_sem5_1 : DmaSem sig := 35
abbrev cc5_sem0_0 : DmaSem sig := 36
abbrev cc5_sem0_1 : DmaSem sig := 37
abbrev cc5_sem1_0 : DmaSem sig := 38
abbrev cc5_sem1_1 : DmaSem sig := 39
abbrev cc5_sem2_0 : DmaSem sig := 40
abbrev cc5_sem3_0 : DmaSem sig := 41
abbrev cc5_sem3_1 : DmaSem sig := 42
abbrev cc6_sem0_0 : DmaSem sig := 43
abbrev cc6_sem0_1 : DmaSem sig := 44
abbrev cc6_sem1_0 : DmaSem sig := 45
abbrev cc6_sem2_0 : DmaSem sig := 46
abbrev cc6_sem3_0 : DmaSem sig := 47
abbrev cc6_sem4_0 : DmaSem sig := 48
abbrev cc6_sem5_0 : DmaSem sig := 49
abbrev cc6_sem5_1 : DmaSem sig := 50
abbrev cc7_sem0_0 : DmaSem sig := 51
abbrev cc7_sem0_1 : DmaSem sig := 52
abbrev cc7_sem1_0 : DmaSem sig := 53
abbrev cc7_sem1_1 : DmaSem sig := 54
abbrev cc7_sem2_0 : DmaSem sig := 55
abbrev cc7_sem3_0 : DmaSem sig := 56
abbrev cc7_sem3_1 : DmaSem sig := 57
abbrev cc8_sem0_0 : DmaSem sig := 58
abbrev cc8_sem0_1 : DmaSem sig := 59
abbrev cc8_sem1_0 : DmaSem sig := 60
abbrev cc8_sem2_0 : DmaSem sig := 61
abbrev cc8_sem3_0 : DmaSem sig := 62
abbrev cc8_sem3_1 : DmaSem sig := 63
abbrev cc9_sem0_0 : DmaSem sig := 64
abbrev cc9_sem0_1 : DmaSem sig := 65
abbrev cc9_sem1_0 : DmaSem sig := 66
abbrev cc9_sem1_1 : DmaSem sig := 67
abbrev cc9_sem2_0 : DmaSem sig := 68
abbrev cc9_sem3_0 : DmaSem sig := 69
abbrev cc9_sem3_1 : DmaSem sig := 70

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S128x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S128x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S5000x128 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S5000x128 .f32 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 1 → Memref sig .tc .vmem S128x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S5000x512 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S512x128 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 2 → Memref sig .tc .vmem S5000x128 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 2 → Memref sig .tc .vmem S5000x128 .f32 := fun | 0 => Memref.whole cc9_stg1_0 | 1 => Memref.whole cc9_stg1_1 | ⟨_ + 2, h⟩ => absurd h (Nat.not_lt.2 (Nat.le_add_left _ _))
abbrev sem9_1 : Fin 2 → DmaSem sig := fun | 0 => cc9_sem1_0 | 1 => cc9_sem1_1 | ⟨_ + 2, h⟩ => absurd h (Nat.not_lt.2 (Nat.le_add_left _ _))
abbrev reads9_1 : Fin grid9.rank → Bool := ![true]

abbrev stage9_2 : Fin 1 → Memref sig .tc .vmem S128x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S5000x128 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

class Facts₀ : Prop where
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  shapeCasts_S5000x128_S5000x128 : S5000x128.ShapeCasts S5000x128
  shapeCasts_S128x128_S128x128 : S128x128.ShapeCasts S128x128
  reducesTo_S100000x128_S128_d0 : S100000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S100000x128_0_1 : S1x128.BroadcastsInDim S100000x128 (![0, 1] : Fin 2 → Fin S100000x128.rank)
  slices_S4x128_S1x128_0_0 : S4x128.Slices ![0, 0] S1x128
  shapeCasts_S1x128_S128 : S1x128.ShapeCasts S128
  slices_S5x128x128_S1x128x128_1_0_0 : S5x128x128.Slices ![1, 0, 0] S1x128x128
  slices_S4x128_S1x128_1_0 : S4x128.Slices ![1, 0] S1x128
  slices_S5x128x128_S1x128x128_2_0_0 : S5x128x128.Slices ![2, 0, 0] S1x128x128
  slices_S4x128_S1x128_2_0 : S4x128.Slices ![2, 0] S1x128
  slices_S5x128x128_S1x128x128_3_0_0 : S5x128x128.Slices ![3, 0, 0] S1x128x128
  concatenates_S100000x128_S100000x128_S100000x128_S100000x128_S100000x512_d1 : Shape.Concatenates [S100000x128, S100000x128, S100000x128, S100000x128] S100000x512 1
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  slices_S5x128x128_S1x128x128_4_0_0 : S5x128x128.Slices ![4, 0, 0] S1x128x128
  dot_S5000x128_S128x128_S5000x128_1_0_0_1_n_n_wf : DotDims.WF S5000x128 S128x128 S5000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x512_S512x128_S5000x128_1_0_0_1_n_n_wf : DotDims.WF S5000x512 S512x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S100000x128.size a
  hwx0_3 : ∀ i : grid0.Coords, EltTy.bits .f32 = 32 ∨ (Rect.block (s := S100000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x128.size a ≤ S100000x128.size a
  hwx1_3 : ∀ i : grid1.Coords, EltTy.bits .f32 = 32 ∨ (Rect.block (s := S100000x128) S5000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S100000x128.size a
  hwx3_1 : ∀ i : grid3.Coords, EltTy.bits .f32 = 32 ∨ (Rect.block (s := S100000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S128x128.size a ≤ S128x128.size a
  hwx3_2 : ∀ i : grid3.Coords, EltTy.bits .f32 = 32 ∨ (Rect.block (s := S128x128) S128x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S100000x128.size a
  hwx5_1 : ∀ i : grid5.Coords, EltTy.bits .f32 = 32 ∨ (Rect.block (s := S100000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S128x128.size a ≤ S128x128.size a
  hwx5_2 : ∀ i : grid5.Coords, EltTy.bits .f32 = 32 ∨ (Rect.block (s := S128x128) S128x128.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x128.size a ≤ S100000x128.size a
  hwx5_3 : ∀ i : grid5.Coords, EltTy.bits .f32 = 32 ∨ (Rect.block (s := S100000x128) S5000x128.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S100000x128.size a
  hwx6_5 : ∀ i : grid6.Coords, EltTy.bits .f32 = 32 ∨ (Rect.block (s := S100000x128) S5000x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S5000x128.size a ≤ S100000x128.size a
  hwx7_1 : ∀ i : grid7.Coords, EltTy.bits .f32 = 32 ∨ (Rect.block (s := S100000x128) S5000x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S128x128.size a ≤ S128x128.size a
  hwx7_2 : ∀ i : grid7.Coords, EltTy.bits .f32 = 32 ∨ (Rect.block (s := S128x128) S128x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x512.size a ≤ S100000x512.size a
  hwx8_0 : ∀ i : grid8.Coords, EltTy.bits .f32 = 32 ∨ (Rect.block (s := S100000x512) S5000x512.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x128.size a ≤ S512x128.size a
  hwx8_1 : ∀ i : grid8.Coords, EltTy.bits .f32 = 32 ∨ (Rect.block (s := S512x128) S512x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x128.size a ≤ S1x128.size a
  hwx8_2 : ∀ i : grid8.Coords, EltTy.bits .f32 = 32 ∨ (Rect.block (s := S1x128) S1x128.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S5000x128.size a ≤ S100000x128.size a
  hwx8_3 : ∀ i : grid8.Coords, EltTy.bits .f32 = 32 ∨ (Rect.block (s := S100000x128) S5000x128.size (cc8_transform_3 i) (hinb8_3 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 false = 2
  hreads9_1 : ∀ i i' : grid9.Coords, (∀ a, reads9_1 a = true → i a = i' a) → cc9_transform_1 i = cc9_transform_1 i'
  hinb9_1 : ∀ (i : grid9.Coords) a, (cc9_transform_1 i a + 1) * S5000x128.size a ≤ S100000x128.size a
  hwx9_1 : ∀ i : grid9.Coords, EltTy.bits .f32 = 32 ∨ (Rect.block (s := S100000x128) S5000x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S128x128.size a ≤ S128x128.size a
  hwx9_2 : ∀ i : grid9.Coords, EltTy.bits .f32 = 32 ∨ (Rect.block (s := S128x128) S128x128.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S5000x128.size a ≤ S100000x128.size a
  hwx9_3 : ∀ i : grid9.Coords, EltTy.bits .f32 = 32 ∨ (Rect.block (s := S100000x128) S5000x128.size (cc9_transform_3 i) (hinb9_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v11) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S5000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v14) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v27) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v28) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v29) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v30) S5000x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v40) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S128x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v55) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v56) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v57) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v58) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v59) S5000x128.size cc4_transform_5 reads4_5 true false 2 stage4_5 sem4_5
    hrank4 hreads4_5 hinb4_5 nbuf4_5 (Memref.isWhole_whole _) hwx4_5 hstage4_5

abbrev win4 : Fin 6 → Pipeline.Window sig grid4 := fun | 0 => win4_0 | 1 => win4_1 | 2 => win4_2 | 3 => win4_3 | 4 => win4_4 | 5 => win4_5 | ⟨_ + 6, h⟩ => absurd h (Nat.not_lt.2 (Nat.le_add_left _ _))
abbrev spec4 : Fin 6 → Pipeline.WinSpec sig grid4.rank := fun w => (win4 w).toWinSpec

abbrev win5_0 : Pipeline.Window sig grid5 :=
  Pipeline.Window.ofSpec (Memref.whole main_v69) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v1) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v71) S128x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v72) S5000x128.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v72) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v84) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v85) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v86) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v87) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v88) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v98) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v1) S5000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v100) S128x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v101) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v102) S5000x512.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_arg6) S512x128.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v103) S1x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v104) S5000x128.size cc8_transform_3 reads8_3 true false 2 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v114) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v1) S5000x128.size cc9_transform_1 reads9_1 false false 2 stage9_1 sem9_1
    hrank9 hreads9_1 hinb9_1 nbuf9_1 (Memref.isWhole_whole _) hwx9_1 hstage9_1

abbrev win9_2 : Pipeline.Window sig grid9 :=
  Pipeline.Window.ofSpec (Memref.whole main_v116) S128x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v117) S5000x128.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S5x128x128 : Shape := ⟨3, ![5, 128, 128]⟩
abbrev S4x128 : Shape := ⟨2, ![4, 128]⟩
abbrev S512x128 : Shape := ⟨2, ![512, 128]⟩
abbrev S1600000 : Shape := ⟨1, ![1600000]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S100000x512 : Shape := ⟨2, ![100000, 512]⟩

abbrev nBuf : Space → Nat
  | .hbm => 322
  | .vmem => 0
  | .smem => 0
  | _ => 0

abbrev hbmTy0_0 (i : Nat) : BufTy := match i % 128 with
  | 0 => ⟨S100000x128, .f32⟩
  | 1 => ⟨S128x128, .f32⟩
  | 2 => ⟨S128, .f32⟩
  | 3 => ⟨S5x128x128, .f32⟩
  | 4 => ⟨S4x128, .f32⟩
  | 5 => ⟨S4x128, .f32⟩
  | 6 => ⟨S512x128, .f32⟩
  | 7 => ⟨S128, .f32⟩
  | 8 => ⟨S1600000, .i32⟩
  | 9 => ⟨S1600000, .i32⟩
  | 10 => ⟨S100000x128, .f32⟩
  | 11 => ⟨S1x128, .f32⟩
  | 12 => ⟨S100000x128, .f32⟩
  | 13 => ⟨S100000x128, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x128, .f32⟩
  | 23 => ⟨S_, .f32⟩
  | 24 => ⟨S100000x128, .f32⟩
  | 25 => ⟨S1600000x1, .i32⟩
  | 26 => ⟨S100000x128, .f32⟩
  | 27 => ⟨S_, .f32⟩
  | 28 => ⟨S100000x128, .f32⟩
  | 29 => ⟨S100000x128, .f32⟩
  | 30 => ⟨S_, .f32⟩
  | 31 => ⟨S100000x128, .f32⟩
  | 32 => ⟨S100000x128, .f32⟩
  | 33 => ⟨S100000x128, .f32⟩
  | 34 => ⟨S_, .f32⟩
  | 35 => ⟨S100000x128, .f32⟩
  | 36 => ⟨S100000x128, .f32⟩
  | 37 => ⟨S1x128x128, .f32⟩
  | 38 => ⟨S128x128, .f32⟩
  | 39 => ⟨S100000x128, .f32⟩
  | 40 => ⟨S_, .f32⟩
  | 41 => ⟨S100000x128, .f32⟩
  | 42 => ⟨S100000x128, .f32⟩
  | 43 => ⟨S100000x128, .f32⟩
  | 44 => ⟨S1x128, .f32⟩
  | 45 => ⟨S128, .f32⟩
  | 46 => ⟨S1x128, .f32⟩
  | 47 => ⟨S128, .f32⟩
  | 48 => ⟨S_, .f32⟩
  | 49 => ⟨S128, .f32⟩
  | 50 => ⟨S_, .f32⟩
  | 51 => ⟨S128, .f32⟩
  | 52 => ⟨S128, .f32⟩
  | 53 => ⟨S_, .i32⟩
  | 54 => ⟨S_, .f32⟩
  | 55 => ⟨S128, .f32⟩
  | 56 => ⟨S1x128, .f32⟩
  | 57 => ⟨S_, .f32⟩
  | 58 => ⟨S1x128, .f32⟩
  | 59 => ⟨S1x128, .f32⟩
  | 60 => ⟨S100000x128, .f32⟩
  | 61 => ⟨S100000x128, .f32⟩
  | 62 => ⟨S100000x128, .f32⟩
  | 63 => ⟨S_, .f32⟩
  | 64 => ⟨S_, .f32⟩
  | 65 => ⟨S_, .f32⟩
  | 66 => ⟨S_, .f32⟩
  | 67 => ⟨S128, .f32⟩
  | 68 => ⟨S128, .f32⟩
  | 69 => ⟨S128, .f32⟩
  | 70 => ⟨S_, .f32⟩
  | 71 => ⟨S_, .i1⟩
  | 72 => ⟨S_, .f32⟩
  | 73 => ⟨S_, .f32⟩
  | 74 => ⟨S128, .f32⟩
  | 75 => ⟨S128, .f32⟩
  | 76 => ⟨S1x128, .f32⟩
  | 77 => ⟨S100000x128, .f32⟩
  | 78 => ⟨S100000x128, .f32⟩
  | 79 => ⟨S_, .f32⟩
  | 80 => ⟨S128, .f32⟩
  | 81 => ⟨S128, .f32⟩
  | 82 => ⟨S128, .f32⟩
  | 83 => ⟨S1x128, .f32⟩
  | 84 => ⟨S100000x128, .f32⟩
  | 85 => ⟨S100000x128, .f32⟩
  | 86 => ⟨S1x128, .f32⟩
  | 87 => ⟨S100000x128, .f32⟩
  | 88 => ⟨S100000x128, .f32⟩
  | 89 => ⟨S1x128, .f32⟩
  | 90 => ⟨S100000x128, .f32⟩
  | 91 => ⟨S100000x128, .f32⟩
  | 92 => ⟨S_, .f32⟩
  | 93 => ⟨S100000x128, .f32⟩
  | 94 => ⟨S100000x128, .f32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x128, .f32⟩
  | 104 => ⟨S_, .f32⟩
  | 105 => ⟨S100000x128, .f32⟩
  | 106 => ⟨S1600000x1, .i32⟩
  | 107 => ⟨S100000x128, .f32⟩
  | 108 => ⟨S_, .f32⟩
  | 109 => ⟨S100000x128, .f32⟩
  | 110 => ⟨S100000x128, .f32⟩
  | 111 => ⟨S_, .f32⟩
  | 112 => ⟨S100000x128, .f32⟩
  | 113 => ⟨S100000x128, .f32⟩
  | 114 => ⟨S100000x128, .f32⟩
  | 115 => ⟨S_, .f32⟩
  | 116 => ⟨S100000x128, .f32⟩
  | 117 => ⟨S100000x128, .f32⟩
  | 118 => ⟨S1x128x128, .f32⟩
  | 119 => ⟨S128x128, .f32⟩
  | 120 => ⟨S100000x128, .f32⟩
  | 121 => ⟨S_, .f32⟩
  | 122 => ⟨S100000x128, .f32⟩
  | 123 => ⟨S100000x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S128, .f32⟩
  | 1 => ⟨S_, .f32⟩
  | 2 => ⟨S128, .f32⟩
  | 3 => ⟨S_, .f32⟩
  | 4 => ⟨S128, .f32⟩
  | 5 => ⟨S128, .f32⟩
  | 6 => ⟨S_, .i32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S100000x128, .f32⟩
  | 14 => ⟨S100000x128, .f32⟩
  | 15 => ⟨S100000x128, .f32⟩
  | 16 => ⟨S_, .f32⟩
  | 17 => ⟨S_, .f32⟩
  | 18 => ⟨S_, .f32⟩
  | 19 => ⟨S_, .f32⟩
  | 20 => ⟨S128, .f32⟩
  | 21 => ⟨S128, .f32⟩
  | 22 => ⟨S128, .f32⟩
  | 23 => ⟨S_, .f32⟩
  | 24 => ⟨S_, .i1⟩
  | 25 => ⟨S_, .f32⟩
  | 26 => ⟨S_, .f32⟩
  | 27 => ⟨S128, .f32⟩
  | 28 => ⟨S128, .f32⟩
  | 29 => ⟨S1x128, .f32⟩
  | 30 => ⟨S100000x128, .f32⟩
  | 31 => ⟨S100000x128, .f32⟩
  | 32 => ⟨S_, .f32⟩
  | 33 => ⟨S128, .f32⟩
  | 34 => ⟨S128, .f32⟩
  | 35 => ⟨S128, .f32⟩
  | 36 => ⟨S1x128, .f32⟩
  | 37 => ⟨S100000x128, .f32⟩
  | 38 => ⟨S100000x128, .f32⟩
  | 39 => ⟨S1x128, .f32⟩
  | 40 => ⟨S100000x128, .f32⟩
  | 41 => ⟨S100000x128, .f32⟩
  | 42 => ⟨S1x128, .f32⟩
  | 43 => ⟨S100000x128, .f32⟩
  | 44 => ⟨S100000x128, .f32⟩
  | 45 => ⟨S_, .f32⟩
  | 46 => ⟨S100000x128, .f32⟩
  | 47 => ⟨S100000x128, .f32⟩
  | 48 => ⟨S_, .i32⟩
  | 49 => ⟨S1600000, .i32⟩
  | 50 => ⟨S1600000, .i1⟩
  | 51 => ⟨S_, .i32⟩
  | 52 => ⟨S1600000, .i32⟩
  | 53 => ⟨S1600000, .i32⟩
  | 54 => ⟨S1600000, .i32⟩
  | 55 => ⟨S1600000x1, .i32⟩
  | 56 => ⟨S1600000x128, .f32⟩
  | 57 => ⟨S_, .f32⟩
  | 58 => ⟨S100000x128, .f32⟩
  | 59 => ⟨S1600000x1, .i32⟩
  | 60 => ⟨S100000x128, .f32⟩
  | 61 => ⟨S_, .f32⟩
  | 62 => ⟨S100000x128, .f32⟩
  | 63 => ⟨S100000x128, .f32⟩
  | 64 => ⟨S_, .f32⟩
  | 65 => ⟨S100000x128, .f32⟩
  | 66 => ⟨S100000x128, .f32⟩
  | 67 => ⟨S100000x128, .f32⟩
  | 68 => ⟨S_, .f32⟩
  | 69 => ⟨S100000x128, .f32⟩
  | 70 => ⟨S100000x128, .f32⟩
  | 71 => ⟨S1x128x128, .f32⟩
  | 72 => ⟨S128x128, .f32⟩
  | 73 => ⟨S100000x128, .f32⟩
  | 74 => ⟨S_, .f32⟩
  | 75 => ⟨S100000x128, .f32⟩
  | 76 => ⟨S100000x128, .f32⟩
  | 77 => ⟨S100000x128, .f32⟩
  | 78 => ⟨S1x128, .f32⟩
  | 79 => ⟨S128, .f32⟩
  | 80 => ⟨S1x128, .f32⟩
  | 81 => ⟨S128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S100000x128, .f32⟩
  | 95 => ⟨S100000x128, .f32⟩
  | 96 => ⟨S100000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S100000x128, .f32⟩
  | 112 => ⟨S100000x128, .f32⟩
  | 113 => ⟨S_, .f32⟩
  | 114 => ⟨S128, .f32⟩
  | 115 => ⟨S128, .f32⟩
  | 116 => ⟨S128, .f32⟩
  | 117 => ⟨S1x128, .f32⟩
  | 118 => ⟨S100000x128, .f32⟩
  | 119 => ⟨S100000x128, .f32⟩
  | 120 => ⟨S1x128, .f32⟩
  | 121 => ⟨S100000x128, .f32⟩
  | 122 => ⟨S100000x128, .f32⟩
  | 123 => ⟨S1x128, .f32⟩
  | 124 => ⟨S100000x128, .f32⟩
  | 125 => ⟨S100000x128, .f32⟩
  | 126 => ⟨S_, .f32⟩
  | 127 => ⟨S100000x128, .f32⟩
  | _ => ⟨S100000x128, .f32⟩

abbrev hbmTy0_2 (i : Nat) : BufTy := match i % 128 with
  | 0 => ⟨S100000x128, .f32⟩
  | 1 => ⟨S_, .i32⟩
  | 2 => ⟨S1600000, .i32⟩
  | 3 => ⟨S1600000, .i1⟩
  | 4 => ⟨S_, .i32⟩
  | 5 => ⟨S1600000, .i32⟩
  | 6 => ⟨S1600000, .i32⟩
  | 7 => ⟨S1600000, .i32⟩
  | 8 => ⟨S1600000x1, .i32⟩
  | 9 => ⟨S1600000x128, .f32⟩
  | 10 => ⟨S_, .f32⟩
  | 11 => ⟨S100000x128, .f32⟩
  | 12 => ⟨S1600000x1, .i32⟩
  | 13 => ⟨S100000x128, .f32⟩
  | 14 => ⟨S_, .f32⟩
  | 15 => ⟨S100000x128, .f32⟩
  | 16 => ⟨S100000x128, .f32⟩
  | 17 => ⟨S_, .f32⟩
  | 18 => ⟨S100000x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S1x128x128, .f32⟩
  | 25 => ⟨S128x128, .f32⟩
  | 26 => ⟨S100000x128, .f32⟩
  | 27 => ⟨S_, .f32⟩
  | 28 => ⟨S100000x128, .f32⟩
  | 29 => ⟨S100000x128, .f32⟩
  | 30 => ⟨S100000x128, .f32⟩
  | 31 => ⟨S100000x512, .f32⟩
  | 32 => ⟨S100000x128, .f32⟩
  | 33 => ⟨S1x128, .f32⟩
  | 34 => ⟨S100000x128, .f32⟩
  | 35 => ⟨S100000x128, .f32⟩
  | 36 => ⟨S_, .i32⟩
  | 37 => ⟨S1600000, .i32⟩
  | 38 => ⟨S1600000, .i1⟩
  | 39 => ⟨S_, .i32⟩
  | 40 => ⟨S1600000, .i32⟩
  | 41 => ⟨S1600000, .i32⟩
  | 42 => ⟨S1600000, .i32⟩
  | 43 => ⟨S1600000x1, .i32⟩
  | 44 => ⟨S1600000x128, .f32⟩
  | 45 => ⟨S_, .f32⟩
  | 46 => ⟨S100000x128, .f32⟩
  | 47 => ⟨S1600000x1, .i32⟩
  | 48 => ⟨S100000x128, .f32⟩
  | 49 => ⟨S_, .f32⟩
  | 50 => ⟨S100000x128, .f32⟩
  | 51 => ⟨S100000x128, .f32⟩
  | 52 => ⟨S_, .f32⟩
  | 53 => ⟨S100000x128, .f32⟩
  | 54 => ⟨S100000x128, .f32⟩
  | 55 => ⟨S100000x128, .f32⟩
  | 56 => ⟨S_, .f32⟩
  | 57 => ⟨S100000x128, .f32⟩
  | 58 => ⟨S100000x128, .f32⟩
  | 59 => ⟨S1x128x128, .f32⟩
  | 60 => ⟨S128x128, .f32⟩
  | 61 => ⟨S100000x128, .f32⟩
  | 62 => ⟨S_, .f32⟩
  | 63 => ⟨S100000x128, .f32⟩
  | 64 => ⟨S100000x128, .f32⟩
  | 65 => ⟨S100000x128, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_5 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_call0_cst : Ref sig .tc := ⟨.hbm, 54, rfl⟩
abbrev main_call0_v0 : Ref sig .tc := ⟨.hbm, 55, rfl⟩
abbrev main_call0_v1 : Ref sig .tc := ⟨.hbm, 56, rfl⟩
abbrev main_call0_cst_0 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_v5 : Ref sig .tc := ⟨.hbm, 61, rfl⟩
abbrev main_call0_v6 : Ref sig .tc := ⟨.hbm, 62, rfl⟩
abbrev main_call0_v7 : Ref sig .tc := ⟨.hbm, 63, rfl⟩
abbrev main_call0_cst_1 : Ref sig .tc := ⟨.hbm, 64, rfl⟩
abbrev main_call0_v8 : Ref sig .tc := ⟨.hbm, 65, rfl⟩
abbrev main_call0_cst_2 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_call0_cst_3 : Ref sig .tc := ⟨.hbm, 70, rfl⟩
abbrev main_call0_v12 : Ref sig .tc := ⟨.hbm, 71, rfl⟩
abbrev main_call0_cst_4 : Ref sig .tc := ⟨.hbm, 72, rfl⟩
abbrev main_call0_call0_v0 : Ref sig .tc := ⟨.hbm, 73, rfl⟩
abbrev main_call0_call0_v1 : Ref sig .tc := ⟨.hbm, 74, rfl⟩
abbrev main_v34 : Ref sig .tc := ⟨.hbm, 75, rfl⟩
abbrev main_v35 : Ref sig .tc := ⟨.hbm, 76, rfl⟩
abbrev main_v36 : Ref sig .tc := ⟨.hbm, 77, rfl⟩
abbrev main_v37 : Ref sig .tc := ⟨.hbm, 78, rfl⟩
abbrev main_cst_8 : Ref sig .tc := ⟨.hbm, 79, rfl⟩
abbrev main_v38 : Ref sig .tc := ⟨.hbm, 80, rfl⟩
abbrev main_v39 : Ref sig .tc := ⟨.hbm, 81, rfl⟩
abbrev main_v40 : Ref sig .tc := ⟨.hbm, 82, rfl⟩
abbrev main_v41 : Ref sig .tc := ⟨.hbm, 83, rfl⟩
abbrev main_v42 : Ref sig .tc := ⟨.hbm, 84, rfl⟩
abbrev main_v43 : Ref sig .tc := ⟨.hbm, 85, rfl⟩
abbrev main_v44 : Ref sig .tc := ⟨.hbm, 86, rfl⟩
abbrev main_v45 : Ref sig .tc := ⟨.hbm, 87, rfl⟩
abbrev main_v46 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_call1_cst : Ref sig .tc := ⟨.hbm, 92, rfl⟩
abbrev main_call1_v0 : Ref sig .tc := ⟨.hbm, 93, rfl⟩
abbrev main_v50 : Ref sig .tc := ⟨.hbm, 94, rfl⟩
abbrev main_c_9 : Ref sig .tc := ⟨.hbm, 95, rfl⟩
abbrev main_v51 : Ref sig .tc := ⟨.hbm, 96, rfl⟩
abbrev main_v52 : Ref sig .tc := ⟨.hbm, 97, rfl⟩
abbrev main_c_10 : Ref sig .tc := ⟨.hbm, 98, rfl⟩
abbrev main_v53 : Ref sig .tc := ⟨.hbm, 99, rfl⟩
abbrev main_v54 : Ref sig .tc := ⟨.hbm, 100, rfl⟩
abbrev main_v55 : Ref sig .tc := ⟨.hbm, 101, rfl⟩
abbrev main_v56 : Ref sig .tc := ⟨.hbm, 102, rfl⟩
abbrev main_v57 : Ref sig .tc := ⟨.hbm, 103, rfl⟩
abbrev main_cst_11 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_cst_12 : Ref sig .tc := ⟨.hbm, 108, rfl⟩
abbrev main_v61 : Ref sig .tc := ⟨.hbm, 109, rfl⟩
abbrev main_v62 : Ref sig .tc := ⟨.hbm, 110, rfl⟩
abbrev main_cst_13 : Ref sig .tc := ⟨.hbm, 111, rfl⟩
abbrev main_v63 : Ref sig .tc := ⟨.hbm, 112, rfl⟩
abbrev main_v64 : Ref sig .tc := ⟨.hbm, 113, rfl⟩
abbrev main_v65 : Ref sig .tc := ⟨.hbm, 114, rfl⟩
abbrev main_cst_14 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_cst_15 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩
abbrev main_v76 : Ref sig .tc := ⟨.hbm, 127, rfl⟩
abbrev main_v77 : Ref sig .tc := ⟨.hbm, 128, rfl⟩
abbrev main_cst_16 : Ref sig .tc := ⟨.hbm, 129, rfl⟩
abbrev main_v78 : Ref sig .tc := ⟨.hbm, 130, rfl⟩
abbrev main_cst_17 : Ref sig .tc := ⟨.hbm, 131, rfl⟩
abbrev main_v79 : Ref sig .tc := ⟨.hbm, 132, rfl⟩
abbrev main_v80 : Ref sig .tc := ⟨.hbm, 133, rfl⟩
abbrev main_c_18 : Ref sig .tc := ⟨.hbm, 134, rfl⟩
abbrev main_call2_cst : Ref sig .tc := ⟨.hbm, 135, rfl⟩
abbrev main_call2_v0 : Ref sig .tc := ⟨.hbm, 136, rfl⟩
abbrev main_call2_v1 : Ref sig .tc := ⟨.hbm, 137, rfl⟩
abbrev main_call2_cst_0 : Ref sig .tc := ⟨.hbm, 138, rfl⟩
abbrev main_call2_v2 : Ref sig .tc := ⟨.hbm, 139, rfl⟩
abbrev main_call2_v3 : Ref sig .tc := ⟨.hbm, 140, rfl⟩
abbrev main_call2_v4 : Ref sig .tc := ⟨.hbm, 141, rfl⟩
abbrev main_call2_v5 : Ref sig .tc := ⟨.hbm, 142, rfl⟩
abbrev main_call2_v6 : Ref sig .tc := ⟨.hbm, 143, rfl⟩
abbrev main_call2_v7 : Ref sig .tc := ⟨.hbm, 144, rfl⟩
abbrev main_call2_cst_1 : Ref sig .tc := ⟨.hbm, 145, rfl⟩
abbrev main_call2_v8 : Ref sig .tc := ⟨.hbm, 146, rfl⟩
abbrev main_call2_cst_2 : Ref sig .tc := ⟨.hbm, 147, rfl⟩
abbrev main_call2_v9 : Ref sig .tc := ⟨.hbm, 148, rfl⟩
abbrev main_call2_v10 : Ref sig .tc := ⟨.hbm, 149, rfl⟩
abbrev main_call2_v11 : Ref sig .tc := ⟨.hbm, 150, rfl⟩
abbrev main_call2_cst_3 : Ref sig .tc := ⟨.hbm, 151, rfl⟩
abbrev main_call2_v12 : Ref sig .tc := ⟨.hbm, 152, rfl⟩
abbrev main_call2_cst_4 : Ref sig .tc := ⟨.hbm, 153, rfl⟩
abbrev main_call2_call0_v0 : Ref sig .tc := ⟨.hbm, 154, rfl⟩
abbrev main_call2_call0_v1 : Ref sig .tc := ⟨.hbm, 155, rfl⟩
abbrev main_v81 : Ref sig .tc := ⟨.hbm, 156, rfl⟩
abbrev main_v82 : Ref sig .tc := ⟨.hbm, 157, rfl⟩
abbrev main_v83 : Ref sig .tc := ⟨.hbm, 158, rfl⟩
abbrev main_v84 : Ref sig .tc := ⟨.hbm, 159, rfl⟩
abbrev main_cst_19 : Ref sig .tc := ⟨.hbm, 160, rfl⟩
abbrev main_v85 : Ref sig .tc := ⟨.hbm, 161, rfl⟩
abbrev main_v86 : Ref sig .tc := ⟨.hbm, 162, rfl⟩
abbrev main_v87 : Ref sig .tc := ⟨.hbm, 163, rfl⟩
abbrev main_v88 : Ref sig .tc := ⟨.hbm, 164, rfl⟩
abbrev main_v89 : Ref sig .tc := ⟨.hbm, 165, rfl⟩
abbrev main_v90 : Ref sig .tc := ⟨.hbm, 166, rfl⟩
abbrev main_v91 : Ref sig .tc := ⟨.hbm, 167, rfl⟩
abbrev main_v92 : Ref sig .tc := ⟨.hbm, 168, rfl⟩
abbrev main_v93 : Ref sig .tc := ⟨.hbm, 169, rfl⟩
abbrev main_v94 : Ref sig .tc := ⟨.hbm, 170, rfl⟩
abbrev main_v95 : Ref sig .tc := ⟨.hbm, 171, rfl⟩
abbrev main_v96 : Ref sig .tc := ⟨.hbm, 172, rfl⟩
abbrev main_call3_cst : Ref sig .tc := ⟨.hbm, 173, rfl⟩
abbrev main_call3_v0 : Ref sig .tc := ⟨.hbm, 174, rfl⟩
abbrev main_v97 : Ref sig .tc := ⟨.hbm, 175, rfl⟩
abbrev main_c_20 : Ref sig .tc := ⟨.hbm, 176, rfl⟩
abbrev main_v98 : Ref sig .tc := ⟨.hbm, 177, rfl⟩
abbrev main_v99 : Ref sig .tc := ⟨.hbm, 178, rfl⟩
abbrev main_c_21 : Ref sig .tc := ⟨.hbm, 179, rfl⟩
abbrev main_v100 : Ref sig .tc := ⟨.hbm, 180, rfl⟩
abbrev main_v101 : Ref sig .tc := ⟨.hbm, 181, rfl⟩
abbrev main_v102 : Ref sig .tc := ⟨.hbm, 182, rfl⟩
abbrev main_v103 : Ref sig .tc := ⟨.hbm, 183, rfl⟩
abbrev main_v104 : Ref sig .tc := ⟨.hbm, 184, rfl⟩
abbrev main_cst_22 : Ref sig .tc := ⟨.hbm, 185, rfl⟩
abbrev main_v105 : Ref sig .tc := ⟨.hbm, 186, rfl⟩
abbrev main_v106 : Ref sig .tc := ⟨.hbm, 187, rfl⟩
abbrev main_v107 : Ref sig .tc := ⟨.hbm, 188, rfl⟩
abbrev main_cst_23 : Ref sig .tc := ⟨.hbm, 189, rfl⟩
abbrev main_v108 : Ref sig .tc := ⟨.hbm, 190, rfl⟩
abbrev main_v109 : Ref sig .tc := ⟨.hbm, 191, rfl⟩
abbrev main_cst_24 : Ref sig .tc := ⟨.hbm, 192, rfl⟩
abbrev main_v110 : Ref sig .tc := ⟨.hbm, 193, rfl⟩
abbrev main_v111 : Ref sig .tc := ⟨.hbm, 194, rfl⟩
abbrev main_v112 : Ref sig .tc := ⟨.hbm, 195, rfl⟩
abbrev main_cst_25 : Ref sig .tc := ⟨.hbm, 196, rfl⟩
abbrev main_v113 : Ref sig .tc := ⟨.hbm, 197, rfl⟩
abbrev main_v114 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_26 : Ref sig .tc := ⟨.hbm, 202, rfl⟩
abbrev main_v118 : Ref sig .tc := ⟨.hbm, 203, rfl⟩
abbrev main_v119 : Ref sig .tc := ⟨.hbm, 204, rfl⟩
abbrev main_v120 : Ref sig .tc := ⟨.hbm, 205, rfl⟩
abbrev main_v121 : Ref sig .tc := ⟨.hbm, 206, rfl⟩
abbrev main_v122 : Ref sig .tc := ⟨.hbm, 207, rfl⟩
abbrev main_v123 : Ref sig .tc := ⟨.hbm, 208, rfl⟩
abbrev main_v124 : Ref sig .tc := ⟨.hbm, 209, rfl⟩
abbrev main_cst_27 : Ref sig .tc := ⟨.hbm, 210, rfl⟩
abbrev main_v125 : Ref sig .tc := ⟨.hbm, 211, rfl⟩
abbrev main_cst_28 : Ref sig .tc := ⟨.hbm, 212, rfl⟩
abbrev main_v126 : Ref sig .tc := ⟨.hbm, 213, rfl⟩
abbrev main_v127 : Ref sig .tc := ⟨.hbm, 214, rfl⟩
abbrev main_c_29 : Ref sig .tc := ⟨.hbm, 215, rfl⟩
abbrev main_call4_cst : Ref sig .tc := ⟨.hbm, 216, rfl⟩
abbrev main_call4_v0 : Ref sig .tc := ⟨.hbm, 217, rfl⟩
abbrev main_call4_v1 : Ref sig .tc := ⟨.hbm, 218, rfl⟩
abbrev main_call4_cst_0 : Ref sig .tc := ⟨.hbm, 219, rfl⟩
abbrev main_call4_v2 : Ref sig .tc := ⟨.hbm, 220, rfl⟩
abbrev main_call4_v3 : Ref sig .tc := ⟨.hbm, 221, rfl⟩
abbrev main_call4_v4 : Ref sig .tc := ⟨.hbm, 222, rfl⟩
abbrev main_call4_v5 : Ref sig .tc := ⟨.hbm, 223, rfl⟩
abbrev main_call4_v6 : Ref sig .tc := ⟨.hbm, 224, rfl⟩
abbrev main_call4_v7 : Ref sig .tc := ⟨.hbm, 225, rfl⟩
abbrev main_call4_cst_1 : Ref sig .tc := ⟨.hbm, 226, rfl⟩
abbrev main_call4_v8 : Ref sig .tc := ⟨.hbm, 227, rfl⟩
abbrev main_call4_cst_2 : Ref sig .tc := ⟨.hbm, 228, rfl⟩
abbrev main_call4_v9 : Ref sig .tc := ⟨.hbm, 229, rfl⟩
abbrev main_call4_v10 : Ref sig .tc := ⟨.hbm, 230, rfl⟩
abbrev main_call4_v11 : Ref sig .tc := ⟨.hbm, 231, rfl⟩
abbrev main_call4_cst_3 : Ref sig .tc := ⟨.hbm, 232, rfl⟩
abbrev main_call4_v12 : Ref sig .tc := ⟨.hbm, 233, rfl⟩
abbrev main_call4_cst_4 : Ref sig .tc := ⟨.hbm, 234, rfl⟩
abbrev main_call4_call0_v0 : Ref sig .tc := ⟨.hbm, 235, rfl⟩
abbrev main_call4_call0_v1 : Ref sig .tc := ⟨.hbm, 236, rfl⟩
abbrev main_v128 : Ref sig .tc := ⟨.hbm, 237, rfl⟩
abbrev main_v129 : Ref sig .tc := ⟨.hbm, 238, rfl⟩
abbrev main_v130 : Ref sig .tc := ⟨.hbm, 239, rfl⟩
abbrev main_v131 : Ref sig .tc := ⟨.hbm, 240, rfl⟩
abbrev main_cst_30 : Ref sig .tc := ⟨.hbm, 241, rfl⟩
abbrev main_v132 : Ref sig .tc := ⟨.hbm, 242, rfl⟩
abbrev main_v133 : Ref sig .tc := ⟨.hbm, 243, rfl⟩
abbrev main_v134 : Ref sig .tc := ⟨.hbm, 244, rfl⟩
abbrev main_v135 : Ref sig .tc := ⟨.hbm, 245, rfl⟩
abbrev main_v136 : Ref sig .tc := ⟨.hbm, 246, rfl⟩
abbrev main_v137 : Ref sig .tc := ⟨.hbm, 247, rfl⟩
abbrev main_v138 : Ref sig .tc := ⟨.hbm, 248, rfl⟩
abbrev main_v139 : Ref sig .tc := ⟨.hbm, 249, rfl⟩
abbrev main_v140 : Ref sig .tc := ⟨.hbm, 250, rfl⟩
abbrev main_v141 : Ref sig .tc := ⟨.hbm, 251, rfl⟩
abbrev main_v142 : Ref sig .tc := ⟨.hbm, 252, rfl⟩
abbrev main_v143 : Ref sig .tc := ⟨.hbm, 253, rfl⟩
abbrev main_call5_cst : Ref sig .tc := ⟨.hbm, 254, rfl⟩
abbrev main_call5_v0 : Ref sig .tc := ⟨.hbm, 255, rfl⟩
abbrev main_v144 : Ref sig .tc := ⟨.hbm, 256, rfl⟩
abbrev main_c_31 : Ref sig .tc := ⟨.hbm, 257, rfl⟩
abbrev main_v145 : Ref sig .tc := ⟨.hbm, 258, rfl⟩
abbrev main_v146 : Ref sig .tc := ⟨.hbm, 259, rfl⟩
abbrev main_c_32 : Ref sig .tc := ⟨.hbm, 260, rfl⟩
abbrev main_v147 : Ref sig .tc := ⟨.hbm, 261, rfl⟩
abbrev main_v148 : Ref sig .tc := ⟨.hbm, 262, rfl⟩
abbrev main_v149 : Ref sig .tc := ⟨.hbm, 263, rfl⟩
abbrev main_v150 : Ref sig .tc := ⟨.hbm, 264, rfl⟩
abbrev main_v151 : Ref sig .tc := ⟨.hbm, 265, rfl⟩
abbrev main_cst_33 : Ref sig .tc := ⟨.hbm, 266, rfl⟩
abbrev main_v152 : Ref sig .tc := ⟨.hbm, 267, rfl⟩
abbrev main_v153 : Ref sig .tc := ⟨.hbm, 268, rfl⟩
abbrev main_v154 : Ref sig .tc := ⟨.hbm, 269, rfl⟩
abbrev main_cst_34 : Ref sig .tc := ⟨.hbm, 270, rfl⟩
abbrev main_v155 : Ref sig .tc := ⟨.hbm, 271, rfl⟩
abbrev main_v156 : Ref sig .tc := ⟨.hbm, 272, rfl⟩
abbrev main_cst_35 : Ref sig .tc := ⟨.hbm, 273, rfl⟩
abbrev main_v157 : Ref sig .tc := ⟨.hbm, 274, rfl⟩
abbrev main_v158 : Ref sig .tc := ⟨.hbm, 275, rfl⟩
abbrev main_v159 : Ref sig .tc := ⟨.hbm, 276, rfl⟩
abbrev main_cst_36 : Ref sig .tc := ⟨.hbm, 277, rfl⟩
abbrev main_v160 : Ref sig .tc := ⟨.hbm, 278, rfl⟩
abbrev main_v161 : Ref sig .tc := ⟨.hbm, 279, rfl⟩
abbrev main_v162 : Ref sig .tc := ⟨.hbm, 280, rfl⟩
abbrev main_v163 : Ref sig .tc := ⟨.hbm, 281, rfl⟩
abbrev main_v164 : Ref sig .tc := ⟨.hbm, 282, rfl⟩
abbrev main_cst_37 : Ref sig .tc := ⟨.hbm, 283, rfl⟩
abbrev main_v165 : Ref sig .tc := ⟨.hbm, 284, rfl⟩
abbrev main_v166 : Ref sig .tc := ⟨.hbm, 285, rfl⟩
abbrev main_v167 : Ref sig .tc := ⟨.hbm, 286, rfl⟩
abbrev main_v168 : Ref sig .tc := ⟨.hbm, 287, rfl⟩
abbrev main_v169 : Ref sig .tc := ⟨.hbm, 288, rfl⟩
abbrev main_v170 : Ref sig .tc := ⟨.hbm, 289, rfl⟩
abbrev main_v171 : Ref sig .tc := ⟨.hbm, 290, rfl⟩
abbrev main_v172 : Ref sig .tc := ⟨.hbm, 291, rfl⟩
abbrev main_c_38 : Ref sig .tc := ⟨.hbm, 292, rfl⟩
abbrev main_v173 : Ref sig .tc := ⟨.hbm, 293, rfl⟩
abbrev main_v174 : Ref sig .tc := ⟨.hbm, 294, rfl⟩
abbrev main_c_39 : Ref sig .tc := ⟨.hbm, 295, rfl⟩
abbrev main_v175 : Ref sig .tc := ⟨.hbm, 296, rfl⟩
abbrev main_v176 : Ref sig .tc := ⟨.hbm, 297, rfl⟩
abbrev main_v177 : Ref sig .tc := ⟨.hbm, 298, rfl⟩
abbrev main_v178 : Ref sig .tc := ⟨.hbm, 299, rfl⟩
abbrev main_v179 : Ref sig .tc := ⟨.hbm, 300, rfl⟩
abbrev main_cst_40 : Ref sig .tc := ⟨.hbm, 301, rfl⟩
abbrev main_v180 : Ref sig .tc := ⟨.hbm, 302, rfl⟩
abbrev main_v181 : Ref sig .tc := ⟨.hbm, 303, rfl⟩
abbrev main_v182 : Ref sig .tc := ⟨.hbm, 304, rfl⟩
abbrev main_cst_41 : Ref sig .tc := ⟨.hbm, 305, rfl⟩
abbrev main_v183 : Ref sig .tc := ⟨.hbm, 306, rfl⟩
abbrev main_v184 : Ref sig .tc := ⟨.hbm, 307, rfl⟩
abbrev main_cst_42 : Ref sig .tc := ⟨.hbm, 308, rfl⟩
abbrev main_v185 : Ref sig .tc := ⟨.hbm, 309, rfl⟩
abbrev main_v186 : Ref sig .tc := ⟨.hbm, 310, rfl⟩
abbrev main_v187 : Ref sig .tc := ⟨.hbm, 311, rfl⟩
abbrev main_cst_43 : Ref sig .tc := ⟨.hbm, 312, rfl⟩
abbrev main_v188 : Ref sig .tc := ⟨.hbm, 313, rfl⟩
abbrev main_v189 : Ref sig .tc := ⟨.hbm, 314, rfl⟩
abbrev main_v190 : Ref sig .tc := ⟨.hbm, 315, rfl⟩
abbrev main_v191 : Ref sig .tc := ⟨.hbm, 316, rfl⟩
abbrev main_v192 : Ref sig .tc := ⟨.hbm, 317, rfl⟩
abbrev main_cst_44 : Ref sig .tc := ⟨.hbm, 318, rfl⟩
abbrev main_v193 : Ref sig .tc := ⟨.hbm, 319, rfl⟩
abbrev main_v194 : Ref sig .tc := ⟨.hbm, 320, rfl⟩
abbrev main_v195 : Ref sig .tc := ⟨.hbm, 321, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S5x128x128_S1x128x128_0_0_0 : S5x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S5x128x128_S1x128x128_1_0_0 : S5x128x128.Slices ![1, 0, 0] S1x128x128
  slices_S4x128_S1x128_1_0 : S4x128.Slices ![1, 0] S1x128
  slices_S5x128x128_S1x128x128_2_0_0 : S5x128x128.Slices ![2, 0, 0] S1x128x128
  slices_S4x128_S1x128_2_0 : S4x128.Slices ![2, 0] S1x128
  slices_S5x128x128_S1x128x128_3_0_0 : S5x128x128.Slices ![3, 0, 0] S1x128x128
  concatenates_S100000x128_S100000x128_S100000x128_S100000x128_S100000x512_d1 : Shape.Concatenates [S100000x128, S100000x128, S100000x128, S100000x128] S100000x512 1
  slices_S5x128x128_S1x128x128_4_0_0 : S5x128x128.Slices ![4, 0, 0] S1x128x128
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x512_S512x128_S100000x128_1_0_0_1_n_n_wf : DotDims.WF S100000x512 S512x128 S100000x128 [1] [0] [0] [1] [] []

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf

class Facts : Prop extends Facts₀ where

variable [Facts]
-- ==== Proof.Kernel.Region0.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the body's half of pipeline 0

The kernel of this region is the input linear layer: a row tile of `x` times `W_in` plus the bias row `b_in`.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every point — at a point where it is fetched because the
    fetch copies the block, at a point where it is not because the index map has not moved since the last fetch and the
    body leaves the buffer as found. For any proof data over `V`'s arrays whose body leaves input 0's block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written as one whole rectangle -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- The output buffer after the body, as a function of the input blocks: one store over the whole buffer of the
    kernel's value `k0_pay1` at the whole-buffer reads of the inputs. -/
def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

/-- The one store is over the whole buffer, so it covers every index. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel on whole staging buffers — the inputs' at contents `xW`, the output's at anything — runs to a state with the
    inputs' unchanged and the output's at `out0_3` of the inputs. (The body also reads the output buffer once before
    overwriting it; that value is never used.) -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__lin_in_kernel i arg1 harg1 arg2 harg2 arg3 harg3 arg4 harg4) K := by
  simp only [cc0__lin_in_kernel_eq_skeleton]; unfold cc0__lin_in_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each input's
    buffer at its block and the output's at `out0_3` of the input blocks; the invariant is the untouched rest of the core's
    state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Region1.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the body's half of pipeline 1

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every point — at a point where it is fetched because the
    fetch copies the block, at a point where it is not because the index map has not moved since the last fetch and the
    body leaves the buffer as found. For any proof data over `V`'s arrays whose body leaves input 0's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written as one whole rectangle -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0

/-! ## What the body leaves in the output window's buffer -/

/-- The output buffer after the body, as a function of the input blocks: one store over the whole buffer of the
    kernel's value `k1_pay1` at the whole-buffer reads of the inputs. -/
def out1_3 (x0 : Vec F S5000x128 .f32) (x1 : Vec F S5000x128 .f32) (x2 : Vec F S128x128 .f32) : Vec F S5000x128 .f32 :=
  View.canon [⟨r1_0, k1_pay1 (View.ld x0 r1_0) (View.ld x1 r1_0) (View.ld x2 r1_1)⟩]

/-- The one store is over the whole buffer, so it covers every index. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel on whole staging buffers — the inputs' at contents `xW`, the output's at anything — runs to a state with the
    inputs' unchanged and the output's at `out1_3` of the inputs. (The body also reads the output buffer once before
    overwriting it; that value is never used.) -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each input's
    buffer at its block and the output's at `out1_3` of the input blocks; the invariant is the untouched rest of the core's
    state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debts, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Region2.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the body's half of pipeline 2

The kernel of this region is batch-norm affine and relu on a row tile: `max(((z - mean)·rstd)·γ + β, 0)`, the four rows broadcast down the tile.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: its current staging buffer holds its block at every point — at a point where it is fetched because the
    fetch copies the block, at a point where it is not because the index map has not moved since the last fetch and the
    body leaves the buffer as found. For any proof data over `V`'s arrays whose body leaves input 0's block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: its current staging buffer holds its block at every point — at a point where it is fetched because the
    fetch copies the block, at a point where it is not because the index map has not moved since the last fetch and the
    body leaves the buffer as found. For any proof data over `V`'s arrays whose body leaves input 3's block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: its current staging buffer holds its block at every point — at a point where it is fetched because the
    fetch copies the block, at a point where it is not because the index map has not moved since the last fetch and the
    body leaves the buffer as found. For any proof data over `V`'s arrays whose body leaves input 4's block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written as one whole rectangle -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- The output buffer after the body, as a function of the input blocks: one store over the whole buffer of the
    kernel's value `k2_pay1` at the whole-buffer reads of the inputs. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x0 r2_0) (View.ld x1 r2_1) (View.ld x2 r2_1) (View.ld x3 r2_1) (View.ld x4 r2_1)⟩]

/-- The one store is over the whole buffer, so it covers every index. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel on whole staging buffers — the inputs' at contents `xW`, the output's at anything — runs to a state with the
    inputs' unchanged and the output's at `out2_5` of the inputs. (The body also reads the output buffer once before
    overwriting it; that value is never used.) -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each input's
    buffer at its block and the output's at `out2_5` of the input blocks; the invariant is the untouched rest of the core's
    state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the kernel's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.Kernel.Region3.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the body's half of pipeline 3

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: its current staging buffer holds its block at every point — at a point where it is fetched because the
    fetch copies the block, at a point where it is not because the index map has not moved since the last fetch and the
    body leaves the buffer as found. For any proof data over `V`'s arrays whose body leaves input 0's block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read or written as one whole rectangle -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-! ## What the body leaves in the output window's buffer -/

/-- The output buffer after the body, as a function of the input blocks: one store over the whole buffer of the
    kernel's value `k3_pay1` at the whole-buffer reads of the inputs. -/
def out3_3 (x0 : Vec F S5000x128 .f32) (x1 : Vec F S5000x128 .f32) (x2 : Vec F S128x128 .f32) : Vec F S5000x128 .f32 :=
  View.canon [⟨r3_0, k3_pay1 (View.ld x0 r3_0) (View.ld x1 r3_0) (View.ld x2 r3_1)⟩]

/-- The one store is over the whole buffer, so it covers every index. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel on whole staging buffers — the inputs' at contents `xW`, the output's at anything — runs to a state with the
    inputs' unchanged and the output's at `out3_3` of the inputs. (The body also reads the output buffer once before
    overwriting it; that value is never used.) -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point `t` each input's
    buffer at its block and the output's at `out3_3` of the input blocks; the invariant is the untouched rest of the core's
    state; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`: the invariant, the core's debts, and each window's current staging buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the kernel's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.Kernel.Region4.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the body's half of pipeline 4

The kernel of this region is batch-norm affine and relu on a row tile: `max(((z - mean)·rstd)·γ + β, 0)`, the four rows broadcast down the tile.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: its current staging buffer holds its block at every point — at a point where it is fetched because the
    fetch copies the block, at a point where it is not because the index map has not moved since the last fetch and the
    body leaves the buffer as found. For any proof data over `V`'s arrays whose body leaves input 0's block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3: its current staging buffer holds its block at every point — at a point where it is fetched because the
    fetch copies the block, at a point where it is not because the index map has not moved since the last fetch and the
    body leaves the buffer as found. For any proof data over `V`'s arrays whose body leaves input 3's block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4: its current staging buffer holds its block at every point — at a point where it is fetched because the
    fetch copies the block, at a point where it is not because the index map has not moved since the last fetch and the
    body leaves the buffer as found. For any proof data over `V`'s arrays whose body leaves input 4's block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read or written as one whole rectangle -/

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0

/-! ## What the body leaves in the output window's buffer -/

/-- The output buffer after the body, as a function of the input blocks: one store over the whole buffer of the
    kernel's value `k4_pay1` at the whole-buffer reads of the inputs. -/
def out4_5 (x0 : Vec F S5000x128 .f32) (x1 : Vec F S1x128 .f32) (x2 : Vec F S1x128 .f32) (x3 : Vec F S1x128 .f32) (x4 : Vec F S1x128 .f32) : Vec F S5000x128 .f32 :=
  View.canon [⟨r4_0, k4_pay1 (View.ld x0 r4_0) (View.ld x1 r4_1) (View.ld x2 r4_1) (View.ld x3 r4_1) (View.ld x4 r4_1)⟩]

/-- The one store is over the whole buffer, so it covers every index. -/
theorem cover4_5 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel on whole staging buffers — the inputs' at contents `xW`, the output's at anything — runs to a state with the
    inputs' unchanged and the output's at `out4_5` of the inputs. (The body also reads the output buffer once before
    overwriting it; that value is never used.) -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__bn_relu_kernel i arg1 harg1 arg2 harg2 arg3 harg3 arg4 harg4 arg5 harg5 arg6 harg6) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them; after the body at point `t` each input's
    buffer at its block and the output's at `out4_5` of the input blocks; the invariant is the untouched rest of the core's
    state; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`: the invariant, the core's debts, and each window's current staging buffer, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the kernel's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Hand

end
-- ==== Proof.Kernel.Region5.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the body's half of pipeline 5

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: its current staging buffer holds its block at every point — at a point where it is fetched because the
    fetch copies the block, at a point where it is not because the index map has not moved since the last fetch and the
    body leaves the buffer as found. For any proof data over `V`'s arrays whose body leaves input 0's block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read or written as one whole rectangle -/

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0

/-! ## What the body leaves in the output window's buffer -/

/-- The output buffer after the body, as a function of the input blocks: one store over the whole buffer of the
    kernel's value `k5_pay1` at the whole-buffer reads of the inputs. -/
def out5_3 (x0 : Vec F S5000x128 .f32) (x1 : Vec F S5000x128 .f32) (x2 : Vec F S128x128 .f32) : Vec F S5000x128 .f32 :=
  View.canon [⟨r5_0, k5_pay1 (View.ld x0 r5_0) (View.ld x1 r5_0) (View.ld x2 r5_1)⟩]

/-- The one store is over the whole buffer, so it covers every index. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel on whole staging buffers — the inputs' at contents `xW`, the output's at anything — runs to a state with the
    inputs' unchanged and the output's at `out5_3` of the inputs. (The body also reads the output buffer once before
    overwriting it; that value is never used.) -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them; after the body at point `t` each input's
    buffer at its block and the output's at `out5_3` of the input blocks; the invariant is the untouched rest of the core's
    state; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`: the invariant, the core's debts, and each window's current staging buffer, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the kernel's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.Kernel.Region6.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the body's half of pipeline 6

The kernel of this region is batch-norm affine and relu on a row tile: `max(((z - mean)·rstd)·γ + β, 0)`, the four rows broadcast down the tile.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: its current staging buffer holds its block at every point — at a point where it is fetched because the
    fetch copies the block, at a point where it is not because the index map has not moved since the last fetch and the
    body leaves the buffer as found. For any proof data over `V`'s arrays whose body leaves input 0's block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3: its current staging buffer holds its block at every point — at a point where it is fetched because the
    fetch copies the block, at a point where it is not because the index map has not moved since the last fetch and the
    body leaves the buffer as found. For any proof data over `V`'s arrays whose body leaves input 3's block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4: its current staging buffer holds its block at every point — at a point where it is fetched because the
    fetch copies the block, at a point where it is not because the index map has not moved since the last fetch and the
    body leaves the buffer as found. For any proof data over `V`'s arrays whose body leaves input 4's block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer is read or written as one whole rectangle -/

abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0

/-! ## What the body leaves in the output window's buffer -/

/-- The output buffer after the body, as a function of the input blocks: one store over the whole buffer of the
    kernel's value `k6_pay1` at the whole-buffer reads of the inputs. -/
def out6_5 (x0 : Vec F S5000x128 .f32) (x1 : Vec F S1x128 .f32) (x2 : Vec F S1x128 .f32) (x3 : Vec F S1x128 .f32) (x4 : Vec F S1x128 .f32) : Vec F S5000x128 .f32 :=
  View.canon [⟨r6_0, k6_pay1 (View.ld x0 r6_0) (View.ld x1 r6_1) (View.ld x2 r6_1) (View.ld x3 r6_1) (View.ld x4 r6_1)⟩]

/-- The one store is over the whole buffer, so it covers every index. -/
theorem cover6_5 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel on whole staging buffers — the inputs' at contents `xW`, the output's at anything — runs to a state with the
    inputs' unchanged and the output's at `out6_5` of the inputs. (The body also reads the output buffer once before
    overwriting it; that value is never used.) -/
theorem sound_kernel6 (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__bn_relu_kernel i arg1 harg1 arg2 harg2 arg3 harg3 arg4 harg4 arg5 harg5 arg6 harg6) K := by
  simp only [cc6__bn_relu_kernel_eq_skeleton]; unfold cc6__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point `t` each input's
    buffer at its block and the output's at `out6_5` of the input blocks; the invariant is the untouched rest of the core's
    state; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`: the invariant, the core's debts, and each window's current staging buffer, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the kernel's triple applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Hand

end
-- ==== Proof.Kernel.Region7.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7: the body's half of pipeline 7

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0: its current staging buffer holds its block at every point — at a point where it is fetched because the
    fetch copies the block, at a point where it is not because the index map has not moved since the last fetch and the
    body leaves the buffer as found. For any proof data over `V`'s arrays whose body leaves input 0's block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer is read or written as one whole rectangle -/

abbrev r7_0 : Rect S5000x128 := Rect.unit (s := S5000x128) ![0, 0] S5000x128.size inb_S5000x128_S5000x128_0_0
abbrev r7_1 : Rect S128x128 := Rect.unit (s := S128x128) ![0, 0] S128x128.size inb_S128x128_S128x128_0_0

/-! ## What the body leaves in the output window's buffer -/

/-- The output buffer after the body, as a function of the input blocks: one store over the whole buffer of the
    kernel's value `k7_pay1` at the whole-buffer reads of the inputs. -/
def out7_3 (x0 : Vec F S5000x128 .f32) (x1 : Vec F S5000x128 .f32) (x2 : Vec F S128x128 .f32) : Vec F S5000x128 .f32 :=
  View.canon [⟨r7_0, k7_pay1 (View.ld x0 r7_0) (View.ld x1 r7_0) (View.ld x2 r7_1)⟩]

/-- The one store is over the whole buffer, so it covers every index. -/
theorem cover7_3 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel on whole staging buffers — the inputs' at contents `xW`, the output's at anything — runs to a state with the
    inputs' unchanged and the output's at `out7_3` of the inputs. (The body also reads the output buffer once before
    overwriting it; that value is never used.) -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them; after the body at point `t` each input's
    buffer at its block and the output's at `out7_3` of the input blocks; the invariant is the untouched rest of the core's
    state; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`: the invariant, the core's debts, and each window's current staging buffer, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the kernel's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.Kernel.Hand

end
-- ==== Proof.Kernel.Region8.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8: the body's half of pipeline 8

The kernel of this region is the jumping-knowledge head: a row tile of the 4-way concatenated features (512 columns) times `W_jk` plus the bias row `b_jk`.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0: its current staging buffer holds its block at every point — at a point where it is fetched because the
    fetch copies the block, at a point where it is not because the index map has not moved since the last fetch and the
    body leaves the buffer as found. For any proof data over `V`'s arrays whose body leaves input 0's block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read or written as one whole rectangle -/

abbrev r8_0 : Rect S5000x128 := Rect.unit (s := S5000x128) ![0, 0] S5000x128.size inb_S5000x128_S5000x128_0_0
abbrev r8_1 : Rect S5000x512 := Rect.unit (s := S5000x512) ![0, 0] S5000x512.size inb_S5000x512_S5000x512_0_0
abbrev r8_2 : Rect S512x128 := Rect.unit (s := S512x128) ![0, 0] S512x128.size inb_S512x128_S512x128_0_0
abbrev r8_3 : Rect S1x128 := Rect.unit (s := S1x128) ![0, 0] S1x128.size inb_S1x128_S1x128_0_0

/-! ## What the body leaves in the output window's buffer -/

/-- The output buffer after the body, as a function of the input blocks: one store over the whole buffer of the
    kernel's value `k8_pay1` at the whole-buffer reads of the inputs. -/
def out8_3 (x0 : Vec F S5000x512 .f32) (x1 : Vec F S512x128 .f32) (x2 : Vec F S1x128 .f32) : Vec F S5000x128 .f32 :=
  View.canon [⟨r8_0, k8_pay1 (View.ld x0 r8_1) (View.ld x1 r8_2) (View.ld x2 r8_3)⟩]

/-- The one store is over the whole buffer, so it covers every index. -/
theorem cover8_3 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel on whole staging buffers — the inputs' at contents `xW`, the output's at anything — runs to a state with the
    inputs' unchanged and the output's at `out8_3` of the inputs. (The body also reads the output buffer once before
    overwriting it; that value is never used.) -/
theorem sound_kernel8 (c : Dev nD) (E : Set ℕ) (i : grid8.Coords) (arg1 : Memref sig .tc .vmem S5000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__jk_kernel i arg1 harg1 arg2 harg2 arg3 harg3 arg4 harg4) K := by
  simp only [cc8__jk_kernel_eq_skeleton]; unfold cc8__jk_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them; after the body at point `t` each input's
    buffer at its block and the output's at `out8_3` of the input blocks; the invariant is the untouched rest of the core's
    state; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`: the invariant, the core's debts, and each window's current staging buffer, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so the kernel's triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.Kernel.Hand

end
-- ==== Proof.Kernel.Region9.lean ====
import proofs.«175281_j9964324127123_1_alg».proof.Proof.Gen.Kernel.Launch
import proofs.«175281_j9964324127123_1_alg».proof.Proof.Gen.Kernel.Skeleton
import proofs.«175281_j9964324127123_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9: the body's half of pipeline 9

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0: its current staging buffer holds its block at every point — at a point where it is fetched because the
    fetch copies the block, at a point where it is not because the index map has not moved since the last fetch and the
    body leaves the buffer as found. For any proof data over `V`'s arrays whose body leaves input 0's block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer is read or written as one whole rectangle -/

abbrev r9_0 : Rect S5000x128 := Rect.unit (s := S5000x128) ![0, 0] S5000x128.size inb_S5000x128_S5000x128_0_0
abbrev r9_1 : Rect S128x128 := Rect.unit (s := S128x128) ![0, 0] S128x128.size inb_S128x128_S128x128_0_0

/-! ## What the body leaves in the output window's buffer -/

/-- The output buffer after the body, as a function of the input blocks: one store over the whole buffer of the
    kernel's value `k9_pay1` at the whole-buffer reads of the inputs. -/
def out9_3 (x0 : Vec F S5000x128 .f32) (x1 : Vec F S5000x128 .f32) (x2 : Vec F S128x128 .f32) : Vec F S5000x128 .f32 :=
  View.canon [⟨r9_0, k9_pay1 (View.ld x0 r9_0) (View.ld x1 r9_0) (View.ld x2 r9_1)⟩]

/-- The one store is over the whole buffer, so it covers every index. -/
theorem cover9_3 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

/-! ## The body's triple -/

set_option maxHeartbeats 1000000 in
/-- The kernel on whole staging buffers — the inputs' at contents `xW`, the output's at anything — runs to a state with the
    inputs' unchanged and the output's at `out9_3` of the inputs. (The body also reads the output buffer once before
    overwriting it; that value is never used.) -/
theorem sound_kernel9 (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9_kernel i arg1 harg1 arg2 harg2 arg3 harg3 arg4 harg4) K := by
  simp only [cc9_kernel_eq_skeleton]; unfold cc9_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them; after the body at point `t` each input's
    buffer at its block and the output's at `out9_3` of the input blocks; the invariant is the untouched rest of the core's
    state; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`: the invariant, the core's debts, and each window's current staging buffer, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so the kernel's triple applies; the invariant and the
    core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.Kernel.Hand

end
-- ==== Proof.Kernel.Fold.lean ====
/-
  The contents of the TensorCore's unscoped buffers at every boundary between two items of the main function
  (a stretch of host operations, or a kernel region), as a fold from the launch memory: a host stretch applies
  its operations; a region replaces its one output array by what its twenty write-backs leave and changes
  nothing else.  Then: these contents are the generated conditional frame's valuations at the choice
  "the contents a region leaves are the fold's", and every region's arrays at its exit are the fold's.
-/
import proofs.«175281_j9964324127123_1_alg».proof.Proof.Gen.Kernel.Regions
import proofs.«175281_j9964324127123_1_alg».proof.Proof.Kernel.Region0
import proofs.«175281_j9964324127123_1_alg».proof.Proof.Kernel.Region1
import proofs.«175281_j9964324127123_1_alg».proof.Proof.Kernel.Region2
import proofs.«175281_j9964324127123_1_alg».proof.Proof.Kernel.Region3
import proofs.«175281_j9964324127123_1_alg».proof.Proof.Kernel.Region4
import proofs.«175281_j9964324127123_1_alg».proof.Proof.Kernel.Region5
import proofs.«175281_j9964324127123_1_alg».proof.Proof.Kernel.Region6
import proofs.«175281_j9964324127123_1_alg».proof.Proof.Kernel.Region7
import proofs.«175281_j9964324127123_1_alg».proof.Proof.Kernel.Region8
import proofs.«175281_j9964324127123_1_alg».proof.Proof.Kernel.Region9

noncomputable section

namespace Cert.Kernel.Hand

open Idealize.ShloMosaic Idealize.ShloMosaic.TcCoe
open Idealize.SL Idealize.SL.Sem
open Idealize.ShloMosaic.Pipeline (Dat)
open Cert.Kernel Cert.Kernel.Gen

variable {F : FTy → Type} [FloatOps F]
variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-! ## The fold -/

/-- After the host stretch `hostOps0`. -/
def W1 (c : Dev nD) : Valuation τ sig (Elt F) := StableHlo.after hostOps0 (V0 m c)
/-- After region 0: `main_v1` holds what the region's write-backs leave. -/
def W2 (c : Dev nD) : Valuation τ sig (Elt F) :=
  Function.update (W1 m c) main_v1 ((dat0 (atTc (W1 m)) c).arrAt 3 cfg0.N)
/-- After the host stretch `hostOps1`. -/
def W3 (c : Dev nD) : Valuation τ sig (Elt F) := StableHlo.after hostOps1 (W2 m c)
/-- After region 1: `main_v14` holds what the region's write-backs leave. -/
def W4 (c : Dev nD) : Valuation τ sig (Elt F) :=
  Function.update (W3 m c) main_v14 ((dat1 (atTc (W3 m)) c).arrAt 3 cfg1.N)
/-- After the host stretch `hostOps2`. -/
def W5 (c : Dev nD) : Valuation τ sig (Elt F) := StableHlo.after hostOps2 (W4 m c)
/-- After the host stretch `hostOps2_1`. -/
def W6 (c : Dev nD) : Valuation τ sig (Elt F) := StableHlo.after hostOps2_1 (W5 m c)
/-- After the host stretch `hostOps2_2`. -/
def W7 (c : Dev nD) : Valuation τ sig (Elt F) := StableHlo.after hostOps2_2 (W6 m c)
/-- After region 2: `main_v30` holds what the region's write-backs leave. -/
def W8 (c : Dev nD) : Valuation τ sig (Elt F) :=
  Function.update (W7 m c) main_v30 ((dat2 (atTc (W7 m)) c).arrAt 5 cfg2.N)
/-- After the host stretch `hostOps3`. -/
def W9 (c : Dev nD) : Valuation τ sig (Elt F) := StableHlo.after hostOps3 (W8 m c)
/-- After region 3: `main_v43` holds what the region's write-backs leave. -/
def W10 (c : Dev nD) : Valuation τ sig (Elt F) :=
  Function.update (W9 m c) main_v43 ((dat3 (atTc (W9 m)) c).arrAt 3 cfg3.N)
/-- After the host stretch `hostOps4`. -/
def W11 (c : Dev nD) : Valuation τ sig (Elt F) := StableHlo.after hostOps4 (W10 m c)
/-- After the host stretch `hostOps4_1`. -/
def W12 (c : Dev nD) : Valuation τ sig (Elt F) := StableHlo.after hostOps4_1 (W11 m c)
/-- After the host stretch `hostOps4_2`. -/
def W13 (c : Dev nD) : Valuation τ sig (Elt F) := StableHlo.after hostOps4_2 (W12 m c)
/-- After region 4: `main_v59` holds what the region's write-backs leave. -/
def W14 (c : Dev nD) : Valuation τ sig (Elt F) :=
  Function.update (W13 m c) main_v59 ((dat4 (atTc (W13 m)) c).arrAt 5 cfg4.N)
/-- After the host stretch `hostOps5`. -/
def W15 (c : Dev nD) : Valuation τ sig (Elt F) := StableHlo.after hostOps5 (W14 m c)
/-- After region 5: `main_v72` holds what the region's write-backs leave. -/
def W16 (c : Dev nD) : Valuation τ sig (Elt F) :=
  Function.update (W15 m c) main_v72 ((dat5 (atTc (W15 m)) c).arrAt 3 cfg5.N)
/-- After the host stretch `hostOps6`. -/
def W17 (c : Dev nD) : Valuation τ sig (Elt F) := StableHlo.after hostOps6 (W16 m c)
/-- After the host stretch `hostOps6_1`. -/
def W18 (c : Dev nD) : Valuation τ sig (Elt F) := StableHlo.after hostOps6_1 (W17 m c)
/-- After the host stretch `hostOps6_2`. -/
def W19 (c : Dev nD) : Valuation τ sig (Elt F) := StableHlo.after hostOps6_2 (W18 m c)
/-- After region 6: `main_v88` holds what the region's write-backs leave. -/
def W20 (c : Dev nD) : Valuation τ sig (Elt F) :=
  Function.update (W19 m c) main_v88 ((dat6 (atTc (W19 m)) c).arrAt 5 cfg6.N)
/-- After the host stretch `hostOps7`. -/
def W21 (c : Dev nD) : Valuation τ sig (Elt F) := StableHlo.after hostOps7 (W20 m c)
/-- After region 7: `main_v101` holds what the region's write-backs leave. -/
def W22 (c : Dev nD) : Valuation τ sig (Elt F) :=
  Function.update (W21 m c) main_v101 ((dat7 (atTc (W21 m)) c).arrAt 3 cfg7.N)
/-- After the host stretch `hostOps8`. -/
def W23 (c : Dev nD) : Valuation τ sig (Elt F) := StableHlo.after hostOps8 (W22 m c)
/-- After region 8: `main_v104` holds what the region's write-backs leave. -/
def W24 (c : Dev nD) : Valuation τ sig (Elt F) :=
  Function.update (W23 m c) main_v104 ((dat8 (atTc (W23 m)) c).arrAt 3 cfg8.N)
/-- After the host stretch `hostOps9`. -/
def W25 (c : Dev nD) : Valuation τ sig (Elt F) := StableHlo.after hostOps9 (W24 m c)
/-- After region 9: `main_v117` holds what the region's write-backs leave. -/
def W26 (c : Dev nD) : Valuation τ sig (Elt F) :=
  Function.update (W25 m c) main_v117 ((dat9 (atTc (W25 m)) c).arrAt 3 cfg9.N)

/-! ## The fold is the generated valuations at its own contents -/

/-- What each region leaves, read off the fold. -/
def outs : Outs (F := F) := fun J r c => match J with
  | 2 => W2 m c r
  | 4 => W4 m c r
  | 8 => W8 m c r
  | 10 => W10 m c r
  | 14 => W14 m c r
  | 16 => W16 m c r
  | 20 => W20 m c r
  | 22 => W22 m c r
  | 24 => W24 m c r
  | 26 => W26 m c r
  | _ => m ((c : Thread nD τ).loc r)

theorem V1_eq (c : Dev nD) : V1 m c = W1 m c := rfl
theorem V2_eq (c : Dev nD) : V2 m (outs m) c = W2 m c := by
  show Function.update (V1 m c) main_v1 (W2 m c main_v1) = W2 m c
  rw [V1_eq]; unfold W2; rw [Function.update_self]
theorem V3_eq (c : Dev nD) : V3 m (outs m) c = W3 m c := by
  show StableHlo.after hostOps1 (V2 m (outs m) c) = W3 m c
  rw [V2_eq]; rfl
theorem V4_eq (c : Dev nD) : V4 m (outs m) c = W4 m c := by
  show Function.update (V3 m (outs m) c) main_v14 (W4 m c main_v14) = W4 m c
  rw [V3_eq]; unfold W4; rw [Function.update_self]
theorem V5_eq (c : Dev nD) : V5 m (outs m) c = W5 m c := by
  show StableHlo.after hostOps2 (V4 m (outs m) c) = W5 m c
  rw [V4_eq]; rfl
theorem V6_eq (c : Dev nD) : V6 m (outs m) c = W6 m c := by
  show StableHlo.after hostOps2_1 (V5 m (outs m) c) = W6 m c
  rw [V5_eq]; rfl
theorem V7_eq (c : Dev nD) : V7 m (outs m) c = W7 m c := by
  show StableHlo.after hostOps2_2 (V6 m (outs m) c) = W7 m c
  rw [V6_eq]; rfl
theorem V8_eq (c : Dev nD) : V8 m (outs m) c = W8 m c := by
  show Function.update (V7 m (outs m) c) main_v30 (W8 m c main_v30) = W8 m c
  rw [V7_eq]; unfold W8; rw [Function.update_self]
theorem V9_eq (c : Dev nD) : V9 m (outs m) c = W9 m c := by
  show StableHlo.after hostOps3 (V8 m (outs m) c) = W9 m c
  rw [V8_eq]; rfl
theorem V10_eq (c : Dev nD) : V10 m (outs m) c = W10 m c := by
  show Function.update (V9 m (outs m) c) main_v43 (W10 m c main_v43) = W10 m c
  rw [V9_eq]; unfold W10; rw [Function.update_self]
theorem V11_eq (c : Dev nD) : V11 m (outs m) c = W11 m c := by
  show StableHlo.after hostOps4 (V10 m (outs m) c) = W11 m c
  rw [V10_eq]; rfl
theorem V12_eq (c : Dev nD) : V12 m (outs m) c = W12 m c := by
  show StableHlo.after hostOps4_1 (V11 m (outs m) c) = W12 m c
  rw [V11_eq]; rfl
theorem V13_eq (c : Dev nD) : V13 m (outs m) c = W13 m c := by
  show StableHlo.after hostOps4_2 (V12 m (outs m) c) = W13 m c
  rw [V12_eq]; rfl
theorem V14_eq (c : Dev nD) : V14 m (outs m) c = W14 m c := by
  show Function.update (V13 m (outs m) c) main_v59 (W14 m c main_v59) = W14 m c
  rw [V13_eq]; unfold W14; rw [Function.update_self]
theorem V15_eq (c : Dev nD) : V15 m (outs m) c = W15 m c := by
  show StableHlo.after hostOps5 (V14 m (outs m) c) = W15 m c
  rw [V14_eq]; rfl
theorem V16_eq (c : Dev nD) : V16 m (outs m) c = W16 m c := by
  show Function.update (V15 m (outs m) c) main_v72 (W16 m c main_v72) = W16 m c
  rw [V15_eq]; unfold W16; rw [Function.update_self]
theorem V17_eq (c : Dev nD) : V17 m (outs m) c = W17 m c := by
  show StableHlo.after hostOps6 (V16 m (outs m) c) = W17 m c
  rw [V16_eq]; rfl
theorem V18_eq (c : Dev nD) : V18 m (outs m) c = W18 m c := by
  show StableHlo.after hostOps6_1 (V17 m (outs m) c) = W18 m c
  rw [V17_eq]; rfl
theorem V19_eq (c : Dev nD) : V19 m (outs m) c = W19 m c := by
  show StableHlo.after hostOps6_2 (V18 m (outs m) c) = W19 m c
  rw [V18_eq]; rfl
theorem V20_eq (c : Dev nD) : V20 m (outs m) c = W20 m c := by
  show Function.update (V19 m (outs m) c) main_v88 (W20 m c main_v88) = W20 m c
  rw [V19_eq]; unfold W20; rw [Function.update_self]
theorem V21_eq (c : Dev nD) : V21 m (outs m) c = W21 m c := by
  show StableHlo.after hostOps7 (V20 m (outs m) c) = W21 m c
  rw [V20_eq]; rfl
theorem V22_eq (c : Dev nD) : V22 m (outs m) c = W22 m c := by
  show Function.update (V21 m (outs m) c) main_v101 (W22 m c main_v101) = W22 m c
  rw [V21_eq]; unfold W22; rw [Function.update_self]
theorem V23_eq (c : Dev nD) : V23 m (outs m) c = W23 m c := by
  show StableHlo.after hostOps8 (V22 m (outs m) c) = W23 m c
  rw [V22_eq]; rfl
theorem V24_eq (c : Dev nD) : V24 m (outs m) c = W24 m c := by
  show Function.update (V23 m (outs m) c) main_v104 (W24 m c main_v104) = W24 m c
  rw [V23_eq]; unfold W24; rw [Function.update_self]
theorem V25_eq (c : Dev nD) : V25 m (outs m) c = W25 m c := by
  show StableHlo.after hostOps9 (V24 m (outs m) c) = W25 m c
  rw [V24_eq]; rfl
theorem V26_eq (c : Dev nD) : V26 m (outs m) c = W26 m c := by
  show Function.update (V25 m (outs m) c) main_v117 (W26 m c main_v117) = W26 m c
  rw [V25_eq]; unfold W26; rw [Function.update_self]

/-! ## Every region's arrays at its exit -/

/-- Region 0: at its exit each window's array holds what the pipeline leaves — an input's as entered, the output's
    the write-backs' fold. -/
theorem hF0 (c : Dev nD) (w : Fin cfg0.W) :
    (dat0 (atTc (W1 m)) c).arrAt w cfg0.N = atTc (W2 m) c (Pipeline.arrRef spec0 w) := by
  unfold atTc W2
  match w with
  | ⟨0, _⟩ =>
    exact (((dat0 (atTc (W1 m)) c).arrAt_in 0 rfl _).trans (A_eq0 (atTc (W1 m)) c 0)).trans
      (Function.update_of_ne (StableHlo.devRef_ne_of_ne (by decide)) _ _).symm
  | ⟨1, _⟩ =>
    exact (((dat0 (atTc (W1 m)) c).arrAt_in 1 rfl _).trans (A_eq0 (atTc (W1 m)) c 1)).trans
      (Function.update_of_ne (StableHlo.devRef_ne_of_ne (by decide)) _ _).symm
  | ⟨2, _⟩ =>
    exact (((dat0 (atTc (W1 m)) c).arrAt_in 2 rfl _).trans (A_eq0 (atTc (W1 m)) c 2)).trans
      (Function.update_of_ne (StableHlo.devRef_ne_of_ne (by decide)) _ _).symm
  | ⟨3, _⟩ => exact (Function.update_self (main_v1 : DevRef τ sig) _ (W1 m c)).symm
theorem hrest0 (c : Dev nD) : ∀ b, b ∉ Finset.univ.image (Pipeline.arrRef spec0) → atTc (W2 m) c b = atTc (W1 m) c b := by
  intro b hb
  unfold atTc W2
  exact Function.update_of_ne (StableHlo.devRef_ne_of_ne fun e => hb (Finset.mem_image.mpr ⟨3, Finset.mem_univ _, e.symm⟩)) _ _

/-- Region 1: at its exit each window's array holds what the pipeline leaves — an input's as entered, the output's
    the write-backs' fold. -/
theorem hF1 (c : Dev nD) (w : Fin cfg1.W) :
    (dat1 (atTc (W3 m)) c).arrAt w cfg1.N = atTc (W4 m) c (Pipeline.arrRef spec1 w) := by
  unfold atTc W4
  match w with
  | ⟨0, _⟩ =>
    exact (((dat1 (atTc (W3 m)) c).arrAt_in 0 rfl _).trans (A_eq1 (atTc (W3 m)) c 0)).trans
      (Function.update_of_ne (StableHlo.devRef_ne_of_ne (by decide)) _ _).symm
  | ⟨1, _⟩ =>
    exact (((dat1 (atTc (W3 m)) c).arrAt_in 1 rfl _).trans (A_eq1 (atTc (W3 m)) c 1)).trans
      (Function.update_of_ne (StableHlo.devRef_ne_of_ne (by decide)) _ _).symm
  | ⟨2, _⟩ =>
    exact (((dat1 (atTc (W3 m)) c).arrAt_in 2 rfl _).trans (A_eq1 (atTc (W3 m)) c 2)).trans
      (Function.update_of_ne (StableHlo.devRef_ne_of_ne (by decide)) _ _).symm
  | ⟨3, _⟩ => exact (Function.update_self (main_v14 : DevRef τ sig) _ (W3 m c)).symm
theorem hrest1 (c : Dev nD) : ∀ b, b ∉ Finset.univ.image (Pipeline.arrRef spec1) → atTc (W4 m) c b = atTc (W3 m) c b := by
  intro b hb
  unfold atTc W4
  exact Function.update_of_ne (StableHlo.devRef_ne_of_ne fun e => hb (Finset.mem_image.mpr ⟨3, Finset.mem_univ _, e.symm⟩)) _ _

set_option maxHeartbeats 4000000 in
/-- Region 2: at its exit each window's array holds what the pipeline leaves — an input's as entered, the output's
    the write-backs' fold. -/
theorem hF2 (c : Dev nD) (w : Fin cfg2.W) :
    (dat2 (atTc (W7 m)) c).arrAt w cfg2.N = atTc (W8 m) c (Pipeline.arrRef spec2 w) := by
  unfold atTc W8
  match w with
  | ⟨0, _⟩ =>
    exact (((dat2 (atTc (W7 m)) c).arrAt_in 0 rfl _).trans (A_eq2 (atTc (W7 m)) c 0)).trans
      (Function.update_of_ne (StableHlo.devRef_ne_of_ne (by decide)) _ _).symm
  | ⟨1, _⟩ =>
    exact (((dat2 (atTc (W7 m)) c).arrAt_in 1 rfl _).trans (A_eq2 (atTc (W7 m)) c 1)).trans
      (Function.update_of_ne (StableHlo.devRef_ne_of_ne (by decide)) _ _).symm
  | ⟨2, _⟩ =>
    exact (((dat2 (atTc (W7 m)) c).arrAt_in 2 rfl _).trans (A_eq2 (atTc (W7 m)) c 2)).trans
      (Function.update_of_ne (StableHlo.devRef_ne_of_ne (by decide)) _ _).symm
  | ⟨3, _⟩ =>
    exact (((dat2 (atTc (W7 m)) c).arrAt_in 3 rfl _).trans (A_eq2 (atTc (W7 m)) c 3)).trans
      (Function.update_of_ne (StableHlo.devRef_ne_of_ne (by decide)) _ _).symm
  | ⟨4, _⟩ =>
    exact (((dat2 (atTc (W7 m)) c).arrAt_in 4 rfl _).trans (A_eq2 (atTc (W7 m)) c 4)).trans
      (Function.update_of_ne (StableHlo.devRef_ne_of_ne (by decide)) _ _).symm
  | ⟨5, _⟩ => exact (Function.update_self (main_v30 : DevRef τ sig) _ (W7 m c)).symm
theorem hrest2 (c : Dev nD) : ∀ b, b ∉ Finset.univ.image (Pipeline.arrRef spec2) → atTc (W8 m) c b = atTc (W7 m) c b := by
  intro b hb
  unfold atTc W8
  exact Function.update_of_ne (StableHlo.devRef_ne_of_ne fun e => hb (Finset.mem_image.mpr ⟨5, Finset.mem_univ _, e.symm⟩)) _ _

/-- Region 3: at its exit each window's array holds what the pipeline leaves — an input's as entered, the output's
    the write-backs' fold. -/
theorem hF3 (c : Dev nD) (w : Fin cfg3.W) :
    (dat3 (atTc (W9 m)) c).arrAt w cfg3.N = atTc (W10 m) c (Pipeline.arrRef spec3 w) := by
  unfold atTc W10
  match w with
  | ⟨0, _⟩ =>
    exact (((dat3 (atTc (W9 m)) c).arrAt_in 0 rfl _).trans (A_eq3 (atTc (W9 m)) c 0)).trans
      (Function.update_of_ne (StableHlo.devRef_ne_of_ne (by decide)) _ _).symm
  | ⟨1, _⟩ =>
    exact (((dat3 (atTc (W9 m)) c).arrAt_in 1 rfl _).trans (A_eq3 (atTc (W9 m)) c 1)).trans
      (Function.update_of_ne (StableHlo.devRef_ne_of_ne (by decide)) _ _).symm
  | ⟨2, _⟩ =>
    exact (((dat3 (atTc (W9 m)) c).arrAt_in 2 rfl _).trans (A_eq3 (atTc (W9 m)) c 2)).trans
      (Function.update_of_ne (StableHlo.devRef_ne_of_ne (by decide)) _ _).symm
  | ⟨3, _⟩ => exact (Function.update_self (main_v43 : DevRef τ sig) _ (W9 m c)).symm
theorem hrest3 (c : Dev nD) : ∀ b, b ∉ Finset.univ.image (Pipeline.arrRef spec3) → atTc (W10 m) c b = atTc (W9 m) c b := by
  intro b hb
  unfold atTc W10
  exact Function.update_of_ne (StableHlo.devRef_ne_of_ne fun e => hb (Finset.mem_image.mpr ⟨3, Finset.mem_univ _, e.symm⟩)) _ _

set_option maxHeartbeats 4000000 in
/-- Region 4: at its exit each window's array holds what the pipeline leaves — an input's as entered, the output's
    the write-backs' fold. -/
theorem hF4 (c : Dev nD) (w : Fin cfg4.W) :
    (dat4 (atTc (W13 m)) c).arrAt w cfg4.N = atTc (W14 m) c (Pipeline.arrRef spec4 w) := by
  unfold atTc W14
  match w with
  | ⟨0, _⟩ =>
    exact (((dat4 (atTc (W13 m)) c).arrAt_in 0 rfl _).trans (A_eq4 (atTc (W13 m)) c 0)).trans
      (Function.update_of_ne (StableHlo.devRef_ne_of_ne (by decide)) _ _).symm
  | ⟨1, _⟩ =>
    exact (((dat4 (atTc (W13 m)) c).arrAt_in 1 rfl _).trans (A_eq4 (atTc (W13 m)) c 1)).trans
      (Function.update_of_ne (StableHlo.devRef_ne_of_ne (by decide)) _ _).symm
  | ⟨2, _⟩ =>
    exact (((dat4 (atTc (W13 m)) c).arrAt_in 2 rfl _).trans (A_eq4 (atTc (W13 m)) c 2)).trans
      (Function.update_of_ne (StableHlo.devRef_ne_of_ne (by decide)) _ _).symm
  | ⟨3, _⟩ =>
    exact (((dat4 (atTc (W13 m)) c).arrAt_in 3 rfl _).trans (A_eq4 (atTc (W13 m)) c 3)).trans
      (Function.update_of_ne (StableHlo.devRef_ne_of_ne (by decide)) _ _).symm
  | ⟨4, _⟩ =>
    exact (((dat4 (atTc (W13 m)) c).arrAt_in 4 rfl _).trans (A_eq4 (atTc (W13 m)) c 4)).trans
      (Function.update_of_ne (StableHlo.devRef_ne_of_ne (by decide)) _ _).symm
  | ⟨5, _⟩ => exact (Function.update_self (main_v59 : DevRef τ sig) _ (W13 m c)).symm
theorem hrest4 (c : Dev nD) : ∀ b, b ∉ Finset.univ.image (Pipeline.arrRef spec4) → atTc (W14 m) c b = atTc (W13 m) c b := by
  intro b hb
  unfold atTc W14
  exact Function.update_of_ne (StableHlo.devRef_ne_of_ne fun e => hb (Finset.mem_image.mpr ⟨5, Finset.mem_univ _, e.symm⟩)) _ _

/-- Region 5: at its exit each window's array holds what the pipeline leaves — an input's as entered, the output's
    the write-backs' fold. -/
theorem hF5 (c : Dev nD) (w : Fin cfg5.W) :
    (dat5 (atTc (W15 m)) c).arrAt w cfg5.N = atTc (W16 m) c (Pipeline.arrRef spec5 w) := by
  unfold atTc W16
  match w with
  | ⟨0, _⟩ =>
    exact (((dat5 (atTc (W15 m)) c).arrAt_in 0 rfl _).trans (A_eq5 (atTc (W15 m)) c 0)).trans
      (Function.update_of_ne (StableHlo.devRef_ne_of_ne (by decide)) _ _).symm
  | ⟨1, _⟩ =>
    exact (((dat5 (atTc (W15 m)) c).arrAt_in 1 rfl _).trans (A_eq5 (atTc (W15 m)) c 1)).trans
      (Function.update_of_ne (StableHlo.devRef_ne_of_ne (by decide)) _ _).symm
  | ⟨2, _⟩ =>
    exact (((dat5 (atTc (W15 m)) c).arrAt_in 2 rfl _).trans (A_eq5 (atTc (W15 m)) c 2)).trans
      (Function.update_of_ne (StableHlo.devRef_ne_of_ne (by decide)) _ _).symm
  | ⟨3, _⟩ => exact (Function.update_self (main_v72 : DevRef τ sig) _ (W15 m c)).symm
theorem hrest5 (c : Dev nD) : ∀ b, b ∉ Finset.univ.image (Pipeline.arrRef spec5) → atTc (W16 m) c b = atTc (W15 m) c b := by
  intro b hb
  unfold atTc W16
  exact Function.update_of_ne (StableHlo.devRef_ne_of_ne fun e => hb (Finset.mem_image.mpr ⟨3, Finset.mem_univ _, e.symm⟩)) _ _

set_option maxHeartbeats 4000000 in
/-- Region 6: at its exit each window's array holds what the pipeline leaves — an input's as entered, the output's
    the write-backs' fold. -/
theorem hF6 (c : Dev nD) (w : Fin cfg6.W) :
    (dat6 (atTc (W19 m)) c).arrAt w cfg6.N = atTc (W20 m) c (Pipeline.arrRef spec6 w) := by
  unfold atTc W20
  match w with
  | ⟨0, _⟩ =>
    exact (((dat6 (atTc (W19 m)) c).arrAt_in 0 rfl _).trans (A_eq6 (atTc (W19 m)) c 0)).trans
      (Function.update_of_ne (StableHlo.devRef_ne_of_ne (by decide)) _ _).symm
  | ⟨1, _⟩ =>
    exact (((dat6 (atTc (W19 m)) c).arrAt_in 1 rfl _).trans (A_eq6 (atTc (W19 m)) c 1)).trans
      (Function.update_of_ne (StableHlo.devRef_ne_of_ne (by decide)) _ _).symm
  | ⟨2, _⟩ =>
    exact (((dat6 (atTc (W19 m)) c).arrAt_in 2 rfl _).trans (A_eq6 (atTc (W19 m)) c 2)).trans
      (Function.update_of_ne (StableHlo.devRef_ne_of_ne (by decide)) _ _).symm
  | ⟨3, _⟩ =>
    exact (((dat6 (atTc (W19 m)) c).arrAt_in 3 rfl _).trans (A_eq6 (atTc (W19 m)) c 3)).trans
      (Function.update_of_ne (StableHlo.devRef_ne_of_ne (by decide)) _ _).symm
  | ⟨4, _⟩ =>
    exact (((dat6 (atTc (W19 m)) c).arrAt_in 4 rfl _).trans (A_eq6 (atTc (W19 m)) c 4)).trans
      (Function.update_of_ne (StableHlo.devRef_ne_of_ne (by decide)) _ _).symm
  | ⟨5, _⟩ => exact (Function.update_self (main_v88 : DevRef τ sig) _ (W19 m c)).symm
theorem hrest6 (c : Dev nD) : ∀ b, b ∉ Finset.univ.image (Pipeline.arrRef spec6) → atTc (W20 m) c b = atTc (W19 m) c b := by
  intro b hb
  unfold atTc W20
  exact Function.update_of_ne (StableHlo.devRef_ne_of_ne fun e => hb (Finset.mem_image.mpr ⟨5, Finset.mem_univ _, e.symm⟩)) _ _

/-- Region 7: at its exit each window's array holds what the pipeline leaves — an input's as entered, the output's
    the write-backs' fold. -/
theorem hF7 (c : Dev nD) (w : Fin cfg7.W) :
    (dat7 (atTc (W21 m)) c).arrAt w cfg7.N = atTc (W22 m) c (Pipeline.arrRef spec7 w) := by
  unfold atTc W22
  match w with
  | ⟨0, _⟩ =>
    exact (((dat7 (atTc (W21 m)) c).arrAt_in 0 rfl _).trans (A_eq7 (atTc (W21 m)) c 0)).trans
      (Function.update_of_ne (StableHlo.devRef_ne_of_ne (by decide)) _ _).symm
  | ⟨1, _⟩ =>
    exact (((dat7 (atTc (W21 m)) c).arrAt_in 1 rfl _).trans (A_eq7 (atTc (W21 m)) c 1)).trans
      (Function.update_of_ne (StableHlo.devRef_ne_of_ne (by decide)) _ _).symm
  | ⟨2, _⟩ =>
    exact (((dat7 (atTc (W21 m)) c).arrAt_in 2 rfl _).trans (A_eq7 (atTc (W21 m)) c 2)).trans
      (Function.update_of_ne (StableHlo.devRef_ne_of_ne (by decide)) _ _).symm
  | ⟨3, _⟩ => exact (Function.update_self (main_v101 : DevRef τ sig) _ (W21 m c)).symm
theorem hrest7 (c : Dev nD) : ∀ b, b ∉ Finset.univ.image (Pipeline.arrRef spec7) → atTc (W22 m) c b = atTc (W21 m) c b := by
  intro b hb
  unfold atTc W22
  exact Function.update_of_ne (StableHlo.devRef_ne_of_ne fun e => hb (Finset.mem_image.mpr ⟨3, Finset.mem_univ _, e.symm⟩)) _ _

/-- Region 8: at its exit each window's array holds what the pipeline leaves — an input's as entered, the output's
    the write-backs' fold. -/
theorem hF8 (c : Dev nD) (w : Fin cfg8.W) :
    (dat8 (atTc (W23 m)) c).arrAt w cfg8.N = atTc (W24 m) c (Pipeline.arrRef spec8 w) := by
  unfold atTc W24
  match w with
  | ⟨0, _⟩ =>
    exact (((dat8 (atTc (W23 m)) c).arrAt_in 0 rfl _).trans (A_eq8 (atTc (W23 m)) c 0)).trans
      (Function.update_of_ne (StableHlo.devRef_ne_of_ne (by decide)) _ _).symm
  | ⟨1, _⟩ =>
    exact (((dat8 (atTc (W23 m)) c).arrAt_in 1 rfl _).trans (A_eq8 (atTc (W23 m)) c 1)).trans
      (Function.update_of_ne (StableHlo.devRef_ne_of_ne (by decide)) _ _).symm
  | ⟨2, _⟩ =>
    exact (((dat8 (atTc (W23 m)) c).arrAt_in 2 rfl _).trans (A_eq8 (atTc (W23 m)) c 2)).trans
      (Function.update_of_ne (StableHlo.devRef_ne_of_ne (by decide)) _ _).symm
  | ⟨3, _⟩ => exact (Function.update_self (main_v104 : DevRef τ sig) _ (W23 m c)).symm
theorem hrest8 (c : Dev nD) : ∀ b, b ∉ Finset.univ.image (Pipeline.arrRef spec8) → atTc (W24 m) c b = atTc (W23 m) c b := by
  intro b hb
  unfold atTc W24
  exact Function.update_of_ne (StableHlo.devRef_ne_of_ne fun e => hb (Finset.mem_image.mpr ⟨3, Finset.mem_univ _, e.symm⟩)) _ _

/-- Region 9: at its exit each window's array holds what the pipeline leaves — an input's as entered, the output's
    the write-backs' fold. -/
theorem hF9 (c : Dev nD) (w : Fin cfg9.W) :
    (dat9 (atTc (W25 m)) c).arrAt w cfg9.N = atTc (W26 m) c (Pipeline.arrRef spec9 w) := by
  unfold atTc W26
  match w with
  | ⟨0, _⟩ =>
    exact (((dat9 (atTc (W25 m)) c).arrAt_in 0 rfl _).trans (A_eq9 (atTc (W25 m)) c 0)).trans
      (Function.update_of_ne (StableHlo.devRef_ne_of_ne (by decide)) _ _).symm
  | ⟨1, _⟩ =>
    exact (((dat9 (atTc (W25 m)) c).arrAt_in 1 rfl _).trans (A_eq9 (atTc (W25 m)) c 1)).trans
      (Function.update_of_ne (StableHlo.devRef_ne_of_ne (by decide)) _ _).symm
  | ⟨2, _⟩ =>
    exact (((dat9 (atTc (W25 m)) c).arrAt_in 2 rfl _).trans (A_eq9 (atTc (W25 m)) c 2)).trans
      (Function.update_of_ne (StableHlo.devRef_ne_of_ne (by decide)) _ _).symm
  | ⟨3, _⟩ => exact (Function.update_self (main_v117 : DevRef τ sig) _ (W25 m c)).symm
theorem hrest9 (c : Dev nD) : ∀ b, b ∉ Finset.univ.image (Pipeline.arrRef spec9) → atTc (W26 m) c b = atTc (W25 m) c b := by
  intro b hb
  unfold atTc W26
  exact Function.update_of_ne (StableHlo.devRef_ne_of_ne fun e => hb (Finset.mem_image.mpr ⟨3, Finset.mem_univ _, e.symm⟩)) _ _

end Cert.Kernel.Hand

end
-- ==== Proof.Kernel.Data.lean ====
/-
  The proof data of the ten pipelines, each at the fold's contents where its region is entered, and what rides beside
  the buffers through every item: the core's generator register at some state and the core owing nothing.
-/
import proofs.«175281_j9964324127123_1_alg».proof.Proof.Kernel.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents (a literal match on the pipeline's number). -/
def pdats : (p : Fin 10) → (c : Dev nD) → Dat τ (Elt F) Unit ℕ (UR sig nD τ) ℕ (cfgs p) c
  | ⟨0, _⟩ => fun c => dat0 (atTc (W1 m)) c
  | ⟨1, _⟩ => fun c => dat1 (atTc (W3 m)) c
  | ⟨2, _⟩ => fun c => dat2 (atTc (W7 m)) c
  | ⟨3, _⟩ => fun c => dat3 (atTc (W9 m)) c
  | ⟨4, _⟩ => fun c => dat4 (atTc (W13 m)) c
  | ⟨5, _⟩ => fun c => dat5 (atTc (W15 m)) c
  | ⟨6, _⟩ => fun c => dat6 (atTc (W19 m)) c
  | ⟨7, _⟩ => fun c => dat7 (atTc (W21 m)) c
  | ⟨8, _⟩ => fun c => dat8 (atTc (W23 m)) c
  | ⟨9, _⟩ => fun c => dat9 (atTc (W25 m)) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

end Cert.Kernel.Hand

end
-- ==== Proof.Kernel.Seg0.lean ====
/-
  Region 0 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg1.lean ====
/-
  Region 1 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W3 m) c) (atTc (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg2.lean ====
/-
  Region 2 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atTc (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W7 m) c) (atTc (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg3.lean ====
/-
  Region 3 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (atTc (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W9 m) c) (atTc (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg4.lean ====
/-
  Region 4 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W13 m)) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (atTc (W13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W13 m) c) (atTc (W14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg5.lean ====
/-
  Region 5 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W15 m)) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (atTc (W15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W15 m) c) (atTc (W16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg6.lean ====
/-
  Region 6 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (W19 m)) c).loose
  hwaits := Pipeline.hwaits_of_owed_zero _ _ _ _ L lv 6 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec6 c (atTc (W19 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (W19 m) c) (atTc (W20 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg7.lean ====
/-
  Region 7 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atTc (W21 m)) c).loose
  hwaits := Pipeline.hwaits_of_owed_zero _ _ _ _ L lv 7 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec7 c (atTc (W21 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (W21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (W21 m) c) (atTc (W22 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg8.lean ====
/-
  Region 8 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atTc (W23 m)) c).loose
  hwaits := Pipeline.hwaits_of_owed_zero _ _ _ _ L lv 8 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec8 c (atTc (W23 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atTc (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc (W23 m) c) (atTc (W24 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Seg9.lean ====
/-
  Region 9 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.Kernel.Data

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (atTc (W25 m)) c).loose
  hwaits := Pipeline.hwaits_of_owed_zero _ _ _ _ L lv 9 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec9 c (atTc (W25 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atTc (W25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc (W25 m) c) (atTc (W26 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Hand

end
-- ==== Proof.Kernel.Run.lean ====
/-
  The run of the main function: every weakly fair execution from a launch memory with zero counters terminates, nothing
  faulting, the result array holds the fold's last contents and every argument array is as launched.  The host
  stretches and their chaining are the generated conditional frame's segments; the ten regions are this directory's.
-/
import proofs.«175281_j9964324127123_1_alg».proof.Proof.Kernel.Seg0
import proofs.«175281_j9964324127123_1_alg».proof.Proof.Kernel.Seg1
import proofs.«175281_j9964324127123_1_alg».proof.Proof.Kernel.Seg2
import proofs.«175281_j9964324127123_1_alg».proof.Proof.Kernel.Seg3
import proofs.«175281_j9964324127123_1_alg».proof.Proof.Kernel.Seg4
import proofs.«175281_j9964324127123_1_alg».proof.Proof.Kernel.Seg5
import proofs.«175281_j9964324127123_1_alg».proof.Proof.Kernel.Seg6
import proofs.«175281_j9964324127123_1_alg».proof.Proof.Kernel.Seg7
import proofs.«175281_j9964324127123_1_alg».proof.Proof.Kernel.Seg8
import proofs.«175281_j9964324127123_1_alg».proof.Proof.Kernel.Seg9

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- The rest state beside the buffers, the same at every boundary. -/
abbrev E : Fin 11 → Dev nD → sProp 𝕄 := fun _ c => R c

theorem hpre0 (c : Dev nD) : iprop(StableHlo.held (c : Thread nD τ) (Pipeline.ucRefs τ sig) (V1 m c) ∗ E (F := F) 0 c) ⊢ (reg0 m).pre c := by
  rw [V1_eq m c]; exact BI.Entails.refl _
theorem hpost0 (c : Dev nD) : (reg0 m).post c ⊢ iprop(StableHlo.held (c : Thread nD τ) (Pipeline.ucRefs τ sig) (V2 m (outs m) c) ∗ E (F := F) 1 c) := by
  rw [V2_eq m c]; exact BI.Entails.refl _
theorem hpre1 (c : Dev nD) : iprop(StableHlo.held (c : Thread nD τ) (Pipeline.ucRefs τ sig) (V3 m (outs m) c) ∗ E (F := F) 1 c) ⊢ (reg1 m).pre c := by
  rw [V3_eq m c]; exact BI.Entails.refl _
theorem hpost1 (c : Dev nD) : (reg1 m).post c ⊢ iprop(StableHlo.held (c : Thread nD τ) (Pipeline.ucRefs τ sig) (V4 m (outs m) c) ∗ E (F := F) 2 c) := by
  rw [V4_eq m c]; exact BI.Entails.refl _
theorem hpre2 (c : Dev nD) : iprop(StableHlo.held (c : Thread nD τ) (Pipeline.ucRefs τ sig) (V7 m (outs m) c) ∗ E (F := F) 2 c) ⊢ (reg2 m).pre c := by
  rw [V7_eq m c]; exact BI.Entails.refl _
theorem hpost2 (c : Dev nD) : (reg2 m).post c ⊢ iprop(StableHlo.held (c : Thread nD τ) (Pipeline.ucRefs τ sig) (V8 m (outs m) c) ∗ E (F := F) 3 c) := by
  rw [V8_eq m c]; exact BI.Entails.refl _
theorem hpre3 (c : Dev nD) : iprop(StableHlo.held (c : Thread nD τ) (Pipeline.ucRefs τ sig) (V9 m (outs m) c) ∗ E (F := F) 3 c) ⊢ (reg3 m).pre c := by
  rw [V9_eq m c]; exact BI.Entails.refl _
theorem hpost3 (c : Dev nD) : (reg3 m).post c ⊢ iprop(StableHlo.held (c : Thread nD τ) (Pipeline.ucRefs τ sig) (V10 m (outs m) c) ∗ E (F := F) 4 c) := by
  rw [V10_eq m c]; exact BI.Entails.refl _
theorem hpre4 (c : Dev nD) : iprop(StableHlo.held (c : Thread nD τ) (Pipeline.ucRefs τ sig) (V13 m (outs m) c) ∗ E (F := F) 4 c) ⊢ (reg4 m).pre c := by
  rw [V13_eq m c]; exact BI.Entails.refl _
theorem hpost4 (c : Dev nD) : (reg4 m).post c ⊢ iprop(StableHlo.held (c : Thread nD τ) (Pipeline.ucRefs τ sig) (V14 m (outs m) c) ∗ E (F := F) 5 c) := by
  rw [V14_eq m c]; exact BI.Entails.refl _
theorem hpre5 (c : Dev nD) : iprop(StableHlo.held (c : Thread nD τ) (Pipeline.ucRefs τ sig) (V15 m (outs m) c) ∗ E (F := F) 5 c) ⊢ (reg5 m).pre c := by
  rw [V15_eq m c]; exact BI.Entails.refl _
theorem hpost5 (c : Dev nD) : (reg5 m).post c ⊢ iprop(StableHlo.held (c : Thread nD τ) (Pipeline.ucRefs τ sig) (V16 m (outs m) c) ∗ E (F := F) 6 c) := by
  rw [V16_eq m c]; exact BI.Entails.refl _
theorem hpre6 (c : Dev nD) : iprop(StableHlo.held (c : Thread nD τ) (Pipeline.ucRefs τ sig) (V19 m (outs m) c) ∗ E (F := F) 6 c) ⊢ (reg6 m).pre c := by
  rw [V19_eq m c]; exact BI.Entails.refl _
theorem hpost6 (c : Dev nD) : (reg6 m).post c ⊢ iprop(StableHlo.held (c : Thread nD τ) (Pipeline.ucRefs τ sig) (V20 m (outs m) c) ∗ E (F := F) 7 c) := by
  rw [V20_eq m c]; exact BI.Entails.refl _
theorem hpre7 (c : Dev nD) : iprop(StableHlo.held (c : Thread nD τ) (Pipeline.ucRefs τ sig) (V21 m (outs m) c) ∗ E (F := F) 7 c) ⊢ (reg7 m).pre c := by
  rw [V21_eq m c]; exact BI.Entails.refl _
theorem hpost7 (c : Dev nD) : (reg7 m).post c ⊢ iprop(StableHlo.held (c : Thread nD τ) (Pipeline.ucRefs τ sig) (V22 m (outs m) c) ∗ E (F := F) 8 c) := by
  rw [V22_eq m c]; exact BI.Entails.refl _
theorem hpre8 (c : Dev nD) : iprop(StableHlo.held (c : Thread nD τ) (Pipeline.ucRefs τ sig) (V23 m (outs m) c) ∗ E (F := F) 8 c) ⊢ (reg8 m).pre c := by
  rw [V23_eq m c]; exact BI.Entails.refl _
theorem hpost8 (c : Dev nD) : (reg8 m).post c ⊢ iprop(StableHlo.held (c : Thread nD τ) (Pipeline.ucRefs τ sig) (V24 m (outs m) c) ∗ E (F := F) 9 c) := by
  rw [V24_eq m c]; exact BI.Entails.refl _
theorem hpre9 (c : Dev nD) : iprop(StableHlo.held (c : Thread nD τ) (Pipeline.ucRefs τ sig) (V25 m (outs m) c) ∗ E (F := F) 9 c) ⊢ (reg9 m).pre c := by
  rw [V25_eq m c]; exact BI.Entails.refl _
theorem hpost9 (c : Dev nD) : (reg9 m).post c ⊢ iprop(StableHlo.held (c : Thread nD τ) (Pipeline.ucRefs τ sig) (V26 m (outs m) c) ∗ E (F := F) 10 c) := by
  rw [V26_eq m c]; exact BI.Entails.refl _
theorem hlast (c : Dev nD) : (reg9 m).post c ⊢ iprop(StableHlo.held (c : Thread nD τ) (Pipeline.ucRefs τ sig) (V26 m (outs m) c)
    ∗ ∃ W, owes (c.tc : Thread nD τ) (0 : CellTallies nD τ sig Unit) W) := by
  rw [V26_eq m c]
  show iprop(StableHlo.held (c : Thread nD τ) (Pipeline.ucRefs τ sig) (W26 m c) ∗ R c) ⊢ _
  iintro ⟨Hh, -, HO⟩
  isplitl [Hh]; · iexact Hh
  iexact HO

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_v117) = W26 m c main_v117
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m) (reg7 m) (reg8 m) (reg9 m))
    (fun c Q => by
      rewrite [main_chain c, Seg.run_eq_chain,
        show (segs m (outs m) 𝒱₀ L lv E () (pdats m) (reg0 m) (reg1 m) (reg2 m) (reg3 m) (reg4 m) (reg5 m) (reg6 m) (reg7 m) (reg8 m) (reg9 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V26 m (outs m) c))
    (hch := fun c => ⟨.rfl, hpre0 m c, hpost0 m c, hpre1 m c, hpost1 m c, .rfl, .rfl, hpre2 m c, hpost2 m c, hpre3 m c, hpost3 m c, .rfl, .rfl, hpre4 m c, hpost4 m c, hpre5 m c, hpost5 m c, .rfl, .rfl, hpre6 m c, hpost6 m c, hpre7 m c, hpost7 m c, hpre8 m c, hpost8 m c, hpre9 m c, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v117) = W26 m c main_v117 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  -- the end: the result's and each argument's buffer read off the last valuation
  unfold StableHlo.held
  iintro ⟨Hh, HSI⟩
  ihave Hr := (pointsTo_read_all (Pipeline.ucRefs τ sig) (fun b => ((c : Thread nD τ).1, b)) (V26 m (outs m) c) s') $$ [Hh HSI]
  · isplitl [Hh] <;> iassumption
  icases Hr with ⟨%h, HSI⟩
  imodintro
  isplitr
  · ipureintro
    exact ⟨(h (Proc.devRef .tc main_v117) (Finset.mem_filter.mpr ⟨StableHlo.devRef_mem_tcRefs main_v117, by decide⟩)).trans (congrFun (V26_eq m c) _),
      (h (Proc.devRef .tc main_arg0) (Finset.mem_filter.mpr ⟨StableHlo.devRef_mem_tcRefs main_arg0, by decide⟩)).trans (V26_main_arg0 m (outs m) c),
      (h (Proc.devRef .tc main_arg1) (Finset.mem_filter.mpr ⟨StableHlo.devRef_mem_tcRefs main_arg1, by decide⟩)).trans (V26_main_arg1 m (outs m) c),
      (h (Proc.devRef .tc main_arg2) (Finset.mem_filter.mpr ⟨StableHlo.devRef_mem_tcRefs main_arg2, by decide⟩)).trans (V26_main_arg2 m (outs m) c),
      (h (Proc.devRef .tc main_arg3) (Finset.mem_filter.mpr ⟨StableHlo.devRef_mem_tcRefs main_arg3, by decide⟩)).trans (V26_main_arg3 m (outs m) c),
      (h (Proc.devRef .tc main_arg4) (Finset.mem_filter.mpr ⟨StableHlo.devRef_mem_tcRefs main_arg4, by decide⟩)).trans (V26_main_arg4 m (outs m) c),
      (h (Proc.devRef .tc main_arg5) (Finset.mem_filter.mpr ⟨StableHlo.devRef_mem_tcRefs main_arg5, by decide⟩)).trans (V26_main_arg5 m (outs m) c),
      (h (Proc.devRef .tc main_arg6) (Finset.mem_filter.mpr ⟨StableHlo.devRef_mem_tcRefs main_arg6, by decide⟩)).trans (V26_main_arg6 m (outs m) c),
      (h (Proc.devRef .tc main_arg7) (Finset.mem_filter.mpr ⟨StableHlo.devRef_mem_tcRefs main_arg7, by decide⟩)).trans (V26_main_arg7 m (outs m) c),
      (h (Proc.devRef .tc main_arg8) (Finset.mem_filter.mpr ⟨StableHlo.devRef_mem_tcRefs main_arg8, by decide⟩)).trans (V26_main_arg8 m (outs m) c),
      (h (Proc.devRef .tc main_arg9) (Finset.mem_filter.mpr ⟨StableHlo.devRef_mem_tcRefs main_arg9, by decide⟩)).trans (V26_main_arg9 m (outs m) c)⟩
  · iexact HSI

end Cert.Kernel.Hand

end
-- ==== Proof.KernelIdeal.Region0.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 0: the body's half of pipeline 0

The kernel of this region is the input linear layer: a row tile of `x` times `W_in` plus the bias row `b_in`.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0: its current staging buffer holds its block at every point — at a point where it is fetched because the
    fetch copies the block, at a point where it is not because the index map has not moved since the last fetch and the
    body leaves the buffer as found. For any proof data over `V`'s arrays whose body leaves input 0's block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer is read or written as one whole rectangle -/

abbrev r0_0 : Rect S5000x128 := Rect.unit (s := S5000x128) ![0, 0] S5000x128.size inb_S5000x128_S5000x128_0_0
abbrev r0_1 : Rect S128x128 := Rect.unit (s := S128x128) ![0, 0] S128x128.size inb_S128x128_S128x128_0_0
abbrev r0_2 : Rect S1x128 := Rect.unit (s := S1x128) ![0, 0] S1x128.size inb_S1x128_S1x128_0_0

/-! ## What the body leaves in the output window's buffer -/

/-- The output buffer after the body, as a function of the input blocks: one store over the whole buffer of the
    kernel's value `k0_pay1` at the whole-buffer reads of the inputs. -/
def out0_3 (x0 : Vec F S5000x128 .f32) (x1 : Vec F S128x128 .f32) (x2 : Vec F S1x128 .f32) : Vec F S5000x128 .f32 :=
  View.canon [⟨r0_0, k0_pay1 (View.ld x0 r0_0) (View.ld x1 r0_1) (View.ld x2 r0_2)⟩]

/-- The one store is over the whole buffer, so it covers every index. -/
theorem cover0_3 (p0 : Vec F S5000x128 .f32) (y : S5000x128.Idx) :
    ∃ pc ∈ ([⟨r0_0, p0⟩] : List (View.Piece (Elt F) S5000x128 .f32)), y ∈ pc.1.set :=
  View.cover_of_tiled [⟨r0_0, p0⟩] S5000x128.size (by rfl) y

/-! ## The body's triple -/

set_option maxHeartbeats 1000000 in
/-- The kernel on whole staging buffers — the inputs' at contents `xW`, the output's at anything — runs to a state with the
    inputs' unchanged and the output's at `out0_3` of the inputs. (The body also reads the output buffer once before
    overwriting it; that value is never used.) -/
theorem sound_kernel0 (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x128 .f32) (x1 : Vec F S128x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__lin_in_kernel i arg1 harg1 arg2 harg2 arg3 harg3 arg4 harg4) K := by
  simp only [cc0__lin_in_kernel_eq_skeleton]; unfold cc0__lin_in_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- The proof data of pipeline 0 on core `c`: the arrays as the region finds them; after the body at point `t` each input's
    buffer at its block and the output's at `out0_3` of the input blocks; the invariant is the untouched rest of the core's
    state; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t`: the invariant, the core's debts, and each window's current staging buffer, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' buffers hold their blocks, so the kernel's triple applies; the invariant and the
    core's debts pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Region1.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 1: the body's half of pipeline 1

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0: its current staging buffer holds its block at every point — at a point where it is fetched because the
    fetch copies the block, at a point where it is not because the index map has not moved since the last fetch and the
    body leaves the buffer as found. For any proof data over `V`'s arrays whose body leaves input 0's block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each buffer is read or written as one whole rectangle -/

abbrev r1_0 : Rect S5000x128 := Rect.unit (s := S5000x128) ![0, 0] S5000x128.size inb_S5000x128_S5000x128_0_0
abbrev r1_1 : Rect S128x128 := Rect.unit (s := S128x128) ![0, 0] S128x128.size inb_S128x128_S128x128_0_0

/-! ## What the body leaves in the output window's buffer -/

/-- The output buffer after the body, as a function of the input blocks: one store over the whole buffer of the
    kernel's value `k1_pay1` at the whole-buffer reads of the inputs. -/
def out1_3 (x0 : Vec F S5000x128 .f32) (x1 : Vec F S5000x128 .f32) (x2 : Vec F S128x128 .f32) : Vec F S5000x128 .f32 :=
  View.canon [⟨r1_0, k1_pay1 (View.ld x0 r1_0) (View.ld x1 r1_0) (View.ld x2 r1_1)⟩]

/-- The one store is over the whole buffer, so it covers every index. -/
theorem cover1_3 (p0 : Vec F S5000x128 .f32) (y : S5000x128.Idx) :
    ∃ pc ∈ ([⟨r1_0, p0⟩] : List (View.Piece (Elt F) S5000x128 .f32)), y ∈ pc.1.set :=
  View.cover_of_tiled [⟨r1_0, p0⟩] S5000x128.size (by rfl) y

/-! ## The body's triple -/

set_option maxHeartbeats 1000000 in
/-- The kernel on whole staging buffers — the inputs' at contents `xW`, the output's at anything — runs to a state with the
    inputs' unchanged and the output's at `out1_3` of the inputs. (The body also reads the output buffer once before
    overwriting it; that value is never used.) -/
theorem sound_kernel1 (c : Dev nD) (E : Set ℕ) (i : grid1.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out1_3 x0 x1 x2)) -∗ K ⟨⟩))
      ⊢ wp frame (wpE (defs₀ (F := F)) Variants.none c none) E (cc1_kernel i arg1 harg1 arg2 harg2 arg3 harg3 arg4 harg4) K := by
  simp only [cc1_kernel_eq_skeleton]; unfold cc1_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover1_3 _)

/-! ## The pipeline's proof data -/

/-- The proof data of pipeline 1 on core `c`: the arrays as the region finds them; after the body at point `t` each input's
    buffer at its block and the output's at `out1_3` of the input blocks; the invariant is the untouched rest of the core's
    state; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

/-- The proof data's arrays are the region-entry contents. -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = out1_3 (iblk1 V c 0 t) (iblk1 V c 1 t) (iblk1 V c 2 t) := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t`: the invariant, the core's debts, and each window's current staging buffer, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t))

/-- The body at any point: the inputs' buffers hold their blocks, so the kernel's triple applies; the invariant and the
    core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  iintro ⟨HΦ, Ho, ⟨%d0, H0⟩, ⟨%d1, H1⟩, ⟨%d2, H2⟩, ⟨%d3, H3⟩⟩
  iapply (sound_kernel1 c Set.univ (grid1.coords t) _ _ _ _ _ _ _ _ (iblk1 V c 0 t) (iblk1 V c 1 t) (iblk1 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Region2.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 2: the body's half of pipeline 2

The kernel of this region is batch-norm affine and relu on a row tile: `max(((z - mean)·rstd)·γ + β, 0)`, the four rows broadcast down the tile.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0: its current staging buffer holds its block at every point — at a point where it is fetched because the
    fetch copies the block, at a point where it is not because the index map has not moved since the last fetch and the
    body leaves the buffer as found. For any proof data over `V`'s arrays whose body leaves input 0's block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3: its current staging buffer holds its block at every point — at a point where it is fetched because the
    fetch copies the block, at a point where it is not because the index map has not moved since the last fetch and the
    body leaves the buffer as found. For any proof data over `V`'s arrays whose body leaves input 3's block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4: its current staging buffer holds its block at every point — at a point where it is fetched because the
    fetch copies the block, at a point where it is not because the index map has not moved since the last fetch and the
    body leaves the buffer as found. For any proof data over `V`'s arrays whose body leaves input 4's block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each buffer is read or written as one whole rectangle -/

abbrev r2_0 : Rect S5000x128 := Rect.unit (s := S5000x128) ![0, 0] S5000x128.size inb_S5000x128_S5000x128_0_0
abbrev r2_1 : Rect S1x128 := Rect.unit (s := S1x128) ![0, 0] S1x128.size inb_S1x128_S1x128_0_0

/-! ## What the body leaves in the output window's buffer -/

/-- The output buffer after the body, as a function of the input blocks: one store over the whole buffer of the
    kernel's value `k2_pay1` at the whole-buffer reads of the inputs. -/
def out2_5 (x0 : Vec F S5000x128 .f32) (x1 : Vec F S1x128 .f32) (x2 : Vec F S1x128 .f32) (x3 : Vec F S1x128 .f32) (x4 : Vec F S1x128 .f32) : Vec F S5000x128 .f32 :=
  View.canon [⟨r2_0, k2_pay1 (View.ld x0 r2_0) (View.ld x1 r2_1) (View.ld x2 r2_1) (View.ld x3 r2_1) (View.ld x4 r2_1)⟩]

/-- The one store is over the whole buffer, so it covers every index. -/
theorem cover2_5 (p0 : Vec F S5000x128 .f32) (y : S5000x128.Idx) :
    ∃ pc ∈ ([⟨r2_0, p0⟩] : List (View.Piece (Elt F) S5000x128 .f32)), y ∈ pc.1.set :=
  View.cover_of_tiled [⟨r2_0, p0⟩] S5000x128.size (by rfl) y

/-! ## The body's triple -/

set_option maxHeartbeats 1000000 in
/-- The kernel on whole staging buffers — the inputs' at contents `xW`, the output's at anything — runs to a state with the
    inputs' unchanged and the output's at `out2_5` of the inputs. (The body also reads the output buffer once before
    overwriting it; that value is never used.) -/
theorem sound_kernel2 (c : Dev nD) (E : Set ℕ) (i : grid2.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__bn_relu_kernel i arg1 harg1 arg2 harg2 arg3 harg3 arg4 harg4 arg5 harg5 arg6 harg6) K := by
  simp only [cc2__bn_relu_kernel_eq_skeleton]; unfold cc2__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-! ## The pipeline's proof data -/

/-- The proof data of pipeline 2 on core `c`: the arrays as the region finds them; after the body at point `t` each input's
    buffer at its block and the output's at `out2_5` of the input blocks; the invariant is the untouched rest of the core's
    state; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-! ## The body obligation, at a generic point -/

/-- What the body is called with at point `t`: the invariant, the core's debts, and each window's current staging buffer, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' buffers hold their blocks, so the kernel's triple applies; the invariant and the
    core's debts pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ (grid2.coords t) _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.KernelIdeal.Region3.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 3: the body's half of pipeline 3

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0: its current staging buffer holds its block at every point — at a point where it is fetched because the
    fetch copies the block, at a point where it is not because the index map has not moved since the last fetch and the
    body leaves the buffer as found. For any proof data over `V`'s arrays whose body leaves input 0's block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before3_2_of {c : Dev nD} (dat : Dat τ (Elt F) Unit ℕ (UR sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each buffer is read or written as one whole rectangle -/

abbrev r3_0 : Rect S5000x128 := Rect.unit (s := S5000x128) ![0, 0] S5000x128.size inb_S5000x128_S5000x128_0_0
abbrev r3_1 : Rect S128x128 := Rect.unit (s := S128x128) ![0, 0] S128x128.size inb_S128x128_S128x128_0_0

/-! ## What the body leaves in the output window's buffer -/

/-- The output buffer after the body, as a function of the input blocks: one store over the whole buffer of the
    kernel's value `k3_pay1` at the whole-buffer reads of the inputs. -/
def out3_3 (x0 : Vec F S5000x128 .f32) (x1 : Vec F S5000x128 .f32) (x2 : Vec F S128x128 .f32) : Vec F S5000x128 .f32 :=
  View.canon [⟨r3_0, k3_pay1 (View.ld x0 r3_0) (View.ld x1 r3_0) (View.ld x2 r3_1)⟩]

/-- The one store is over the whole buffer, so it covers every index. -/
theorem cover3_3 (p0 : Vec F S5000x128 .f32) (y : S5000x128.Idx) :
    ∃ pc ∈ ([⟨r3_0, p0⟩] : List (View.Piece (Elt F) S5000x128 .f32)), y ∈ pc.1.set :=
  View.cover_of_tiled [⟨r3_0, p0⟩] S5000x128.size (by rfl) y

/-! ## The body's triple -/

set_option maxHeartbeats 1000000 in
/-- The kernel on whole staging buffers — the inputs' at contents `xW`, the output's at anything — runs to a state with the
    inputs' unchanged and the output's at `out3_3` of the inputs. (The body also reads the output buffer once before
    overwriting it; that value is never used.) -/
theorem sound_kernel3 (c : Dev nD) (E : Set ℕ) (i : grid3.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out3_3 x0 x1 x2)) -∗ K ⟨⟩))
      ⊢ wp frame (wpE (defs₀ (F := F)) Variants.none c none) E (cc3_kernel i arg1 harg1 arg2 harg2 arg3 harg3 arg4 harg4) K := by
  simp only [cc3_kernel_eq_skeleton]; unfold cc3_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover3_3 _)

/-! ## The pipeline's proof data -/

/-- The proof data of pipeline 3 on core `c`: the arrays as the region finds them; after the body at point `t` each input's
    buffer at its block and the output's at `out3_3` of the input blocks; the invariant is the untouched rest of the core's
    state; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = out3_3 (iblk3 V c 0 t) (iblk3 V c 1 t) (iblk3 V c 2 t) := by dsimp only [dat3]

/-- Each input's current staging buffer holds its block at every point. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d

/-! ## The body obligation, at a generic point -/

/-- What the body is called with at point `t`: the invariant, the core's debts, and each window's current staging buffer, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t))

/-- The body at any point: the inputs' buffers hold their blocks, so the kernel's triple applies; the invariant and the
    core's debts pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2]
  rw [show (dat3 V c).Φ t.succ = (dat3 V c).Φ t.castSucc from rfl,
    show (dat3 V c).owesAt () t.succ = (dat3 V c).owesAt () t.castSucc from rfl,
    after3_0, after3_1, after3_2, after3_3]
  iintro ⟨HΦ, Ho, ⟨%d0, H0⟩, ⟨%d1, H1⟩, ⟨%d2, H2⟩, ⟨%d3, H3⟩⟩
  iapply (sound_kernel3 c Set.univ (grid3.coords t) _ _ _ _ _ _ _ _ (iblk3 V c 0 t) (iblk3 V c 1 t) (iblk3 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KernelIdeal.Region4.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 4: the body's half of pipeline 4

The kernel of this region is batch-norm affine and relu on a row tile: `max(((z - mean)·rstd)·γ + β, 0)`, the four rows broadcast down the tile.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0: its current staging buffer holds its block at every point — at a point where it is fetched because the
    fetch copies the block, at a point where it is not because the index map has not moved since the last fetch and the
    body leaves the buffer as found. For any proof data over `V`'s arrays whose body leaves input 0's block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3: its current staging buffer holds its block at every point — at a point where it is fetched because the
    fetch copies the block, at a point where it is not because the index map has not moved since the last fetch and the
    body leaves the buffer as found. For any proof data over `V`'s arrays whose body leaves input 3's block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4: its current staging buffer holds its block at every point — at a point where it is fetched because the
    fetch copies the block, at a point where it is not because the index map has not moved since the last fetch and the
    body leaves the buffer as found. For any proof data over `V`'s arrays whose body leaves input 4's block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's accesses: each buffer is read or written as one whole rectangle -/

abbrev r4_0 : Rect S5000x128 := Rect.unit (s := S5000x128) ![0, 0] S5000x128.size inb_S5000x128_S5000x128_0_0
abbrev r4_1 : Rect S1x128 := Rect.unit (s := S1x128) ![0, 0] S1x128.size inb_S1x128_S1x128_0_0

/-! ## What the body leaves in the output window's buffer -/

/-- The output buffer after the body, as a function of the input blocks: one store over the whole buffer of the
    kernel's value `k4_pay1` at the whole-buffer reads of the inputs. -/
def out4_5 (x0 : Vec F S5000x128 .f32) (x1 : Vec F S1x128 .f32) (x2 : Vec F S1x128 .f32) (x3 : Vec F S1x128 .f32) (x4 : Vec F S1x128 .f32) : Vec F S5000x128 .f32 :=
  View.canon [⟨r4_0, k4_pay1 (View.ld x0 r4_0) (View.ld x1 r4_1) (View.ld x2 r4_1) (View.ld x3 r4_1) (View.ld x4 r4_1)⟩]

/-- The one store is over the whole buffer, so it covers every index. -/
theorem cover4_5 (p0 : Vec F S5000x128 .f32) (y : S5000x128.Idx) :
    ∃ pc ∈ ([⟨r4_0, p0⟩] : List (View.Piece (Elt F) S5000x128 .f32)), y ∈ pc.1.set :=
  View.cover_of_tiled [⟨r4_0, p0⟩] S5000x128.size (by rfl) y

/-! ## The body's triple -/

set_option maxHeartbeats 1000000 in
/-- The kernel on whole staging buffers — the inputs' at contents `xW`, the output's at anything — runs to a state with the
    inputs' unchanged and the output's at `out4_5` of the inputs. (The body also reads the output buffer once before
    overwriting it; that value is never used.) -/
theorem sound_kernel4 (c : Dev nD) (E : Set ℕ) (i : grid4.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out4_5 x0 x1 x2 x3 x4)) -∗ K ⟨⟩))
      ⊢ wp frame (wpE (defs₀ (F := F)) Variants.none c none) E (cc4__bn_relu_kernel i arg1 harg1 arg2 harg2 arg3 harg3 arg4 harg4 arg5 harg5 arg6 harg6) K := by
  simp only [cc4__bn_relu_kernel_eq_skeleton]; unfold cc4__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover4_5 _)

/-! ## The pipeline's proof data -/

/-- The proof data of pipeline 4 on core `c`: the arrays as the region finds them; after the body at point `t` each input's
    buffer at its block and the output's at `out4_5` of the input blocks; the invariant is the untouched rest of the core's
    state; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
  Φ _ := Pipeline.ΦA spec4 c
  q _ := fullShare
  owed _ := 0

/-- The proof data's arrays are the region-entry contents. -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5 (c : Dev nD) (t : Fin cfg4.N) : (dat4 V c).after 5 t = out4_5 (iblk4 V c 0 t) (iblk4 V c 1 t) (iblk4 V c 2 t) (iblk4 V c 3 t) (iblk4 V c 4 t) := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-! ## The body obligation, at a generic point -/

/-- What the body is called with at point `t`: the invariant, the core's debts, and each window's current staging buffer, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t))

/-- The body at any point: the inputs' buffers hold their blocks, so the kernel's triple applies; the invariant and the
    core's debts pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    after4_0, after4_1, after4_2, after4_3, after4_4, after4_5]
  iintro ⟨HΦ, Ho, ⟨%d0, H0⟩, ⟨%d1, H1⟩, ⟨%d2, H2⟩, ⟨%d3, H3⟩, ⟨%d4, H4⟩, ⟨%d5, H5⟩⟩
  iapply (sound_kernel4 c Set.univ (grid4.coords t) _ _ _ _ _ _ _ _ _ _ _ _ (iblk4 V c 0 t) (iblk4 V c 1 t) (iblk4 V c 2 t) (iblk4 V c 3 t) (iblk4 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Hand

end
-- ==== Proof.KernelIdeal.Region5.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 5: the body's half of pipeline 5

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0: its current staging buffer holds its block at every point — at a point where it is fetched because the
    fetch copies the block, at a point where it is not because the index map has not moved since the last fetch and the
    body leaves the buffer as found. For any proof data over `V`'s arrays whose body leaves input 0's block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each buffer is read or written as one whole rectangle -/

abbrev r5_0 : Rect S5000x128 := Rect.unit (s := S5000x128) ![0, 0] S5000x128.size inb_S5000x128_S5000x128_0_0
abbrev r5_1 : Rect S128x128 := Rect.unit (s := S128x128) ![0, 0] S128x128.size inb_S128x128_S128x128_0_0

/-! ## What the body leaves in the output window's buffer -/

/-- The output buffer after the body, as a function of the input blocks: one store over the whole buffer of the
    kernel's value `k5_pay1` at the whole-buffer reads of the inputs. -/
def out5_3 (x0 : Vec F S5000x128 .f32) (x1 : Vec F S5000x128 .f32) (x2 : Vec F S128x128 .f32) : Vec F S5000x128 .f32 :=
  View.canon [⟨r5_0, k5_pay1 (View.ld x0 r5_0) (View.ld x1 r5_0) (View.ld x2 r5_1)⟩]

/-- The one store is over the whole buffer, so it covers every index. -/
theorem cover5_3 (p0 : Vec F S5000x128 .f32) (y : S5000x128.Idx) :
    ∃ pc ∈ ([⟨r5_0, p0⟩] : List (View.Piece (Elt F) S5000x128 .f32)), y ∈ pc.1.set :=
  View.cover_of_tiled [⟨r5_0, p0⟩] S5000x128.size (by rfl) y

/-! ## The body's triple -/

set_option maxHeartbeats 1000000 in
/-- The kernel on whole staging buffers — the inputs' at contents `xW`, the output's at anything — runs to a state with the
    inputs' unchanged and the output's at `out5_3` of the inputs. (The body also reads the output buffer once before
    overwriting it; that value is never used.) -/
theorem sound_kernel5 (c : Dev nD) (E : Set ℕ) (i : grid5.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out5_3 x0 x1 x2)) -∗ K ⟨⟩))
      ⊢ wp frame (wpE (defs₀ (F := F)) Variants.none c none) E (cc5_kernel i arg1 harg1 arg2 harg2 arg3 harg3 arg4 harg4) K := by
  simp only [cc5_kernel_eq_skeleton]; unfold cc5_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover5_3 _)

/-! ## The pipeline's proof data -/

/-- The proof data of pipeline 5 on core `c`: the arrays as the region finds them; after the body at point `t` each input's
    buffer at its block and the output's at `out5_3` of the input blocks; the invariant is the untouched rest of the core's
    state; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = out5_3 (iblk5 V c 0 t) (iblk5 V c 1 t) (iblk5 V c 2 t) := by dsimp only [dat5]

/-- Each input's current staging buffer holds its block at every point. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d

/-! ## The body obligation, at a generic point -/

/-- What the body is called with at point `t`: the invariant, the core's debts, and each window's current staging buffer, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t))

/-- The body at any point: the inputs' buffers hold their blocks, so the kernel's triple applies; the invariant and the
    core's debts pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2]
  rw [show (dat5 V c).Φ t.succ = (dat5 V c).Φ t.castSucc from rfl,
    show (dat5 V c).owesAt () t.succ = (dat5 V c).owesAt () t.castSucc from rfl,
    after5_0, after5_1, after5_2, after5_3]
  iintro ⟨HΦ, Ho, ⟨%d0, H0⟩, ⟨%d1, H1⟩, ⟨%d2, H2⟩, ⟨%d3, H3⟩⟩
  iapply (sound_kernel5 c Set.univ (grid5.coords t) _ _ _ _ _ _ _ _ (iblk5 V c 0 t) (iblk5 V c 1 t) (iblk5 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KernelIdeal.Region6.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 6: the body's half of pipeline 6

The kernel of this region is batch-norm affine and relu on a row tile: `max(((z - mean)·rstd)·γ + β, 0)`, the four rows broadcast down the tile.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0: its current staging buffer holds its block at every point — at a point where it is fetched because the
    fetch copies the block, at a point where it is not because the index map has not moved since the last fetch and the
    body leaves the buffer as found. For any proof data over `V`'s arrays whose body leaves input 0's block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3: its current staging buffer holds its block at every point — at a point where it is fetched because the
    fetch copies the block, at a point where it is not because the index map has not moved since the last fetch and the
    body leaves the buffer as found. For any proof data over `V`'s arrays whose body leaves input 3's block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4: its current staging buffer holds its block at every point — at a point where it is fetched because the
    fetch copies the block, at a point where it is not because the index map has not moved since the last fetch and the
    body leaves the buffer as found. For any proof data over `V`'s arrays whose body leaves input 4's block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each buffer is read or written as one whole rectangle -/

abbrev r6_0 : Rect S5000x128 := Rect.unit (s := S5000x128) ![0, 0] S5000x128.size inb_S5000x128_S5000x128_0_0
abbrev r6_1 : Rect S1x128 := Rect.unit (s := S1x128) ![0, 0] S1x128.size inb_S1x128_S1x128_0_0

/-! ## What the body leaves in the output window's buffer -/

/-- The output buffer after the body, as a function of the input blocks: one store over the whole buffer of the
    kernel's value `k6_pay1` at the whole-buffer reads of the inputs. -/
def out6_5 (x0 : Vec F S5000x128 .f32) (x1 : Vec F S1x128 .f32) (x2 : Vec F S1x128 .f32) (x3 : Vec F S1x128 .f32) (x4 : Vec F S1x128 .f32) : Vec F S5000x128 .f32 :=
  View.canon [⟨r6_0, k6_pay1 (View.ld x0 r6_0) (View.ld x1 r6_1) (View.ld x2 r6_1) (View.ld x3 r6_1) (View.ld x4 r6_1)⟩]

/-- The one store is over the whole buffer, so it covers every index. -/
theorem cover6_5 (p0 : Vec F S5000x128 .f32) (y : S5000x128.Idx) :
    ∃ pc ∈ ([⟨r6_0, p0⟩] : List (View.Piece (Elt F) S5000x128 .f32)), y ∈ pc.1.set :=
  View.cover_of_tiled [⟨r6_0, p0⟩] S5000x128.size (by rfl) y

/-! ## The body's triple -/

set_option maxHeartbeats 1000000 in
/-- The kernel on whole staging buffers — the inputs' at contents `xW`, the output's at anything — runs to a state with the
    inputs' unchanged and the output's at `out6_5` of the inputs. (The body also reads the output buffer once before
    overwriting it; that value is never used.) -/
theorem sound_kernel6 (c : Dev nD) (E : Set ℕ) (i : grid6.Coords) (arg1 : Memref sig .tc .vmem S5000x128 .f32) (harg1 : arg1.IsWhole) (arg2 : Memref sig .tc .vmem S1x128 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S1x128 .f32) (harg5 : arg5.IsWhole) (arg6 : Memref sig .tc .vmem S5000x128 .f32) (harg6 : arg6.IsWhole)
    (x0 : Vec F S5000x128 .f32) (x1 : Vec F S1x128 .f32) (x2 : Vec F S1x128 .f32) (x3 : Vec F S1x128 .f32) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out6_5 x0 x1 x2 x3 x4)) -∗ K ⟨⟩))
      ⊢ wp frame (wpE (defs₀ (F := F)) Variants.none c none) E (cc6__bn_relu_kernel i arg1 harg1 arg2 harg2 arg3 harg3 arg4 harg4 arg5 harg5 arg6 harg6) K := by
  simp only [cc6__bn_relu_kernel_eq_skeleton]; unfold cc6__bn_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover6_5 _)

/-! ## The pipeline's proof data -/

/-- The proof data of pipeline 6 on core `c`: the arrays as the region finds them; after the body at point `t` each input's
    buffer at its block and the output's at `out6_5` of the input blocks; the invariant is the untouched rest of the core's
    state; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => out6_5 (iblk6 V c 0 t) (iblk6 V c 1 t) (iblk6 V c 2 t) (iblk6 V c 3 t) (iblk6 V c 4 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = out6_5 (iblk6 V c 0 t) (iblk6 V c 1 t) (iblk6 V c 2 t) (iblk6 V c 3 t) (iblk6 V c 4 t) := by dsimp only [dat6]

/-- Each input's current staging buffer holds its block at every point. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d

/-! ## The body obligation, at a generic point -/

/-- What the body is called with at point `t`: the invariant, the core's debts, and each window's current staging buffer, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t))

/-- The body at any point: the inputs' buffers hold their blocks, so the kernel's triple applies; the invariant and the
    core's debts pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4]
  rw [show (dat6 V c).Φ t.succ = (dat6 V c).Φ t.castSucc from rfl,
    show (dat6 V c).owesAt () t.succ = (dat6 V c).owesAt () t.castSucc from rfl,
    after6_0, after6_1, after6_2, after6_3, after6_4, after6_5]
  iintro ⟨HΦ, Ho, ⟨%d0, H0⟩, ⟨%d1, H1⟩, ⟨%d2, H2⟩, ⟨%d3, H3⟩, ⟨%d4, H4⟩, ⟨%d5, H5⟩⟩
  iapply (sound_kernel6 c Set.univ (grid6.coords t) _ _ _ _ _ _ _ _ _ _ _ _ (iblk6 V c 0 t) (iblk6 V c 1 t) (iblk6 V c 2 t) (iblk6 V c 3 t) (iblk6 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The pipeline's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Hand

end
-- ==== Proof.KernelIdeal.Region7.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 7: the body's half of pipeline 7

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

/-- Input window 0: its current staging buffer holds its block at every point — at a point where it is fetched because the
    fetch copies the block, at a point where it is not because the index map has not moved since the last fetch and the
    body leaves the buffer as found. For any proof data over `V`'s arrays whose body leaves input 0's block in place. -/
theorem before7_0_of {c : Dev nD} (dat : Dat τ (Elt F) Unit ℕ (UR sig nD τ) ℕ cfg7 c) (hA : dat.A 0 = V c (Pipeline.arrRef spec7 0))
    (hafter : ∀ t, dat.after 0 t = iblk7 V c 0 t) (t : Fin cfg7.N) (d) : dat.before 0 t d = iblk7 V c 0 t :=
  (dat.before_in_eq_fetched 0 rfl (fun _ => rfl) (fun _ _ _ => rfl) (fun t => by rw [hafter]; unfold Dat.blockOf iblk7; rw [hA]; try rfl) t d).trans
    (by unfold Dat.fetched Dat.blockOf iblk7; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before7_1_of {c : Dev nD} (dat : Dat τ (Elt F) Unit ℕ (UR sig nD τ) ℕ cfg7 c) (hA : dat.A 1 = V c (Pipeline.arrRef spec7 1))
    (hafter : ∀ t, dat.after 1 t = iblk7 V c 1 t) (t : Fin cfg7.N) (d) : dat.before 1 t d = iblk7 V c 1 t :=
  (dat.before_in_eq_fetched 1 rfl (fun _ => rfl) (fun _ _ _ => rfl) (fun t => by rw [hafter]; unfold Dat.blockOf iblk7; rw [hA]; try rfl) t d).trans
    (by unfold Dat.fetched Dat.blockOf iblk7; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before7_2_of {c : Dev nD} (dat : Dat τ (Elt F) Unit ℕ (UR sig nD τ) ℕ cfg7 c) (hA : dat.A 2 = V c (Pipeline.arrRef spec7 2))
    (hafter : ∀ t, dat.after 2 t = iblk7 V c 2 t) (t : Fin cfg7.N) (d) : dat.before 2 t d = iblk7 V c 2 t :=
  (dat.before_in_eq_fetched 2 rfl (fun _ => rfl) (fun _ _ _ => rfl) (fun t => by rw [hafter]; unfold Dat.blockOf iblk7; rw [hA]; try rfl) t d).trans
    (by unfold Dat.fetched Dat.blockOf iblk7; rw [hA]; try rfl)

/-! ## The body's accesses: each buffer is read or written as one whole rectangle -/

abbrev r7_0 : Rect S5000x128 := Rect.unit (s := S5000x128) ![0, 0] S5000x128.size inb_S5000x128_S5000x128_0_0
abbrev r7_1 : Rect S128x128 := Rect.unit (s := S128x128) ![0, 0] S128x128.size inb_S128x128_S128x128_0_0

/-! ## What the body leaves in the output window's buffer -/

/-- The output buffer after the body, as a function of the input blocks: one store over the whole buffer of the
    kernel's value `k7_pay1` at the whole-buffer reads of the inputs. -/
def out7_3 (x0 : Vec F S5000x128 .f32) (x1 : Vec F S5000x128 .f32) (x2 : Vec F S128x128 .f32) : Vec F S5000x128 .f32 :=
  View.canon [⟨r7_0, k7_pay1 (View.ld x0 r7_0) (View.ld x1 r7_0) (View.ld x2 r7_1)⟩]

/-- The one store is over the whole buffer, so it covers every index. -/
theorem cover7_3 (p0 : Vec F S5000x128 .f32) (y : S5000x128.Idx) :
    ∃ pc ∈ ([⟨r7_0, p0⟩] : List (View.Piece (Elt F) S5000x128 .f32)), y ∈ pc.1.set :=
  View.cover_of_tiled [⟨r7_0, p0⟩] S5000x128.size (by rfl) y

/-! ## The body's triple -/

set_option maxHeartbeats 1000000 in
/-- The kernel on whole staging buffers — the inputs' at contents `xW`, the output's at anything — runs to a state with the
    inputs' unchanged and the output's at `out7_3` of the inputs. (The body also reads the output buffer once before
    overwriting it; that value is never used.) -/
theorem sound_kernel7 (c : Dev nD) (E : Set ℕ) (i : grid7.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out7_3 x0 x1 x2)) -∗ K ⟨⟩))
      ⊢ wp frame (wpE (defs₀ (F := F)) Variants.none c none) E (cc7_kernel i arg1 harg1 arg2 harg2 arg3 harg3 arg4 harg4) K := by
  simp only [cc7_kernel_eq_skeleton]; unfold cc7_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover7_3 _)

/-! ## The pipeline's proof data -/

/-- The proof data of pipeline 7 on core `c`: the arrays as the region finds them; after the body at point `t` each input's
    buffer at its block and the output's at `out7_3` of the input blocks; the invariant is the untouched rest of the core's
    state; nothing owed; full shares. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

/-- The proof data's arrays are the region-entry contents. -/
theorem A_eq7 (c : Dev nD) (w : Fin cfg7.W) : (dat7 V c).A w = V c (Pipeline.arrRef spec7 w) := by
  dsimp only [dat7]

/-- What the body leaves, window by window. -/
theorem after7_0 (c : Dev nD) (t : Fin cfg7.N) : (dat7 V c).after 0 t = iblk7 V c 0 t := by dsimp only [dat7]
theorem after7_1 (c : Dev nD) (t : Fin cfg7.N) : (dat7 V c).after 1 t = iblk7 V c 1 t := by dsimp only [dat7]
theorem after7_2 (c : Dev nD) (t : Fin cfg7.N) : (dat7 V c).after 2 t = iblk7 V c 2 t := by dsimp only [dat7]
theorem after7_3 (c : Dev nD) (t : Fin cfg7.N) : (dat7 V c).after 3 t = out7_3 (iblk7 V c 0 t) (iblk7 V c 1 t) (iblk7 V c 2 t) := by dsimp only [dat7]

/-- Each input's current staging buffer holds its block at every point. -/
theorem before7_0 (c : Dev nD) (t : Fin cfg7.N) (d) : (dat7 V c).before 0 t d = iblk7 V c 0 t :=
  before7_0_of V (dat7 V c) (A_eq7 V c 0) (after7_0 V c) t d
theorem before7_1 (c : Dev nD) (t : Fin cfg7.N) (d) : (dat7 V c).before 1 t d = iblk7 V c 1 t :=
  before7_1_of V (dat7 V c) (A_eq7 V c 1) (after7_1 V c) t d
theorem before7_2 (c : Dev nD) (t : Fin cfg7.N) (d) : (dat7 V c).before 2 t d = iblk7 V c 2 t :=
  before7_2_of V (dat7 V c) (A_eq7 V c 2) (after7_2 V c) t d

/-! ## The body obligation, at a generic point -/

/-- What the body is called with at point `t`: the invariant, the core's debts, and each window's current staging buffer, -/
def bodyPre7 (c : Dev nD) (t : Fin cfg7.N) : sProp 𝕄 :=
  iprop((dat7 V c).Φ t.castSucc ∗ (dat7 V c).owesAt () t.castSucc
    ∗ (∃ d, owns (c : Thread nD τ) (st7_0 t) fullShare ((dat7 V c).before 0 t d))
    ∗ (∃ d, owns (c : Thread nD τ) (st7_1 t) fullShare ((dat7 V c).before 1 t d))
    ∗ (∃ d, owns (c : Thread nD τ) (st7_2 t) fullShare ((dat7 V c).before 2 t d))
    ∗ (∃ d, owns (c : Thread nD τ) (st7_3 t) fullShare ((dat7 V c).before 3 t d)))

/-- and what it returns. -/
def bodyPost7 (c : Dev nD) (t : Fin cfg7.N) : sProp 𝕄 :=
  iprop((dat7 V c).Φ t.succ ∗ (dat7 V c).owesAt () t.succ
    ∗ owns (c : Thread nD τ) (st7_0 t) fullShare ((dat7 V c).after 0 t)
    ∗ owns (c : Thread nD τ) (st7_1 t) fullShare ((dat7 V c).after 1 t)
    ∗ owns (c : Thread nD τ) (st7_2 t) fullShare ((dat7 V c).after 2 t)
    ∗ owns (c : Thread nD τ) (st7_3 t) fullShare ((dat7 V c).after 3 t))

/-- The body at any point: the inputs' buffers hold their blocks, so the kernel's triple applies; the invariant and the
    core's debts pass through unread. -/
theorem sound_body7 (c : Dev nD) (t : Fin cfg7.N) :
    bodyPre7 V c t ⊢ wp frame (wpE (defs₀ (F := F)) Variants.none c none) Set.univ (bodyAt7 t) (fun _ => bodyPost7 V c t) := by
  unfold bodyPre7 bodyPost7 bodyAt7
  simp only [before7_0, before7_1, before7_2]
  rw [show (dat7 V c).Φ t.succ = (dat7 V c).Φ t.castSucc from rfl,
    show (dat7 V c).owesAt () t.succ = (dat7 V c).owesAt () t.castSucc from rfl,
    after7_0, after7_1, after7_2, after7_3]
  iintro ⟨HΦ, Ho, ⟨%d0, H0⟩, ⟨%d1, H1⟩, ⟨%d2, H2⟩, ⟨%d3, H3⟩⟩
  iapply (sound_kernel7 c Set.univ (grid7.coords t) _ _ _ _ _ _ _ _ (iblk7 V c 0 t) (iblk7 V c 1 t) (iblk7 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation7 (c : Dev nD) : BodyObligation (dat7 (F := F) V c) (defs₀ (F := F)) Variants.none () Set.univ := fun t => by
  rw [bigSep_W7, bigSep_W7]
  exact sound_body7 V c t

end Cert.KernelIdeal.Hand

end
-- ==== Proof.KernelIdeal.Region8.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 8: the body's half of pipeline 8

The kernel of this region is the jumping-knowledge head: a row tile of the 4-way concatenated features (512 columns) times `W_jk` plus the bias row `b_jk`.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

/-- Input window 0: its current staging buffer holds its block at every point — at a point where it is fetched because the
    fetch copies the block, at a point where it is not because the index map has not moved since the last fetch and the
    body leaves the buffer as found. For any proof data over `V`'s arrays whose body leaves input 0's block in place. -/
theorem before8_0_of {c : Dev nD} (dat : Dat τ (Elt F) Unit ℕ (UR sig nD τ) ℕ cfg8 c) (hA : dat.A 0 = V c (Pipeline.arrRef spec8 0))
    (hafter : ∀ t, dat.after 0 t = iblk8 V c 0 t) (t : Fin cfg8.N) (d) : dat.before 0 t d = iblk8 V c 0 t :=
  (dat.before_in_eq_fetched 0 rfl (fun _ => rfl) (fun _ _ _ => rfl) (fun t => by rw [hafter]; unfold Dat.blockOf iblk8; rw [hA]; try rfl) t d).trans
    (by unfold Dat.fetched Dat.blockOf iblk8; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before8_1_of {c : Dev nD} (dat : Dat τ (Elt F) Unit ℕ (UR sig nD τ) ℕ cfg8 c) (hA : dat.A 1 = V c (Pipeline.arrRef spec8 1))
    (hafter : ∀ t, dat.after 1 t = iblk8 V c 1 t) (t : Fin cfg8.N) (d) : dat.before 1 t d = iblk8 V c 1 t :=
  (dat.before_in_eq_fetched 1 rfl (fun _ => rfl) (fun _ _ _ => rfl) (fun t => by rw [hafter]; unfold Dat.blockOf iblk8; rw [hA]; try rfl) t d).trans
    (by unfold Dat.fetched Dat.blockOf iblk8; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before8_2_of {c : Dev nD} (dat : Dat τ (Elt F) Unit ℕ (UR sig nD τ) ℕ cfg8 c) (hA : dat.A 2 = V c (Pipeline.arrRef spec8 2))
    (hafter : ∀ t, dat.after 2 t = iblk8 V c 2 t) (t : Fin cfg8.N) (d) : dat.before 2 t d = iblk8 V c 2 t :=
  (dat.before_in_eq_fetched 2 rfl (fun _ => rfl) (fun _ _ _ => rfl) (fun t => by rw [hafter]; unfold Dat.blockOf iblk8; rw [hA]; try rfl) t d).trans
    (by unfold Dat.fetched Dat.blockOf iblk8; rw [hA]; try rfl)

/-! ## The body's accesses: each buffer is read or written as one whole rectangle -/

abbrev r8_0 : Rect S5000x128 := Rect.unit (s := S5000x128) ![0, 0] S5000x128.size inb_S5000x128_S5000x128_0_0
abbrev r8_1 : Rect S5000x512 := Rect.unit (s := S5000x512) ![0, 0] S5000x512.size inb_S5000x512_S5000x512_0_0
abbrev r8_2 : Rect S512x128 := Rect.unit (s := S512x128) ![0, 0] S512x128.size inb_S512x128_S512x128_0_0
abbrev r8_3 : Rect S1x128 := Rect.unit (s := S1x128) ![0, 0] S1x128.size inb_S1x128_S1x128_0_0

/-! ## What the body leaves in the output window's buffer -/

/-- The output buffer after the body, as a function of the input blocks: one store over the whole buffer of the
    kernel's value `k8_pay1` at the whole-buffer reads of the inputs. -/
def out8_3 (x0 : Vec F S5000x512 .f32) (x1 : Vec F S512x128 .f32) (x2 : Vec F S1x128 .f32) : Vec F S5000x128 .f32 :=
  View.canon [⟨r8_0, k8_pay1 (View.ld x0 r8_1) (View.ld x1 r8_2) (View.ld x2 r8_3)⟩]

/-- The one store is over the whole buffer, so it covers every index. -/
theorem cover8_3 (p0 : Vec F S5000x128 .f32) (y : S5000x128.Idx) :
    ∃ pc ∈ ([⟨r8_0, p0⟩] : List (View.Piece (Elt F) S5000x128 .f32)), y ∈ pc.1.set :=
  View.cover_of_tiled [⟨r8_0, p0⟩] S5000x128.size (by rfl) y

/-! ## The body's triple -/

set_option maxHeartbeats 1000000 in
/-- The kernel on whole staging buffers — the inputs' at contents `xW`, the output's at anything — runs to a state with the
    inputs' unchanged and the output's at `out8_3` of the inputs. (The body also reads the output buffer once before
    overwriting it; that value is never used.) -/
theorem sound_kernel8 (c : Dev nD) (E : Set ℕ) (i : grid8.Coords) (arg1 : Memref sig .tc .vmem S5000x512 .f32) (harg1 : arg1.IsWhole) (arg2 : Memref sig .tc .vmem S512x128 .f32) (harg2 : arg2.IsWhole) (arg3 : Memref sig .tc .vmem S1x128 .f32) (harg3 : arg3.IsWhole) (arg4 : Memref sig .tc .vmem S5000x128 .f32) (harg4 : arg4.IsWhole)
    (x0 : Vec F S5000x512 .f32) (x1 : Vec F S512x128 .f32) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out8_3 x0 x1 x2)) -∗ K ⟨⟩))
      ⊢ wp frame (wpE (defs₀ (F := F)) Variants.none c none) E (cc8__jk_kernel i arg1 harg1 arg2 harg2 arg3 harg3 arg4 harg4) K := by
  simp only [cc8__jk_kernel_eq_skeleton]; unfold cc8__jk_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover8_3 _)

/-! ## The pipeline's proof data -/

/-- The proof data of pipeline 8 on core `c`: the arrays as the region finds them; after the body at point `t` each input's
    buffer at its block and the output's at `out8_3` of the input blocks; the invariant is the untouched rest of the core's
    state; nothing owed; full shares. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

/-- The proof data's arrays are the region-entry contents. -/
theorem A_eq8 (c : Dev nD) (w : Fin cfg8.W) : (dat8 V c).A w = V c (Pipeline.arrRef spec8 w) := by
  dsimp only [dat8]

/-- What the body leaves, window by window. -/
theorem after8_0 (c : Dev nD) (t : Fin cfg8.N) : (dat8 V c).after 0 t = iblk8 V c 0 t := by dsimp only [dat8]
theorem after8_1 (c : Dev nD) (t : Fin cfg8.N) : (dat8 V c).after 1 t = iblk8 V c 1 t := by dsimp only [dat8]
theorem after8_2 (c : Dev nD) (t : Fin cfg8.N) : (dat8 V c).after 2 t = iblk8 V c 2 t := by dsimp only [dat8]
theorem after8_3 (c : Dev nD) (t : Fin cfg8.N) : (dat8 V c).after 3 t = out8_3 (iblk8 V c 0 t) (iblk8 V c 1 t) (iblk8 V c 2 t) := by dsimp only [dat8]

/-- Each input's current staging buffer holds its block at every point. -/
theorem before8_0 (c : Dev nD) (t : Fin cfg8.N) (d) : (dat8 V c).before 0 t d = iblk8 V c 0 t :=
  before8_0_of V (dat8 V c) (A_eq8 V c 0) (after8_0 V c) t d
theorem before8_1 (c : Dev nD) (t : Fin cfg8.N) (d) : (dat8 V c).before 1 t d = iblk8 V c 1 t :=
  before8_1_of V (dat8 V c) (A_eq8 V c 1) (after8_1 V c) t d
theorem before8_2 (c : Dev nD) (t : Fin cfg8.N) (d) : (dat8 V c).before 2 t d = iblk8 V c 2 t :=
  before8_2_of V (dat8 V c) (A_eq8 V c 2) (after8_2 V c) t d

/-! ## The body obligation, at a generic point -/

/-- What the body is called with at point `t`: the invariant, the core's debts, and each window's current staging buffer, -/
def bodyPre8 (c : Dev nD) (t : Fin cfg8.N) : sProp 𝕄 :=
  iprop((dat8 V c).Φ t.castSucc ∗ (dat8 V c).owesAt () t.castSucc
    ∗ (∃ d, owns (c : Thread nD τ) (st8_0 t) fullShare ((dat8 V c).before 0 t d))
    ∗ (∃ d, owns (c : Thread nD τ) (st8_1 t) fullShare ((dat8 V c).before 1 t d))
    ∗ (∃ d, owns (c : Thread nD τ) (st8_2 t) fullShare ((dat8 V c).before 2 t d))
    ∗ (∃ d, owns (c : Thread nD τ) (st8_3 t) fullShare ((dat8 V c).before 3 t d)))

/-- and what it returns. -/
def bodyPost8 (c : Dev nD) (t : Fin cfg8.N) : sProp 𝕄 :=
  iprop((dat8 V c).Φ t.succ ∗ (dat8 V c).owesAt () t.succ
    ∗ owns (c : Thread nD τ) (st8_0 t) fullShare ((dat8 V c).after 0 t)
    ∗ owns (c : Thread nD τ) (st8_1 t) fullShare ((dat8 V c).after 1 t)
    ∗ owns (c : Thread nD τ) (st8_2 t) fullShare ((dat8 V c).after 2 t)
    ∗ owns (c : Thread nD τ) (st8_3 t) fullShare ((dat8 V c).after 3 t))

/-- The body at any point: the inputs' buffers hold their blocks, so the kernel's triple applies; the invariant and the
    core's debts pass through unread. -/
theorem sound_body8 (c : Dev nD) (t : Fin cfg8.N) :
    bodyPre8 V c t ⊢ wp frame (wpE (defs₀ (F := F)) Variants.none c none) Set.univ (bodyAt8 t) (fun _ => bodyPost8 V c t) := by
  unfold bodyPre8 bodyPost8 bodyAt8
  simp only [before8_0, before8_1, before8_2]
  rw [show (dat8 V c).Φ t.succ = (dat8 V c).Φ t.castSucc from rfl,
    show (dat8 V c).owesAt () t.succ = (dat8 V c).owesAt () t.castSucc from rfl,
    after8_0, after8_1, after8_2, after8_3]
  iintro ⟨HΦ, Ho, ⟨%d0, H0⟩, ⟨%d1, H1⟩, ⟨%d2, H2⟩, ⟨%d3, H3⟩⟩
  iapply (sound_kernel8 c Set.univ (grid8.coords t) _ _ _ _ _ _ _ _ (iblk8 V c 0 t) (iblk8 V c 1 t) (iblk8 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation8 (c : Dev nD) : BodyObligation (dat8 (F := F) V c) (defs₀ (F := F)) Variants.none () Set.univ := fun t => by
  rw [bigSep_W8, bigSep_W8]
  exact sound_body8 V c t

end Cert.KernelIdeal.Hand

end
-- ==== Proof.KernelIdeal.Region9.lean ====
import proofs.«175281_j9964324127123_1_alg».proof.Proof.Gen.KernelIdeal.Launch
import proofs.«175281_j9964324127123_1_alg».proof.Proof.Gen.KernelIdeal.Skeleton
import proofs.«175281_j9964324127123_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-! # Region 9: the body's half of pipeline 9

The kernel of this region is the layer combine: `h = 0.9·msg + 0.1·x0` on a row tile, then `(1-β)·h + β·(h W)` with the layer's literal β.
Everything here is stated at a parameter `V`: the TensorCore's buffer contents when the region is entered.
At a grid point `t` (one of 20 row tiles of 5000 rows) the body reads each input window's staging buffer whole,
computes one value from them, and overwrites the output window's staging buffer whole with it; the inputs'
buffers are left as found. The proof data records exactly that: after the body, an input's buffer is its block
of the array at `t`, and the output's buffer is the stored value as a function of the input blocks. -/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`: the rectangle of its array (as the region finds it) that the window's index map selects at `t`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

/-- Input window 0: its current staging buffer holds its block at every point — at a point where it is fetched because the
    fetch copies the block, at a point where it is not because the index map has not moved since the last fetch and the
    body leaves the buffer as found. For any proof data over `V`'s arrays whose body leaves input 0's block in place. -/
theorem before9_0_of {c : Dev nD} (dat : Dat τ (Elt F) Unit ℕ (UR sig nD τ) ℕ cfg9 c) (hA : dat.A 0 = V c (Pipeline.arrRef spec9 0))
    (hafter : ∀ t, dat.after 0 t = iblk9 V c 0 t) (t : Fin cfg9.N) (d) : dat.before 0 t d = iblk9 V c 0 t :=
  (dat.before_in_eq_fetched 0 rfl (fun _ => rfl) (fun _ _ _ => rfl) (fun t => by rw [hafter]; unfold Dat.blockOf iblk9; rw [hA]; try rfl) t d).trans
    (by unfold Dat.fetched Dat.blockOf iblk9; rw [hA]; try rfl)

/-- Input window 1: its current staging buffer holds its block at every point — at a point where it is fetched because the
    fetch copies the block, at a point where it is not because the index map has not moved since the last fetch and the
    body leaves the buffer as found. For any proof data over `V`'s arrays whose body leaves input 1's block in place. -/
theorem before9_1_of {c : Dev nD} (dat : Dat τ (Elt F) Unit ℕ (UR sig nD τ) ℕ cfg9 c) (hA : dat.A 1 = V c (Pipeline.arrRef spec9 1))
    (hafter : ∀ t, dat.after 1 t = iblk9 V c 1 t) (t : Fin cfg9.N) (d) : dat.before 1 t d = iblk9 V c 1 t :=
  (dat.before_in_eq_fetched 1 rfl (fun _ => rfl) (fun _ _ _ => rfl) (fun t => by rw [hafter]; unfold Dat.blockOf iblk9; rw [hA]; try rfl) t d).trans
    (by unfold Dat.fetched Dat.blockOf iblk9; rw [hA]; try rfl)

/-- Input window 2: its current staging buffer holds its block at every point — at a point where it is fetched because the
    fetch copies the block, at a point where it is not because the index map has not moved since the last fetch and the
    body leaves the buffer as found. For any proof data over `V`'s arrays whose body leaves input 2's block in place. -/
theorem before9_2_of {c : Dev nD} (dat : Dat τ (Elt F) Unit ℕ (UR sig nD τ) ℕ cfg9 c) (hA : dat.A 2 = V c (Pipeline.arrRef spec9 2))
    (hafter : ∀ t, dat.after 2 t = iblk9 V c 2 t) (t : Fin cfg9.N) (d) : dat.before 2 t d = iblk9 V c 2 t :=
  (dat.before_in_eq_fetched 2 rfl (fun _ => rfl) (fun _ _ _ => rfl) (fun t => by rw [hafter]; unfold Dat.blockOf iblk9; rw [hA]; try rfl) t d).trans
    (by unfold Dat.fetched Dat.blockOf iblk9; rw [hA]; try rfl)

/-! ## The body's accesses: each buffer is read or written as one whole rectangle -/

abbrev r9_0 : Rect S5000x128 := Rect.unit (s := S5000x128) ![0, 0] S5000x128.size inb_S5000x128_S5000x128_0_0
abbrev r9_1 : Rect S128x128 := Rect.unit (s := S128x128) ![0, 0] S128x128.size inb_S128x128_S128x128_0_0

/-! ## What the body leaves in the output window's buffer -/

/-- The output buffer after the body, as a function of the input blocks: one store over the whole buffer of the
    kernel's value `k9_pay1` at the whole-buffer reads of the inputs. -/
def out9_3 (x0 : Vec F S5000x128 .f32) (x1 : Vec F S5000x128 .f32) (x2 : Vec F S128x128 .f32) : Vec F S5000x128 .f32 :=
  View.canon [⟨r9_0, k9_pay1 (View.ld x0 r9_0) (View.ld x1 r9_0) (View.ld x2 r9_1)⟩]

/-- The one store is over the whole buffer, so it covers every index. -/
theorem cover9_3 (p0 : Vec F S5000x128 .f32) (y : S5000x128.Idx) :
    ∃ pc ∈ ([⟨r9_0, p0⟩] : List (View.Piece (Elt F) S5000x128 .f32)), y ∈ pc.1.set :=
  View.cover_of_tiled [⟨r9_0, p0⟩] S5000x128.size (by rfl) y

/-! ## The body's triple -/

set_option maxHeartbeats 1000000 in
/-- The kernel on whole staging buffers — the inputs' at contents `xW`, the output's at anything — runs to a state with the
    inputs' unchanged and the output's at `out9_3` of the inputs. (The body also reads the output buffer once before
    overwriting it; that value is never used.) -/
theorem sound_kernel9 (c : Dev nD) (E : Set ℕ) (i : grid9.Coords) (arg1 : Memref sig .tc .vmem S5000x128 .f32) (harg1 : arg1.IsWhole) (arg2 : Memref sig .tc .vmem S5000x128 .f32) (harg2 : arg2.IsWhole) (arg3 : Memref sig .tc .vmem S128x128 .f32) (harg3 : arg3.IsWhole) (arg4 : Memref sig .tc .vmem S5000x128 .f32) (harg4 : arg4.IsWhole)
    (x0 : Vec F S5000x128 .f32) (x1 : Vec F S5000x128 .f32) (x2 : Vec F S128x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out9_3 x0 x1 x2)) -∗ K ⟨⟩))
      ⊢ wp frame (wpE (defs₀ (F := F)) Variants.none c none) E (cc9_kernel i arg1 harg1 arg2 harg2 arg3 harg3 arg4 harg4) K := by
  simp only [cc9_kernel_eq_skeleton]; unfold cc9_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover9_3 _)

/-! ## The pipeline's proof data -/

/-- The proof data of pipeline 9 on core `c`: the arrays as the region finds them; after the body at point `t` each input's
    buffer at its block and the output's at `out9_3` of the input blocks; the invariant is the untouched rest of the core's
    state; nothing owed; full shares. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

/-- The proof data's arrays are the region-entry contents. -/
theorem A_eq9 (c : Dev nD) (w : Fin cfg9.W) : (dat9 V c).A w = V c (Pipeline.arrRef spec9 w) := by
  dsimp only [dat9]

/-- What the body leaves, window by window. -/
theorem after9_0 (c : Dev nD) (t : Fin cfg9.N) : (dat9 V c).after 0 t = iblk9 V c 0 t := by dsimp only [dat9]
theorem after9_1 (c : Dev nD) (t : Fin cfg9.N) : (dat9 V c).after 1 t = iblk9 V c 1 t := by dsimp only [dat9]
theorem after9_2 (c : Dev nD) (t : Fin cfg9.N) : (dat9 V c).after 2 t = iblk9 V c 2 t := by dsimp only [dat9]
theorem after9_3 (c : Dev nD) (t : Fin cfg9.N) : (dat9 V c).after 3 t = out9_3 (iblk9 V c 0 t) (iblk9 V c 1 t) (iblk9 V c 2 t) := by dsimp only [dat9]

/-- Each input's current staging buffer holds its block at every point. -/
theorem before9_0 (c : Dev nD) (t : Fin cfg9.N) (d) : (dat9 V c).before 0 t d = iblk9 V c 0 t :=
  before9_0_of V (dat9 V c) (A_eq9 V c 0) (after9_0 V c) t d
theorem before9_1 (c : Dev nD) (t : Fin cfg9.N) (d) : (dat9 V c).before 1 t d = iblk9 V c 1 t :=
  before9_1_of V (dat9 V c) (A_eq9 V c 1) (after9_1 V c) t d
theorem before9_2 (c : Dev nD) (t : Fin cfg9.N) (d) : (dat9 V c).before 2 t d = iblk9 V c 2 t :=
  before9_2_of V (dat9 V c) (A_eq9 V c 2) (after9_2 V c) t d

/-! ## The body obligation, at a generic point -/

/-- What the body is called with at point `t`: the invariant, the core's debts, and each window's current staging buffer, -/
def bodyPre9 (c : Dev nD) (t : Fin cfg9.N) : sProp 𝕄 :=
  iprop((dat9 V c).Φ t.castSucc ∗ (dat9 V c).owesAt () t.castSucc
    ∗ (∃ d, owns (c : Thread nD τ) (st9_0 t) fullShare ((dat9 V c).before 0 t d))
    ∗ (∃ d, owns (c : Thread nD τ) (st9_1 t) fullShare ((dat9 V c).before 1 t d))
    ∗ (∃ d, owns (c : Thread nD τ) (st9_2 t) fullShare ((dat9 V c).before 2 t d))
    ∗ (∃ d, owns (c : Thread nD τ) (st9_3 t) fullShare ((dat9 V c).before 3 t d)))

/-- and what it returns. -/
def bodyPost9 (c : Dev nD) (t : Fin cfg9.N) : sProp 𝕄 :=
  iprop((dat9 V c).Φ t.succ ∗ (dat9 V c).owesAt () t.succ
    ∗ owns (c : Thread nD τ) (st9_0 t) fullShare ((dat9 V c).after 0 t)
    ∗ owns (c : Thread nD τ) (st9_1 t) fullShare ((dat9 V c).after 1 t)
    ∗ owns (c : Thread nD τ) (st9_2 t) fullShare ((dat9 V c).after 2 t)
    ∗ owns (c : Thread nD τ) (st9_3 t) fullShare ((dat9 V c).after 3 t))

/-- The body at any point: the inputs' buffers hold their blocks, so the kernel's triple applies; the invariant and the
    core's debts pass through unread. -/
theorem sound_body9 (c : Dev nD) (t : Fin cfg9.N) :
    bodyPre9 V c t ⊢ wp frame (wpE (defs₀ (F := F)) Variants.none c none) Set.univ (bodyAt9 t) (fun _ => bodyPost9 V c t) := by
  unfold bodyPre9 bodyPost9 bodyAt9
  simp only [before9_0, before9_1, before9_2]
  rw [show (dat9 V c).Φ t.succ = (dat9 V c).Φ t.castSucc from rfl,
    show (dat9 V c).owesAt () t.succ = (dat9 V c).owesAt () t.castSucc from rfl,
    after9_0, after9_1, after9_2, after9_3]
  iintro ⟨HΦ, Ho, ⟨%d0, H0⟩, ⟨%d1, H1⟩, ⟨%d2, H2⟩, ⟨%d3, H3⟩⟩
  iapply (sound_kernel9 c Set.univ (grid9.coords t) _ _ _ _ _ _ _ _ (iblk9 V c 0 t) (iblk9 V c 1 t) (iblk9 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline's body obligation, at every point. -/
theorem body_obligation9 (c : Dev nD) : BodyObligation (dat9 (F := F) V c) (defs₀ (F := F)) Variants.none () Set.univ := fun t => by
  rw [bigSep_W9, bigSep_W9]
  exact sound_body9 V c t

end Cert.KernelIdeal.Hand

end
-- ==== Proof.KernelIdeal.Fold.lean ====
/-
  The contents of the TensorCore's unscoped buffers at every boundary between two items of the main function
  (a stretch of host operations, or a kernel region), as a fold from the launch memory: a host stretch applies
  its operations; a region replaces its one output array by what its twenty write-backs leave and changes
  nothing else.  Then: these contents are the generated conditional frame's valuations at the choice
  "the contents a region leaves are the fold's", and every region's arrays at its exit are the fold's.
-/
import proofs.«175281_j9964324127123_1_alg».proof.Proof.Gen.KernelIdeal.Regions
import proofs.«175281_j9964324127123_1_alg».proof.Proof.KernelIdeal.Region0
import proofs.«175281_j9964324127123_1_alg».proof.Proof.KernelIdeal.Region1
import proofs.«175281_j9964324127123_1_alg».proof.Proof.KernelIdeal.Region2
import proofs.«175281_j9964324127123_1_alg».proof.Proof.KernelIdeal.Region3
import proofs.«175281_j9964324127123_1_alg».proof.Proof.KernelIdeal.Region4
import proofs.«175281_j9964324127123_1_alg».proof.Proof.KernelIdeal.Region5
import proofs.«175281_j9964324127123_1_alg».proof.Proof.KernelIdeal.Region6
import proofs.«175281_j9964324127123_1_alg».proof.Proof.KernelIdeal.Region7
import proofs.«175281_j9964324127123_1_alg».proof.Proof.KernelIdeal.Region8
import proofs.«175281_j9964324127123_1_alg».proof.Proof.KernelIdeal.Region9

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]
variable (m : (ℓ : Loc nD τ sig) → Buf (Elt F) ℓ)

/-- A valuation read at the TensorCore's references. -/
abbrev atTc (W : Dev nD → Valuation τ sig (Elt F)) : (c : Dev nD) → (b : Ref sig .tc) → Buf (Elt F) ((c : Thread nD τ).loc b) :=
  fun c b => W c b

/-! ## The fold -/

/-- After the host stretch `hostOps0`. -/
def W1 (c : Dev nD) : Valuation τ sig (Elt F) := StableHlo.after hostOps0 (V0 m c)
/-- After region 0: `main_v1` holds what the region's write-backs leave. -/
def W2 (c : Dev nD) : Valuation τ sig (Elt F) :=
  Function.update (W1 m c) main_v1 ((dat0 (atTc (W1 m)) c).arrAt 3 cfg0.N)
/-- After the host stretch `hostOps1`. -/
def W3 (c : Dev nD) : Valuation τ sig (Elt F) := StableHlo.after hostOps1 (W2 m c)
/-- After region 1: `main_v14` holds what the region's write-backs leave. -/
def W4 (c : Dev nD) : Valuation τ sig (Elt F) :=
  Function.update (W3 m c) main_v14 ((dat1 (atTc (W3 m)) c).arrAt 3 cfg1.N)
/-- After the host stretch `hostOps2`. -/
def W5 (c : Dev nD) : Valuation τ sig (Elt F) := StableHlo.after hostOps2 (W4 m c)
/-- After the host stretch `hostOps2_1`. -/
def W6 (c : Dev nD) : Valuation τ sig (Elt F) := StableHlo.after hostOps2_1 (W5 m c)
/-- After the host stretch `hostOps2_2`. -/
def W7 (c : Dev nD) : Valuation τ sig (Elt F) := StableHlo.after hostOps2_2 (W6 m c)
/-- After region 2: `main_v30` holds what the region's write-backs leave. -/
def W8 (c : Dev nD) : Valuation τ sig (Elt F) :=
  Function.update (W7 m c) main_v30 ((dat2 (atTc (W7 m)) c).arrAt 5 cfg2.N)
/-- After the host stretch `hostOps3`. -/
def W9 (c : Dev nD) : Valuation τ sig (Elt F) := StableHlo.after hostOps3 (W8 m c)
/-- After region 3: `main_v43` holds what the region's write-backs leave. -/
def W10 (c : Dev nD) : Valuation τ sig (Elt F) :=
  Function.update (W9 m c) main_v43 ((dat3 (atTc (W9 m)) c).arrAt 3 cfg3.N)
/-- After the host stretch `hostOps4`. -/
def W11 (c : Dev nD) : Valuation τ sig (Elt F) := StableHlo.after hostOps4 (W10 m c)
/-- After the host stretch `hostOps4_1`. -/
def W12 (c : Dev nD) : Valuation τ sig (Elt F) := StableHlo.after hostOps4_1 (W11 m c)
/-- After the host stretch `hostOps4_2`. -/
def W13 (c : Dev nD) : Valuation τ sig (Elt F) := StableHlo.after hostOps4_2 (W12 m c)
/-- After region 4: `main_v59` holds what the region's write-backs leave. -/
def W14 (c : Dev nD) : Valuation τ sig (Elt F) :=
  Function.update (W13 m c) main_v59 ((dat4 (atTc (W13 m)) c).arrAt 5 cfg4.N)
/-- After the host stretch `hostOps5`. -/
def W15 (c : Dev nD) : Valuation τ sig (Elt F) := StableHlo.after hostOps5 (W14 m c)
/-- After region 5: `main_v72` holds what the region's write-backs leave. -/
def W16 (c : Dev nD) : Valuation τ sig (Elt F) :=
  Function.update (W15 m c) main_v72 ((dat5 (atTc (W15 m)) c).arrAt 3 cfg5.N)
/-- After the host stretch `hostOps6`. -/
def W17 (c : Dev nD) : Valuation τ sig (Elt F) := StableHlo.after hostOps6 (W16 m c)
/-- After the host stretch `hostOps6_1`. -/
def W18 (c : Dev nD) : Valuation τ sig (Elt F) := StableHlo.after hostOps6_1 (W17 m c)
/-- After the host stretch `hostOps6_2`. -/
def W19 (c : Dev nD) : Valuation τ sig (Elt F) := StableHlo.after hostOps6_2 (W18 m c)
/-- After region 6: `main_v88` holds what the region's write-backs leave. -/
def W20 (c : Dev nD) : Valuation τ sig (Elt F) :=
  Function.update (W19 m c) main_v88 ((dat6 (atTc (W19 m)) c).arrAt 5 cfg6.N)
/-- After the host stretch `hostOps7`. -/
def W21 (c : Dev nD) : Valuation τ sig (Elt F) := StableHlo.after hostOps7 (W20 m c)
/-- After region 7: `main_v101` holds what the region's write-backs leave. -/
def W22 (c : Dev nD) : Valuation τ sig (Elt F) :=
  Function.update (W21 m c) main_v101 ((dat7 (atTc (W21 m)) c).arrAt 3 cfg7.N)
/-- After the host stretch `hostOps8`. -/
def W23 (c : Dev nD) : Valuation τ sig (Elt F) := StableHlo.after hostOps8 (W22 m c)
/-- After region 8: `main_v104` holds what the region's write-backs leave. -/
def W24 (c : Dev nD) : Valuation τ sig (Elt F) :=
  Function.update (W23 m c) main_v104 ((dat8 (atTc (W23 m)) c).arrAt 3 cfg8.N)
/-- After the host stretch `hostOps9`. -/
def W25 (c : Dev nD) : Valuation τ sig (Elt F) := StableHlo.after hostOps9 (W24 m c)
/-- After region 9: `main_v117` holds what the region's write-backs leave. -/
def W26 (c : Dev nD) : Valuation τ sig (Elt F) :=
  Function.update (W25 m c) main_v117 ((dat9 (atTc (W25 m)) c).arrAt 3 cfg9.N)

/-! ## The fold is the generated valuations at its own contents -/

/-- What each region leaves, read off the fold. -/
def outs : Outs (F := F) := fun J r c => match J with
  | 2 => W2 m c r
  | 4 => W4 m c r
  | 8 => W8 m c r
  | 10 => W10 m c r
  | 14 => W14 m c r
  | 16 => W16 m c r
  | 20 => W20 m c r
  | 22 => W22 m c r
  | 24 => W24 m c r
  | 26 => W26 m c r
  | _ => m ((c : Thread nD τ).loc r)

theorem V1_eq (c : Dev nD) : V1 m c = W1 m c := rfl
theorem V2_eq (c : Dev nD) : V2 m (outs m) c = W2 m c := by
  show Function.update (V1 m c) main_v1 (W2 m c main_v1) = W2 m c
  rw [V1_eq]; unfold W2; rw [Function.update_self]
theorem V3_eq (c : Dev nD) : V3 m (outs m) c = W3 m c := by
  show StableHlo.after hostOps1 (V2 m (outs m) c) = W3 m c
  rw [V2_eq]; rfl
theorem V4_eq (c : Dev nD) : V4 m (outs m) c = W4 m c := by
  show Function.update (V3 m (outs m) c) main_v14 (W4 m c main_v14) = W4 m c
  rw [V3_eq]; unfold W4; rw [Function.update_self]
theorem V5_eq (c : Dev nD) : V5 m (outs m) c = W5 m c := by
  show StableHlo.after hostOps2 (V4 m (outs m) c) = W5 m c
  rw [V4_eq]; rfl
theorem V6_eq (c : Dev nD) : V6 m (outs m) c = W6 m c := by
  show StableHlo.after hostOps2_1 (V5 m (outs m) c) = W6 m c
  rw [V5_eq]; rfl
theorem V7_eq (c : Dev nD) : V7 m (outs m) c = W7 m c := by
  show StableHlo.after hostOps2_2 (V6 m (outs m) c) = W7 m c
  rw [V6_eq]; rfl
theorem V8_eq (c : Dev nD) : V8 m (outs m) c = W8 m c := by
  show Function.update (V7 m (outs m) c) main_v30 (W8 m c main_v30) = W8 m c
  rw [V7_eq]; unfold W8; rw [Function.update_self]
theorem V9_eq (c : Dev nD) : V9 m (outs m) c = W9 m c := by
  show StableHlo.after hostOps3 (V8 m (outs m) c) = W9 m c
  rw [V8_eq]; rfl
theorem V10_eq (c : Dev nD) : V10 m (outs m) c = W10 m c := by
  show Function.update (V9 m (outs m) c) main_v43 (W10 m c main_v43) = W10 m c
  rw [V9_eq]; unfold W10; rw [Function.update_self]
theorem V11_eq (c : Dev nD) : V11 m (outs m) c = W11 m c := by
  show StableHlo.after hostOps4 (V10 m (outs m) c) = W11 m c
  rw [V10_eq]; rfl
theorem V12_eq (c : Dev nD) : V12 m (outs m) c = W12 m c := by
  show StableHlo.after hostOps4_1 (V11 m (outs m) c) = W12 m c
  rw [V11_eq]; rfl
theorem V13_eq (c : Dev nD) : V13 m (outs m) c = W13 m c := by
  show StableHlo.after hostOps4_2 (V12 m (outs m) c) = W13 m c
  rw [V12_eq]; rfl
theorem V14_eq (c : Dev nD) : V14 m (outs m) c = W14 m c := by
  show Function.update (V13 m (outs m) c) main_v59 (W14 m c main_v59) = W14 m c
  rw [V13_eq]; unfold W14; rw [Function.update_self]
theorem V15_eq (c : Dev nD) : V15 m (outs m) c = W15 m c := by
  show StableHlo.after hostOps5 (V14 m (outs m) c) = W15 m c
  rw [V14_eq]; rfl
theorem V16_eq (c : Dev nD) : V16 m (outs m) c = W16 m c := by
  show Function.update (V15 m (outs m) c) main_v72 (W16 m c main_v72) = W16 m c
  rw [V15_eq]; unfold W16; rw [Function.update_self]
theorem V17_eq (c : Dev nD) : V17 m (outs m) c = W17 m c := by
  show StableHlo.after hostOps6 (V16 m (outs m) c) = W17 m c
  rw [V16_eq]; rfl
theorem V18_eq (c : Dev nD) : V18 m (outs m) c = W18 m c := by
  show StableHlo.after hostOps6_1 (V17 m (outs m) c) = W18 m c
  rw [V17_eq]; rfl
theorem V19_eq (c : Dev nD) : V19 m (outs m) c = W19 m c := by
  show StableHlo.after hostOps6_2 (V18 m (outs m) c) = W19 m c
  rw [V18_eq]; rfl
theorem V20_eq (c : Dev nD) : V20 m (outs m) c = W20 m c := by
  show Function.update (V19 m (outs m) c) main_v88 (W20 m c main_v88) = W20 m c
  rw [V19_eq]; unfold W20; rw [Function.update_self]
theorem V21_eq (c : Dev nD) : V21 m (outs m) c = W21 m c := by
  show StableHlo.after hostOps7 (V20 m (outs m) c) = W21 m c
  rw [V20_eq]; rfl
theorem V22_eq (c : Dev nD) : V22 m (outs m) c = W22 m c := by
  show Function.update (V21 m (outs m) c) main_v101 (W22 m c main_v101) = W22 m c
  rw [V21_eq]; unfold W22; rw [Function.update_self]
theorem V23_eq (c : Dev nD) : V23 m (outs m) c = W23 m c := by
  show StableHlo.after hostOps8 (V22 m (outs m) c) = W23 m c
  rw [V22_eq]; rfl
theorem V24_eq (c : Dev nD) : V24 m (outs m) c = W24 m c := by
  show Function.update (V23 m (outs m) c) main_v104 (W24 m c main_v104) = W24 m c
  rw [V23_eq]; unfold W24; rw [Function.update_self]
theorem V25_eq (c : Dev nD) : V25 m (outs m) c = W25 m c := by
  show StableHlo.after hostOps9 (V24 m (outs m) c) = W25 m c
  rw [V24_eq]; rfl
theorem V26_eq (c : Dev nD) : V26 m (outs m) c = W26 m c := by
  show Function.update (V25 m (outs m) c) main_v117 (W26 m c main_v117) = W26 m c
  rw [V25_eq]; unfold W26; rw [Function.update_self]

/-! ## Every region's arrays at its exit -/

/-- Region 0: at its exit each window's array holds what the pipeline leaves — an input's as entered, the output's
    the write-backs' fold. -/
theorem hF0 (c : Dev nD) (w : Fin cfg0.W) :
    (dat0 (atTc (W1 m)) c).arrAt w cfg0.N = atTc (W2 m) c (Pipeline.arrRef spec0 w) := by
  unfold atTc W2
  match w with
  | ⟨0, _⟩ =>
    exact (((dat0 (atTc (W1 m)) c).arrAt_in 0 rfl _).trans (A_eq0 (atTc (W1 m)) c 0)).trans
      (Function.update_of_ne (StableHlo.devRef_ne_of_ne (by decide)) _ _).symm
  | ⟨1, _⟩ =>
    exact (((dat0 (atTc (W1 m)) c).arrAt_in 1 rfl _).trans (A_eq0 (atTc (W1 m)) c 1)).trans
      (Function.update_of_ne (StableHlo.devRef_ne_of_ne (by decide)) _ _).symm
  | ⟨2, _⟩ =>
    exact (((dat0 (atTc (W1 m)) c).arrAt_in 2 rfl _).trans (A_eq0 (atTc (W1 m)) c 2)).trans
      (Function.update_of_ne (StableHlo.devRef_ne_of_ne (by decide)) _ _).symm
  | ⟨3, _⟩ => exact (Function.update_self (main_v1 : DevRef τ sig) _ (W1 m c)).symm
theorem hrest0 (c : Dev nD) : ∀ b, b ∉ Finset.univ.image (Pipeline.arrRef spec0) → atTc (W2 m) c b = atTc (W1 m) c b := by
  intro b hb
  unfold atTc W2
  exact Function.update_of_ne (StableHlo.devRef_ne_of_ne fun e => hb (Finset.mem_image.mpr ⟨3, Finset.mem_univ _, e.symm⟩)) _ _

/-- Region 1: at its exit each window's array holds what the pipeline leaves — an input's as entered, the output's
    the write-backs' fold. -/
theorem hF1 (c : Dev nD) (w : Fin cfg1.W) :
    (dat1 (atTc (W3 m)) c).arrAt w cfg1.N = atTc (W4 m) c (Pipeline.arrRef spec1 w) := by
  unfold atTc W4
  match w with
  | ⟨0, _⟩ =>
    exact (((dat1 (atTc (W3 m)) c).arrAt_in 0 rfl _).trans (A_eq1 (atTc (W3 m)) c 0)).trans
      (Function.update_of_ne (StableHlo.devRef_ne_of_ne (by decide)) _ _).symm
  | ⟨1, _⟩ =>
    exact (((dat1 (atTc (W3 m)) c).arrAt_in 1 rfl _).trans (A_eq1 (atTc (W3 m)) c 1)).trans
      (Function.update_of_ne (StableHlo.devRef_ne_of_ne (by decide)) _ _).symm
  | ⟨2, _⟩ =>
    exact (((dat1 (atTc (W3 m)) c).arrAt_in 2 rfl _).trans (A_eq1 (atTc (W3 m)) c 2)).trans
      (Function.update_of_ne (StableHlo.devRef_ne_of_ne (by decide)) _ _).symm
  | ⟨3, _⟩ => exact (Function.update_self (main_v14 : DevRef τ sig) _ (W3 m c)).symm
theorem hrest1 (c : Dev nD) : ∀ b, b ∉ Finset.univ.image (Pipeline.arrRef spec1) → atTc (W4 m) c b = atTc (W3 m) c b := by
  intro b hb
  unfold atTc W4
  exact Function.update_of_ne (StableHlo.devRef_ne_of_ne fun e => hb (Finset.mem_image.mpr ⟨3, Finset.mem_univ _, e.symm⟩)) _ _

set_option maxHeartbeats 4000000 in
/-- Region 2: at its exit each window's array holds what the pipeline leaves — an input's as entered, the output's
    the write-backs' fold. -/
theorem hF2 (c : Dev nD) (w : Fin cfg2.W) :
    (dat2 (atTc (W7 m)) c).arrAt w cfg2.N = atTc (W8 m) c (Pipeline.arrRef spec2 w) := by
  unfold atTc W8
  match w with
  | ⟨0, _⟩ =>
    exact (((dat2 (atTc (W7 m)) c).arrAt_in 0 rfl _).trans (A_eq2 (atTc (W7 m)) c 0)).trans
      (Function.update_of_ne (StableHlo.devRef_ne_of_ne (by decide)) _ _).symm
  | ⟨1, _⟩ =>
    exact (((dat2 (atTc (W7 m)) c).arrAt_in 1 rfl _).trans (A_eq2 (atTc (W7 m)) c 1)).trans
      (Function.update_of_ne (StableHlo.devRef_ne_of_ne (by decide)) _ _).symm
  | ⟨2, _⟩ =>
    exact (((dat2 (atTc (W7 m)) c).arrAt_in 2 rfl _).trans (A_eq2 (atTc (W7 m)) c 2)).trans
      (Function.update_of_ne (StableHlo.devRef_ne_of_ne (by decide)) _ _).symm
  | ⟨3, _⟩ =>
    exact (((dat2 (atTc (W7 m)) c).arrAt_in 3 rfl _).trans (A_eq2 (atTc (W7 m)) c 3)).trans
      (Function.update_of_ne (StableHlo.devRef_ne_of_ne (by decide)) _ _).symm
  | ⟨4, _⟩ =>
    exact (((dat2 (atTc (W7 m)) c).arrAt_in 4 rfl _).trans (A_eq2 (atTc (W7 m)) c 4)).trans
      (Function.update_of_ne (StableHlo.devRef_ne_of_ne (by decide)) _ _).symm
  | ⟨5, _⟩ => exact (Function.update_self (main_v30 : DevRef τ sig) _ (W7 m c)).symm
theorem hrest2 (c : Dev nD) : ∀ b, b ∉ Finset.univ.image (Pipeline.arrRef spec2) → atTc (W8 m) c b = atTc (W7 m) c b := by
  intro b hb
  unfold atTc W8
  exact Function.update_of_ne (StableHlo.devRef_ne_of_ne fun e => hb (Finset.mem_image.mpr ⟨5, Finset.mem_univ _, e.symm⟩)) _ _

/-- Region 3: at its exit each window's array holds what the pipeline leaves — an input's as entered, the output's
    the write-backs' fold. -/
theorem hF3 (c : Dev nD) (w : Fin cfg3.W) :
    (dat3 (atTc (W9 m)) c).arrAt w cfg3.N = atTc (W10 m) c (Pipeline.arrRef spec3 w) := by
  unfold atTc W10
  match w with
  | ⟨0, _⟩ =>
    exact (((dat3 (atTc (W9 m)) c).arrAt_in 0 rfl _).trans (A_eq3 (atTc (W9 m)) c 0)).trans
      (Function.update_of_ne (StableHlo.devRef_ne_of_ne (by decide)) _ _).symm
  | ⟨1, _⟩ =>
    exact (((dat3 (atTc (W9 m)) c).arrAt_in 1 rfl _).trans (A_eq3 (atTc (W9 m)) c 1)).trans
      (Function.update_of_ne (StableHlo.devRef_ne_of_ne (by decide)) _ _).symm
  | ⟨2, _⟩ =>
    exact (((dat3 (atTc (W9 m)) c).arrAt_in 2 rfl _).trans (A_eq3 (atTc (W9 m)) c 2)).trans
      (Function.update_of_ne (StableHlo.devRef_ne_of_ne (by decide)) _ _).symm
  | ⟨3, _⟩ => exact (Function.update_self (main_v43 : DevRef τ sig) _ (W9 m c)).symm
theorem hrest3 (c : Dev nD) : ∀ b, b ∉ Finset.univ.image (Pipeline.arrRef spec3) → atTc (W10 m) c b = atTc (W9 m) c b := by
  intro b hb
  unfold atTc W10
  exact Function.update_of_ne (StableHlo.devRef_ne_of_ne fun e => hb (Finset.mem_image.mpr ⟨3, Finset.mem_univ _, e.symm⟩)) _ _

set_option maxHeartbeats 4000000 in
/-- Region 4: at its exit each window's array holds what the pipeline leaves — an input's as entered, the output's
    the write-backs' fold. -/
theorem hF4 (c : Dev nD) (w : Fin cfg4.W) :
    (dat4 (atTc (W13 m)) c).arrAt w cfg4.N = atTc (W14 m) c (Pipeline.arrRef spec4 w) := by
  unfold atTc W14
  match w with
  | ⟨0, _⟩ =>
    exact (((dat4 (atTc (W13 m)) c).arrAt_in 0 rfl _).trans (A_eq4 (atTc (W13 m)) c 0)).trans
      (Function.update_of_ne (StableHlo.devRef_ne_of_ne (by decide)) _ _).symm
  | ⟨1, _⟩ =>
    exact (((dat4 (atTc (W13 m)) c).arrAt_in 1 rfl _).trans (A_eq4 (atTc (W13 m)) c 1)).trans
      (Function.update_of_ne (StableHlo.devRef_ne_of_ne (by decide)) _ _).symm
  | ⟨2, _⟩ =>
    exact (((dat4 (atTc (W13 m)) c).arrAt_in 2 rfl _).trans (A_eq4 (atTc (W13 m)) c 2)).trans
      (Function.update_of_ne (StableHlo.devRef_ne_of_ne (by decide)) _ _).symm
  | ⟨3, _⟩ =>
    exact (((dat4 (atTc (W13 m)) c).arrAt_in 3 rfl _).trans (A_eq4 (atTc (W13 m)) c 3)).trans
      (Function.update_of_ne (StableHlo.devRef_ne_of_ne (by decide)) _ _).symm
  | ⟨4, _⟩ =>
    exact (((dat4 (atTc (W13 m)) c).arrAt_in 4 rfl _).trans (A_eq4 (atTc (W13 m)) c 4)).trans
      (Function.update_of_ne (StableHlo.devRef_ne_of_ne (by decide)) _ _).symm
  | ⟨5, _⟩ => exact (Function.update_self (main_v59 : DevRef τ sig) _ (W13 m c)).symm
theorem hrest4 (c : Dev nD) : ∀ b, b ∉ Finset.univ.image (Pipeline.arrRef spec4) → atTc (W14 m) c b = atTc (W13 m) c b := by
  intro b hb
  unfold atTc W14
  exact Function.update_of_ne (StableHlo.devRef_ne_of_ne fun e => hb (Finset.mem_image.mpr ⟨5, Finset.mem_univ _, e.symm⟩)) _ _

/-- Region 5: at its exit each window's array holds what the pipeline leaves — an input's as entered, the output's
    the write-backs' fold. -/
theorem hF5 (c : Dev nD) (w : Fin cfg5.W) :
    (dat5 (atTc (W15 m)) c).arrAt w cfg5.N = atTc (W16 m) c (Pipeline.arrRef spec5 w) := by
  unfold atTc W16
  match w with
  | ⟨0, _⟩ =>
    exact (((dat5 (atTc (W15 m)) c).arrAt_in 0 rfl _).trans (A_eq5 (atTc (W15 m)) c 0)).trans
      (Function.update_of_ne (StableHlo.devRef_ne_of_ne (by decide)) _ _).symm
  | ⟨1, _⟩ =>
    exact (((dat5 (atTc (W15 m)) c).arrAt_in 1 rfl _).trans (A_eq5 (atTc (W15 m)) c 1)).trans
      (Function.update_of_ne (StableHlo.devRef_ne_of_ne (by decide)) _ _).symm
  | ⟨2, _⟩ =>
    exact (((dat5 (atTc (W15 m)) c).arrAt_in 2 rfl _).trans (A_eq5 (atTc (W15 m)) c 2)).trans
      (Function.update_of_ne (StableHlo.devRef_ne_of_ne (by decide)) _ _).symm
  | ⟨3, _⟩ => exact (Function.update_self (main_v72 : DevRef τ sig) _ (W15 m c)).symm
theorem hrest5 (c : Dev nD) : ∀ b, b ∉ Finset.univ.image (Pipeline.arrRef spec5) → atTc (W16 m) c b = atTc (W15 m) c b := by
  intro b hb
  unfold atTc W16
  exact Function.update_of_ne (StableHlo.devRef_ne_of_ne fun e => hb (Finset.mem_image.mpr ⟨3, Finset.mem_univ _, e.symm⟩)) _ _

set_option maxHeartbeats 4000000 in
/-- Region 6: at its exit each window's array holds what the pipeline leaves — an input's as entered, the output's
    the write-backs' fold. -/
theorem hF6 (c : Dev nD) (w : Fin cfg6.W) :
    (dat6 (atTc (W19 m)) c).arrAt w cfg6.N = atTc (W20 m) c (Pipeline.arrRef spec6 w) := by
  unfold atTc W20
  match w with
  | ⟨0, _⟩ =>
    exact (((dat6 (atTc (W19 m)) c).arrAt_in 0 rfl _).trans (A_eq6 (atTc (W19 m)) c 0)).trans
      (Function.update_of_ne (StableHlo.devRef_ne_of_ne (by decide)) _ _).symm
  | ⟨1, _⟩ =>
    exact (((dat6 (atTc (W19 m)) c).arrAt_in 1 rfl _).trans (A_eq6 (atTc (W19 m)) c 1)).trans
      (Function.update_of_ne (StableHlo.devRef_ne_of_ne (by decide)) _ _).symm
  | ⟨2, _⟩ =>
    exact (((dat6 (atTc (W19 m)) c).arrAt_in 2 rfl _).trans (A_eq6 (atTc (W19 m)) c 2)).trans
      (Function.update_of_ne (StableHlo.devRef_ne_of_ne (by decide)) _ _).symm
  | ⟨3, _⟩ =>
    exact (((dat6 (atTc (W19 m)) c).arrAt_in 3 rfl _).trans (A_eq6 (atTc (W19 m)) c 3)).trans
      (Function.update_of_ne (StableHlo.devRef_ne_of_ne (by decide)) _ _).symm
  | ⟨4, _⟩ =>
    exact (((dat6 (atTc (W19 m)) c).arrAt_in 4 rfl _).trans (A_eq6 (atTc (W19 m)) c 4)).trans
      (Function.update_of_ne (StableHlo.devRef_ne_of_ne (by decide)) _ _).symm
  | ⟨5, _⟩ => exact (Function.update_self (main_v88 : DevRef τ sig) _ (W19 m c)).symm
theorem hrest6 (c : Dev nD) : ∀ b, b ∉ Finset.univ.image (Pipeline.arrRef spec6) → atTc (W20 m) c b = atTc (W19 m) c b := by
  intro b hb
  unfold atTc W20
  exact Function.update_of_ne (StableHlo.devRef_ne_of_ne fun e => hb (Finset.mem_image.mpr ⟨5, Finset.mem_univ _, e.symm⟩)) _ _

/-- Region 7: at its exit each window's array holds what the pipeline leaves — an input's as entered, the output's
    the write-backs' fold. -/
theorem hF7 (c : Dev nD) (w : Fin cfg7.W) :
    (dat7 (atTc (W21 m)) c).arrAt w cfg7.N = atTc (W22 m) c (Pipeline.arrRef spec7 w) := by
  unfold atTc W22
  match w with
  | ⟨0, _⟩ =>
    exact (((dat7 (atTc (W21 m)) c).arrAt_in 0 rfl _).trans (A_eq7 (atTc (W21 m)) c 0)).trans
      (Function.update_of_ne (StableHlo.devRef_ne_of_ne (by decide)) _ _).symm
  | ⟨1, _⟩ =>
    exact (((dat7 (atTc (W21 m)) c).arrAt_in 1 rfl _).trans (A_eq7 (atTc (W21 m)) c 1)).trans
      (Function.update_of_ne (StableHlo.devRef_ne_of_ne (by decide)) _ _).symm
  | ⟨2, _⟩ =>
    exact (((dat7 (atTc (W21 m)) c).arrAt_in 2 rfl _).trans (A_eq7 (atTc (W21 m)) c 2)).trans
      (Function.update_of_ne (StableHlo.devRef_ne_of_ne (by decide)) _ _).symm
  | ⟨3, _⟩ => exact (Function.update_self (main_v101 : DevRef τ sig) _ (W21 m c)).symm
theorem hrest7 (c : Dev nD) : ∀ b, b ∉ Finset.univ.image (Pipeline.arrRef spec7) → atTc (W22 m) c b = atTc (W21 m) c b := by
  intro b hb
  unfold atTc W22
  exact Function.update_of_ne (StableHlo.devRef_ne_of_ne fun e => hb (Finset.mem_image.mpr ⟨3, Finset.mem_univ _, e.symm⟩)) _ _

/-- Region 8: at its exit each window's array holds what the pipeline leaves — an input's as entered, the output's
    the write-backs' fold. -/
theorem hF8 (c : Dev nD) (w : Fin cfg8.W) :
    (dat8 (atTc (W23 m)) c).arrAt w cfg8.N = atTc (W24 m) c (Pipeline.arrRef spec8 w) := by
  unfold atTc W24
  match w with
  | ⟨0, _⟩ =>
    exact (((dat8 (atTc (W23 m)) c).arrAt_in 0 rfl _).trans (A_eq8 (atTc (W23 m)) c 0)).trans
      (Function.update_of_ne (StableHlo.devRef_ne_of_ne (by decide)) _ _).symm
  | ⟨1, _⟩ =>
    exact (((dat8 (atTc (W23 m)) c).arrAt_in 1 rfl _).trans (A_eq8 (atTc (W23 m)) c 1)).trans
      (Function.update_of_ne (StableHlo.devRef_ne_of_ne (by decide)) _ _).symm
  | ⟨2, _⟩ =>
    exact (((dat8 (atTc (W23 m)) c).arrAt_in 2 rfl _).trans (A_eq8 (atTc (W23 m)) c 2)).trans
      (Function.update_of_ne (StableHlo.devRef_ne_of_ne (by decide)) _ _).symm
  | ⟨3, _⟩ => exact (Function.update_self (main_v104 : DevRef τ sig) _ (W23 m c)).symm
theorem hrest8 (c : Dev nD) : ∀ b, b ∉ Finset.univ.image (Pipeline.arrRef spec8) → atTc (W24 m) c b = atTc (W23 m) c b := by
  intro b hb
  unfold atTc W24
  exact Function.update_of_ne (StableHlo.devRef_ne_of_ne fun e => hb (Finset.mem_image.mpr ⟨3, Finset.mem_univ _, e.symm⟩)) _ _

/-- Region 9: at its exit each window's array holds what the pipeline leaves — an input's as entered, the output's
    the write-backs' fold. -/
theorem hF9 (c : Dev nD) (w : Fin cfg9.W) :
    (dat9 (atTc (W25 m)) c).arrAt w cfg9.N = atTc (W26 m) c (Pipeline.arrRef spec9 w) := by
  unfold atTc W26
  match w with
  | ⟨0, _⟩ =>
    exact (((dat9 (atTc (W25 m)) c).arrAt_in 0 rfl _).trans (A_eq9 (atTc (W25 m)) c 0)).trans
      (Function.update_of_ne (StableHlo.devRef_ne_of_ne (by decide)) _ _).symm
  | ⟨1, _⟩ =>
    exact (((dat9 (atTc (W25 m)) c).arrAt_in 1 rfl _).trans (A_eq9 (atTc (W25 m)) c 1)).trans
      (Function.update_of_ne (StableHlo.devRef_ne_of_ne (by decide)) _ _).symm
  | ⟨2, _⟩ =>
    exact (((dat9 (atTc (W25 m)) c).arrAt_in 2 rfl _).trans (A_eq9 (atTc (W25 m)) c 2)).trans
      (Function.update_of_ne (StableHlo.devRef_ne_of_ne (by decide)) _ _).symm
  | ⟨3, _⟩ => exact (Function.update_self (main_v117 : DevRef τ sig) _ (W25 m c)).symm
theorem hrest9 (c : Dev nD) : ∀ b, b ∉ Finset.univ.image (Pipeline.arrRef spec9) → atTc (W26 m) c b = atTc (W25 m) c b := by
  intro b hb
  unfold atTc W26
  exact Function.update_of_ne (StableHlo.devRef_ne_of_ne fun e => hb (Finset.mem_image.mpr ⟨3, Finset.mem_univ _, e.symm⟩)) _ _

end Cert.KernelIdeal.Hand

end
-- ==== Proof.KernelIdeal.Data.lean ====
/-
  The proof data of the ten pipelines, each at the fold's contents where its region is entered, and what rides beside
  the buffers through every item: the core's generator register at some state and the core owing nothing.
-/
import proofs.«175281_j9964324127123_1_alg».proof.Proof.KernelIdeal.Fold
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- Every pipeline's proof data, each at its region's entry contents (a literal match on the pipeline's number). -/
def pdats : (p : Fin 10) → (c : Dev nD) → Dat τ (Elt F) Unit ℕ (UR sig nD τ) ℕ (cfgs p) c
  | ⟨0, _⟩ => fun c => dat0 (atTc (W1 m)) c
  | ⟨1, _⟩ => fun c => dat1 (atTc (W3 m)) c
  | ⟨2, _⟩ => fun c => dat2 (atTc (W7 m)) c
  | ⟨3, _⟩ => fun c => dat3 (atTc (W9 m)) c
  | ⟨4, _⟩ => fun c => dat4 (atTc (W13 m)) c
  | ⟨5, _⟩ => fun c => dat5 (atTc (W15 m)) c
  | ⟨6, _⟩ => fun c => dat6 (atTc (W19 m)) c
  | ⟨7, _⟩ => fun c => dat7 (atTc (W21 m)) c
  | ⟨8, _⟩ => fun c => dat8 (atTc (W23 m)) c
  | ⟨9, _⟩ => fun c => dat9 (atTc (W25 m)) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers: the generator register at some state, and nothing owed. -/
abbrev R (c : Dev nD) : sProp 𝕄 := iprop((∃ r, prngReg c r) ∗ ∃ W, owes (c : Thread nD τ) (0 : CellTallies nD τ sig Unit) W)

end Cert.KernelIdeal.Hand

end
-- ==== Proof.KernelIdeal.Seg0.lean ====
/-
  Region 0 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (atTc (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (atTc (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (atTc (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (atTc (W1 m) c) (atTc (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg1.lean ====
/-
  Region 1 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (atTc (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (atTc (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (atTc (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (atTc (W3 m) c) (atTc (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg2.lean ====
/-
  Region 2 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg2 : Pipeline.RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (atTc (W7 m)) c).loose
  hwaits := Pipeline.hwaits_of_owed_zero _ _ _ _ L lv 2 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec2 c (atTc (W7 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (atTc (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (atTc (W7 m) c) (atTc (W8 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg3.lean ====
/-
  Region 3 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg3 : Pipeline.RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (atTc (W9 m)) c).loose
  hwaits := Pipeline.hwaits_of_owed_zero _ _ _ _ L lv 3 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec3 c (atTc (W9 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (atTc (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (atTc (W9 m) c) (atTc (W10 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg4.lean ====
/-
  Region 4 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg4 : Pipeline.RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (atTc (W13 m)) c).loose
  hwaits := Pipeline.hwaits_of_owed_zero _ _ _ _ L lv 4 fun _ _ => rfl
  pre c := iprop(StableHlo.held (c : Thread nD τ) (Pipeline.ucRefs τ sig) (W13 m c) ∗ R c)
  post c := iprop(StableHlo.held (c : Thread nD τ) (Pipeline.ucRefs τ sig) (W14 m c) ∗ R c)
  X c := iprop(∃ r, prngReg c r)
  Y c := iprop(∃ r, prngReg c r)
  Z c := Pipeline.unscopedRest (Ix := Unit) (Name := ℕ) (U := UR sig nD τ) (Lvl := ℕ) spec4 c (atTc (W13 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (atTc (W13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (atTc (W13 m) c) (atTc (W14 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg5.lean ====
/-
  Region 5 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg5 : Pipeline.RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (atTc (W15 m)) c).loose
  hwaits := Pipeline.hwaits_of_owed_zero _ _ _ _ L lv 5 fun _ _ => rfl
  pre c := iprop(StableHlo.held (c : Thread nD τ) (Pipeline.ucRefs τ sig) (W15 m c) ∗ R c)
  post c := iprop(StableHlo.held (c : Thread nD τ) (Pipeline.ucRefs τ sig) (W16 m c) ∗ R c)
  X c := iprop(∃ r, prngReg c r)
  Y c := iprop(∃ r, prngReg c r)
  Z c := Pipeline.unscopedRest (Ix := Unit) (Name := ℕ) (U := UR sig nD τ) (Lvl := ℕ) spec5 c (atTc (W15 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (atTc (W15 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (atTc (W15 m) c) (atTc (W16 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg6.lean ====
/-
  Region 6 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg6 : Pipeline.RegionSeg (pcfgs (F := F)) adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (atTc (W19 m)) c).loose
  hwaits := Pipeline.hwaits_of_owed_zero _ _ _ _ L lv 6 fun _ _ => rfl
  pre c := iprop(StableHlo.held (c : Thread nD τ) (Pipeline.ucRefs τ sig) (W19 m c) ∗ R c)
  post c := iprop(StableHlo.held (c : Thread nD τ) (Pipeline.ucRefs τ sig) (W20 m c) ∗ R c)
  X c := iprop(∃ r, prngReg c r)
  Y c := iprop(∃ r, prngReg c r)
  Z c := Pipeline.unscopedRest (Ix := Unit) (Name := ℕ) (U := UR sig nD τ) (Lvl := ℕ) spec6 c (atTc (W19 m) c)
  hentry c := by
    rw [Pipeline.ownSems0_none]
    have hsplit := Pipeline.arrays_of_unscopedBufs (p := 6) (pcfgs (F := F)) adm (pdats m) launch6.win launch6.arr_whole c
      ((pdats m 6 c).share_full fun _ => rfl) (atTc (W19 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) adm (Ix := Unit) (Name := ℕ) (U := UR sig nD τ) (Lvl := ℕ)
      launch6.win launch6.arr_whole c (pdats m) ((pdats m 6 c).share_full fun _ => rfl)
      (atTc (W19 m) c) (atTc (W20 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg7.lean ====
/-
  Region 7 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg7 : Pipeline.RegionSeg (pcfgs (F := F)) adm (pdats m) () defs₀ 𝒱₀ L lv 7 where
  win := launch7.win.to₀
  block_pos := launch7.block_pos
  stage_whole := launch7.stage_whole
  K := PEmpty
  osem k := k.elim
  ho := Pipeline.OwnSemFacts.none _
  hbody c := (body_obligation7 (atTc (W21 m)) c).loose
  hwaits := Pipeline.hwaits_of_owed_zero _ _ _ _ L lv 7 fun _ _ => rfl
  pre c := iprop(StableHlo.held (c : Thread nD τ) (Pipeline.ucRefs τ sig) (W21 m c) ∗ R c)
  post c := iprop(StableHlo.held (c : Thread nD τ) (Pipeline.ucRefs τ sig) (W22 m c) ∗ R c)
  X c := iprop(∃ r, prngReg c r)
  Y c := iprop(∃ r, prngReg c r)
  Z c := Pipeline.unscopedRest (Ix := Unit) (Name := ℕ) (U := UR sig nD τ) (Lvl := ℕ) spec7 c (atTc (W21 m) c)
  hentry c := by
    rw [Pipeline.ownSems0_none]
    have hsplit := Pipeline.arrays_of_unscopedBufs (p := 7) (pcfgs (F := F)) adm (pdats m) launch7.win launch7.arr_whole c
      ((pdats m 7 c).share_full fun _ => rfl) (atTc (W21 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 7 c).Φ 0 = Pipeline.ΦA spec7 c from rfl]; unfold Pipeline.ΦA
    iintro ⟨Hp, -, Hr⟩
    isplitl [Hr]; · iexact Hr
    iexact Hp
  hout c := by
    rw [Pipeline.ownSems0_none, show (pdats m 7 c).Φ (Fin.last _) = Pipeline.ΦA spec7 c from rfl]; unfold Pipeline.ΦA
    iintro ⟨Hr, Hp⟩
    isplitl [Hp]; · iexact Hp
    isplitr; · iempintro
    iexact Hr
  hexit c := by
    have hjoin := Pipeline.unscopedBufs_of_arrays (p := 7) (pcfgs (F := F)) adm (Ix := Unit) (Name := ℕ) (U := UR sig nD τ) (Lvl := ℕ)
      launch7.win launch7.arr_whole c (pdats m) ((pdats m 7 c).share_full fun _ => rfl)
      (atTc (W21 m) c) (atTc (W22 m) c) ((pdats m 7 c).arrAt · cfg7.N) (hF7 m c) (hrest7 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg8.lean ====
/-
  Region 8 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg8 : Pipeline.RegionSeg (pcfgs (F := F)) adm (pdats m) () defs₀ 𝒱₀ L lv 8 where
  win := launch8.win.to₀
  block_pos := launch8.block_pos
  stage_whole := launch8.stage_whole
  K := PEmpty
  osem k := k.elim
  ho := Pipeline.OwnSemFacts.none _
  hbody c := (body_obligation8 (atTc (W23 m)) c).loose
  hwaits := Pipeline.hwaits_of_owed_zero _ _ _ _ L lv 8 fun _ _ => rfl
  pre c := iprop(StableHlo.held (c : Thread nD τ) (Pipeline.ucRefs τ sig) (W23 m c) ∗ R c)
  post c := iprop(StableHlo.held (c : Thread nD τ) (Pipeline.ucRefs τ sig) (W24 m c) ∗ R c)
  X c := iprop(∃ r, prngReg c r)
  Y c := iprop(∃ r, prngReg c r)
  Z c := Pipeline.unscopedRest (Ix := Unit) (Name := ℕ) (U := UR sig nD τ) (Lvl := ℕ) spec8 c (atTc (W23 m) c)
  hentry c := by
    rw [Pipeline.ownSems0_none]
    have hsplit := Pipeline.arrays_of_unscopedBufs (p := 8) (pcfgs (F := F)) adm (pdats m) launch8.win launch8.arr_whole c
      ((pdats m 8 c).share_full fun _ => rfl) (atTc (W23 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 8 c).Φ 0 = Pipeline.ΦA spec8 c from rfl]; unfold Pipeline.ΦA
    iintro ⟨Hp, -, Hr⟩
    isplitl [Hr]; · iexact Hr
    iexact Hp
  hout c := by
    rw [Pipeline.ownSems0_none, show (pdats m 8 c).Φ (Fin.last _) = Pipeline.ΦA spec8 c from rfl]; unfold Pipeline.ΦA
    iintro ⟨Hr, Hp⟩
    isplitl [Hp]; · iexact Hp
    isplitr; · iempintro
    iexact Hr
  hexit c := by
    have hjoin := Pipeline.unscopedBufs_of_arrays (p := 8) (pcfgs (F := F)) adm (Ix := Unit) (Name := ℕ) (U := UR sig nD τ) (Lvl := ℕ)
      launch8.win launch8.arr_whole c (pdats m) ((pdats m 8 c).share_full fun _ => rfl)
      (atTc (W23 m) c) (atTc (W24 m) c) ((pdats m 8 c).arrAt · cfg8.N) (hF8 m c) (hrest8 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Seg9.lean ====
/-
  Region 9 as a segment of the main function's run: entered with every unscoped buffer at the fold's contents before it,
  left with them at the fold's contents after it.  Its arrays are split out of the unscoped buffers at entry and put back,
  the output's at what the write-backs leave, at exit; the generator register passes through; nothing is owed.
-/
import proofs.«175281_j9964324127123_1_alg».proof.Proof.KernelIdeal.Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg9 : Pipeline.RegionSeg (pcfgs (F := F)) adm (pdats m) () defs₀ 𝒱₀ L lv 9 where
  win := launch9.win.to₀
  block_pos := launch9.block_pos
  stage_whole := launch9.stage_whole
  K := PEmpty
  osem k := k.elim
  ho := Pipeline.OwnSemFacts.none _
  hbody c := (body_obligation9 (atTc (W25 m)) c).loose
  hwaits := Pipeline.hwaits_of_owed_zero _ _ _ _ L lv 9 fun _ _ => rfl
  pre c := iprop(StableHlo.held (c : Thread nD τ) (Pipeline.ucRefs τ sig) (W25 m c) ∗ R c)
  post c := iprop(StableHlo.held (c : Thread nD τ) (Pipeline.ucRefs τ sig) (W26 m c) ∗ R c)
  X c := iprop(∃ r, prngReg c r)
  Y c := iprop(∃ r, prngReg c r)
  Z c := Pipeline.unscopedRest (Ix := Unit) (Name := ℕ) (U := UR sig nD τ) (Lvl := ℕ) spec9 c (atTc (W25 m) c)
  hentry c := by
    rw [Pipeline.ownSems0_none]
    have hsplit := Pipeline.arrays_of_unscopedBufs (p := 9) (pcfgs (F := F)) adm (pdats m) launch9.win launch9.arr_whole c
      ((pdats m 9 c).share_full fun _ => rfl) (atTc (W25 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 9 c).Φ 0 = Pipeline.ΦA spec9 c from rfl]; unfold Pipeline.ΦA
    iintro ⟨Hp, -, Hr⟩
    isplitl [Hr]; · iexact Hr
    iexact Hp
  hout c := by
    rw [Pipeline.ownSems0_none, show (pdats m 9 c).Φ (Fin.last _) = Pipeline.ΦA spec9 c from rfl]; unfold Pipeline.ΦA
    iintro ⟨Hr, Hp⟩
    isplitl [Hp]; · iexact Hp
    isplitr; · iempintro
    iexact Hr
  hexit c := by
    have hjoin := Pipeline.unscopedBufs_of_arrays (p := 9) (pcfgs (F := F)) adm (Ix := Unit) (Name := ℕ) (U := UR sig nD τ) (Lvl := ℕ)
      launch9.win launch9.arr_whole c (pdats m) ((pdats m 9 c).share_full fun _ => rfl)
      (atTc (W25 m) c) (atTc (W26 m) c) ((pdats m 9 c).arrAt · cfg9.N) (hF9 m c) (hrest9 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Hand

end
-- ==== Proof.KernelIdeal.Run.lean ====
/-
  The run of the main function: every weakly fair execution from a launch memory with zero counters terminates, nothing
  faulting, the result array holds the fold's last contents and every argument array is as launched.  The host
  stretches and their chaining are the generated conditional frame's segments; the ten regions are this directory's.
-/
import proofs.«175281_j9964324127123_1_alg».proof.Proof.KernelIdeal.Seg0
import proofs.«175281_j9964324127123_1_alg».proof.Proof.KernelIdeal.Seg1
import proofs.«175281_j9964324127123_1_alg».proof.Proof.KernelIdeal.Seg2
import proofs.«175281_j9964324127123_1_alg».proof.Proof.KernelIdeal.Seg3
import proofs.«175281_j9964324127123_1_alg».proof.Proof.KernelIdeal.Seg4
import proofs.«175281_j9964324127123_1_alg».proof.Proof.KernelIdeal.Seg5
import proofs.«175281_j9964324127123_1_alg».proof.Proof.KernelIdeal.Seg6
import proofs.«175281_j9964324127123_1_alg».proof.Proof.KernelIdeal.Seg7
import proofs.«175281_j9964324127123_1_alg».proof.Proof.KernelIdeal.Seg8
import proofs.«175281_j9964324127123_1_alg».proof.Proof.KernelIdeal.Seg9

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The rest state beside the buffers, the same at every boundary. -/
abbrev E : Fin 11 → Dev nD → sProp 𝕄 := fun _ c => R c

theorem hpre0 (c : Dev nD) : iprop(StableHlo.held (c : Thread nD τ) (Pipeline.ucRefs τ sig) (V1 m c) ∗ E (F := F) 0 c) ⊢ (reg0 m).pre c := by
  rw [V1_eq m c]; exact BI.Entails.refl _
theorem hpost0 (c : Dev nD) : (reg0 m).post c ⊢ iprop(StableHlo.held (c : Thread nD τ) (Pipeline.ucRefs τ sig) (V2 m (outs m) c) ∗ E (F := F) 1 c) := by
  rw [V2_eq m c]; exact BI.Entails.refl _
theorem hpre1 (c : Dev nD) : iprop(StableHlo.held (c : Thread nD τ) (Pipeline.ucRefs τ sig) (V3 m (outs m) c) ∗ E (F := F) 1 c) ⊢ (reg1 m).pre c := by
  rw [V3_eq m c]; exact BI.Entails.refl _
theorem hpost1 (c : Dev nD) : (reg1 m).post c ⊢ iprop(StableHlo.held (c : Thread nD τ) (Pipeline.ucRefs τ sig) (V4 m (outs m) c) ∗ E (F := F) 2 c) := by
  rw [V4_eq m c]; exact BI.Entails.refl _
theorem hpre2 (c : Dev nD) : iprop(StableHlo.held (c : Thread nD τ) (Pipeline.ucRefs τ sig) (V7 m (outs m) c) ∗ E (F := F) 2 c) ⊢ (reg2 m).pre c := by
  rw [V7_eq m c]; exact BI.Entails.refl _
theorem hpost2 (c : Dev nD) : (reg2 m).post c ⊢ iprop(StableHlo.held (c : Thread nD τ) (Pipeline.ucRefs τ sig) (V8 m (outs m) c) ∗ E (F := F) 3 c) := by
  rw [V8_eq m c]; exact BI.Entails.refl _
theorem hpre3 (c : Dev nD) : iprop(StableHlo.held (c : Thread nD τ) (Pipeline.ucRefs τ sig) (V9 m (outs m) c) ∗ E (F := F) 3 c) ⊢ (reg3 m).pre c := by
  rw [V9_eq m c]; exact BI.Entails.refl _
theorem hpost3 (c : Dev nD) : (reg3 m).post c ⊢ iprop(StableHlo.held (c : Thread nD τ) (Pipeline.ucRefs τ sig) (V10 m (outs m) c) ∗ E (F := F) 4 c) := by
  rw [V10_eq m c]; exact BI.Entails.refl _
theorem hpre4 (c : Dev nD) : iprop(StableHlo.held (c : Thread nD τ) (Pipeline.ucRefs τ sig) (V13 m (outs m) c) ∗ E (F := F) 4 c) ⊢ (reg4 m).pre c := by
  rw [V13_eq m c]; exact BI.Entails.refl _
theorem hpost4 (c : Dev nD) : (reg4 m).post c ⊢ iprop(StableHlo.held (c : Thread nD τ) (Pipeline.ucRefs τ sig) (V14 m (outs m) c) ∗ E (F := F) 5 c) := by
  rw [V14_eq m c]; exact BI.Entails.refl _
theorem hpre5 (c : Dev nD) : iprop(StableHlo.held (c : Thread nD τ) (Pipeline.ucRefs τ sig) (V15 m (outs m) c) ∗ E (F := F) 5 c) ⊢ (reg5 m).pre c := by
  rw [V15_eq m c]; exact BI.Entails.refl _
theorem hpost5 (c : Dev nD) : (reg5 m).post c ⊢ iprop(StableHlo.held (c : Thread nD τ) (Pipeline.ucRefs τ sig) (V16 m (outs m) c) ∗ E (F := F) 6 c) := by
  rw [V16_eq m c]; exact BI.Entails.refl _
theorem hpre6 (c : Dev nD) : iprop(StableHlo.held (c : Thread nD τ) (Pipeline.ucRefs τ sig) (V19 m (outs m) c) ∗ E (F := F) 6 c) ⊢ (reg6 m).pre c := by
  rw [V19_eq m c]; exact BI.Entails.refl _
theorem hpost6 (c : Dev nD) : (reg6 m).post c ⊢ iprop(StableHlo.held (c : Thread nD τ) (Pipeline.ucRefs τ sig) (V20 m (outs m) c) ∗ E (F := F) 7 c) := by
  rw [V20_eq m c]; exact BI.Entails.refl _
theorem hpre7 (c : Dev nD) : iprop(StableHlo.held (c : Thread nD τ) (Pipeline.ucRefs τ sig) (V21 m (outs m) c) ∗ E (F := F) 7 c) ⊢ (reg7 m).pre c := by
  rw [V21_eq m c]; exact BI.Entails.refl _
theorem hpost7 (c : Dev nD) : (reg7 m).post c ⊢ iprop(StableHlo.held (c : Thread nD τ) (Pipeline.ucRefs τ sig) (V22 m (outs m) c) ∗ E (F := F) 8 c) := by
  rw [V22_eq m c]; exact BI.Entails.refl _
theorem hpre8 (c : Dev nD) : iprop(StableHlo.held (c : Thread nD τ) (Pipeline.ucRefs τ sig) (V23 m (outs m) c) ∗ E (F := F) 8 c) ⊢ (reg8 m).pre c := by
  rw [V23_eq m c]; exact BI.Entails.refl _
theorem hpost8 (c : Dev nD) : (reg8 m).post c ⊢ iprop(StableHlo.held (c : Thread nD τ) (Pipeline.ucRefs τ sig) (V24 m (outs m) c) ∗ E (F := F) 9 c) := by
  rw [V24_eq m c]; exact BI.Entails.refl _
theorem hpre9 (c : Dev nD) : iprop(StableHlo.held (c : Thread nD τ) (Pipeline.ucRefs τ sig) (V25 m (outs m) c) ∗ E (F := F) 9 c) ⊢ (reg9 m).pre c := by
  rw [V25_eq m c]; exact BI.Entails.refl _
theorem hpost9 (c : Dev nD) : (reg9 m).post c ⊢ iprop(StableHlo.held (c : Thread nD τ) (Pipeline.ucRefs τ sig) (V26 m (outs m) c) ∗ E (F := F) 10 c) := by
  rw [V26_eq m c]; exact BI.Entails.refl _
theorem hlast (c : Dev nD) : (reg9 m).post c ⊢ iprop(StableHlo.held (c : Thread nD τ) (Pipeline.ucRefs τ sig) (V26 m (outs m) c)
    ∗ ∃ W, owes (c.tc : Thread nD τ) (0 : CellTallies nD τ sig Unit) W) := by
  rw [V26_eq m c]
  show iprop(StableHlo.held (c : Thread nD τ) (Pipeline.ucRefs τ sig) (W26 m c) ∗ R c) ⊢ _
  iintro ⟨Hh, -, HO⟩
  isplitl [Hh]; · iexact Hh
  iexact HO

set_option backward.isDefEq.respectTransparency.types false in
theorem run (ρ : Dev nD → PrngReg) :
    θ_run defs (onTc (τ := τ) (main (F := F))) ⟨m, fun _ => 0, ρ⟩ (fun r => ∀ c : Dev nD,
      r.2.mem ((c.tc : Thread nD τ).loc main_v117) = W26 m c main_v117
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine Pipeline.θ_run_regions_kit_dev (pcfgs (F := F)) adm (pdats m) () cellOf_inj emb₁ defs₀ 𝒱₀ L lv m ρ main
    (segs m (outs m) 𝒱₀ L lv E () (pdats m) (reg0 m) (reg1 m) (reg2 m) (reg3 m) (reg4 m) (reg5 m) (reg6 m) (reg7 m) (reg8 m) (reg9 m))
    (fun c Q => by
      rewrite [main_chain c, Seg.run_eq_chain,
        show (segs m (outs m) 𝒱₀ L lv E () (pdats m) (reg0 m) (reg1 m) (reg2 m) (reg3 m) (reg4 m) (reg5 m) (reg6 m) (reg7 m) (reg8 m) (reg9 m) c).map Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          Prog.lift (.customCall (Pipeline.entry 2) ()),
          StableHlo.seq hostOps3,
          Prog.lift (.customCall (Pipeline.entry 3) ()),
          StableHlo.seq hostOps4,
          StableHlo.seq hostOps4_1,
          StableHlo.seq hostOps4_2,
          Prog.lift (.customCall (Pipeline.entry 4) ()),
          StableHlo.seq hostOps5,
          Prog.lift (.customCall (Pipeline.entry 5) ()),
          StableHlo.seq hostOps6,
          StableHlo.seq hostOps6_1,
          StableHlo.seq hostOps6_2,
          Prog.lift (.customCall (Pipeline.entry 6) ()),
          StableHlo.seq hostOps7,
          Prog.lift (.customCall (Pipeline.entry 7) ()),
          StableHlo.seq hostOps8,
          Prog.lift (.customCall (Pipeline.entry 8) ()),
          StableHlo.seq hostOps9,
          Prog.lift (.customCall (Pipeline.entry 9) ()) ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V26 m (outs m) c))
    (hch := fun c => ⟨.rfl, hpre0 m c, hpost0 m c, hpre1 m c, hpost1 m c, .rfl, .rfl, hpre2 m c, hpost2 m c, hpre3 m c, hpost3 m c, .rfl, .rfl, hpre4 m c, hpost4 m c, hpre5 m c, hpost5 m c, .rfl, .rfl, hpre6 m c, hpost6 m c, hpre7 m c, hpost7 m c, hpre8 m c, hpost8 m c, hpre9 m c, hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => s.mem ((c.tc : Thread nD τ).loc main_v117) = W26 m c main_v117 ∧ s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_arg6) = m ((c.tc : Thread nD τ).loc main_arg6) ∧ s.mem ((c.tc : Thread nD τ).loc main_arg7) = m ((c.tc : Thread nD τ).loc main_arg7) ∧ s.mem ((c.tc : Thread nD τ).loc main_arg8) = m ((c.tc : Thread nD τ).loc main_arg8) ∧ s.mem ((c.tc : Thread nD τ).loc main_arg9) = m ((c.tc : Thread nD τ).loc main_arg9))
    (hfin := fun c s' => ?_) (hQ := fun _ h => h)
  -- the end: the result's and each argument's buffer read off the last valuation
  unfold StableHlo.held
  iintro ⟨Hh, HSI⟩
  ihave Hr := (pointsTo_read_all (Pipeline.ucRefs τ sig) (fun b => ((c : Thread nD τ).1, b)) (V26 m (outs m) c) s') $$ [Hh HSI]
  · isplitl [Hh] <;> iassumption
  icases Hr with ⟨%h, HSI⟩
  imodintro
  isplitr
  · ipureintro
    exact ⟨(h (Proc.devRef .tc main_v117) (Finset.mem_filter.mpr ⟨StableHlo.devRef_mem_tcRefs main_v117, by decide⟩)).trans (congrFun (V26_eq m c) _),
      (h (Proc.devRef .tc main_arg0) (Finset.mem_filter.mpr ⟨StableHlo.devRef_mem_tcRefs main_arg0, by decide⟩)).trans (V26_main_arg0 m (outs m) c),
      (h (Proc.devRef .tc main_arg1) (Finset.mem_filter.mpr ⟨StableHlo.devRef_mem_tcRefs main_arg1, by decide⟩)).trans (V26_main_arg1 m (outs m) c),
      (h (Proc.devRef .tc main_arg2) (Finset.mem_filter.mpr ⟨StableHlo.devRef_mem_tcRefs main_arg2, by decide⟩)).trans (V26_main_arg2 m (outs m) c),
      (h (Proc.devRef .tc main_arg3) (Finset.mem_filter.mpr ⟨StableHlo.devRef_mem_tcRefs main_arg3, by decide⟩)).trans (V26_main_arg3 m (outs m) c),
      (h (Proc.devRef .tc main_arg4) (Finset.mem_filter.mpr ⟨StableHlo.devRef_mem_tcRefs main_arg4, by decide⟩)).trans (V26_main_arg4 m (outs m) c),
      (h (Proc.devRef .tc main_arg5) (Finset.mem_filter.mpr ⟨StableHlo.devRef_mem_tcRefs main_arg5, by decide⟩)).trans (V26_main_arg5 m (outs m) c),
      (h (Proc.devRef .tc main_arg6) (Finset.mem_filter.mpr ⟨StableHlo.devRef_mem_tcRefs main_arg6, by decide⟩)).trans (V26_main_arg6 m (outs m) c),
      (h (Proc.devRef .tc main_arg7) (Finset.mem_filter.mpr ⟨StableHlo.devRef_mem_tcRefs main_arg7, by decide⟩)).trans (V26_main_arg7 m (outs m) c),
      (h (Proc.devRef .tc main_arg8) (Finset.mem_filter.mpr ⟨StableHlo.devRef_mem_tcRefs main_arg8, by decide⟩)).trans (V26_main_arg8 m (outs m) c),
      (h (Proc.devRef .tc main_arg9) (Finset.mem_filter.mpr ⟨StableHlo.devRef_mem_tcRefs main_arg9, by decide⟩)).trans (V26_main_arg9 m (outs m) c)⟩
  · iexact HSI

end Cert.KernelIdeal.Hand

end
-- ==== Proof.Reference.Stages.lean ====
/-
  The reference network, stage by stage, as pure functions of whole arrays.

  Each definition is the composition of array operations the reference program applies for that stage, with
  the same operation constants (dimension records, broadcast and slice evidence, literal words), generic in
  the float values. The network: an input projection x·W + b; five graph-convolution
  layers, each a propagation (gather the rows z[src], add them into the rows dst of a zero array) followed by
  the combine h = 0.9·msg + 0.1·x0, out = wa·h + wb·(h·Wᵢ); after layers 0, 1, 2 a batch normalisation over
  the node axis (column mean, column variance, rsqrt(var + eps), scale, shift) and a relu; after layer 3 a
  jumping-knowledge projection of the four combine outputs concatenated along the feature axis; layer 4's
  combine output is the result.
-/
import proofs.«175281_j9964324127123_1_alg».proof.ReferenceIdeal
import Idealize.ShloMosaic.PureOps.Ideal

noncomputable section

namespace Cert.ReferenceIdeal.Hand

open Cert.ReferenceIdeal Idealize.ShloMosaic
open Facts₀

variable {F : FTy → Type} [FloatOps F] [Facts₀]

/-- A scalar float literal, as the rank-0 array the program makes of it. -/
abbrev lit (w : BitVec 32) : FVec F S_ .f32 := constant (F := F) S_ .f32 w

/-- A scalar literal broadcast over the node-by-feature array. -/
abbrev splatNF (w : BitVec 32) : FVec F S100000x128 .f32 :=
  broadcastInDim S100000x128 ![] bcast_S_S100000x128 (lit (F := F) w)

/-- A scalar literal broadcast over a feature row. -/
abbrev splatRow (w : BitVec 32) : FVec F S128 .f32 :=
  broadcastInDim S128 ![] bcast_S_S128 (lit (F := F) w)

/-- A feature row repeated down the node axis: [128] → [1,128] → [100000,128]. -/
abbrev rowsOf (r : FVec F S128 .f32) : FVec F S100000x128 .f32 :=
  broadcastInDim S100000x128 ![0, 1] bcast_S1x128_S100000x128_0_1 (broadcastInDim S1x128 ![1] bcast_S128_S1x128_1 r)

/-- The input projection: x·W + b, the bias row repeated down the node axis. -/
def linIn (x : FVec F S100000x128 .f32) (W : FVec F S128x128 .f32) (b : FVec F S128 .f32) : FVec F S100000x128 .f32 :=
  addf (Host.dotGeneral dot_S100000x128_S128x128_S100000x128_1_0_0_1_n_n none x W) (rowsOf b)

/-- The source indices as the gather reads them: a negative index has the node count added (the wrap-around
    of a negative position), then the vector becomes a column of one-component start indices. -/
def srcIdx (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- One propagation over the edges: the rows z[src e] gathered, then added into the rows dst e of a zero array. -/
def propagate (z : FVec F S100000x128 .f32) (src dst : IVec S1600000 32) : FVec F S100000x128 .f32 :=
  Host.scatterAdd scatter_S100000x128_S1600000x1_S1600000x128_1_0_0_1
    (splatNF (F := F) 0x00000000#32)
    (broadcastInDim S1600000x1 ![0] bcast_S1600000_S1600000x1_0 dst)
    (Host.gather gather_S100000x128_S1600000x1_S1600000x128_1_0_n_n_0_1_1128 z (srcIdx src))

/-- The residual mix h = w9·msg + w1·x0 (the literals 0.9 and 0.1 as words). -/
def hmix (w9 w1 : BitVec 32) (msg x0 : FVec F S100000x128 .f32) : FVec F S100000x128 .f32 :=
  addf (mulf (splatNF (F := F) w9) msg) (mulf (splatNF (F := F) w1) x0)

/-- The identity-mapped layer transform of a mixed array h: wa·h + wb·(h·Wi). -/
def gateMix (wa wb : BitVec 32) (h : FVec F S100000x128 .f32) (Wi : FVec F S128x128 .f32) : FVec F S100000x128 .f32 :=
  addf (mulf (splatNF (F := F) wa) h)
    (mulf (splatNF (F := F) wb) (Host.dotGeneral dot_S100000x128_S128x128_S100000x128_1_0_0_1_n_n none h Wi))

/-- The layer combine: h = w9·msg + w1·x0, then wa·h + wb·(h·Wi). -/
def combine (w9 w1 wa wb : BitVec 32) (msg x0 : FVec F S100000x128 .f32) (Wi : FVec F S128x128 .f32) :
    FVec F S100000x128 .f32 :=
  gateMix wa wb (hmix w9 w1 msg x0) Wi

/-- Layer k's weight matrix: the k-th slice of the stacked weights, as a 128×128 matrix. -/
def convWeight (k : Nat) (hk : S5x128x128.Slices ![k, 0, 0] S1x128x128) (w : FVec F S5x128x128 .f32) : FVec F S128x128 .f32 :=
  shapeCast S128x128 (extractStridedSlice S1x128x128 ![k, 0, 0] w hk) shapeCasts_S1x128x128_S128x128

/-- Row k of a 4×128 parameter table, as a feature row. -/
def rowOf4 (k : Nat) (hk : S4x128.Slices ![k, 0] S1x128) (g : FVec F S4x128 .f32) : FVec F S128 .f32 :=
  shapeCast S128 (extractStridedSlice S1x128 ![k, 0] g hk) shapeCasts_S1x128_S128

/-- The column sums over the node axis, from zero. -/
abbrev colSum (z : FVec F S100000x128 .f32) : FVec F S128 .f32 :=
  Host.reduceAdd z (lit (F := F) 0x00000000#32) reducesTo_S100000x128_S128_d0 h_S_

/-- The column means: the column sums divided by the node count 1e5. -/
def colMean (z : FVec F S100000x128 .f32) : FVec F S128 .f32 :=
  Host.divf (colSum z) (splatRow (F := F) 0x47C35000#32)

/-- The divisor of the variance, n − ddof with ddof = 0, as the program computes it. -/
abbrev varDen : FVec F S_ .f32 :=
  subf (lit (F := F) 0x47C35000#32) (sitofp .f32 (constantI S_ 32 0#32))

/-- The column variances: the mean of the squared deviations from the column mean (the mean recomputed
    through a [1,128] row), divided by n − 0; the guard "n − 0 > 0, else NaN" kept as the program has it. -/
def colVar (z : FVec F S100000x128 .f32) : FVec F S128 .f32 :=
  select (broadcastInDim S128 ![] bcast_S_S128 (cmpf .ogt (varDen (F := F)) (lit (F := F) 0x00000000#32)))
    (Host.divf
      (colSum
        (mulf
          (subf z (broadcastInDim S100000x128 ![0, 1] bcast_S1x128_S100000x128_0_1
            (Host.divf (broadcastInDim S1x128 ![1] bcast_S128_S1x128_1 (colSum z))
              (broadcastInDim S1x128 ![] bcast_S_S1x128 (lit (F := F) 0x47C35000#32)))))
          (subf z (broadcastInDim S100000x128 ![0, 1] bcast_S1x128_S100000x128_0_1
            (Host.divf (broadcastInDim S1x128 ![1] bcast_S128_S1x128_1 (colSum z))
              (broadcastInDim S1x128 ![] bcast_S_S1x128 (lit (F := F) 0x47C35000#32)))))))
      (broadcastInDim S128 ![] bcast_S_S128 (varDen (F := F))))
    (broadcastInDim S128 ![] bcast_S_S128 (lit (F := F) 0x7FC00000#32))

/-- The batch normalisation affine: (z − mean)·rsqrt(var + eps)·gamma + beta, every row repeated down the node axis. -/
def normalize (z : FVec F S100000x128 .f32) (mean var gamma beta : FVec F S128 .f32) : FVec F S100000x128 .f32 :=
  addf
    (mulf
      (mulf (subf z (rowsOf mean)) (rowsOf (Host.rsqrt (addf var (splatRow (F := F) 0x3727C5AC#32)))))
      (rowsOf gamma))
    (rowsOf beta)

/-- max(z, 0). -/
def relu (z : FVec F S100000x128 .f32) : FVec F S100000x128 .f32 :=
  maximumf z (splatNF (F := F) 0x00000000#32)

/-- Four node-by-feature arrays side by side along the feature axis. -/
def concat4 (a b c d : FVec F S100000x128 .f32) : FVec F S100000x512 .f32 :=
  concatenate S100000x512 1 [⟨S100000x128, a⟩, ⟨S100000x128, b⟩, ⟨S100000x128, c⟩, ⟨S100000x128, d⟩]
    concatenates_S100000x128_S100000x128_S100000x128_S100000x128_S100000x512_d1

/-- The jumping-knowledge projection: zc·W + b. -/
def jk (zc : FVec F S100000x512 .f32) (W : FVec F S512x128 .f32) (b : FVec F S128 .f32) : FVec F S100000x128 .f32 :=
  addf (Host.dotGeneral dot_S100000x512_S512x128_S100000x128_1_0_0_1_n_n none zc W) (rowsOf b)

/-- One graph-convolution layer: propagate y, then combine with x0 and layer k's weights. -/
def convStep (wa wb : BitVec 32) (k : Nat) (hk : S5x128x128.Slices ![k, 0, 0] S1x128x128)
    (y x0 : FVec F S100000x128 .f32) (convW : FVec F S5x128x128 .f32) (src dst : IVec S1600000 32) :
    FVec F S100000x128 .f32 :=
  combine 0x3F666666#32 0x3DCCCCCD#32 wa wb (propagate y src dst) x0 (convWeight k hk convW)

/-- Batch normalisation with the batch statistics of z and row k of the scale and shift tables, then relu. -/
def bnRelu (k : Nat) (hk : S4x128.Slices ![k, 0] S1x128) (z : FVec F S100000x128 .f32) (gam bet : FVec F S4x128 .f32) :
    FVec F S100000x128 .f32 :=
  relu (normalize z (colMean z) (colVar z) (rowOf4 k hk gam) (rowOf4 k hk bet))

/-- The input projection, as the network's first value. -/
def refX0 (x : FVec F S100000x128 .f32) (W_in : FVec F S128x128 .f32) (b_in : FVec F S128 .f32) : FVec F S100000x128 .f32 :=
  linIn x W_in b_in

/-- Layer 0's combine output. -/
def refZ0 (x0 : FVec F S100000x128 .f32) (convW : FVec F S5x128x128 .f32) (src dst : IVec S1600000 32) :
    FVec F S100000x128 .f32 :=
  convStep 0x3F183370#32 0x3ECF991F#32 0 slices_S5x128x128_S1x128x128_0_0_0 x0 x0 convW src dst

/-- Layer 1's combine output, from layer 0's. -/
def refZ1 (z0 x0 : FVec F S100000x128 .f32) (convW : FVec F S5x128x128 .f32) (gam bet : FVec F S4x128 .f32)
    (src dst : IVec S1600000 32) : FVec F S100000x128 .f32 :=
  convStep 0x3F46E010#32 0x3E647FBE#32 1 slices_S5x128x128_S1x128x128_1_0_0
    (bnRelu 0 slices_S4x128_S1x128_0_0 z0 gam bet) x0 convW src dst

/-- Layer 2's combine output, from layer 1's. -/
def refZ2 (z1 x0 : FVec F S100000x128 .f32) (convW : FVec F S5x128x128 .f32) (gam bet : FVec F S4x128 .f32)
    (src dst : IVec S1600000 32) : FVec F S100000x128 .f32 :=
  convStep 0x3F588995#32 0x3E1DD9AD#32 2 slices_S5x128x128_S1x128x128_2_0_0
    (bnRelu 1 slices_S4x128_S1x128_1_0 z1 gam bet) x0 convW src dst

/-- Layer 3's combine output, from layer 2's. -/
def refZ3 (z2 x0 : FVec F S100000x128 .f32) (convW : FVec F S5x128x128 .f32) (gam bet : FVec F S4x128 .f32)
    (src dst : IVec S1600000 32) : FVec F S100000x128 .f32 :=
  convStep 0x3F61D8F9#32 0x3DF1383B#32 3 slices_S5x128x128_S1x128x128_3_0_0
    (bnRelu 2 slices_S4x128_S1x128_2_0 z2 gam bet) x0 convW src dst

/-- Layer 4's combine output, from the jumping-knowledge projection of layers 0 … 3's. -/
def refZ4 (z0 z1 z2 z3 x0 : FVec F S100000x128 .f32) (convW : FVec F S5x128x128 .f32)
    (W_jk : FVec F S512x128 .f32) (b_jk : FVec F S128 .f32) (src dst : IVec S1600000 32) : FVec F S100000x128 .f32 :=
  convStep 0x3F6799C1#32 0x3DC331FC#32 4 slices_S5x128x128_S1x128x128_4_0_0
    (jk (concat4 z0 z1 z2 z3) W_jk b_jk) x0 convW src dst

/-- The whole network, in the reference's order: the result is layer 4's combine output. -/
def refOut (x : FVec F S100000x128 .f32) (W_in : FVec F S128x128 .f32) (b_in : FVec F S128 .f32)
    (convW : FVec F S5x128x128 .f32) (gam bet : FVec F S4x128 .f32) (W_jk : FVec F S512x128 .f32)
    (b_jk : FVec F S128 .f32) (src dst : IVec S1600000 32) : FVec F S100000x128 .f32 :=
  let x0 := refX0 x W_in b_in
  let z0 := refZ0 x0 convW src dst
  let z1 := refZ1 z0 x0 convW gam bet src dst
  let z2 := refZ2 z1 x0 convW gam bet src dst
  let z3 := refZ3 z2 x0 convW gam bet src dst
  refZ4 z0 z1 z2 z3 x0 convW W_jk b_jk src dst

end Cert.ReferenceIdeal.Hand

end
-- ==== Proof.Reference.Owned.lean ====
/-
  Congruence lemmas stated once.

  Reading a window rewrites under the reference program's dimension records, under the typed references of a
  called function's buffers, and under the network's stages; the simplifier states a congruence lemma for each
  such function the first time it rewrites under it. They are stated here, upstream of the five window modules,
  so that each exists once.
-/
import proofs.«175281_j9964324127123_1_alg».proof.ReferenceIdeal
import proofs.«175281_j9964324127123_1_alg».proof.Proof.Reference.Stages
import Idealize.ShloMosaic.Lib.StableHlo.Run

noncomputable section

namespace Cert.ReferenceIdeal.Hand

open Cert.ReferenceIdeal Idealize.ShloMosaic Idealize.ShloMosaic.StableHlo

/-- Each congruence lemma named once (naming it states it). -/
theorem congr_stated : True := by
  have := @Cert.ReferenceIdeal.dot_S100000x128_S128x128_S100000x128_1_0_0_1_n_n.congr_simp
  have := @Cert.ReferenceIdeal.dot_S100000x512_S512x128_S100000x128_1_0_0_1_n_n.congr_simp
  have := @Cert.ReferenceIdeal.gather_S100000x128_S1600000x1_S1600000x128_1_0_n_n_0_1_1128.congr_simp
  have := @Cert.ReferenceIdeal.scatter_S100000x128_S1600000x1_S1600000x128_1_0_0_1.congr_simp
  have := @StableHlo.TRef.of.congr_simp
  have := @StableHlo.nary.congr_simp
  have := @splatNF.congr_simp; have := @splatRow.congr_simp; have := @rowsOf.congr_simp; have := @linIn.congr_simp
  have := @propagate.congr_simp; have := @hmix.congr_simp; have := @gateMix.congr_simp; have := @combine.congr_simp
  have := @convWeight.congr_simp; have := @rowOf4.congr_simp; have := @colMean.congr_simp; have := @colVar.congr_simp
  have := @normalize.congr_simp; have := @relu.congr_simp; have := @concat4.congr_simp; have := @jk.congr_simp
  have := @convStep.congr_simp; have := @bnRelu.congr_simp
  have := @refX0.congr_simp; have := @refZ0.congr_simp; have := @refZ1.congr_simp; have := @refZ2.congr_simp
  have := @refZ3.congr_simp; have := @refZ4.congr_simp; have := @refOut.congr_simp
  trivial

end Cert.ReferenceIdeal.Hand

end
-- ==== Proof.Reference.Part0.lean ====
/-
  The first window of the reference program as a list of operations, and what it leaves: the input
  projection x0 = x·W_in + b_in; layer 0's combine output z0 (propagation of x0, then the combine with the first
  weight matrix); the batch statistics of z0 (the variance through the called variance function, whose
  operations stand inline over the call's buffers) and the normalisation of z0 up to the scale; the shift row.
-/
import proofs.«175281_j9964324127123_1_alg».proof.ReferenceIdeal
import proofs.«175281_j9964324127123_1_alg».proof.Proof.Reference.Stages
import proofs.«175281_j9964324127123_1_alg».proof.Proof.Reference.Owned
import Idealize.ShloMosaic.Lib.StableHlo.Run

set_option Elab.async false

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-- Reads the contents a straight line of operations leaves in one buffer: the fold over the list unrolled,
    each operation's result taken at the buffer it writes and passed over at every other. -/
local macro "read_line" : conv =>
  `(conv| simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne'])

/-- Window 0 of the program as a list: its 81 operations in order, a called function's operations in the
    place of the call, over the call's own buffers. -/
abbrev ops_part0 : List (HloOp τ sig (Elt F)) :=
  [
    StableHlo.binary main_arg0 main_arg1 main_v0 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg2 main_v1 (broadcastInDim S1x128 ![1] bcast_S128_S1x128_1 : (⟨S128, .f32⟩ : BufTy).Contents (Elt F) → (⟨S1x128, .f32⟩ : BufTy).Contents (Elt F)),
    StableHlo.unary main_v1 main_v2 (broadcastInDim S100000x128 ![0, 1] bcast_S1x128_S100000x128_0_1 : (⟨S1x128, .f32⟩ : BufTy).Contents (Elt F) → (⟨S100000x128, .f32⟩ : BufTy).Contents (Elt F)),
    StableHlo.binary main_v0 main_v2 main_v3 (addf : (⟨S100000x128, .f32⟩ : BufTy).Contents (Elt F) → (⟨S100000x128, .f32⟩ : BufTy).Contents (Elt F) → (⟨S100000x128, .f32⟩ : BufTy).Contents (Elt F)),
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_arg8 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_arg8 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_arg8 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_v3 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_arg9 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_1 (constant S_ .f32 0x3F666666#32),
    StableHlo.unary main_cst_1 main_v14 (broadcastInDim S100000x128 ![] bcast_S_S100000x128 : (⟨S_, .f32⟩ : BufTy).Contents (Elt F) → (⟨S100000x128, .f32⟩ : BufTy).Contents (Elt F)),
    StableHlo.binary main_v14 main_v13 main_v15 (mulf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x3DCCCCCD#32),
    StableHlo.unary main_cst_2 main_v16 (broadcastInDim S100000x128 ![] bcast_S_S100000x128 : (⟨S_, .f32⟩ : BufTy).Contents (Elt F) → (⟨S100000x128, .f32⟩ : BufTy).Contents (Elt F)),
    StableHlo.binary main_v16 main_v3 main_v17 (mulf : (⟨S100000x128, .f32⟩ : BufTy).Contents (Elt F) → (⟨S100000x128, .f32⟩ : BufTy).Contents (Elt F) → (⟨S100000x128, .f32⟩ : BufTy).Contents (Elt F)),
    StableHlo.binary main_v15 main_v17 main_v18 (addf : (⟨S100000x128, .f32⟩ : BufTy).Contents (Elt F) → (⟨S100000x128, .f32⟩ : BufTy).Contents (Elt F) → (⟨S100000x128, .f32⟩ : BufTy).Contents (Elt F)),
    StableHlo.nullary main_cst_3 (constant S_ .f32 0x3F183370#32),
    StableHlo.unary main_cst_3 main_v19 (broadcastInDim S100000x128 ![] bcast_S_S100000x128 : (⟨S_, .f32⟩ : BufTy).Contents (Elt F) → (⟨S100000x128, .f32⟩ : BufTy).Contents (Elt F)),
    StableHlo.binary main_v19 main_v18 main_v20 (mulf : (⟨S100000x128, .f32⟩ : BufTy).Contents (Elt F) → (⟨S100000x128, .f32⟩ : BufTy).Contents (Elt F) → (⟨S100000x128, .f32⟩ : BufTy).Contents (Elt F)),
    StableHlo.unary main_arg3 main_v21 ((extractStridedSlice S1x128x128 ![0, 0, 0] · slices_S5x128x128_S1x128x128_0_0_0) : (⟨S5x128x128, .f32⟩ : BufTy).Contents (Elt F) → (⟨S1x128x128, .f32⟩ : BufTy).Contents (Elt F)),
    StableHlo.reshape main_v21 main_v22 rfl shapeCasts_S1x128x128_S128x128,
    StableHlo.binary main_v18 main_v22 main_v23 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_4 (constant S_ .f32 0x3ECF991F#32),
    StableHlo.unary main_cst_4 main_v24 (broadcastInDim S100000x128 ![] bcast_S_S100000x128 : (⟨S_, .f32⟩ : BufTy).Contents (Elt F) → (⟨S100000x128, .f32⟩ : BufTy).Contents (Elt F)),
    StableHlo.binary main_v24 main_v23 main_v25 (mulf : (⟨S100000x128, .f32⟩ : BufTy).Contents (Elt F) → (⟨S100000x128, .f32⟩ : BufTy).Contents (Elt F) → (⟨S100000x128, .f32⟩ : BufTy).Contents (Elt F)),
    StableHlo.binary main_v20 main_v25 main_v26 (addf : (⟨S100000x128, .f32⟩ : BufTy).Contents (Elt F) → (⟨S100000x128, .f32⟩ : BufTy).Contents (Elt F) → (⟨S100000x128, .f32⟩ : BufTy).Contents (Elt F)),
    StableHlo.unary main_arg4 main_v27 ((extractStridedSlice S1x128 ![0, 0] · slices_S4x128_S1x128_0_0) : (⟨S4x128, .f32⟩ : BufTy).Contents (Elt F) → (⟨S1x128, .f32⟩ : BufTy).Contents (Elt F)),
    StableHlo.reshape main_v27 main_v28 rfl shapeCasts_S1x128_S128,
    StableHlo.unary main_arg5 main_v29 ((extractStridedSlice S1x128 ![0, 0] · slices_S4x128_S1x128_0_0) : (⟨S4x128, .f32⟩ : BufTy).Contents (Elt F) → (⟨S1x128, .f32⟩ : BufTy).Contents (Elt F)),
    StableHlo.reshape main_v29 main_v30 rfl shapeCasts_S1x128_S128,
    StableHlo.nullary main_cst_5 (constant S_ .f32 0x00000000#32),
    StableHlo.binary main_v26 main_cst_5 main_v31 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_6 (constant S_ .f32 0x47C35000#32),
    StableHlo.unary main_cst_6 main_v32 (broadcastInDim S128 ![] bcast_S_S128 : (⟨S_, .f32⟩ : BufTy).Contents (Elt F) → (⟨S128, .f32⟩ : BufTy).Contents (Elt F)),
    StableHlo.binary main_v31 main_v32 main_v33 (Host.divf : (⟨S128, .f32⟩ : BufTy).Contents (Elt F) → (⟨S128, .f32⟩ : BufTy).Contents (Elt F) → (⟨S128, .f32⟩ : BufTy).Contents (Elt F)),
    StableHlo.nullary main_c_7 (constantI S_ 32 0#32),
    StableHlo.TRef.nullary main_call0.cst (constant S_ .f32 0x00000000#32),
    StableHlo.TRef.binary (.of main_v26) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v26) main_call0.v4 main_call0.v5 subf,
    StableHlo.TRef.binary main_call0.v5 main_call0.v5 main_call0.v6 mulf,
    StableHlo.TRef.unary (.of main_c_7) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v33 main_v35 (broadcastInDim S1x128 ![1] bcast_S128_S1x128_1 : (⟨S128, .f32⟩ : BufTy).Contents (Elt F) → (⟨S1x128, .f32⟩ : BufTy).Contents (Elt F)),
    StableHlo.unary main_v35 main_v36 (broadcastInDim S100000x128 ![0, 1] bcast_S1x128_S100000x128_0_1 : (⟨S1x128, .f32⟩ : BufTy).Contents (Elt F) → (⟨S100000x128, .f32⟩ : BufTy).Contents (Elt F)),
    StableHlo.binary main_v26 main_v36 main_v37 (subf : (⟨S100000x128, .f32⟩ : BufTy).Contents (Elt F) → (⟨S100000x128, .f32⟩ : BufTy).Contents (Elt F) → (⟨S100000x128, .f32⟩ : BufTy).Contents (Elt F)),
    StableHlo.nullary main_cst_8 (constant S_ .f32 0x3727C5AC#32),
    StableHlo.unary main_cst_8 main_v38 (broadcastInDim S128 ![] bcast_S_S128 : (⟨S_, .f32⟩ : BufTy).Contents (Elt F) → (⟨S128, .f32⟩ : BufTy).Contents (Elt F)),
    StableHlo.binary main_v34 main_v38 main_v39 (addf : (⟨S128, .f32⟩ : BufTy).Contents (Elt F) → (⟨S128, .f32⟩ : BufTy).Contents (Elt F) → (⟨S128, .f32⟩ : BufTy).Contents (Elt F)),
    StableHlo.unary main_v39 main_v40 (Host.rsqrt : (⟨S128, .f32⟩ : BufTy).Contents (Elt F) → (⟨S128, .f32⟩ : BufTy).Contents (Elt F)),
    StableHlo.unary main_v40 main_v41 (broadcastInDim S1x128 ![1] bcast_S128_S1x128_1 : (⟨S128, .f32⟩ : BufTy).Contents (Elt F) → (⟨S1x128, .f32⟩ : BufTy).Contents (Elt F)),
    StableHlo.unary main_v41 main_v42 (broadcastInDim S100000x128 ![0, 1] bcast_S1x128_S100000x128_0_1 : (⟨S1x128, .f32⟩ : BufTy).Contents (Elt F) → (⟨S100000x128, .f32⟩ : BufTy).Contents (Elt F)),
    StableHlo.binary main_v37 main_v42 main_v43 (mulf : (⟨S100000x128, .f32⟩ : BufTy).Contents (Elt F) → (⟨S100000x128, .f32⟩ : BufTy).Contents (Elt F) → (⟨S100000x128, .f32⟩ : BufTy).Contents (Elt F)),
    StableHlo.unary main_v28 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v45 main_v46 (mulf : (⟨S100000x128, .f32⟩ : BufTy).Contents (Elt F) → (⟨S100000x128, .f32⟩ : BufTy).Contents (Elt F) → (⟨S100000x128, .f32⟩ : BufTy).Contents (Elt F)),
    StableHlo.unary main_v30 main_v47 (broadcastInDim S1x128 ![1] bcast_S128_S1x128_1 : (⟨S128, .f32⟩ : BufTy).Contents (Elt F) → (⟨S1x128, .f32⟩ : BufTy).Contents (Elt F)),
    StableHlo.unary main_v47 main_v48 (broadcastInDim S100000x128 ![0, 1] bcast_S1x128_S100000x128_0_1 : (⟨S1x128, .f32⟩ : BufTy).Contents (Elt F) → (⟨S100000x128, .f32⟩ : BufTy).Contents (Elt F)) ]

set_option maxRecDepth 16384 in
/-- The window is that straight line. -/
theorem main_part0_eq (c : Dev nD) : main_part0 (F := F) c = seq ops_part0 := by
  rfl

set_option maxRecDepth 16384 in
/-- Every operation of the window touches TensorCore buffers only. -/
theorem ops_part0_sub : (ops_part0 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub ..⟩

/-- The buffers the window writes. -/
abbrev W0 : List (Ref sig .tc) := [main_v0, main_v1, main_v2, main_v3, main_c, main_v4, main_v5, main_c_0, main_v6, main_v7, main_v8, main_v9, main_v10, main_cst, main_v11, main_v12, main_v13, main_cst_1, main_v14, main_v15, main_cst_2, main_v16, main_v17, main_v18, main_cst_3, main_v19, main_v20, main_v21, main_v22, main_v23, main_cst_4, main_v24, main_v25, main_v26, main_v27, main_v28, main_v29, main_v30, main_cst_5, main_v31, main_cst_6, main_v32, main_v33, main_c_7, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v34, main_v35, main_v36, main_v37, main_cst_8, main_v38, main_v39, main_v40, main_v41, main_v42, main_v43, main_v44, main_v45, main_v46, main_v47, main_v48]

/-- An operation that writes the one buffer `y` writes inside a list that holds `y`. -/
local macro "wr" : term =>
  `(Finset.singleton_subset_iff.mpr (List.mem_toFinset.mpr (List.mem_map_of_mem (by decide))))

set_option maxRecDepth 16384 in
/-- Each operation of the window writes a buffer of `W0`. -/
theorem ops_part0_writes : (ops_part0 : List (HloOp τ sig (Elt F))).Forall fun op => op.writes ⊆ (W0.map (Proc.devRef (τ := τ) .tc)).toFinset :=
  ⟨wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr⟩

/-- A buffer the window does not write keeps its contents through it. -/
theorem part0_keep (V : Valuation τ sig (Elt F)) (r : Ref sig .tc) (h : r ∉ W0) :
    after ops_part0 V (Proc.devRef .tc r) = V (Proc.devRef .tc r) :=
  after_of_writes_sub ops_part0 V ops_part0_writes h

/-- No operation of the window leaves a buffer undetermined. -/
theorem ops_part0_fresh : ∀ op ∈ (ops_part0 : List (HloOp τ sig (Elt F))), op.fresh = ∅ := by
  intro op h
  (repeat (cases h with | head => rfl | tail _ h => ?_)); exact nomatch h

/-- The batch normalisation of z up to the scale: (z − mean)·rsqrt(var + eps)·gamma, the shift not yet added. -/
def normScaled (z : FVec F S100000x128 .f32) (gam : FVec F S128 .f32) : FVec F S100000x128 .f32 :=
  mulf (mulf (subf z (rowsOf (colMean z))) (rowsOf (Host.rsqrt (addf (colVar z) (splatRow (F := F) 0x3727C5AC#32))))) (rowsOf gam)

set_option maxRecDepth 16384 in
/-- The input projection. -/
theorem part0_v3 (V : Valuation τ sig (Elt F)) :
    after ops_part0 V (no_index (Proc.devRef .tc main_v3)) = refX0 ((V (Proc.devRef .tc main_arg0))) ((V (Proc.devRef .tc main_arg1))) ((V (Proc.devRef .tc main_arg2))) := by
  conv_lhs =>
    simp only [ops_part0]
    read_line
  first | done | rfl

set_option maxRecDepth 16384 in
/-- Layer 0's combine output. -/
theorem part0_v26 (V : Valuation τ sig (Elt F)) :
    after ops_part0 V (no_index (Proc.devRef .tc main_v26)) = refZ0 (refX0 ((V (Proc.devRef .tc main_arg0))) ((V (Proc.devRef .tc main_arg1))) ((V (Proc.devRef .tc main_arg2)))) ((V (Proc.devRef .tc main_arg3))) ((V (Proc.devRef .tc main_arg8))) ((V (Proc.devRef .tc main_arg9))) := by
  conv_lhs =>
    simp only [ops_part0]
    read_line
  first | done | rfl

set_option maxRecDepth 16384 in
/-- Layer 0's normalisation up to the scale by row 0 of the scale table. -/
theorem part0_v46 (V : Valuation τ sig (Elt F)) :
    after ops_part0 V (no_index (Proc.devRef .tc main_v46))
      = normScaled (refZ0 (refX0 ((V (Proc.devRef .tc main_arg0))) ((V (Proc.devRef .tc main_arg1))) ((V (Proc.devRef .tc main_arg2)))) ((V (Proc.devRef .tc main_arg3))) ((V (Proc.devRef .tc main_arg8))) ((V (Proc.devRef .tc main_arg9)))) (rowOf4 0 slices_S4x128_S1x128_0_0 ((V (Proc.devRef .tc main_arg4)))) := by
  conv_lhs =>
    simp only [ops_part0]
    read_line
  first | done | rfl

set_option maxRecDepth 16384 in
/-- Row 0 of the shift table, repeated down the node axis. -/
theorem part0_v48 (V : Valuation τ sig (Elt F)) :
    after ops_part0 V (no_index (Proc.devRef .tc main_v48)) = rowsOf (rowOf4 0 slices_S4x128_S1x128_0_0 ((V (Proc.devRef .tc main_arg5)))) := by
  conv_lhs =>
    simp only [ops_part0]
    read_line
  first | done | rfl

end Cert.ReferenceIdeal.Hand

end
-- ==== Proof.Reference.Part1.lean ====
/-
  The second window of the reference program as a list of operations, and what it leaves: layer 0's
  normalisation completed (the shift added) and its relu (the called relu's operations inline); layer 1's
  propagation and combine; layer 1's batch statistics (the called variance function inline), normalisation
  and relu.
-/
import proofs.«175281_j9964324127123_1_alg».proof.ReferenceIdeal
import proofs.«175281_j9964324127123_1_alg».proof.Proof.Reference.Stages
import proofs.«175281_j9964324127123_1_alg».proof.Proof.Reference.Owned
import Idealize.ShloMosaic.Lib.StableHlo.Run

set_option Elab.async false

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-- Reads the contents a straight line of operations leaves in one buffer: the fold over the list unrolled,
    each operation's result taken at the buffer it writes and passed over at every other. -/
local macro "read_line" : conv =>
  `(conv| simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne'])

/-- Window 1 of the program as a list: its 85 operations in order, a called function's operations in the
    place of the call, over the call's own buffers. -/
abbrev ops_part1 : List (HloOp τ sig (Elt F)) :=
  [
    StableHlo.binary main_v46 main_v48 main_v49 (addf : (⟨S100000x128, .f32⟩ : BufTy).Contents (Elt F) → (⟨S100000x128, .f32⟩ : BufTy).Contents (Elt F) → (⟨S100000x128, .f32⟩ : BufTy).Contents (Elt F)),
    StableHlo.TRef.nullary main_call1.cst (constant S_ .f32 0x00000000#32),
    StableHlo.TRef.unary main_call1.cst main_call1.v0 (broadcastInDim S100000x128 ![] bcast_S_S100000x128),
    StableHlo.TRef.binary (.of main_v49) main_call1.v0 main_call1.v1 maximumf,
    StableHlo.nullary main_c_9 (constantI S_ 32 0#32),
    StableHlo.unary main_c_9 main_v51 (broadcastInDim S1600000 ![] bcast_S_S1600000 : (⟨S_, .i32⟩ : BufTy).Contents (Elt F) → (⟨S1600000, .i32⟩ : BufTy).Contents (Elt F)),
    StableHlo.binary main_arg8 main_v51 main_v52 (cmpi .slt : (⟨S1600000, .i32⟩ : BufTy).Contents (Elt F) → (⟨S1600000, .i32⟩ : BufTy).Contents (Elt F) → (⟨S1600000, .i1⟩ : BufTy).Contents (Elt F)),
    StableHlo.nullary main_c_10 (constantI S_ 32 100000#32),
    StableHlo.unary main_c_10 main_v53 (broadcastInDim S1600000 ![] bcast_S_S1600000 : (⟨S_, .i32⟩ : BufTy).Contents (Elt F) → (⟨S1600000, .i32⟩ : BufTy).Contents (Elt F)),
    StableHlo.binary main_arg8 main_v53 main_v54 (addi : (⟨S1600000, .i32⟩ : BufTy).Contents (Elt F) → (⟨S1600000, .i32⟩ : BufTy).Contents (Elt F) → (⟨S1600000, .i32⟩ : BufTy).Contents (Elt F)),
    StableHlo.ternary main_v52 main_v54 main_arg8 main_v55 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v55 main_v56 (broadcastInDim S1600000x1 ![0] bcast_S1600000_S1600000x1_0 : (⟨S1600000, .i32⟩ : BufTy).Contents (Elt F) → (⟨S1600000x1, .i32⟩ : BufTy).Contents (Elt F)),
    StableHlo.binary main_v50 main_v56 main_v57 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_11 (constant S_ .f32 0x00000000#32),
    StableHlo.unary main_cst_11 main_v58 (broadcastInDim S100000x128 ![] bcast_S_S100000x128 : (⟨S_, .f32⟩ : BufTy).Contents (Elt F) → (⟨S100000x128, .f32⟩ : BufTy).Contents (Elt F)),
    StableHlo.unary main_arg9 main_v59 (broadcastInDim S1600000x1 ![0] bcast_S1600000_S1600000x1_0 : (⟨S1600000, .i32⟩ : BufTy).Contents (Elt F) → (⟨S1600000x1, .i32⟩ : BufTy).Contents (Elt F)),
    StableHlo.ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_12 (constant S_ .f32 0x3F666666#32),
    StableHlo.unary main_cst_12 main_v61 (broadcastInDim S100000x128 ![] bcast_S_S100000x128 : (⟨S_, .f32⟩ : BufTy).Contents (Elt F) → (⟨S100000x128, .f32⟩ : BufTy).Contents (Elt F)),
    StableHlo.binary main_v61 main_v60 main_v62 (mulf : (⟨S100000x128, .f32⟩ : BufTy).Contents (Elt F) → (⟨S100000x128, .f32⟩ : BufTy).Contents (Elt F) → (⟨S100000x128, .f32⟩ : BufTy).Contents (Elt F)),
    StableHlo.nullary main_cst_13 (constant S_ .f32 0x3DCCCCCD#32),
    StableHlo.unary main_cst_13 main_v63 (broadcastInDim S100000x128 ![] bcast_S_S100000x128 : (⟨S_, .f32⟩ : BufTy).Contents (Elt F) → (⟨S100000x128, .f32⟩ : BufTy).Contents (Elt F)),
    StableHlo.binary main_v63 main_v3 main_v64 (mulf : (⟨S100000x128, .f32⟩ : BufTy).Contents (Elt F) → (⟨S100000x128, .f32⟩ : BufTy).Contents (Elt F) → (⟨S100000x128, .f32⟩ : BufTy).Contents (Elt F)),
    StableHlo.binary main_v62 main_v64 main_v65 (addf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3F46E010#32),
    StableHlo.unary main_cst_14 main_v66 (broadcastInDim S100000x128 ![] bcast_S_S100000x128 : (⟨S_, .f32⟩ : BufTy).Contents (Elt F) → (⟨S100000x128, .f32⟩ : BufTy).Contents (Elt F)),
    StableHlo.binary main_v66 main_v65 main_v67 (mulf : (⟨S100000x128, .f32⟩ : BufTy).Contents (Elt F) → (⟨S100000x128, .f32⟩ : BufTy).Contents (Elt F) → (⟨S100000x128, .f32⟩ : BufTy).Contents (Elt F)),
    StableHlo.unary main_arg3 main_v68 ((extractStridedSlice S1x128x128 ![1, 0, 0] · slices_S5x128x128_S1x128x128_1_0_0) : (⟨S5x128x128, .f32⟩ : BufTy).Contents (Elt F) → (⟨S1x128x128, .f32⟩ : BufTy).Contents (Elt F)),
    StableHlo.reshape main_v68 main_v69 rfl shapeCasts_S1x128x128_S128x128,
    StableHlo.binary main_v65 main_v69 main_v70 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_15 (constant S_ .f32 0x3E647FBE#32),
    StableHlo.unary main_cst_15 main_v71 (broadcastInDim S100000x128 ![] bcast_S_S100000x128 : (⟨S_, .f32⟩ : BufTy).Contents (Elt F) → (⟨S100000x128, .f32⟩ : BufTy).Contents (Elt F)),
    StableHlo.binary main_v71 main_v70 main_v72 (mulf : (⟨S100000x128, .f32⟩ : BufTy).Contents (Elt F) → (⟨S100000x128, .f32⟩ : BufTy).Contents (Elt F) → (⟨S100000x128, .f32⟩ : BufTy).Contents (Elt F)),
    StableHlo.binary main_v67 main_v72 main_v73 (addf : (⟨S100000x128, .f32⟩ : BufTy).Contents (Elt F) → (⟨S100000x128, .f32⟩ : BufTy).Contents (Elt F) → (⟨S100000x128, .f32⟩ : BufTy).Contents (Elt F)),
    StableHlo.unary main_arg4 main_v74 ((extractStridedSlice S1x128 ![1, 0] · slices_S4x128_S1x128_1_0) : (⟨S4x128, .f32⟩ : BufTy).Contents (Elt F) → (⟨S1x128, .f32⟩ : BufTy).Contents (Elt F)),
    StableHlo.reshape main_v74 main_v75 rfl shapeCasts_S1x128_S128,
    StableHlo.unary main_arg5 main_v76 ((extractStridedSlice S1x128 ![1, 0] · slices_S4x128_S1x128_1_0) : (⟨S4x128, .f32⟩ : BufTy).Contents (Elt F) → (⟨S1x128, .f32⟩ : BufTy).Contents (Elt F)),
    StableHlo.reshape main_v76 main_v77 rfl shapeCasts_S1x128_S128,
    StableHlo.nullary main_cst_16 (constant S_ .f32 0x00000000#32),
    StableHlo.binary main_v73 main_cst_16 main_v78 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_17 (constant S_ .f32 0x47C35000#32),
    StableHlo.unary main_cst_17 main_v79 (broadcastInDim S128 ![] bcast_S_S128 : (⟨S_, .f32⟩ : BufTy).Contents (Elt F) → (⟨S128, .f32⟩ : BufTy).Contents (Elt F)),
    StableHlo.binary main_v78 main_v79 main_v80 (Host.divf : (⟨S128, .f32⟩ : BufTy).Contents (Elt F) → (⟨S128, .f32⟩ : BufTy).Contents (Elt F) → (⟨S128, .f32⟩ : BufTy).Contents (Elt F)),
    StableHlo.nullary main_c_18 (constantI S_ 32 0#32),
    StableHlo.TRef.nullary main_call2.cst (constant S_ .f32 0x00000000#32),
    StableHlo.TRef.binary (.of main_v73) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v73) main_call2.v4 main_call2.v5 subf,
    StableHlo.TRef.binary main_call2.v5 main_call2.v5 main_call2.v6 mulf,
    StableHlo.TRef.unary (.of main_c_18) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v80 main_v82 (broadcastInDim S1x128 ![1] bcast_S128_S1x128_1 : (⟨S128, .f32⟩ : BufTy).Contents (Elt F) → (⟨S1x128, .f32⟩ : BufTy).Contents (Elt F)),
    StableHlo.unary main_v82 main_v83 (broadcastInDim S100000x128 ![0, 1] bcast_S1x128_S100000x128_0_1 : (⟨S1x128, .f32⟩ : BufTy).Contents (Elt F) → (⟨S100000x128, .f32⟩ : BufTy).Contents (Elt F)),
    StableHlo.binary main_v73 main_v83 main_v84 (subf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x3727C5AC#32),
    StableHlo.unary main_cst_19 main_v85 (broadcastInDim S128 ![] bcast_S_S128 : (⟨S_, .f32⟩ : BufTy).Contents (Elt F) → (⟨S128, .f32⟩ : BufTy).Contents (Elt F)),
    StableHlo.binary main_v81 main_v85 main_v86 (addf : (⟨S128, .f32⟩ : BufTy).Contents (Elt F) → (⟨S128, .f32⟩ : BufTy).Contents (Elt F) → (⟨S128, .f32⟩ : BufTy).Contents (Elt F)),
    StableHlo.unary main_v86 main_v87 (Host.rsqrt : (⟨S128, .f32⟩ : BufTy).Contents (Elt F) → (⟨S128, .f32⟩ : BufTy).Contents (Elt F)),
    StableHlo.unary main_v87 main_v88 (broadcastInDim S1x128 ![1] bcast_S128_S1x128_1 : (⟨S128, .f32⟩ : BufTy).Contents (Elt F) → (⟨S1x128, .f32⟩ : BufTy).Contents (Elt F)),
    StableHlo.unary main_v88 main_v89 (broadcastInDim S100000x128 ![0, 1] bcast_S1x128_S100000x128_0_1 : (⟨S1x128, .f32⟩ : BufTy).Contents (Elt F) → (⟨S100000x128, .f32⟩ : BufTy).Contents (Elt F)),
    StableHlo.binary main_v84 main_v89 main_v90 (mulf : (⟨S100000x128, .f32⟩ : BufTy).Contents (Elt F) → (⟨S100000x128, .f32⟩ : BufTy).Contents (Elt F) → (⟨S100000x128, .f32⟩ : BufTy).Contents (Elt F)),
    StableHlo.unary main_v75 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S100000x128 ![0, 1] bcast_S1x128_S100000x128_0_1 : (⟨S1x128, .f32⟩ : BufTy).Contents (Elt F) → (⟨S100000x128, .f32⟩ : BufTy).Contents (Elt F)),
    StableHlo.binary main_v90 main_v92 main_v93 (mulf : (⟨S100000x128, .f32⟩ : BufTy).Contents (Elt F) → (⟨S100000x128, .f32⟩ : BufTy).Contents (Elt F) → (⟨S100000x128, .f32⟩ : BufTy).Contents (Elt F)),
    StableHlo.unary main_v77 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S100000x128 ![0, 1] bcast_S1x128_S100000x128_0_1 : (⟨S1x128, .f32⟩ : BufTy).Contents (Elt F) → (⟨S100000x128, .f32⟩ : BufTy).Contents (Elt F)),
    StableHlo.binary main_v93 main_v95 main_v96 (addf : (⟨S100000x128, .f32⟩ : BufTy).Contents (Elt F) → (⟨S100000x128, .f32⟩ : BufTy).Contents (Elt F) → (⟨S100000x128, .f32⟩ : BufTy).Contents (Elt F)),
    StableHlo.TRef.nullary main_call3.cst (constant S_ .f32 0x00000000#32),
    StableHlo.TRef.unary main_call3.cst main_call3.v0 (broadcastInDim S100000x128 ![] bcast_S_S100000x128),
    StableHlo.TRef.binary (.of main_v96) main_call3.v0 main_call3.v1 maximumf ]

set_option maxRecDepth 16384 in
/-- The window is that straight line. -/
theorem main_part1_eq (c : Dev nD) : main_part1 (F := F) c = seq ops_part1 := by
  rfl

set_option maxRecDepth 16384 in
/-- Every operation of the window touches TensorCore buffers only. -/
theorem ops_part1_sub : (ops_part1 : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- The buffers the window writes. -/
abbrev W1 : List (Ref sig .tc) := [main_v49, main_call1_cst, main_call1_v0, main_v50, main_c_9, main_v51, main_v52, main_c_10, main_v53, main_v54, main_v55, main_v56, main_v57, main_cst_11, main_v58, main_v59, main_v60, main_cst_12, main_v61, main_v62, main_cst_13, main_v63, main_v64, main_v65, main_cst_14, main_v66, main_v67, main_v68, main_v69, main_v70, main_cst_15, main_v71, main_v72, main_v73, main_v74, main_v75, main_v76, main_v77, main_cst_16, main_v78, main_cst_17, main_v79, main_v80, main_c_18, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v81, main_v82, main_v83, main_v84, main_cst_19, main_v85, main_v86, main_v87, main_v88, main_v89, main_v90, main_v91, main_v92, main_v93, main_v94, main_v95, main_v96, main_call3_cst, main_call3_v0, main_v97]

/-- An operation that writes the one buffer `y` writes inside a list that holds `y`. -/
local macro "wr" : term =>
  `(Finset.singleton_subset_iff.mpr (List.mem_toFinset.mpr (List.mem_map_of_mem (by decide))))

set_option maxRecDepth 16384 in
/-- Each operation of the window writes a buffer of `W1`. -/
theorem ops_part1_writes : (ops_part1 : List (HloOp τ sig (Elt F))).Forall fun op => op.writes ⊆ (W1.map (Proc.devRef (τ := τ) .tc)).toFinset :=
  ⟨wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr⟩

/-- A buffer the window does not write keeps its contents through it. -/
theorem part1_keep (V : Valuation τ sig (Elt F)) (r : Ref sig .tc) (h : r ∉ W1) :
    after ops_part1 V (Proc.devRef .tc r) = V (Proc.devRef .tc r) :=
  after_of_writes_sub ops_part1 V ops_part1_writes h

/-- No operation of the window leaves a buffer undetermined. -/
theorem ops_part1_fresh : ∀ op ∈ (ops_part1 : List (HloOp τ sig (Elt F))), op.fresh = ∅ := by
  intro op h
  (repeat (cases h with | head => rfl | tail _ h => ?_)); exact nomatch h

set_option maxRecDepth 16384 in
/-- Layer 1's combine output: the shift added to layer 0's scaled normalisation, the relu, the propagation, the combine with the second weight matrix. -/
theorem part1_v73 (V : Valuation τ sig (Elt F)) :
    after ops_part1 V (no_index (Proc.devRef .tc main_v73))
      = (convStep 0x3F46E010#32 0x3E647FBE#32 1 slices_S5x128x128_S1x128x128_1_0_0 (relu (addf (V (Proc.devRef .tc main_v46)) (V (Proc.devRef .tc main_v48)))) (V (Proc.devRef .tc main_v3)) (V (Proc.devRef .tc main_arg3)) (V (Proc.devRef .tc main_arg8)) (V (Proc.devRef .tc main_arg9))) := by
  conv_lhs =>
    simp only [ops_part1]
    read_line
  first | done | rfl

set_option maxRecDepth 16384 in
/-- Layer 1's output normalised with its own batch statistics and rows 1 of the scale and shift tables, then the relu. -/
theorem part1_v97 (V : Valuation τ sig (Elt F)) :
    after ops_part1 V (no_index (Proc.devRef .tc main_v97))
      = bnRelu 1 slices_S4x128_S1x128_1_0 (convStep 0x3F46E010#32 0x3E647FBE#32 1 slices_S5x128x128_S1x128x128_1_0_0 (relu (addf (V (Proc.devRef .tc main_v46)) (V (Proc.devRef .tc main_v48)))) (V (Proc.devRef .tc main_v3)) (V (Proc.devRef .tc main_arg3)) (V (Proc.devRef .tc main_arg8)) (V (Proc.devRef .tc main_arg9))) (V (Proc.devRef .tc main_arg4)) (V (Proc.devRef .tc main_arg5)) := by
  conv_lhs =>
    simp only [ops_part1]
    read_line
  first | done | rfl

end Cert.ReferenceIdeal.Hand

end
-- ==== Proof.Reference.Part2.lean ====
/-
  The third window of the reference program as a list of operations, and what it leaves: layer 2's
  propagation and combine; its batch statistics (the called variance function inline), normalisation and
  relu; and the zero index vector of the next propagation's index fix-up.
-/
import proofs.«175281_j9964324127123_1_alg».proof.ReferenceIdeal
import proofs.«175281_j9964324127123_1_alg».proof.Proof.Reference.Stages
import proofs.«175281_j9964324127123_1_alg».proof.Proof.Reference.Owned
import Idealize.ShloMosaic.Lib.StableHlo.Run

set_option Elab.async false

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-- Reads the contents a straight line of operations leaves in one buffer: the fold over the list unrolled,
    each operation's result taken at the buffer it writes and passed over at every other. -/
local macro "read_line" : conv =>
  `(conv| simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne'])

/-- Window 2 of the program as a list: its 83 operations in order, a called function's operations in the
    place of the call, over the call's own buffers. -/
abbrev ops_part2 : List (HloOp τ sig (Elt F)) :=
  [
    StableHlo.nullary main_c_20 (constantI S_ 32 0#32),
    StableHlo.unary main_c_20 main_v98 (broadcastInDim S1600000 ![] bcast_S_S1600000 : (⟨S_, .i32⟩ : BufTy).Contents (Elt F) → (⟨S1600000, .i32⟩ : BufTy).Contents (Elt F)),
    StableHlo.binary main_arg8 main_v98 main_v99 (cmpi .slt : (⟨S1600000, .i32⟩ : BufTy).Contents (Elt F) → (⟨S1600000, .i32⟩ : BufTy).Contents (Elt F) → (⟨S1600000, .i1⟩ : BufTy).Contents (Elt F)),
    StableHlo.nullary main_c_21 (constantI S_ 32 100000#32),
    StableHlo.unary main_c_21 main_v100 (broadcastInDim S1600000 ![] bcast_S_S1600000 : (⟨S_, .i32⟩ : BufTy).Contents (Elt F) → (⟨S1600000, .i32⟩ : BufTy).Contents (Elt F)),
    StableHlo.binary main_arg8 main_v100 main_v101 (addi : (⟨S1600000, .i32⟩ : BufTy).Contents (Elt F) → (⟨S1600000, .i32⟩ : BufTy).Contents (Elt F) → (⟨S1600000, .i32⟩ : BufTy).Contents (Elt F)),
    StableHlo.ternary main_v99 main_v101 main_arg8 main_v102 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v102 main_v103 (broadcastInDim S1600000x1 ![0] bcast_S1600000_S1600000x1_0 : (⟨S1600000, .i32⟩ : BufTy).Contents (Elt F) → (⟨S1600000x1, .i32⟩ : BufTy).Contents (Elt F)),
    StableHlo.binary main_v97 main_v103 main_v104 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_22 (constant S_ .f32 0x00000000#32),
    StableHlo.unary main_cst_22 main_v105 (broadcastInDim S100000x128 ![] bcast_S_S100000x128 : (⟨S_, .f32⟩ : BufTy).Contents (Elt F) → (⟨S100000x128, .f32⟩ : BufTy).Contents (Elt F)),
    StableHlo.unary main_arg9 main_v106 (broadcastInDim S1600000x1 ![0] bcast_S1600000_S1600000x1_0 : (⟨S1600000, .i32⟩ : BufTy).Contents (Elt F) → (⟨S1600000x1, .i32⟩ : BufTy).Contents (Elt F)),
    StableHlo.ternary main_v105 main_v106 main_v104 main_v107 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_23 (constant S_ .f32 0x3F666666#32),
    StableHlo.unary main_cst_23 main_v108 (broadcastInDim S100000x128 ![] bcast_S_S100000x128 : (⟨S_, .f32⟩ : BufTy).Contents (Elt F) → (⟨S100000x128, .f32⟩ : BufTy).Contents (Elt F)),
    StableHlo.binary main_v108 main_v107 main_v109 (mulf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x3DCCCCCD#32),
    StableHlo.unary main_cst_24 main_v110 (broadcastInDim S100000x128 ![] bcast_S_S100000x128 : (⟨S_, .f32⟩ : BufTy).Contents (Elt F) → (⟨S100000x128, .f32⟩ : BufTy).Contents (Elt F)),
    StableHlo.binary main_v110 main_v3 main_v111 (mulf : (⟨S100000x128, .f32⟩ : BufTy).Contents (Elt F) → (⟨S100000x128, .f32⟩ : BufTy).Contents (Elt F) → (⟨S100000x128, .f32⟩ : BufTy).Contents (Elt F)),
    StableHlo.binary main_v109 main_v111 main_v112 (addf : (⟨S100000x128, .f32⟩ : BufTy).Contents (Elt F) → (⟨S100000x128, .f32⟩ : BufTy).Contents (Elt F) → (⟨S100000x128, .f32⟩ : BufTy).Contents (Elt F)),
    StableHlo.nullary main_cst_25 (constant S_ .f32 0x3F588995#32),
    StableHlo.unary main_cst_25 main_v113 (broadcastInDim S100000x128 ![] bcast_S_S100000x128 : (⟨S_, .f32⟩ : BufTy).Contents (Elt F) → (⟨S100000x128, .f32⟩ : BufTy).Contents (Elt F)),
    StableHlo.binary main_v113 main_v112 main_v114 (mulf : (⟨S100000x128, .f32⟩ : BufTy).Contents (Elt F) → (⟨S100000x128, .f32⟩ : BufTy).Contents (Elt F) → (⟨S100000x128, .f32⟩ : BufTy).Contents (Elt F)),
    StableHlo.unary main_arg3 main_v115 ((extractStridedSlice S1x128x128 ![2, 0, 0] · slices_S5x128x128_S1x128x128_2_0_0) : (⟨S5x128x128, .f32⟩ : BufTy).Contents (Elt F) → (⟨S1x128x128, .f32⟩ : BufTy).Contents (Elt F)),
    StableHlo.reshape main_v115 main_v116 rfl shapeCasts_S1x128x128_S128x128,
    StableHlo.binary main_v112 main_v116 main_v117 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_26 (constant S_ .f32 0x3E1DD9AD#32),
    StableHlo.unary main_cst_26 main_v118 (broadcastInDim S100000x128 ![] bcast_S_S100000x128 : (⟨S_, .f32⟩ : BufTy).Contents (Elt F) → (⟨S100000x128, .f32⟩ : BufTy).Contents (Elt F)),
    StableHlo.binary main_v118 main_v117 main_v119 (mulf : (⟨S100000x128, .f32⟩ : BufTy).Contents (Elt F) → (⟨S100000x128, .f32⟩ : BufTy).Contents (Elt F) → (⟨S100000x128, .f32⟩ : BufTy).Contents (Elt F)),
    StableHlo.binary main_v114 main_v119 main_v120 (addf : (⟨S100000x128, .f32⟩ : BufTy).Contents (Elt F) → (⟨S100000x128, .f32⟩ : BufTy).Contents (Elt F) → (⟨S100000x128, .f32⟩ : BufTy).Contents (Elt F)),
    StableHlo.unary main_arg4 main_v121 ((extractStridedSlice S1x128 ![2, 0] · slices_S4x128_S1x128_2_0) : (⟨S4x128, .f32⟩ : BufTy).Contents (Elt F) → (⟨S1x128, .f32⟩ : BufTy).Contents (Elt F)),
    StableHlo.reshape main_v121 main_v122 rfl shapeCasts_S1x128_S128,
    StableHlo.unary main_arg5 main_v123 ((extractStridedSlice S1x128 ![2, 0] · slices_S4x128_S1x128_2_0) : (⟨S4x128, .f32⟩ : BufTy).Contents (Elt F) → (⟨S1x128, .f32⟩ : BufTy).Contents (Elt F)),
    StableHlo.reshape main_v123 main_v124 rfl shapeCasts_S1x128_S128,
    StableHlo.nullary main_cst_27 (constant S_ .f32 0x00000000#32),
    StableHlo.binary main_v120 main_cst_27 main_v125 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_28 (constant S_ .f32 0x47C35000#32),
    StableHlo.unary main_cst_28 main_v126 (broadcastInDim S128 ![] bcast_S_S128 : (⟨S_, .f32⟩ : BufTy).Contents (Elt F) → (⟨S128, .f32⟩ : BufTy).Contents (Elt F)),
    StableHlo.binary main_v125 main_v126 main_v127 (Host.divf : (⟨S128, .f32⟩ : BufTy).Contents (Elt F) → (⟨S128, .f32⟩ : BufTy).Contents (Elt F) → (⟨S128, .f32⟩ : BufTy).Contents (Elt F)),
    StableHlo.nullary main_c_29 (constantI S_ 32 0#32),
    StableHlo.TRef.nullary main_call4.cst (constant S_ .f32 0x00000000#32),
    StableHlo.TRef.binary (.of main_v120) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v120) main_call4.v4 main_call4.v5 subf,
    StableHlo.TRef.binary main_call4.v5 main_call4.v5 main_call4.v6 mulf,
    StableHlo.TRef.unary (.of main_c_29) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v127 main_v129 (broadcastInDim S1x128 ![1] bcast_S128_S1x128_1 : (⟨S128, .f32⟩ : BufTy).Contents (Elt F) → (⟨S1x128, .f32⟩ : BufTy).Contents (Elt F)),
    StableHlo.unary main_v129 main_v130 (broadcastInDim S100000x128 ![0, 1] bcast_S1x128_S100000x128_0_1 : (⟨S1x128, .f32⟩ : BufTy).Contents (Elt F) → (⟨S100000x128, .f32⟩ : BufTy).Contents (Elt F)),
    StableHlo.binary main_v120 main_v130 main_v131 (subf : (⟨S100000x128, .f32⟩ : BufTy).Contents (Elt F) → (⟨S100000x128, .f32⟩ : BufTy).Contents (Elt F) → (⟨S100000x128, .f32⟩ : BufTy).Contents (Elt F)),
    StableHlo.nullary main_cst_30 (constant S_ .f32 0x3727C5AC#32),
    StableHlo.unary main_cst_30 main_v132 (broadcastInDim S128 ![] bcast_S_S128 : (⟨S_, .f32⟩ : BufTy).Contents (Elt F) → (⟨S128, .f32⟩ : BufTy).Contents (Elt F)),
    StableHlo.binary main_v128 main_v132 main_v133 (addf : (⟨S128, .f32⟩ : BufTy).Contents (Elt F) → (⟨S128, .f32⟩ : BufTy).Contents (Elt F) → (⟨S128, .f32⟩ : BufTy).Contents (Elt F)),
    StableHlo.unary main_v133 main_v134 (Host.rsqrt : (⟨S128, .f32⟩ : BufTy).Contents (Elt F) → (⟨S128, .f32⟩ : BufTy).Contents (Elt F)),
    StableHlo.unary main_v134 main_v135 (broadcastInDim S1x128 ![1] bcast_S128_S1x128_1 : (⟨S128, .f32⟩ : BufTy).Contents (Elt F) → (⟨S1x128, .f32⟩ : BufTy).Contents (Elt F)),
    StableHlo.unary main_v135 main_v136 (broadcastInDim S100000x128 ![0, 1] bcast_S1x128_S100000x128_0_1 : (⟨S1x128, .f32⟩ : BufTy).Contents (Elt F) → (⟨S100000x128, .f32⟩ : BufTy).Contents (Elt F)),
    StableHlo.binary main_v131 main_v136 main_v137 (mulf : (⟨S100000x128, .f32⟩ : BufTy).Contents (Elt F) → (⟨S100000x128, .f32⟩ : BufTy).Contents (Elt F) → (⟨S100000x128, .f32⟩ : BufTy).Contents (Elt F)),
    StableHlo.unary main_v122 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S100000x128 ![0, 1] bcast_S1x128_S100000x128_0_1 : (⟨S1x128, .f32⟩ : BufTy).Contents (Elt F) → (⟨S100000x128, .f32⟩ : BufTy).Contents (Elt F)),
    StableHlo.binary main_v137 main_v139 main_v140 (mulf : (⟨S100000x128, .f32⟩ : BufTy).Contents (Elt F) → (⟨S100000x128, .f32⟩ : BufTy).Contents (Elt F) → (⟨S100000x128, .f32⟩ : BufTy).Contents (Elt F)),
    StableHlo.unary main_v124 main_v141 (broadcastInDim S1x128 ![1] bcast_S128_S1x128_1 : (⟨S128, .f32⟩ : BufTy).Contents (Elt F) → (⟨S1x128, .f32⟩ : BufTy).Contents (Elt F)),
    StableHlo.unary main_v141 main_v142 (broadcastInDim S100000x128 ![0, 1] bcast_S1x128_S100000x128_0_1 : (⟨S1x128, .f32⟩ : BufTy).Contents (Elt F) → (⟨S100000x128, .f32⟩ : BufTy).Contents (Elt F)),
    StableHlo.binary main_v140 main_v142 main_v143 (addf : (⟨S100000x128, .f32⟩ : BufTy).Contents (Elt F) → (⟨S100000x128, .f32⟩ : BufTy).Contents (Elt F) → (⟨S100000x128, .f32⟩ : BufTy).Contents (Elt F)),
    StableHlo.TRef.nullary main_call5.cst (constant S_ .f32 0x00000000#32),
    StableHlo.TRef.unary main_call5.cst main_call5.v0 (broadcastInDim S100000x128 ![] bcast_S_S100000x128),
    StableHlo.TRef.binary (.of main_v143) main_call5.v0 main_call5.v1 maximumf,
    StableHlo.nullary main_c_31 (constantI S_ 32 0#32),
    StableHlo.unary main_c_31 main_v145 (broadcastInDim S1600000 ![] bcast_S_S1600000 : (⟨S_, .i32⟩ : BufTy).Contents (Elt F) → (⟨S1600000, .i32⟩ : BufTy).Contents (Elt F)) ]

set_option maxRecDepth 16384 in
/-- The window is that straight line. -/
theorem main_part2_eq (c : Dev nD) : main_part2 (F := F) c = seq ops_part2 := by
  rfl

set_option maxRecDepth 16384 in
/-- Every operation of the window touches TensorCore buffers only. -/
theorem ops_part2_sub : (ops_part2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., unary_bufs_sub .., reshape_bufs_sub .., unary_bufs_sub .., reshape_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub ..⟩

/-- The buffers the window writes. -/
abbrev W2 : List (Ref sig .tc) := [main_c_20, main_v98, main_v99, main_c_21, main_v100, main_v101, main_v102, main_v103, main_v104, main_cst_22, main_v105, main_v106, main_v107, main_cst_23, main_v108, main_v109, main_cst_24, main_v110, main_v111, main_v112, main_cst_25, main_v113, main_v114, main_v115, main_v116, main_v117, main_cst_26, main_v118, main_v119, main_v120, main_v121, main_v122, main_v123, main_v124, main_cst_27, main_v125, main_cst_28, main_v126, main_v127, main_c_29, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v128, main_v129, main_v130, main_v131, main_cst_30, main_v132, main_v133, main_v134, main_v135, main_v136, main_v137, main_v138, main_v139, main_v140, main_v141, main_v142, main_v143, main_call5_cst, main_call5_v0, main_v144, main_c_31, main_v145]

/-- An operation that writes the one buffer `y` writes inside a list that holds `y`. -/
local macro "wr" : term =>
  `(Finset.singleton_subset_iff.mpr (List.mem_toFinset.mpr (List.mem_map_of_mem (by decide))))

set_option maxRecDepth 16384 in
/-- Each operation of the window writes a buffer of `W2`. -/
theorem ops_part2_writes : (ops_part2 : List (HloOp τ sig (Elt F))).Forall fun op => op.writes ⊆ (W2.map (Proc.devRef (τ := τ) .tc)).toFinset :=
  ⟨wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr⟩

/-- A buffer the window does not write keeps its contents through it. -/
theorem part2_keep (V : Valuation τ sig (Elt F)) (r : Ref sig .tc) (h : r ∉ W2) :
    after ops_part2 V (Proc.devRef .tc r) = V (Proc.devRef .tc r) :=
  after_of_writes_sub ops_part2 V ops_part2_writes h

/-- No operation of the window leaves a buffer undetermined. -/
theorem ops_part2_fresh : ∀ op ∈ (ops_part2 : List (HloOp τ sig (Elt F))), op.fresh = ∅ := by
  intro op h
  (repeat (cases h with | head => rfl | tail _ h => ?_)); exact nomatch h

set_option maxRecDepth 16384 in
/-- Layer 2's combine output: the propagation of layer 1's activation and the combine with the third weight matrix. -/
theorem part2_v120 (V : Valuation τ sig (Elt F)) :
    after ops_part2 V (no_index (Proc.devRef .tc main_v120))
      = (convStep 0x3F588995#32 0x3E1DD9AD#32 2 slices_S5x128x128_S1x128x128_2_0_0 (V (Proc.devRef .tc main_v97)) (V (Proc.devRef .tc main_v3)) (V (Proc.devRef .tc main_arg3)) (V (Proc.devRef .tc main_arg8)) (V (Proc.devRef .tc main_arg9))) := by
  conv_lhs =>
    simp only [ops_part2]
    read_line
  first | done | rfl

set_option maxRecDepth 16384 in
/-- Layer 2's output normalised with its own batch statistics and rows 2 of the scale and shift tables, then the relu. -/
theorem part2_v144 (V : Valuation τ sig (Elt F)) :
    after ops_part2 V (no_index (Proc.devRef .tc main_v144))
      = bnRelu 2 slices_S4x128_S1x128_2_0 (convStep 0x3F588995#32 0x3E1DD9AD#32 2 slices_S5x128x128_S1x128x128_2_0_0 (V (Proc.devRef .tc main_v97)) (V (Proc.devRef .tc main_v3)) (V (Proc.devRef .tc main_arg3)) (V (Proc.devRef .tc main_arg8)) (V (Proc.devRef .tc main_arg9))) (V (Proc.devRef .tc main_arg4)) (V (Proc.devRef .tc main_arg5)) := by
  conv_lhs =>
    simp only [ops_part2]
    read_line
  first | done | rfl

set_option maxRecDepth 16384 in
/-- The zero index vector the next propagation compares the source indices with. -/
theorem part2_v145 (V : Valuation τ sig (Elt F)) :
    after ops_part2 V (no_index (Proc.devRef .tc main_v145))
      = (broadcastInDim S1600000 ![] bcast_S_S1600000 (constantI S_ 32 0#32) : IVec S1600000 32) := by
  conv_lhs =>
    simp only [ops_part2]
    read_line
  first | done | rfl

end Cert.ReferenceIdeal.Hand

end
-- ==== Proof.Reference.Part3.lean ====
/-
  The fourth window of the reference program as a list of operations, and what it leaves: layer 3's
  propagation (its zero index vector found in the window before) and combine; the four layers' combine outputs
  side by side and their jumping-knowledge projection; layer 4's propagation, residual mix, first product and
  matrix product.
-/
import proofs.«175281_j9964324127123_1_alg».proof.ReferenceIdeal
import proofs.«175281_j9964324127123_1_alg».proof.Proof.Reference.Stages
import proofs.«175281_j9964324127123_1_alg».proof.Proof.Reference.Owned
import Idealize.ShloMosaic.Lib.StableHlo.Run

set_option Elab.async false

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-- The concatenation of the four layers' combine outputs, read at its own buffer: the four operands' contents
    side by side. -/
theorem concat_result' (hxs hy) (G : Valuation τ sig (Elt F)) :
    (StableHlo.nary ![main_v26, main_v73, main_v120, main_v167] main_v168 (fun u => concatenate S100000x512 1 [⟨S100000x128, u 0⟩, ⟨S100000x128, u 1⟩, ⟨S100000x128, u 2⟩, ⟨S100000x128, u 3⟩] concatenates_S100000x128_S100000x128_S100000x128_S100000x128_S100000x512_d1) hxs hy : HloOp τ sig (Elt F)).result G (no_index (Proc.devRef .tc main_v168))
      = concat4 (G (Proc.devRef .tc main_v26)) (G (Proc.devRef .tc main_v73)) (G (Proc.devRef .tc main_v120)) (G (Proc.devRef .tc main_v167)) :=
  (nary_result _ _ _ hxs hy G).trans rfl

/-- Reads the contents a straight line of operations leaves in one buffer: the fold over the list unrolled,
    each operation's result taken at the buffer it writes and passed over at every other. -/
local macro "read_line" : conv =>
  `(conv| simp (disch := decide) only [after_cons, after_nil,
      nullary_result', unary_result', binary_result', ternary_result', quaternary_result', reshape_result', concat_result',
      nullary_result_ne', unary_result_ne', binary_result_ne', ternary_result_ne', quaternary_result_ne', reshape_result_ne',
      nary_result_ne'])

/-- Window 3 of the program as a list: its 60 operations in order, a called function's operations in the
    place of the call, over the call's own buffers. -/
abbrev ops_part3 : List (HloOp τ sig (Elt F)) :=
  [
    StableHlo.binary main_arg8 main_v145 main_v146 (cmpi .slt : (⟨S1600000, .i32⟩ : BufTy).Contents (Elt F) → (⟨S1600000, .i32⟩ : BufTy).Contents (Elt F) → (⟨S1600000, .i1⟩ : BufTy).Contents (Elt F)),
    StableHlo.nullary main_c_32 (constantI S_ 32 100000#32),
    StableHlo.unary main_c_32 main_v147 (broadcastInDim S1600000 ![] bcast_S_S1600000 : (⟨S_, .i32⟩ : BufTy).Contents (Elt F) → (⟨S1600000, .i32⟩ : BufTy).Contents (Elt F)),
    StableHlo.binary main_arg8 main_v147 main_v148 (addi : (⟨S1600000, .i32⟩ : BufTy).Contents (Elt F) → (⟨S1600000, .i32⟩ : BufTy).Contents (Elt F) → (⟨S1600000, .i32⟩ : BufTy).Contents (Elt F)),
    StableHlo.ternary main_v146 main_v148 main_arg8 main_v149 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v149 main_v150 (broadcastInDim S1600000x1 ![0] bcast_S1600000_S1600000x1_0 : (⟨S1600000, .i32⟩ : BufTy).Contents (Elt F) → (⟨S1600000x1, .i32⟩ : BufTy).Contents (Elt F)),
    StableHlo.binary main_v144 main_v150 main_v151 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_33 (constant S_ .f32 0x00000000#32),
    StableHlo.unary main_cst_33 main_v152 (broadcastInDim S100000x128 ![] bcast_S_S100000x128 : (⟨S_, .f32⟩ : BufTy).Contents (Elt F) → (⟨S100000x128, .f32⟩ : BufTy).Contents (Elt F)),
    StableHlo.unary main_arg9 main_v153 (broadcastInDim S1600000x1 ![0] bcast_S1600000_S1600000x1_0 : (⟨S1600000, .i32⟩ : BufTy).Contents (Elt F) → (⟨S1600000x1, .i32⟩ : BufTy).Contents (Elt F)),
    StableHlo.ternary main_v152 main_v153 main_v151 main_v154 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_34 (constant S_ .f32 0x3F666666#32),
    StableHlo.unary main_cst_34 main_v155 (broadcastInDim S100000x128 ![] bcast_S_S100000x128 : (⟨S_, .f32⟩ : BufTy).Contents (Elt F) → (⟨S100000x128, .f32⟩ : BufTy).Contents (Elt F)),
    StableHlo.binary main_v155 main_v154 main_v156 (mulf : (⟨S100000x128, .f32⟩ : BufTy).Contents (Elt F) → (⟨S100000x128, .f32⟩ : BufTy).Contents (Elt F) → (⟨S100000x128, .f32⟩ : BufTy).Contents (Elt F)),
    StableHlo.nullary main_cst_35 (constant S_ .f32 0x3DCCCCCD#32),
    StableHlo.unary main_cst_35 main_v157 (broadcastInDim S100000x128 ![] bcast_S_S100000x128 : (⟨S_, .f32⟩ : BufTy).Contents (Elt F) → (⟨S100000x128, .f32⟩ : BufTy).Contents (Elt F)),
    StableHlo.binary main_v157 main_v3 main_v158 (mulf : (⟨S100000x128, .f32⟩ : BufTy).Contents (Elt F) → (⟨S100000x128, .f32⟩ : BufTy).Contents (Elt F) → (⟨S100000x128, .f32⟩ : BufTy).Contents (Elt F)),
    StableHlo.binary main_v156 main_v158 main_v159 (addf : (⟨S100000x128, .f32⟩ : BufTy).Contents (Elt F) → (⟨S100000x128, .f32⟩ : BufTy).Contents (Elt F) → (⟨S100000x128, .f32⟩ : BufTy).Contents (Elt F)),
    StableHlo.nullary main_cst_36 (constant S_ .f32 0x3F61D8F9#32),
    StableHlo.unary main_cst_36 main_v160 (broadcastInDim S100000x128 ![] bcast_S_S100000x128 : (⟨S_, .f32⟩ : BufTy).Contents (Elt F) → (⟨S100000x128, .f32⟩ : BufTy).Contents (Elt F)),
    StableHlo.binary main_v160 main_v159 main_v161 (mulf : (⟨S100000x128, .f32⟩ : BufTy).Contents (Elt F) → (⟨S100000x128, .f32⟩ : BufTy).Contents (Elt F) → (⟨S100000x128, .f32⟩ : BufTy).Contents (Elt F)),
    StableHlo.unary main_arg3 main_v162 ((extractStridedSlice S1x128x128 ![3, 0, 0] · slices_S5x128x128_S1x128x128_3_0_0) : (⟨S5x128x128, .f32⟩ : BufTy).Contents (Elt F) → (⟨S1x128x128, .f32⟩ : BufTy).Contents (Elt F)),
    StableHlo.reshape main_v162 main_v163 rfl shapeCasts_S1x128x128_S128x128,
    StableHlo.binary main_v159 main_v163 main_v164 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_37 (constant S_ .f32 0x3DF1383B#32),
    StableHlo.unary main_cst_37 main_v165 (broadcastInDim S100000x128 ![] bcast_S_S100000x128 : (⟨S_, .f32⟩ : BufTy).Contents (Elt F) → (⟨S100000x128, .f32⟩ : BufTy).Contents (Elt F)),
    StableHlo.binary main_v165 main_v164 main_v166 (mulf : (⟨S100000x128, .f32⟩ : BufTy).Contents (Elt F) → (⟨S100000x128, .f32⟩ : BufTy).Contents (Elt F) → (⟨S100000x128, .f32⟩ : BufTy).Contents (Elt F)),
    StableHlo.binary main_v161 main_v166 main_v167 (addf : (⟨S100000x128, .f32⟩ : BufTy).Contents (Elt F) → (⟨S100000x128, .f32⟩ : BufTy).Contents (Elt F) → (⟨S100000x128, .f32⟩ : BufTy).Contents (Elt F)),
    StableHlo.nary ![main_v26, main_v73, main_v120, main_v167] main_v168 (fun u => concatenate S100000x512 1 [⟨S100000x128, u 0⟩, ⟨S100000x128, u 1⟩, ⟨S100000x128, u 2⟩, ⟨S100000x128, u 3⟩] concatenates_S100000x128_S100000x128_S100000x128_S100000x128_S100000x512_d1),
    StableHlo.binary main_v168 main_arg6 main_v169 ((fun l r => Host.dotGeneral dot_S100000x512_S512x128_S100000x128_1_0_0_1_n_n none l r) : (⟨S100000x512, .f32⟩ : BufTy).Contents (Elt F) → (⟨S512x128, .f32⟩ : BufTy).Contents (Elt F) → (⟨S100000x128, .f32⟩ : BufTy).Contents (Elt F)),
    StableHlo.unary main_arg7 main_v170 (broadcastInDim S1x128 ![1] bcast_S128_S1x128_1 : (⟨S128, .f32⟩ : BufTy).Contents (Elt F) → (⟨S1x128, .f32⟩ : BufTy).Contents (Elt F)),
    StableHlo.unary main_v170 main_v171 (broadcastInDim S100000x128 ![0, 1] bcast_S1x128_S100000x128_0_1 : (⟨S1x128, .f32⟩ : BufTy).Contents (Elt F) → (⟨S100000x128, .f32⟩ : BufTy).Contents (Elt F)),
    StableHlo.binary main_v169 main_v171 main_v172 (addf : (⟨S100000x128, .f32⟩ : BufTy).Contents (Elt F) → (⟨S100000x128, .f32⟩ : BufTy).Contents (Elt F) → (⟨S100000x128, .f32⟩ : BufTy).Contents (Elt F)),
    StableHlo.nullary main_c_38 (constantI S_ 32 0#32),
    StableHlo.unary main_c_38 main_v173 (broadcastInDim S1600000 ![] bcast_S_S1600000 : (⟨S_, .i32⟩ : BufTy).Contents (Elt F) → (⟨S1600000, .i32⟩ : BufTy).Contents (Elt F)),
    StableHlo.binary main_arg8 main_v173 main_v174 (cmpi .slt : (⟨S1600000, .i32⟩ : BufTy).Contents (Elt F) → (⟨S1600000, .i32⟩ : BufTy).Contents (Elt F) → (⟨S1600000, .i1⟩ : BufTy).Contents (Elt F)),
    StableHlo.nullary main_c_39 (constantI S_ 32 100000#32),
    StableHlo.unary main_c_39 main_v175 (broadcastInDim S1600000 ![] bcast_S_S1600000 : (⟨S_, .i32⟩ : BufTy).Contents (Elt F) → (⟨S1600000, .i32⟩ : BufTy).Contents (Elt F)),
    StableHlo.binary main_arg8 main_v175 main_v176 (addi : (⟨S1600000, .i32⟩ : BufTy).Contents (Elt F) → (⟨S1600000, .i32⟩ : BufTy).Contents (Elt F) → (⟨S1600000, .i32⟩ : BufTy).Contents (Elt F)),
    StableHlo.ternary main_v174 main_v176 main_arg8 main_v177 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v177 main_v178 (broadcastInDim S1600000x1 ![0] bcast_S1600000_S1600000x1_0 : (⟨S1600000, .i32⟩ : BufTy).Contents (Elt F) → (⟨S1600000x1, .i32⟩ : BufTy).Contents (Elt F)),
    StableHlo.binary main_v172 main_v178 main_v179 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_40 (constant S_ .f32 0x00000000#32),
    StableHlo.unary main_cst_40 main_v180 (broadcastInDim S100000x128 ![] bcast_S_S100000x128 : (⟨S_, .f32⟩ : BufTy).Contents (Elt F) → (⟨S100000x128, .f32⟩ : BufTy).Contents (Elt F)),
    StableHlo.unary main_arg9 main_v181 (broadcastInDim S1600000x1 ![0] bcast_S1600000_S1600000x1_0 : (⟨S1600000, .i32⟩ : BufTy).Contents (Elt F) → (⟨S1600000x1, .i32⟩ : BufTy).Contents (Elt F)),
    StableHlo.ternary main_v180 main_v181 main_v179 main_v182 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.nullary main_cst_41 (constant S_ .f32 0x3F666666#32),
    StableHlo.unary main_cst_41 main_v183 (broadcastInDim S100000x128 ![] bcast_S_S100000x128 : (⟨S_, .f32⟩ : BufTy).Contents (Elt F) → (⟨S100000x128, .f32⟩ : BufTy).Contents (Elt F)),
    StableHlo.binary main_v183 main_v182 main_v184 (mulf : (⟨S100000x128, .f32⟩ : BufTy).Contents (Elt F) → (⟨S100000x128, .f32⟩ : BufTy).Contents (Elt F) → (⟨S100000x128, .f32⟩ : BufTy).Contents (Elt F)),
    StableHlo.nullary main_cst_42 (constant S_ .f32 0x3DCCCCCD#32),
    StableHlo.unary main_cst_42 main_v185 (broadcastInDim S100000x128 ![] bcast_S_S100000x128 : (⟨S_, .f32⟩ : BufTy).Contents (Elt F) → (⟨S100000x128, .f32⟩ : BufTy).Contents (Elt F)),
    StableHlo.binary main_v185 main_v3 main_v186 (mulf : (⟨S100000x128, .f32⟩ : BufTy).Contents (Elt F) → (⟨S100000x128, .f32⟩ : BufTy).Contents (Elt F) → (⟨S100000x128, .f32⟩ : BufTy).Contents (Elt F)),
    StableHlo.binary main_v184 main_v186 main_v187 (addf : (⟨S100000x128, .f32⟩ : BufTy).Contents (Elt F) → (⟨S100000x128, .f32⟩ : BufTy).Contents (Elt F) → (⟨S100000x128, .f32⟩ : BufTy).Contents (Elt F)),
    StableHlo.nullary main_cst_43 (constant S_ .f32 0x3F6799C1#32),
    StableHlo.unary main_cst_43 main_v188 (broadcastInDim S100000x128 ![] bcast_S_S100000x128 : (⟨S_, .f32⟩ : BufTy).Contents (Elt F) → (⟨S100000x128, .f32⟩ : BufTy).Contents (Elt F)),
    StableHlo.binary main_v188 main_v187 main_v189 (mulf : (⟨S100000x128, .f32⟩ : BufTy).Contents (Elt F) → (⟨S100000x128, .f32⟩ : BufTy).Contents (Elt F) → (⟨S100000x128, .f32⟩ : BufTy).Contents (Elt F)),
    StableHlo.unary main_arg3 main_v190 ((extractStridedSlice S1x128x128 ![4, 0, 0] · slices_S5x128x128_S1x128x128_4_0_0) : (⟨S5x128x128, .f32⟩ : BufTy).Contents (Elt F) → (⟨S1x128x128, .f32⟩ : BufTy).Contents (Elt F)),
    StableHlo.reshape main_v190 main_v191 rfl shapeCasts_S1x128x128_S128x128,
    StableHlo.binary main_v187 main_v191 main_v192 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.nullary main_cst_44 (constant S_ .f32 0x3DC331FC#32) ]

set_option maxRecDepth 16384 in
/-- The window is that straight line. -/
theorem main_part3_eq (c : Dev nD) : main_part3 (F := F) c = seq ops_part3 := by
  rfl

set_option maxRecDepth 16384 in
/-- Every operation of the window touches TensorCore buffers only. -/
theorem ops_part3_sub : (ops_part3 : List (HloOp τ sig (Elt F))).Forall fun op => op.bufs ⊆ tcRefs τ sig :=
  ⟨binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub .., unary_bufs_sub .., binary_bufs_sub .., binary_bufs_sub .., nary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., binary_bufs_sub .., nullary_bufs_sub .., unary_bufs_sub .., binary_bufs_sub .., unary_bufs_sub .., reshape_bufs_sub .., binary_bufs_sub .., nullary_bufs_sub ..⟩

/-- The buffers the window writes. -/
abbrev W3 : List (Ref sig .tc) := [main_v146, main_c_32, main_v147, main_v148, main_v149, main_v150, main_v151, main_cst_33, main_v152, main_v153, main_v154, main_cst_34, main_v155, main_v156, main_cst_35, main_v157, main_v158, main_v159, main_cst_36, main_v160, main_v161, main_v162, main_v163, main_v164, main_cst_37, main_v165, main_v166, main_v167, main_v168, main_v169, main_v170, main_v171, main_v172, main_c_38, main_v173, main_v174, main_c_39, main_v175, main_v176, main_v177, main_v178, main_v179, main_cst_40, main_v180, main_v181, main_v182, main_cst_41, main_v183, main_v184, main_cst_42, main_v185, main_v186, main_v187, main_cst_43, main_v188, main_v189, main_v190, main_v191, main_v192, main_cst_44]

/-- An operation that writes the one buffer `y` writes inside a list that holds `y`. -/
local macro "wr" : term =>
  `(Finset.singleton_subset_iff.mpr (List.mem_toFinset.mpr (List.mem_map_of_mem (by decide))))

set_option maxRecDepth 16384 in
/-- Each operation of the window writes a buffer of `W3`. -/
theorem ops_part3_writes : (ops_part3 : List (HloOp τ sig (Elt F))).Forall fun op => op.writes ⊆ (W3.map (Proc.devRef (τ := τ) .tc)).toFinset :=
  ⟨wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr, wr⟩

/-- A buffer the window does not write keeps its contents through it. -/
theorem part3_keep (V : Valuation τ sig (Elt F)) (r : Ref sig .tc) (h : r ∉ W3) :
    after ops_part3 V (Proc.devRef .tc r) = V (Proc.devRef .tc r) :=
  after_of_writes_sub ops_part3 V ops_part3_writes h

/-- No operation of the window leaves a buffer undetermined. -/
theorem ops_part3_fresh : ∀ op ∈ (ops_part3 : List (HloOp τ sig (Elt F))), op.fresh = ∅ := by
  intro op h
  (repeat (cases h with | head => rfl | tail _ h => ?_)); exact nomatch h

set_option maxRecDepth 16384 in
/-- The first product of layer 4's combine: wa·h, h the residual mix of the propagated jumping-knowledge projection and x0. -/
theorem part3_v189 (V : Valuation τ sig (Elt F))
    (h0 : (V (Proc.devRef .tc main_v145)) = (broadcastInDim S1600000 ![] bcast_S_S1600000 (constantI S_ 32 0#32) : IVec S1600000 32)) :
    after ops_part3 V (no_index (Proc.devRef .tc main_v189))
      = mulf (splatNF (F := F) 0x3F6799C1#32) (hmix 0x3F666666#32 0x3DCCCCCD#32 (propagate (jk (concat4 (V (Proc.devRef .tc main_v26)) (V (Proc.devRef .tc main_v73)) (V (Proc.devRef .tc main_v120)) (convStep 0x3F61D8F9#32 0x3DF1383B#32 3 slices_S5x128x128_S1x128x128_3_0_0 (V (Proc.devRef .tc main_v144)) (V (Proc.devRef .tc main_v3)) (V (Proc.devRef .tc main_arg3)) (V (Proc.devRef .tc main_arg8)) (V (Proc.devRef .tc main_arg9)))) (V (Proc.devRef .tc main_arg6)) (V (Proc.devRef .tc main_arg7))) (V (Proc.devRef .tc main_arg8)) (V (Proc.devRef .tc main_arg9))) (V (Proc.devRef .tc main_v3))) := by
  conv_lhs =>
    simp only [ops_part3]
    read_line
    rw [h0]
  first | done | rfl

set_option maxRecDepth 16384 in
/-- The matrix product of layer 4's combine: h·W₄. -/
theorem part3_v192 (V : Valuation τ sig (Elt F))
    (h0 : (V (Proc.devRef .tc main_v145)) = (broadcastInDim S1600000 ![] bcast_S_S1600000 (constantI S_ 32 0#32) : IVec S1600000 32)) :
    after ops_part3 V (no_index (Proc.devRef .tc main_v192))
      = Host.dotGeneral dot_S100000x128_S128x128_S100000x128_1_0_0_1_n_n none (hmix 0x3F666666#32 0x3DCCCCCD#32 (propagate (jk (concat4 (V (Proc.devRef .tc main_v26)) (V (Proc.devRef .tc main_v73)) (V (Proc.devRef .tc main_v120)) (convStep 0x3F61D8F9#32 0x3DF1383B#32 3 slices_S5x128x128_S1x128x128_3_0_0 (V (Proc.devRef .tc main_v144)) (V (Proc.devRef .tc main_v3)) (V (Proc.devRef .tc main_arg3)) (V (Proc.devRef .tc main_arg8)) (V (Proc.devRef .tc main_arg9)))) (V (Proc.devRef .tc main_arg6)) (V (Proc.devRef .tc main_arg7))) (V (Proc.devRef .tc main_arg8)) (V (Proc.devRef .tc main_arg9))) (V (Proc.devRef .tc main_v3))) (convWeight 4 slices_S5x128x128_S1x128x128_4_0_0 (V (Proc.devRef .tc main_arg3))) := by
  conv_lhs =>
    simp only [ops_part3]
    read_line
    rw [h0]
  first | done | rfl

set_option maxRecDepth 16384 in
/-- The second scalar of layer 4's combine. -/
theorem part3_cst44 (V : Valuation τ sig (Elt F)) :
    after ops_part3 V (no_index (Proc.devRef .tc main_cst_44))
      = lit (F := F) 0x3DC331FC#32 := by
  conv_lhs =>
    simp only [ops_part3]
    read_line
  first | done | rfl

end Cert.ReferenceIdeal.Hand

end
-- ==== Proof.Reference.Part4.lean ====
/-
  The last three operations of the reference program (its fifth window): the second scalar of layer 4's
  combine broadcast, the product with the layer's matrix product, and the final sum.
-/
import proofs.«175281_j9964324127123_1_alg».proof.ReferenceIdeal
import proofs.«175281_j9964324127123_1_alg».proof.Proof.Reference.Stages
import proofs.«175281_j9964324127123_1_alg».proof.Proof.Reference.Owned
import Idealize.ShloMosaic.Lib.StableHlo.Run

set_option Elab.async false

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-- Reads the contents a straight line of operations leaves in one buffer: the fold over the list unrolled,
    each operation's result taken at the buffer it writes and passed over at every other. -/
local macro "read_line" : conv =>
  `(conv| simp (disch := decide) only [after_cons, after_nil,
      nullary_result', unary_result', binary_result', ternary_result', quaternary_result', reshape_result', nary4_result',
      nullary_result_ne', unary_result_ne', binary_result_ne', ternary_result_ne', quaternary_result_ne', reshape_result_ne',
      nary_result_ne'])

/-- Window 4 of the program as a list: its 3 operations in order, a called function's operations in the
    place of the call, over the call's own buffers. -/
abbrev ops_part4 : List (HloOp τ sig (Elt F)) :=
  [
    StableHlo.unary main_cst_44 main_v193 (broadcastInDim S100000x128 ![] bcast_S_S100000x128 : (⟨S_, .f32⟩ : BufTy).Contents (Elt F) → (⟨S100000x128, .f32⟩ : BufTy).Contents (Elt F)),
    StableHlo.binary main_v193 main_v192 main_v194 (mulf : (⟨S100000x128, .f32⟩ : BufTy).Contents (Elt F) → (⟨S100000x128, .f32⟩ : BufTy).Contents (Elt F) → (⟨S100000x128, .f32⟩ : BufTy).Contents (Elt F)),
    StableHlo.binary main_v189 main_v194 main_v195 (addf : (⟨S100000x128, .f32⟩ : BufTy).Contents (Elt F) → (⟨S100000x128, .f32⟩ : BufTy).Contents (Elt F) → (⟨S100000x128, .f32⟩ : BufTy).Contents (Elt F)) ]

set_option maxRecDepth 16384 in
/-- The window is that straight line. -/
theorem main_part4_eq (c : Dev nD) : main_part4 (F := F) c = seq ops_part4 := by
  rfl

set_option maxRecDepth 16384 in
/-- Every operation of the window touches TensorCore buffers only. -/
theorem ops_part4_sub : (ops_part4 : List (HloOp τ sig (Elt F))).Forall fun op => op.bufs ⊆ tcRefs τ sig :=
  ⟨unary_bufs_sub .., binary_bufs_sub .., binary_bufs_sub ..⟩

/-- The buffers the window writes. -/
abbrev W4 : List (Ref sig .tc) := [main_v193, main_v194, main_v195]

/-- An operation that writes the one buffer `y` writes inside a list that holds `y`. -/
local macro "wr" : term =>
  `(Finset.singleton_subset_iff.mpr (List.mem_toFinset.mpr (List.mem_map_of_mem (by decide))))

set_option maxRecDepth 16384 in
/-- Each operation of the window writes a buffer of `W4`. -/
theorem ops_part4_writes : (ops_part4 : List (HloOp τ sig (Elt F))).Forall fun op => op.writes ⊆ (W4.map (Proc.devRef (τ := τ) .tc)).toFinset :=
  ⟨wr, wr, wr⟩

/-- A buffer the window does not write keeps its contents through it. -/
theorem part4_keep (V : Valuation τ sig (Elt F)) (r : Ref sig .tc) (h : r ∉ W4) :
    after ops_part4 V (Proc.devRef .tc r) = V (Proc.devRef .tc r) :=
  after_of_writes_sub ops_part4 V ops_part4_writes h

/-- No operation of the window leaves a buffer undetermined. -/
theorem ops_part4_fresh : ∀ op ∈ (ops_part4 : List (HloOp τ sig (Elt F))), op.fresh = ∅ := by
  intro op h
  (repeat (cases h with | head => rfl | tail _ h => ?_)); exact nomatch h

set_option maxRecDepth 16384 in
/-- The result: wa·h + wb·(h·W₄), the first product and the matrix product as the window found them. -/
theorem part4_v195 (V : Valuation τ sig (Elt F)) :
    after ops_part4 V (no_index (Proc.devRef .tc main_v195))
      = addf ((V (Proc.devRef .tc main_v189))) (mulf (broadcastInDim S100000x128 ![] bcast_S_S100000x128 ((V (Proc.devRef .tc main_cst_44)))) ((V (Proc.devRef .tc main_v192)))) := by
  conv_lhs =>
    simp only [ops_part4]
    read_line

end Cert.ReferenceIdeal.Hand

end
-- ==== Proof.Reference.Run.lean ====
/-
  The reference program's run, assembled from its five windows.

  The program is the concatenation of the windows' operation lists; every execution ends with each buffer at
  the fold of the operations' results over the launch contents. Window by window the buffers a later window
  reads are identified with the network's stages: x0 the input projection, z0 … z3 the combine outputs of
  layers 0 … 3, and the result, layer 4's combine output of the jumping-knowledge projection, which is the
  whole network `refOut` of the ten argument arrays. No operation writes an argument.
-/
import proofs.«175281_j9964324127123_1_alg».proof.ReferenceIdeal
import proofs.«175281_j9964324127123_1_alg».proof.Proof.Reference.Stages
import proofs.«175281_j9964324127123_1_alg».proof.Proof.Reference.Part0
import proofs.«175281_j9964324127123_1_alg».proof.Proof.Reference.Part1
import proofs.«175281_j9964324127123_1_alg».proof.Proof.Reference.Part2
import proofs.«175281_j9964324127123_1_alg».proof.Proof.Reference.Part3
import proofs.«175281_j9964324127123_1_alg».proof.Proof.Reference.Part4
import Idealize.ShloMosaic.Lib.StableHlo.Run
import Idealize.ShloMosaic.Lib.Pipeline.Frame

set_option Elab.async false

noncomputable section

namespace Cert.ReferenceIdeal.Hand

open Cert.ReferenceIdeal Idealize.ShloMosaic Idealize.ShloMosaic.TcCoe Idealize.SL.Sem Idealize.ShloMosaic.StableHlo
open Facts₀ Facts

variable {F : FTy → Type} [FloatOps F] [Facts]

/-- The program's operations, in order: the five windows' lists one after the other. -/
abbrev ops : List (HloOp τ sig (Elt F)) :=
  ops_part0 ++ (ops_part1 ++ (ops_part2 ++ (ops_part3 ++ ops_part4)))

set_option maxRecDepth 16384 in
/-- The program is that straight line. -/
theorem main_eq (c : Dev nD) : main (F := F) c = seq ops := by
  simp only [ops, seq_append, ← main_part0_eq c, ← main_part1_eq c, ← main_part2_eq c, ← main_part3_eq c, ← main_part4_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h | h
    exacts [List.forall_iff_forall_mem.mp ops_part0_sub op h, List.forall_iff_forall_mem.mp ops_part1_sub op h,
      List.forall_iff_forall_mem.mp ops_part2_sub op h, List.forall_iff_forall_mem.mp ops_part3_sub op h,
      List.forall_iff_forall_mem.mp ops_part4_sub op h]

theorem ops_fresh : ∀ op ∈ (ops : List (HloOp τ sig (Elt F))), op.fresh = ∅ := by
  intro op h
  simp only [ops, List.mem_append] at h
  rcases h with h | h | h | h | h
  exacts [ops_part0_fresh op h, ops_part1_fresh op h, ops_part2_fresh op h, ops_part3_fresh op h, ops_part4_fresh op h]

/-- A buffer no window writes keeps its launch contents through the whole program. -/
theorem after_ops_keep (V0 : Valuation τ sig (Elt F)) (r : Ref sig .tc)
    (h0 : r ∉ W0) (h1 : r ∉ W1) (h2 : r ∉ W2) (h3 : r ∉ W3) (h4 : r ∉ W4) :
    after ops V0 (Proc.devRef .tc r) = V0 (Proc.devRef .tc r) := by
  simp only [ops, after_append]
  rw [part4_keep _ r h4, part3_keep _ r h3, part2_keep _ r h2, part1_keep _ r h1, part0_keep _ r h0]

/-! ## The network's values, from the launch contents -/

/-- The input projection of the launch contents. -/
def X0 (V0 : Valuation τ sig (Elt F)) : FVec F S100000x128 .f32 :=
  refX0 (V0 (Proc.devRef .tc main_arg0)) (V0 (Proc.devRef .tc main_arg1)) (V0 (Proc.devRef .tc main_arg2))
/-- Layer 0's combine output. -/
def Z0 (V0 : Valuation τ sig (Elt F)) : FVec F S100000x128 .f32 :=
  refZ0 (X0 V0) (V0 (Proc.devRef .tc main_arg3)) (V0 (Proc.devRef .tc main_arg8)) (V0 (Proc.devRef .tc main_arg9))
/-- Layer 1's combine output. -/
def Z1 (V0 : Valuation τ sig (Elt F)) : FVec F S100000x128 .f32 :=
  refZ1 (Z0 V0) (X0 V0) (V0 (Proc.devRef .tc main_arg3)) (V0 (Proc.devRef .tc main_arg4)) (V0 (Proc.devRef .tc main_arg5)) (V0 (Proc.devRef .tc main_arg8)) (V0 (Proc.devRef .tc main_arg9))
/-- Layer 2's combine output. -/
def Z2 (V0 : Valuation τ sig (Elt F)) : FVec F S100000x128 .f32 :=
  refZ2 (Z1 V0) (X0 V0) (V0 (Proc.devRef .tc main_arg3)) (V0 (Proc.devRef .tc main_arg4)) (V0 (Proc.devRef .tc main_arg5)) (V0 (Proc.devRef .tc main_arg8)) (V0 (Proc.devRef .tc main_arg9))
/-- Layer 3's combine output. -/
def Z3 (V0 : Valuation τ sig (Elt F)) : FVec F S100000x128 .f32 :=
  refZ3 (Z2 V0) (X0 V0) (V0 (Proc.devRef .tc main_arg3)) (V0 (Proc.devRef .tc main_arg4)) (V0 (Proc.devRef .tc main_arg5)) (V0 (Proc.devRef .tc main_arg8)) (V0 (Proc.devRef .tc main_arg9))

set_option maxRecDepth 16384 in
/-- The result buffer ends at the whole network of the launch contents of the ten arguments. -/
theorem after_ops_v195 (V0 : Valuation τ sig (Elt F)) :
    after ops V0 (Proc.devRef .tc main_v195)
      = refOut (V0 (Proc.devRef .tc main_arg0)) (V0 (Proc.devRef .tc main_arg1)) (V0 (Proc.devRef .tc main_arg2)) (V0 (Proc.devRef .tc main_arg3))
          (V0 (Proc.devRef .tc main_arg4)) (V0 (Proc.devRef .tc main_arg5)) (V0 (Proc.devRef .tc main_arg6)) (V0 (Proc.devRef .tc main_arg7))
          (V0 (Proc.devRef .tc main_arg8)) (V0 (Proc.devRef .tc main_arg9)) := by
  simp only [ops, after_append]
  generalize h1 : after ops_part0 V0 = V1
  generalize h2 : after ops_part1 V1 = V2
  generalize h3 : after ops_part2 V2 = V3
  generalize h4 : after ops_part3 V3 = V4
  -- what each window leaves untouched
  have k1 : ∀ r : Ref sig .tc, r ∉ W0 → V1 (Proc.devRef .tc r) = V0 (Proc.devRef .tc r) := fun r hr => by rw [← h1]; exact part0_keep V0 r hr
  have k2 : ∀ r : Ref sig .tc, r ∉ W1 → V2 (Proc.devRef .tc r) = V1 (Proc.devRef .tc r) := fun r hr => by rw [← h2]; exact part1_keep V1 r hr
  have k3 : ∀ r : Ref sig .tc, r ∉ W2 → V3 (Proc.devRef .tc r) = V2 (Proc.devRef .tc r) := fun r hr => by rw [← h3]; exact part2_keep V2 r hr
  have k4 : ∀ r : Ref sig .tc, r ∉ W3 → V4 (Proc.devRef .tc r) = V3 (Proc.devRef .tc r) := fun r hr => by rw [← h4]; exact part3_keep V3 r hr
  -- window 0
  have e1_3 : V1 (Proc.devRef .tc main_v3) = X0 V0 := by rw [← h1]; exact part0_v3 V0
  have e1_26 : V1 (Proc.devRef .tc main_v26) = Z0 V0 := by rw [← h1]; exact part0_v26 V0
  have e1_46 : V1 (Proc.devRef .tc main_v46) = normScaled (Z0 V0) (rowOf4 0 slices_S4x128_S1x128_0_0 (V0 (Proc.devRef .tc main_arg4))) := by
    rw [← h1]; exact part0_v46 V0
  have e1_48 : V1 (Proc.devRef .tc main_v48) = rowsOf (rowOf4 0 slices_S4x128_S1x128_0_0 (V0 (Proc.devRef .tc main_arg5))) := by
    rw [← h1]; exact part0_v48 V0
  -- window 1
  have e2_73 : V2 (Proc.devRef .tc main_v73) = Z1 V0 := by
    rw [← h2]; refine (part1_v73 V1).trans ?_
    rw [e1_46, e1_48, e1_3, k1 main_arg3 (by decide), k1 main_arg8 (by decide), k1 main_arg9 (by decide)]
    rfl
  have e2_97 : V2 (Proc.devRef .tc main_v97) = bnRelu 1 slices_S4x128_S1x128_1_0 (Z1 V0) (V0 (Proc.devRef .tc main_arg4)) (V0 (Proc.devRef .tc main_arg5)) := by
    rw [← h2]; refine (part1_v97 V1).trans ?_
    rw [e1_46, e1_48, e1_3, k1 main_arg3 (by decide), k1 main_arg4 (by decide), k1 main_arg5 (by decide),
      k1 main_arg8 (by decide), k1 main_arg9 (by decide)]
    rfl
  have e2_3 : V2 (Proc.devRef .tc main_v3) = X0 V0 := (k2 main_v3 (by decide)).trans e1_3
  have e2_26 : V2 (Proc.devRef .tc main_v26) = Z0 V0 := (k2 main_v26 (by decide)).trans e1_26
  have a2 : ∀ r : Ref sig .tc, r ∉ W0 → r ∉ W1 → V2 (Proc.devRef .tc r) = V0 (Proc.devRef .tc r) := fun r p q => (k2 r q).trans (k1 r p)
  -- window 2
  have e3_120 : V3 (Proc.devRef .tc main_v120) = Z2 V0 := by
    rw [← h3]; refine (part2_v120 V2).trans ?_
    rw [e2_97, e2_3, a2 main_arg3 (by decide) (by decide), a2 main_arg8 (by decide) (by decide), a2 main_arg9 (by decide) (by decide)]
    rfl
  have e3_144 : V3 (Proc.devRef .tc main_v144) = bnRelu 2 slices_S4x128_S1x128_2_0 (Z2 V0) (V0 (Proc.devRef .tc main_arg4)) (V0 (Proc.devRef .tc main_arg5)) := by
    rw [← h3]; refine (part2_v144 V2).trans ?_
    rw [e2_97, e2_3, a2 main_arg3 (by decide) (by decide), a2 main_arg4 (by decide) (by decide), a2 main_arg5 (by decide) (by decide),
      a2 main_arg8 (by decide) (by decide), a2 main_arg9 (by decide) (by decide)]
    rfl
  have e3_145 : V3 (Proc.devRef .tc main_v145) = (broadcastInDim S1600000 ![] bcast_S_S1600000 (constantI S_ 32 0#32) : IVec S1600000 32) := by
    rw [← h3]; exact part2_v145 V2
  have e3_3 : V3 (Proc.devRef .tc main_v3) = X0 V0 := (k3 main_v3 (by decide)).trans e2_3
  have e3_26 : V3 (Proc.devRef .tc main_v26) = Z0 V0 := (k3 main_v26 (by decide)).trans e2_26
  have e3_73 : V3 (Proc.devRef .tc main_v73) = Z1 V0 := (k3 main_v73 (by decide)).trans e2_73
  have a3 : ∀ r : Ref sig .tc, r ∉ W0 → r ∉ W1 → r ∉ W2 → V3 (Proc.devRef .tc r) = V0 (Proc.devRef .tc r) := fun r p q s => (k3 r s).trans (a2 r p q)
  -- window 3
  have e4_189 : V4 (Proc.devRef .tc main_v189) = mulf (splatNF (F := F) 0x3F6799C1#32)
      (hmix 0x3F666666#32 0x3DCCCCCD#32 (propagate (jk (concat4 (Z0 V0) (Z1 V0) (Z2 V0) (Z3 V0)) (V0 (Proc.devRef .tc main_arg6)) (V0 (Proc.devRef .tc main_arg7))) (V0 (Proc.devRef .tc main_arg8)) (V0 (Proc.devRef .tc main_arg9))) (X0 V0)) := by
    rw [← h4]; refine (part3_v189 V3 e3_145).trans ?_
    rw [e3_144, e3_3, e3_26, e3_73, e3_120, a3 main_arg3 (by decide) (by decide) (by decide), a3 main_arg6 (by decide) (by decide) (by decide),
      a3 main_arg7 (by decide) (by decide) (by decide), a3 main_arg8 (by decide) (by decide) (by decide), a3 main_arg9 (by decide) (by decide) (by decide)]
    rfl
  have e4_192 : V4 (Proc.devRef .tc main_v192) = Host.dotGeneral dot_S100000x128_S128x128_S100000x128_1_0_0_1_n_n none
      (hmix 0x3F666666#32 0x3DCCCCCD#32 (propagate (jk (concat4 (Z0 V0) (Z1 V0) (Z2 V0) (Z3 V0)) (V0 (Proc.devRef .tc main_arg6)) (V0 (Proc.devRef .tc main_arg7))) (V0 (Proc.devRef .tc main_arg8)) (V0 (Proc.devRef .tc main_arg9))) (X0 V0))
      (convWeight 4 slices_S5x128x128_S1x128x128_4_0_0 (V0 (Proc.devRef .tc main_arg3))) := by
    rw [← h4]; refine (part3_v192 V3 e3_145).trans ?_
    rw [e3_144, e3_3, e3_26, e3_73, e3_120, a3 main_arg3 (by decide) (by decide) (by decide), a3 main_arg6 (by decide) (by decide) (by decide),
      a3 main_arg7 (by decide) (by decide) (by decide), a3 main_arg8 (by decide) (by decide) (by decide), a3 main_arg9 (by decide) (by decide) (by decide)]
    rfl
  have e4_c : V4 (Proc.devRef .tc main_cst_44) = lit (F := F) 0x3DC331FC#32 := by rw [← h4]; exact part3_cst44 V3
  -- window 4
  refine (part4_v195 V4).trans ?_
  rw [e4_189, e4_192, e4_c]
  rfl

/-- On every device, for any float values, from any memory with zero counters: every weakly fair execution of the
    reference program terminates with the result buffer at the network of the ten argument arrays' launch
    contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v195)
        = refOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
            (m ((c.tc : Thread nD τ).loc main_arg6)) (m ((c.tc : Thread nD τ).loc main_arg7))
            (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c main_v195).trans (after_ops_v195 (launchContents m c)),
      (h c main_arg0).trans (after_ops_keep (launchContents m c) main_arg0 (by decide) (by decide) (by decide) (by decide) (by decide)),
      (h c main_arg1).trans (after_ops_keep (launchContents m c) main_arg1 (by decide) (by decide) (by decide) (by decide) (by decide)),
      (h c main_arg2).trans (after_ops_keep (launchContents m c) main_arg2 (by decide) (by decide) (by decide) (by decide) (by decide)),
      (h c main_arg3).trans (after_ops_keep (launchContents m c) main_arg3 (by decide) (by decide) (by decide) (by decide) (by decide)),
      (h c main_arg4).trans (after_ops_keep (launchContents m c) main_arg4 (by decide) (by decide) (by decide) (by decide) (by decide)),
      (h c main_arg5).trans (after_ops_keep (launchContents m c) main_arg5 (by decide) (by decide) (by decide) (by decide) (by decide)),
      (h c main_arg6).trans (after_ops_keep (launchContents m c) main_arg6 (by decide) (by decide) (by decide) (by decide) (by decide)),
      (h c main_arg7).trans (after_ops_keep (launchContents m c) main_arg7 (by decide) (by decide) (by decide) (by decide) (by decide)),
      (h c main_arg8).trans (after_ops_keep (launchContents m c) main_arg8 (by decide) (by decide) (by decide) (by decide) (by decide)),
      (h c main_arg9).trans (after_ops_keep (launchContents m c) main_arg9 (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.Values.HostKOps.lean ====
import proofs.«175281_j9964324127123_1_alg».proof.Proof.Gen.KernelIdeal.Launch

/-!
# The host stretches of the main function, one stage at a time

Between two kernel regions the main function applies whole-array operations: an edge propagation (gather the rows at the
source indices, add them into the rows at the target indices of a zero array), a slice of the stacked weights, the
column mean and variance over the node axis, the reciprocal square root of the variance plus a small word, the rows of
the scale and shift tables, a four-way concatenation along the feature axis, and reshapes of feature rows to `[1, 128]`.
Each stage is named here once, as a function of the arrays it reads, and each stretch's result buffers are shown to
hold that stage of the contents before the stretch — for ANY contents `V`, so that nothing below depends on what the
buffers hold.
-/

set_option maxRecDepth 1668
set_option maxHeartbeats 4000000

noncomputable section

namespace Cert.KernelIdeal.Values

open Idealize.ShloMosaic Idealize.ShloMosaic.TcCoe
open Idealize.SL Idealize.SL.Sem
open Cert.KernelIdeal Cert.KernelIdeal.Gen

variable {F : FTy → Type} [FloatOps F]

/-! ## The stages -/

/-- A feature row as a `[1, 128]` array. -/
def rowK (r : FVec F S128 .f32) : FVec F S1x128 .f32 := shapeCast S1x128 r shapeCasts_S128_S1x128

/-- The source indices as the gather reads them: a negative index has the node count added, then the vector becomes a
    column of one-component start indices. -/
def srcIdxK (src : IVec S1600000 32) : IVec S1600000x1 32 :=
  broadcastInDim S1600000x1 ![0] bcast_S1600000_S1600000x1_0
    (select (cmpi .slt src (broadcastInDim S1600000 ![] bcast_S_S1600000 (constantI S_ 32 0#32)))
      (addi src (broadcastInDim S1600000 ![] bcast_S_S1600000 (constantI S_ 32 100000#32))) src)

/-- One propagation over the edges: the rows `z[src e]` gathered, then added into the rows `dst e` of a zero array. -/
def propagateK (z : FVec F S100000x128 .f32) (src dst : IVec S1600000 32) : FVec F S100000x128 .f32 :=
  Host.scatterAdd scatter_S100000x128_S1600000x1_S1600000x128_1_0_0_1
    (broadcastInDim S100000x128 ![] bcast_S_S100000x128 (constant (F := F) S_ .f32 0x00000000#32))
    (broadcastInDim S1600000x1 ![0] bcast_S1600000_S1600000x1_0 dst)
    (Host.gather gather_S100000x128_S1600000x1_S1600000x128_1_0_n_n_0_1_1128 z (srcIdxK src))

/-- Layer `k`'s weight matrix: the `k`-th slice of the stacked weights, as a 128×128 matrix. -/
def convWeightK (k : Nat) (hk : S5x128x128.Slices ![k, 0, 0] S1x128x128) (w : FVec F S5x128x128 .f32) : FVec F S128x128 .f32 :=
  shapeCast S128x128 (extractStridedSlice S1x128x128 ![k, 0, 0] w hk) shapeCasts_S1x128x128_S128x128

/-- Row `k` of a 4×128 parameter table, as a feature row. -/
def rowOf4K (k : Nat) (hk : S4x128.Slices ![k, 0] S1x128) (g : FVec F S4x128 .f32) : FVec F S128 .f32 :=
  shapeCast S128 (extractStridedSlice S1x128 ![k, 0] g hk) shapeCasts_S1x128_S128

/-- The column sums over the node axis, from zero. -/
def colSumK (z : FVec F S100000x128 .f32) : FVec F S128 .f32 :=
  Host.reduceAdd z (constant (F := F) S_ .f32 0x00000000#32) reducesTo_S100000x128_S128_d0 h_S_

/-- The column means: the column sums divided by the node count. -/
def colMeanK (z : FVec F S100000x128 .f32) : FVec F S128 .f32 :=
  Host.divf (colSumK z) (broadcastInDim S128 ![] bcast_S_S128 (constant (F := F) S_ .f32 0x47C35000#32))

/-- The divisor of the variance: the node count minus the integer `d` (the degrees of freedom removed). -/
def varDenK (d : IVec S_ 32) : FVec F S_ .f32 :=
  subf (constant (F := F) S_ .f32 0x47C35000#32) (sitofp .f32 d)

/-- The column means through a `[1, 128]` row, repeated down the node axis. -/
def meanRowsK (z : FVec F S100000x128 .f32) : FVec F S100000x128 .f32 :=
  broadcastInDim S100000x128 ![0, 1] bcast_S1x128_S100000x128_0_1
    (Host.divf (broadcastInDim S1x128 ![1] bcast_S128_S1x128_1 (colSumK z))
      (broadcastInDim S1x128 ![] bcast_S_S1x128 (constant (F := F) S_ .f32 0x47C35000#32)))

/-- The column variances: the column sums of the squared deviations from the column means, divided by the
    divisor; where the divisor is not positive, the not-a-number word. -/
def colVarK (z : FVec F S100000x128 .f32) (d : IVec S_ 32) : FVec F S128 .f32 :=
  select (broadcastInDim S128 ![] bcast_S_S128 (cmpf .ogt (varDenK (F := F) d) (constant (F := F) S_ .f32 0x00000000#32)))
    (Host.divf (colSumK (mulf (subf z (meanRowsK z)) (subf z (meanRowsK z))))
      (broadcastInDim S128 ![] bcast_S_S128 (varDenK (F := F) d)))
    (broadcastInDim S128 ![] bcast_S_S128 (constant (F := F) S_ .f32 0x7FC00000#32))

/-- The reciprocal square root of the variance plus the small word. -/
def rstdK (v : FVec F S128 .f32) : FVec F S128 .f32 :=
  Host.rsqrt (addf v (broadcastInDim S128 ![] bcast_S_S128 (constant (F := F) S_ .f32 0x3727C5AC#32)))

/-- Four node-by-feature arrays side by side along the feature axis. -/
def concat4K (a b c d : FVec F S100000x128 .f32) : FVec F S100000x512 .f32 :=
  concatenate S100000x512 1 [⟨S100000x128, a⟩, ⟨S100000x128, b⟩, ⟨S100000x128, c⟩, ⟨S100000x128, d⟩]
    concatenates_S100000x128_S100000x128_S100000x128_S100000x128_S100000x512_d1

/-! ## The stretches

Each lemma: the named buffer after the stretch holds the stage of what the stretch's operand buffers held before it. -/

/-- The bias row of the input layer. -/
theorem after0_row (V : Valuation τ sig (Elt F)) :
    StableHlo.after hostOps0 V main_v0 = rowK (F := F) (V main_arg2) := by
  after_results
  rfl

/-- The propagation before layer 0's combine. -/
theorem after1_msg (V : Valuation τ sig (Elt F)) :
    StableHlo.after hostOps1 V main_v11 = propagateK (F := F) (V main_v1) (V main_arg8) (V main_arg9) := by
  after_results
  rfl
/-- Layer 0's weight matrix. -/
theorem after1_w (V : Valuation τ sig (Elt F)) :
    StableHlo.after hostOps1 V main_v13
      = convWeightK (F := F) 0 slices_S5x128x128_S1x128x128_0_0_0 (V main_arg3) := by
  after_results
  rfl

/-- The column means of layer 0's combine output. -/
theorem after2_mean (V : Valuation τ sig (Elt F)) :
    StableHlo.after hostOps2 V main_v17 = colMeanK (F := F) (V main_v14) := by
  after_results
  rfl
/-- The integer the variance's divisor removes: zero. -/
theorem after2_ddof (V : Valuation τ sig (Elt F)) :
    StableHlo.after hostOps2 V main_c_3 = constantI S_ 32 0#32 := by
  after_results
/-- The column variances of layer 0's combine output. -/
theorem after2_1_var (V : Valuation τ sig (Elt F)) :
    StableHlo.after hostOps2_1 V main_v18 = colVarK (F := F) (V main_v14) (V main_c_3) := by
  after_results
  rfl
/-- The four `[1, 128]` rows layer 0's normalisation reads: mean, reciprocal deviation, scale, shift. -/
theorem after2_2_meanRow (V : Valuation τ sig (Elt F)) :
    StableHlo.after hostOps2_2 V main_v26 = rowK (F := F) (V main_v17) := by
  after_results
  rfl
theorem after2_2_rstdRow (V : Valuation τ sig (Elt F)) :
    StableHlo.after hostOps2_2 V main_v27 = rowK (F := F) (rstdK (V main_v18)) := by
  after_results
  rfl
theorem after2_2_scaleRow (V : Valuation τ sig (Elt F)) :
    StableHlo.after hostOps2_2 V main_v28
      = rowK (F := F) (rowOf4K 0 slices_S4x128_S1x128_0_0 (V main_arg4)) := by
  after_results
  rfl
theorem after2_2_shiftRow (V : Valuation τ sig (Elt F)) :
    StableHlo.after hostOps2_2 V main_v29
      = rowK (F := F) (rowOf4K 0 slices_S4x128_S1x128_0_0 (V main_arg5)) := by
  after_results
  rfl

/-- The propagation before layer 1's combine. -/
theorem after3_msg (V : Valuation τ sig (Elt F)) :
    StableHlo.after hostOps3 V main_v40 = propagateK (F := F) (V main_v30) (V main_arg8) (V main_arg9) := by
  after_results
  rfl
/-- Layer 1's weight matrix. -/
theorem after3_w (V : Valuation τ sig (Elt F)) :
    StableHlo.after hostOps3 V main_v42
      = convWeightK (F := F) 1 slices_S5x128x128_S1x128x128_1_0_0 (V main_arg3) := by
  after_results
  rfl

/-- The column means of layer 1's combine output. -/
theorem after4_mean (V : Valuation τ sig (Elt F)) :
    StableHlo.after hostOps4 V main_v46 = colMeanK (F := F) (V main_v43) := by
  after_results
  rfl
/-- The integer the variance's divisor removes: zero. -/
theorem after4_ddof (V : Valuation τ sig (Elt F)) :
    StableHlo.after hostOps4 V main_c_10 = constantI S_ 32 0#32 := by
  after_results
/-- The column variances of layer 1's combine output. -/
theorem after4_1_var (V : Valuation τ sig (Elt F)) :
    StableHlo.after hostOps4_1 V main_v47 = colVarK (F := F) (V main_v43) (V main_c_10) := by
  after_results
  rfl
/-- The four `[1, 128]` rows layer 1's normalisation reads: mean, reciprocal deviation, scale, shift. -/
theorem after4_2_meanRow (V : Valuation τ sig (Elt F)) :
    StableHlo.after hostOps4_2 V main_v55 = rowK (F := F) (V main_v46) := by
  after_results
  rfl
theorem after4_2_rstdRow (V : Valuation τ sig (Elt F)) :
    StableHlo.after hostOps4_2 V main_v56 = rowK (F := F) (rstdK (V main_v47)) := by
  after_results
  rfl
theorem after4_2_scaleRow (V : Valuation τ sig (Elt F)) :
    StableHlo.after hostOps4_2 V main_v57
      = rowK (F := F) (rowOf4K 1 slices_S4x128_S1x128_1_0 (V main_arg4)) := by
  after_results
  rfl
theorem after4_2_shiftRow (V : Valuation τ sig (Elt F)) :
    StableHlo.after hostOps4_2 V main_v58
      = rowK (F := F) (rowOf4K 1 slices_S4x128_S1x128_1_0 (V main_arg5)) := by
  after_results
  rfl

/-- The propagation before layer 2's combine. -/
theorem after5_msg (V : Valuation τ sig (Elt F)) :
    StableHlo.after hostOps5 V main_v69 = propagateK (F := F) (V main_v59) (V main_arg8) (V main_arg9) := by
  after_results
  rfl
/-- Layer 2's weight matrix. -/
theorem after5_w (V : Valuation τ sig (Elt F)) :
    StableHlo.after hostOps5 V main_v71
      = convWeightK (F := F) 2 slices_S5x128x128_S1x128x128_2_0_0 (V main_arg3) := by
  after_results
  rfl

/-- The column means of layer 2's combine output. -/
theorem after6_mean (V : Valuation τ sig (Elt F)) :
    StableHlo.after hostOps6 V main_v75 = colMeanK (F := F) (V main_v72) := by
  after_results
  rfl
/-- The integer the variance's divisor removes: zero. -/
theorem after6_ddof (V : Valuation τ sig (Elt F)) :
    StableHlo.after hostOps6 V main_c_17 = constantI S_ 32 0#32 := by
  after_results
/-- The column variances of layer 2's combine output. -/
theorem after6_1_var (V : Valuation τ sig (Elt F)) :
    StableHlo.after hostOps6_1 V main_v76 = colVarK (F := F) (V main_v72) (V main_c_17) := by
  after_results
  rfl
/-- The four `[1, 128]` rows layer 2's normalisation reads: mean, reciprocal deviation, scale, shift. -/
theorem after6_2_meanRow (V : Valuation τ sig (Elt F)) :
    StableHlo.after hostOps6_2 V main_v84 = rowK (F := F) (V main_v75) := by
  after_results
  rfl
theorem after6_2_rstdRow (V : Valuation τ sig (Elt F)) :
    StableHlo.after hostOps6_2 V main_v85 = rowK (F := F) (rstdK (V main_v76)) := by
  after_results
  rfl
theorem after6_2_scaleRow (V : Valuation τ sig (Elt F)) :
    StableHlo.after hostOps6_2 V main_v86
      = rowK (F := F) (rowOf4K 2 slices_S4x128_S1x128_2_0 (V main_arg4)) := by
  after_results
  rfl
theorem after6_2_shiftRow (V : Valuation τ sig (Elt F)) :
    StableHlo.after hostOps6_2 V main_v87
      = rowK (F := F) (rowOf4K 2 slices_S4x128_S1x128_2_0 (V main_arg5)) := by
  after_results
  rfl

/-- The propagation before layer 3's combine. -/
theorem after7_msg (V : Valuation τ sig (Elt F)) :
    StableHlo.after hostOps7 V main_v98 = propagateK (F := F) (V main_v88) (V main_arg8) (V main_arg9) := by
  after_results
  rfl
/-- Layer 3's weight matrix. -/
theorem after7_w (V : Valuation τ sig (Elt F)) :
    StableHlo.after hostOps7 V main_v100
      = convWeightK (F := F) 3 slices_S5x128x128_S1x128x128_3_0_0 (V main_arg3) := by
  after_results
  rfl

/-- The four combine outputs side by side. -/
theorem after8_concat (V : Valuation τ sig (Elt F)) :
    StableHlo.after hostOps8 V main_v102
      = concat4K (F := F) (V main_v14) (V main_v43) (V main_v72) (V main_v101) := by
  after_results
  rfl
/-- The bias row of the last projection. -/
theorem after8_row (V : Valuation τ sig (Elt F)) :
    StableHlo.after hostOps8 V main_v103 = rowK (F := F) (V main_arg7) := by
  after_results
  rfl

/-- The propagation before layer 4's combine. -/
theorem after9_msg (V : Valuation τ sig (Elt F)) :
    StableHlo.after hostOps9 V main_v114 = propagateK (F := F) (V main_v104) (V main_arg8) (V main_arg9) := by
  after_results
  rfl
/-- Layer 4's weight matrix. -/
theorem after9_w (V : Valuation τ sig (Elt F)) :
    StableHlo.after hostOps9 V main_v116
      = convWeightK (F := F) 4 slices_S5x128x128_S1x128x128_4_0_0 (V main_arg3) := by
  after_results
  rfl

end Cert.KernelIdeal.Values

end
-- ==== Proof.Values.HostKFold.lean ====
import proofs.«175281_j9964324127123_1_alg».proof.Proof.KernelIdeal.Fold
import proofs.«175281_j9964324127123_1_alg».proof.Proof.Values.HostKOps

/-!
# What every kernel region finds in its operand arrays

The buffers' contents at the boundaries between the items of the main function are a fold (`W1 … W26`): a host stretch
applies its operations, a region replaces its output array. Here: one step of the fold leaves every buffer it does not
write as it was; hence the argument arrays reach every boundary as launched, and a region's output reaches every later
reader unchanged; and each operand array of each region holds the named stage (propagation, weight slice, column
mean, reciprocal deviation, table rows, concatenation) of the earlier regions' outputs and the arguments.
-/

set_option maxRecDepth 1668

noncomputable section

namespace Cert.KernelIdeal.Values

open Idealize.ShloMosaic Idealize.ShloMosaic.TcCoe
open Idealize.SL Idealize.SL.Sem
open Cert.KernelIdeal Cert.KernelIdeal.Gen Cert.KernelIdeal.Hand

variable {F : FTy → Type} [FloatOps F]
variable (m : (ℓ : Loc nD τ sig) → Buf (Elt F) ℓ)

/-! ## One step of the fold leaves the buffers it does not write -/

theorem W1_of (c : Dev nD) (r : Ref sig .tc) (h : r ∉ hostOps0_W) : W1 m c r = m ((c.tc : Thread nD τ).loc r) :=
  StableHlo.after_of_writes_sub hostOps0 _ hostOps0_writes h
theorem W2_of (c : Dev nD) (r : Ref sig .tc) (h : r ≠ main_v1) : W2 m c r = W1 m c r :=
  Function.update_of_ne (StableHlo.devRef_ne_of_ne h) _ _
theorem W3_of (c : Dev nD) (r : Ref sig .tc) (h : r ∉ hostOps1_W) : W3 m c r = W2 m c r :=
  StableHlo.after_of_writes_sub hostOps1 _ hostOps1_writes h
theorem W4_of (c : Dev nD) (r : Ref sig .tc) (h : r ≠ main_v14) : W4 m c r = W3 m c r :=
  Function.update_of_ne (StableHlo.devRef_ne_of_ne h) _ _
theorem W5_of (c : Dev nD) (r : Ref sig .tc) (h : r ∉ hostOps2_W) : W5 m c r = W4 m c r :=
  StableHlo.after_of_writes_sub hostOps2 _ hostOps2_writes h
theorem W6_of (c : Dev nD) (r : Ref sig .tc) (h : r ∉ hostOps2_1_W) : W6 m c r = W5 m c r :=
  StableHlo.after_of_writes_sub hostOps2_1 _ hostOps2_1_writes h
theorem W7_of (c : Dev nD) (r : Ref sig .tc) (h : r ∉ hostOps2_2_W) : W7 m c r = W6 m c r :=
  StableHlo.after_of_writes_sub hostOps2_2 _ hostOps2_2_writes h
theorem W8_of (c : Dev nD) (r : Ref sig .tc) (h : r ≠ main_v30) : W8 m c r = W7 m c r :=
  Function.update_of_ne (StableHlo.devRef_ne_of_ne h) _ _
theorem W9_of (c : Dev nD) (r : Ref sig .tc) (h : r ∉ hostOps3_W) : W9 m c r = W8 m c r :=
  StableHlo.after_of_writes_sub hostOps3 _ hostOps3_writes h
theorem W10_of (c : Dev nD) (r : Ref sig .tc) (h : r ≠ main_v43) : W10 m c r = W9 m c r :=
  Function.update_of_ne (StableHlo.devRef_ne_of_ne h) _ _
theorem W11_of (c : Dev nD) (r : Ref sig .tc) (h : r ∉ hostOps4_W) : W11 m c r = W10 m c r :=
  StableHlo.after_of_writes_sub hostOps4 _ hostOps4_writes h
theorem W12_of (c : Dev nD) (r : Ref sig .tc) (h : r ∉ hostOps4_1_W) : W12 m c r = W11 m c r :=
  StableHlo.after_of_writes_sub hostOps4_1 _ hostOps4_1_writes h
theorem W13_of (c : Dev nD) (r : Ref sig .tc) (h : r ∉ hostOps4_2_W) : W13 m c r = W12 m c r :=
  StableHlo.after_of_writes_sub hostOps4_2 _ hostOps4_2_writes h
theorem W14_of (c : Dev nD) (r : Ref sig .tc) (h : r ≠ main_v59) : W14 m c r = W13 m c r :=
  Function.update_of_ne (StableHlo.devRef_ne_of_ne h) _ _
theorem W15_of (c : Dev nD) (r : Ref sig .tc) (h : r ∉ hostOps5_W) : W15 m c r = W14 m c r :=
  StableHlo.after_of_writes_sub hostOps5 _ hostOps5_writes h
theorem W16_of (c : Dev nD) (r : Ref sig .tc) (h : r ≠ main_v72) : W16 m c r = W15 m c r :=
  Function.update_of_ne (StableHlo.devRef_ne_of_ne h) _ _
theorem W17_of (c : Dev nD) (r : Ref sig .tc) (h : r ∉ hostOps6_W) : W17 m c r = W16 m c r :=
  StableHlo.after_of_writes_sub hostOps6 _ hostOps6_writes h
theorem W18_of (c : Dev nD) (r : Ref sig .tc) (h : r ∉ hostOps6_1_W) : W18 m c r = W17 m c r :=
  StableHlo.after_of_writes_sub hostOps6_1 _ hostOps6_1_writes h
theorem W19_of (c : Dev nD) (r : Ref sig .tc) (h : r ∉ hostOps6_2_W) : W19 m c r = W18 m c r :=
  StableHlo.after_of_writes_sub hostOps6_2 _ hostOps6_2_writes h
theorem W20_of (c : Dev nD) (r : Ref sig .tc) (h : r ≠ main_v88) : W20 m c r = W19 m c r :=
  Function.update_of_ne (StableHlo.devRef_ne_of_ne h) _ _
theorem W21_of (c : Dev nD) (r : Ref sig .tc) (h : r ∉ hostOps7_W) : W21 m c r = W20 m c r :=
  StableHlo.after_of_writes_sub hostOps7 _ hostOps7_writes h
theorem W22_of (c : Dev nD) (r : Ref sig .tc) (h : r ≠ main_v101) : W22 m c r = W21 m c r :=
  Function.update_of_ne (StableHlo.devRef_ne_of_ne h) _ _
theorem W23_of (c : Dev nD) (r : Ref sig .tc) (h : r ∉ hostOps8_W) : W23 m c r = W22 m c r :=
  StableHlo.after_of_writes_sub hostOps8 _ hostOps8_writes h
theorem W24_of (c : Dev nD) (r : Ref sig .tc) (h : r ≠ main_v104) : W24 m c r = W23 m c r :=
  Function.update_of_ne (StableHlo.devRef_ne_of_ne h) _ _
theorem W25_of (c : Dev nD) (r : Ref sig .tc) (h : r ∉ hostOps9_W) : W25 m c r = W24 m c r :=
  StableHlo.after_of_writes_sub hostOps9 _ hostOps9_writes h
theorem W26_of (c : Dev nD) (r : Ref sig .tc) (h : r ≠ main_v117) : W26 m c r = W25 m c r :=
  Function.update_of_ne (StableHlo.devRef_ne_of_ne h) _ _

/-! ## What a region leaves in its output array -/
theorem out0 (c : Dev nD) : W2 m c main_v1 = (dat0 (atTc (W1 m)) c).arrAt 3 cfg0.N :=
  Function.update_self _ _ _
theorem out1 (c : Dev nD) : W4 m c main_v14 = (dat1 (atTc (W3 m)) c).arrAt 3 cfg1.N :=
  Function.update_self _ _ _
theorem out2 (c : Dev nD) : W8 m c main_v30 = (dat2 (atTc (W7 m)) c).arrAt 5 cfg2.N :=
  Function.update_self _ _ _
theorem out3 (c : Dev nD) : W10 m c main_v43 = (dat3 (atTc (W9 m)) c).arrAt 3 cfg3.N :=
  Function.update_self _ _ _
theorem out4 (c : Dev nD) : W14 m c main_v59 = (dat4 (atTc (W13 m)) c).arrAt 5 cfg4.N :=
  Function.update_self _ _ _
theorem out5 (c : Dev nD) : W16 m c main_v72 = (dat5 (atTc (W15 m)) c).arrAt 3 cfg5.N :=
  Function.update_self _ _ _
theorem out6 (c : Dev nD) : W20 m c main_v88 = (dat6 (atTc (W19 m)) c).arrAt 5 cfg6.N :=
  Function.update_self _ _ _
theorem out7 (c : Dev nD) : W22 m c main_v101 = (dat7 (atTc (W21 m)) c).arrAt 3 cfg7.N :=
  Function.update_self _ _ _
theorem out8 (c : Dev nD) : W24 m c main_v104 = (dat8 (atTc (W23 m)) c).arrAt 3 cfg8.N :=
  Function.update_self _ _ _
theorem out9 (c : Dev nD) : W26 m c main_v117 = (dat9 (atTc (W25 m)) c).arrAt 3 cfg9.N :=
  Function.update_self _ _ _

/-! ## The arguments reach every boundary as launched -/
theorem W1_arg0 (c : Dev nD) : W1 m c main_arg0 = m ((c.tc : Thread nD τ).loc main_arg0) := W1_of m c main_arg0 (by decide)
theorem W1_arg1 (c : Dev nD) : W1 m c main_arg1 = m ((c.tc : Thread nD τ).loc main_arg1) := W1_of m c main_arg1 (by decide)
theorem W1_arg3 (c : Dev nD) : W1 m c main_arg3 = m ((c.tc : Thread nD τ).loc main_arg3) := W1_of m c main_arg3 (by decide)
theorem W2_arg3 (c : Dev nD) : W2 m c main_arg3 = m ((c.tc : Thread nD τ).loc main_arg3) := (W2_of m c main_arg3 (by decide)).trans (W1_arg3 m c)
theorem W3_arg3 (c : Dev nD) : W3 m c main_arg3 = m ((c.tc : Thread nD τ).loc main_arg3) := (W3_of m c main_arg3 (by decide)).trans (W2_arg3 m c)
theorem W4_arg3 (c : Dev nD) : W4 m c main_arg3 = m ((c.tc : Thread nD τ).loc main_arg3) := (W4_of m c main_arg3 (by decide)).trans (W3_arg3 m c)
theorem W5_arg3 (c : Dev nD) : W5 m c main_arg3 = m ((c.tc : Thread nD τ).loc main_arg3) := (W5_of m c main_arg3 (by decide)).trans (W4_arg3 m c)
theorem W6_arg3 (c : Dev nD) : W6 m c main_arg3 = m ((c.tc : Thread nD τ).loc main_arg3) := (W6_of m c main_arg3 (by decide)).trans (W5_arg3 m c)
theorem W7_arg3 (c : Dev nD) : W7 m c main_arg3 = m ((c.tc : Thread nD τ).loc main_arg3) := (W7_of m c main_arg3 (by decide)).trans (W6_arg3 m c)
theorem W8_arg3 (c : Dev nD) : W8 m c main_arg3 = m ((c.tc : Thread nD τ).loc main_arg3) := (W8_of m c main_arg3 (by decide)).trans (W7_arg3 m c)
theorem W9_arg3 (c : Dev nD) : W9 m c main_arg3 = m ((c.tc : Thread nD τ).loc main_arg3) := (W9_of m c main_arg3 (by decide)).trans (W8_arg3 m c)
theorem W10_arg3 (c : Dev nD) : W10 m c main_arg3 = m ((c.tc : Thread nD τ).loc main_arg3) := (W10_of m c main_arg3 (by decide)).trans (W9_arg3 m c)
theorem W11_arg3 (c : Dev nD) : W11 m c main_arg3 = m ((c.tc : Thread nD τ).loc main_arg3) := (W11_of m c main_arg3 (by decide)).trans (W10_arg3 m c)
theorem W12_arg3 (c : Dev nD) : W12 m c main_arg3 = m ((c.tc : Thread nD τ).loc main_arg3) := (W12_of m c main_arg3 (by decide)).trans (W11_arg3 m c)
theorem W13_arg3 (c : Dev nD) : W13 m c main_arg3 = m ((c.tc : Thread nD τ).loc main_arg3) := (W13_of m c main_arg3 (by decide)).trans (W12_arg3 m c)
theorem W14_arg3 (c : Dev nD) : W14 m c main_arg3 = m ((c.tc : Thread nD τ).loc main_arg3) := (W14_of m c main_arg3 (by decide)).trans (W13_arg3 m c)
theorem W15_arg3 (c : Dev nD) : W15 m c main_arg3 = m ((c.tc : Thread nD τ).loc main_arg3) := (W15_of m c main_arg3 (by decide)).trans (W14_arg3 m c)
theorem W16_arg3 (c : Dev nD) : W16 m c main_arg3 = m ((c.tc : Thread nD τ).loc main_arg3) := (W16_of m c main_arg3 (by decide)).trans (W15_arg3 m c)
theorem W17_arg3 (c : Dev nD) : W17 m c main_arg3 = m ((c.tc : Thread nD τ).loc main_arg3) := (W17_of m c main_arg3 (by decide)).trans (W16_arg3 m c)
theorem W18_arg3 (c : Dev nD) : W18 m c main_arg3 = m ((c.tc : Thread nD τ).loc main_arg3) := (W18_of m c main_arg3 (by decide)).trans (W17_arg3 m c)
theorem W19_arg3 (c : Dev nD) : W19 m c main_arg3 = m ((c.tc : Thread nD τ).loc main_arg3) := (W19_of m c main_arg3 (by decide)).trans (W18_arg3 m c)
theorem W20_arg3 (c : Dev nD) : W20 m c main_arg3 = m ((c.tc : Thread nD τ).loc main_arg3) := (W20_of m c main_arg3 (by decide)).trans (W19_arg3 m c)
theorem W21_arg3 (c : Dev nD) : W21 m c main_arg3 = m ((c.tc : Thread nD τ).loc main_arg3) := (W21_of m c main_arg3 (by decide)).trans (W20_arg3 m c)
theorem W22_arg3 (c : Dev nD) : W22 m c main_arg3 = m ((c.tc : Thread nD τ).loc main_arg3) := (W22_of m c main_arg3 (by decide)).trans (W21_arg3 m c)
theorem W23_arg3 (c : Dev nD) : W23 m c main_arg3 = m ((c.tc : Thread nD τ).loc main_arg3) := (W23_of m c main_arg3 (by decide)).trans (W22_arg3 m c)
theorem W24_arg3 (c : Dev nD) : W24 m c main_arg3 = m ((c.tc : Thread nD τ).loc main_arg3) := (W24_of m c main_arg3 (by decide)).trans (W23_arg3 m c)
theorem W1_arg4 (c : Dev nD) : W1 m c main_arg4 = m ((c.tc : Thread nD τ).loc main_arg4) := W1_of m c main_arg4 (by decide)
theorem W2_arg4 (c : Dev nD) : W2 m c main_arg4 = m ((c.tc : Thread nD τ).loc main_arg4) := (W2_of m c main_arg4 (by decide)).trans (W1_arg4 m c)
theorem W3_arg4 (c : Dev nD) : W3 m c main_arg4 = m ((c.tc : Thread nD τ).loc main_arg4) := (W3_of m c main_arg4 (by decide)).trans (W2_arg4 m c)
theorem W4_arg4 (c : Dev nD) : W4 m c main_arg4 = m ((c.tc : Thread nD τ).loc main_arg4) := (W4_of m c main_arg4 (by decide)).trans (W3_arg4 m c)
theorem W5_arg4 (c : Dev nD) : W5 m c main_arg4 = m ((c.tc : Thread nD τ).loc main_arg4) := (W5_of m c main_arg4 (by decide)).trans (W4_arg4 m c)
theorem W6_arg4 (c : Dev nD) : W6 m c main_arg4 = m ((c.tc : Thread nD τ).loc main_arg4) := (W6_of m c main_arg4 (by decide)).trans (W5_arg4 m c)
theorem W7_arg4 (c : Dev nD) : W7 m c main_arg4 = m ((c.tc : Thread nD τ).loc main_arg4) := (W7_of m c main_arg4 (by decide)).trans (W6_arg4 m c)
theorem W8_arg4 (c : Dev nD) : W8 m c main_arg4 = m ((c.tc : Thread nD τ).loc main_arg4) := (W8_of m c main_arg4 (by decide)).trans (W7_arg4 m c)
theorem W9_arg4 (c : Dev nD) : W9 m c main_arg4 = m ((c.tc : Thread nD τ).loc main_arg4) := (W9_of m c main_arg4 (by decide)).trans (W8_arg4 m c)
theorem W10_arg4 (c : Dev nD) : W10 m c main_arg4 = m ((c.tc : Thread nD τ).loc main_arg4) := (W10_of m c main_arg4 (by decide)).trans (W9_arg4 m c)
theorem W11_arg4 (c : Dev nD) : W11 m c main_arg4 = m ((c.tc : Thread nD τ).loc main_arg4) := (W11_of m c main_arg4 (by decide)).trans (W10_arg4 m c)
theorem W12_arg4 (c : Dev nD) : W12 m c main_arg4 = m ((c.tc : Thread nD τ).loc main_arg4) := (W12_of m c main_arg4 (by decide)).trans (W11_arg4 m c)
theorem W13_arg4 (c : Dev nD) : W13 m c main_arg4 = m ((c.tc : Thread nD τ).loc main_arg4) := (W13_of m c main_arg4 (by decide)).trans (W12_arg4 m c)
theorem W14_arg4 (c : Dev nD) : W14 m c main_arg4 = m ((c.tc : Thread nD τ).loc main_arg4) := (W14_of m c main_arg4 (by decide)).trans (W13_arg4 m c)
theorem W15_arg4 (c : Dev nD) : W15 m c main_arg4 = m ((c.tc : Thread nD τ).loc main_arg4) := (W15_of m c main_arg4 (by decide)).trans (W14_arg4 m c)
theorem W16_arg4 (c : Dev nD) : W16 m c main_arg4 = m ((c.tc : Thread nD τ).loc main_arg4) := (W16_of m c main_arg4 (by decide)).trans (W15_arg4 m c)
theorem W17_arg4 (c : Dev nD) : W17 m c main_arg4 = m ((c.tc : Thread nD τ).loc main_arg4) := (W17_of m c main_arg4 (by decide)).trans (W16_arg4 m c)
theorem W18_arg4 (c : Dev nD) : W18 m c main_arg4 = m ((c.tc : Thread nD τ).loc main_arg4) := (W18_of m c main_arg4 (by decide)).trans (W17_arg4 m c)
theorem W1_arg5 (c : Dev nD) : W1 m c main_arg5 = m ((c.tc : Thread nD τ).loc main_arg5) := W1_of m c main_arg5 (by decide)
theorem W2_arg5 (c : Dev nD) : W2 m c main_arg5 = m ((c.tc : Thread nD τ).loc main_arg5) := (W2_of m c main_arg5 (by decide)).trans (W1_arg5 m c)
theorem W3_arg5 (c : Dev nD) : W3 m c main_arg5 = m ((c.tc : Thread nD τ).loc main_arg5) := (W3_of m c main_arg5 (by decide)).trans (W2_arg5 m c)
theorem W4_arg5 (c : Dev nD) : W4 m c main_arg5 = m ((c.tc : Thread nD τ).loc main_arg5) := (W4_of m c main_arg5 (by decide)).trans (W3_arg5 m c)
theorem W5_arg5 (c : Dev nD) : W5 m c main_arg5 = m ((c.tc : Thread nD τ).loc main_arg5) := (W5_of m c main_arg5 (by decide)).trans (W4_arg5 m c)
theorem W6_arg5 (c : Dev nD) : W6 m c main_arg5 = m ((c.tc : Thread nD τ).loc main_arg5) := (W6_of m c main_arg5 (by decide)).trans (W5_arg5 m c)
theorem W7_arg5 (c : Dev nD) : W7 m c main_arg5 = m ((c.tc : Thread nD τ).loc main_arg5) := (W7_of m c main_arg5 (by decide)).trans (W6_arg5 m c)
theorem W8_arg5 (c : Dev nD) : W8 m c main_arg5 = m ((c.tc : Thread nD τ).loc main_arg5) := (W8_of m c main_arg5 (by decide)).trans (W7_arg5 m c)
theorem W9_arg5 (c : Dev nD) : W9 m c main_arg5 = m ((c.tc : Thread nD τ).loc main_arg5) := (W9_of m c main_arg5 (by decide)).trans (W8_arg5 m c)
theorem W10_arg5 (c : Dev nD) : W10 m c main_arg5 = m ((c.tc : Thread nD τ).loc main_arg5) := (W10_of m c main_arg5 (by decide)).trans (W9_arg5 m c)
theorem W11_arg5 (c : Dev nD) : W11 m c main_arg5 = m ((c.tc : Thread nD τ).loc main_arg5) := (W11_of m c main_arg5 (by decide)).trans (W10_arg5 m c)
theorem W12_arg5 (c : Dev nD) : W12 m c main_arg5 = m ((c.tc : Thread nD τ).loc main_arg5) := (W12_of m c main_arg5 (by decide)).trans (W11_arg5 m c)
theorem W13_arg5 (c : Dev nD) : W13 m c main_arg5 = m ((c.tc : Thread nD τ).loc main_arg5) := (W13_of m c main_arg5 (by decide)).trans (W12_arg5 m c)
theorem W14_arg5 (c : Dev nD) : W14 m c main_arg5 = m ((c.tc : Thread nD τ).loc main_arg5) := (W14_of m c main_arg5 (by decide)).trans (W13_arg5 m c)
theorem W15_arg5 (c : Dev nD) : W15 m c main_arg5 = m ((c.tc : Thread nD τ).loc main_arg5) := (W15_of m c main_arg5 (by decide)).trans (W14_arg5 m c)
theorem W16_arg5 (c : Dev nD) : W16 m c main_arg5 = m ((c.tc : Thread nD τ).loc main_arg5) := (W16_of m c main_arg5 (by decide)).trans (W15_arg5 m c)
theorem W17_arg5 (c : Dev nD) : W17 m c main_arg5 = m ((c.tc : Thread nD τ).loc main_arg5) := (W17_of m c main_arg5 (by decide)).trans (W16_arg5 m c)
theorem W18_arg5 (c : Dev nD) : W18 m c main_arg5 = m ((c.tc : Thread nD τ).loc main_arg5) := (W18_of m c main_arg5 (by decide)).trans (W17_arg5 m c)
theorem W1_arg6 (c : Dev nD) : W1 m c main_arg6 = m ((c.tc : Thread nD τ).loc main_arg6) := W1_of m c main_arg6 (by decide)
theorem W2_arg6 (c : Dev nD) : W2 m c main_arg6 = m ((c.tc : Thread nD τ).loc main_arg6) := (W2_of m c main_arg6 (by decide)).trans (W1_arg6 m c)
theorem W3_arg6 (c : Dev nD) : W3 m c main_arg6 = m ((c.tc : Thread nD τ).loc main_arg6) := (W3_of m c main_arg6 (by decide)).trans (W2_arg6 m c)
theorem W4_arg6 (c : Dev nD) : W4 m c main_arg6 = m ((c.tc : Thread nD τ).loc main_arg6) := (W4_of m c main_arg6 (by decide)).trans (W3_arg6 m c)
theorem W5_arg6 (c : Dev nD) : W5 m c main_arg6 = m ((c.tc : Thread nD τ).loc main_arg6) := (W5_of m c main_arg6 (by decide)).trans (W4_arg6 m c)
theorem W6_arg6 (c : Dev nD) : W6 m c main_arg6 = m ((c.tc : Thread nD τ).loc main_arg6) := (W6_of m c main_arg6 (by decide)).trans (W5_arg6 m c)
theorem W7_arg6 (c : Dev nD) : W7 m c main_arg6 = m ((c.tc : Thread nD τ).loc main_arg6) := (W7_of m c main_arg6 (by decide)).trans (W6_arg6 m c)
theorem W8_arg6 (c : Dev nD) : W8 m c main_arg6 = m ((c.tc : Thread nD τ).loc main_arg6) := (W8_of m c main_arg6 (by decide)).trans (W7_arg6 m c)
theorem W9_arg6 (c : Dev nD) : W9 m c main_arg6 = m ((c.tc : Thread nD τ).loc main_arg6) := (W9_of m c main_arg6 (by decide)).trans (W8_arg6 m c)
theorem W10_arg6 (c : Dev nD) : W10 m c main_arg6 = m ((c.tc : Thread nD τ).loc main_arg6) := (W10_of m c main_arg6 (by decide)).trans (W9_arg6 m c)
theorem W11_arg6 (c : Dev nD) : W11 m c main_arg6 = m ((c.tc : Thread nD τ).loc main_arg6) := (W11_of m c main_arg6 (by decide)).trans (W10_arg6 m c)
theorem W12_arg6 (c : Dev nD) : W12 m c main_arg6 = m ((c.tc : Thread nD τ).loc main_arg6) := (W12_of m c main_arg6 (by decide)).trans (W11_arg6 m c)
theorem W13_arg6 (c : Dev nD) : W13 m c main_arg6 = m ((c.tc : Thread nD τ).loc main_arg6) := (W13_of m c main_arg6 (by decide)).trans (W12_arg6 m c)
theorem W14_arg6 (c : Dev nD) : W14 m c main_arg6 = m ((c.tc : Thread nD τ).loc main_arg6) := (W14_of m c main_arg6 (by decide)).trans (W13_arg6 m c)
theorem W15_arg6 (c : Dev nD) : W15 m c main_arg6 = m ((c.tc : Thread nD τ).loc main_arg6) := (W15_of m c main_arg6 (by decide)).trans (W14_arg6 m c)
theorem W16_arg6 (c : Dev nD) : W16 m c main_arg6 = m ((c.tc : Thread nD τ).loc main_arg6) := (W16_of m c main_arg6 (by decide)).trans (W15_arg6 m c)
theorem W17_arg6 (c : Dev nD) : W17 m c main_arg6 = m ((c.tc : Thread nD τ).loc main_arg6) := (W17_of m c main_arg6 (by decide)).trans (W16_arg6 m c)
theorem W18_arg6 (c : Dev nD) : W18 m c main_arg6 = m ((c.tc : Thread nD τ).loc main_arg6) := (W18_of m c main_arg6 (by decide)).trans (W17_arg6 m c)
theorem W19_arg6 (c : Dev nD) : W19 m c main_arg6 = m ((c.tc : Thread nD τ).loc main_arg6) := (W19_of m c main_arg6 (by decide)).trans (W18_arg6 m c)
theorem W20_arg6 (c : Dev nD) : W20 m c main_arg6 = m ((c.tc : Thread nD τ).loc main_arg6) := (W20_of m c main_arg6 (by decide)).trans (W19_arg6 m c)
theorem W21_arg6 (c : Dev nD) : W21 m c main_arg6 = m ((c.tc : Thread nD τ).loc main_arg6) := (W21_of m c main_arg6 (by decide)).trans (W20_arg6 m c)
theorem W22_arg6 (c : Dev nD) : W22 m c main_arg6 = m ((c.tc : Thread nD τ).loc main_arg6) := (W22_of m c main_arg6 (by decide)).trans (W21_arg6 m c)
theorem W23_arg6 (c : Dev nD) : W23 m c main_arg6 = m ((c.tc : Thread nD τ).loc main_arg6) := (W23_of m c main_arg6 (by decide)).trans (W22_arg6 m c)
theorem W1_arg7 (c : Dev nD) : W1 m c main_arg7 = m ((c.tc : Thread nD τ).loc main_arg7) := W1_of m c main_arg7 (by decide)
theorem W2_arg7 (c : Dev nD) : W2 m c main_arg7 = m ((c.tc : Thread nD τ).loc main_arg7) := (W2_of m c main_arg7 (by decide)).trans (W1_arg7 m c)
theorem W3_arg7 (c : Dev nD) : W3 m c main_arg7 = m ((c.tc : Thread nD τ).loc main_arg7) := (W3_of m c main_arg7 (by decide)).trans (W2_arg7 m c)
theorem W4_arg7 (c : Dev nD) : W4 m c main_arg7 = m ((c.tc : Thread nD τ).loc main_arg7) := (W4_of m c main_arg7 (by decide)).trans (W3_arg7 m c)
theorem W5_arg7 (c : Dev nD) : W5 m c main_arg7 = m ((c.tc : Thread nD τ).loc main_arg7) := (W5_of m c main_arg7 (by decide)).trans (W4_arg7 m c)
theorem W6_arg7 (c : Dev nD) : W6 m c main_arg7 = m ((c.tc : Thread nD τ).loc main_arg7) := (W6_of m c main_arg7 (by decide)).trans (W5_arg7 m c)
theorem W7_arg7 (c : Dev nD) : W7 m c main_arg7 = m ((c.tc : Thread nD τ).loc main_arg7) := (W7_of m c main_arg7 (by decide)).trans (W6_arg7 m c)
theorem W8_arg7 (c : Dev nD) : W8 m c main_arg7 = m ((c.tc : Thread nD τ).loc main_arg7) := (W8_of m c main_arg7 (by decide)).trans (W7_arg7 m c)
theorem W9_arg7 (c : Dev nD) : W9 m c main_arg7 = m ((c.tc : Thread nD τ).loc main_arg7) := (W9_of m c main_arg7 (by decide)).trans (W8_arg7 m c)
theorem W10_arg7 (c : Dev nD) : W10 m c main_arg7 = m ((c.tc : Thread nD τ).loc main_arg7) := (W10_of m c main_arg7 (by decide)).trans (W9_arg7 m c)
theorem W11_arg7 (c : Dev nD) : W11 m c main_arg7 = m ((c.tc : Thread nD τ).loc main_arg7) := (W11_of m c main_arg7 (by decide)).trans (W10_arg7 m c)
theorem W12_arg7 (c : Dev nD) : W12 m c main_arg7 = m ((c.tc : Thread nD τ).loc main_arg7) := (W12_of m c main_arg7 (by decide)).trans (W11_arg7 m c)
theorem W13_arg7 (c : Dev nD) : W13 m c main_arg7 = m ((c.tc : Thread nD τ).loc main_arg7) := (W13_of m c main_arg7 (by decide)).trans (W12_arg7 m c)
theorem W14_arg7 (c : Dev nD) : W14 m c main_arg7 = m ((c.tc : Thread nD τ).loc main_arg7) := (W14_of m c main_arg7 (by decide)).trans (W13_arg7 m c)
theorem W15_arg7 (c : Dev nD) : W15 m c main_arg7 = m ((c.tc : Thread nD τ).loc main_arg7) := (W15_of m c main_arg7 (by decide)).trans (W14_arg7 m c)
theorem W16_arg7 (c : Dev nD) : W16 m c main_arg7 = m ((c.tc : Thread nD τ).loc main_arg7) := (W16_of m c main_arg7 (by decide)).trans (W15_arg7 m c)
theorem W17_arg7 (c : Dev nD) : W17 m c main_arg7 = m ((c.tc : Thread nD τ).loc main_arg7) := (W17_of m c main_arg7 (by decide)).trans (W16_arg7 m c)
theorem W18_arg7 (c : Dev nD) : W18 m c main_arg7 = m ((c.tc : Thread nD τ).loc main_arg7) := (W18_of m c main_arg7 (by decide)).trans (W17_arg7 m c)
theorem W19_arg7 (c : Dev nD) : W19 m c main_arg7 = m ((c.tc : Thread nD τ).loc main_arg7) := (W19_of m c main_arg7 (by decide)).trans (W18_arg7 m c)
theorem W20_arg7 (c : Dev nD) : W20 m c main_arg7 = m ((c.tc : Thread nD τ).loc main_arg7) := (W20_of m c main_arg7 (by decide)).trans (W19_arg7 m c)
theorem W21_arg7 (c : Dev nD) : W21 m c main_arg7 = m ((c.tc : Thread nD τ).loc main_arg7) := (W21_of m c main_arg7 (by decide)).trans (W20_arg7 m c)
theorem W22_arg7 (c : Dev nD) : W22 m c main_arg7 = m ((c.tc : Thread nD τ).loc main_arg7) := (W22_of m c main_arg7 (by decide)).trans (W21_arg7 m c)
theorem W1_arg8 (c : Dev nD) : W1 m c main_arg8 = m ((c.tc : Thread nD τ).loc main_arg8) := W1_of m c main_arg8 (by decide)
theorem W2_arg8 (c : Dev nD) : W2 m c main_arg8 = m ((c.tc : Thread nD τ).loc main_arg8) := (W2_of m c main_arg8 (by decide)).trans (W1_arg8 m c)
theorem W3_arg8 (c : Dev nD) : W3 m c main_arg8 = m ((c.tc : Thread nD τ).loc main_arg8) := (W3_of m c main_arg8 (by decide)).trans (W2_arg8 m c)
theorem W4_arg8 (c : Dev nD) : W4 m c main_arg8 = m ((c.tc : Thread nD τ).loc main_arg8) := (W4_of m c main_arg8 (by decide)).trans (W3_arg8 m c)
theorem W5_arg8 (c : Dev nD) : W5 m c main_arg8 = m ((c.tc : Thread nD τ).loc main_arg8) := (W5_of m c main_arg8 (by decide)).trans (W4_arg8 m c)
theorem W6_arg8 (c : Dev nD) : W6 m c main_arg8 = m ((c.tc : Thread nD τ).loc main_arg8) := (W6_of m c main_arg8 (by decide)).trans (W5_arg8 m c)
theorem W7_arg8 (c : Dev nD) : W7 m c main_arg8 = m ((c.tc : Thread nD τ).loc main_arg8) := (W7_of m c main_arg8 (by decide)).trans (W6_arg8 m c)
theorem W8_arg8 (c : Dev nD) : W8 m c main_arg8 = m ((c.tc : Thread nD τ).loc main_arg8) := (W8_of m c main_arg8 (by decide)).trans (W7_arg8 m c)
theorem W9_arg8 (c : Dev nD) : W9 m c main_arg8 = m ((c.tc : Thread nD τ).loc main_arg8) := (W9_of m c main_arg8 (by decide)).trans (W8_arg8 m c)
theorem W10_arg8 (c : Dev nD) : W10 m c main_arg8 = m ((c.tc : Thread nD τ).loc main_arg8) := (W10_of m c main_arg8 (by decide)).trans (W9_arg8 m c)
theorem W11_arg8 (c : Dev nD) : W11 m c main_arg8 = m ((c.tc : Thread nD τ).loc main_arg8) := (W11_of m c main_arg8 (by decide)).trans (W10_arg8 m c)
theorem W12_arg8 (c : Dev nD) : W12 m c main_arg8 = m ((c.tc : Thread nD τ).loc main_arg8) := (W12_of m c main_arg8 (by decide)).trans (W11_arg8 m c)
theorem W13_arg8 (c : Dev nD) : W13 m c main_arg8 = m ((c.tc : Thread nD τ).loc main_arg8) := (W13_of m c main_arg8 (by decide)).trans (W12_arg8 m c)
theorem W14_arg8 (c : Dev nD) : W14 m c main_arg8 = m ((c.tc : Thread nD τ).loc main_arg8) := (W14_of m c main_arg8 (by decide)).trans (W13_arg8 m c)
theorem W15_arg8 (c : Dev nD) : W15 m c main_arg8 = m ((c.tc : Thread nD τ).loc main_arg8) := (W15_of m c main_arg8 (by decide)).trans (W14_arg8 m c)
theorem W16_arg8 (c : Dev nD) : W16 m c main_arg8 = m ((c.tc : Thread nD τ).loc main_arg8) := (W16_of m c main_arg8 (by decide)).trans (W15_arg8 m c)
theorem W17_arg8 (c : Dev nD) : W17 m c main_arg8 = m ((c.tc : Thread nD τ).loc main_arg8) := (W17_of m c main_arg8 (by decide)).trans (W16_arg8 m c)
theorem W18_arg8 (c : Dev nD) : W18 m c main_arg8 = m ((c.tc : Thread nD τ).loc main_arg8) := (W18_of m c main_arg8 (by decide)).trans (W17_arg8 m c)
theorem W19_arg8 (c : Dev nD) : W19 m c main_arg8 = m ((c.tc : Thread nD τ).loc main_arg8) := (W19_of m c main_arg8 (by decide)).trans (W18_arg8 m c)
theorem W20_arg8 (c : Dev nD) : W20 m c main_arg8 = m ((c.tc : Thread nD τ).loc main_arg8) := (W20_of m c main_arg8 (by decide)).trans (W19_arg8 m c)
theorem W21_arg8 (c : Dev nD) : W21 m c main_arg8 = m ((c.tc : Thread nD τ).loc main_arg8) := (W21_of m c main_arg8 (by decide)).trans (W20_arg8 m c)
theorem W22_arg8 (c : Dev nD) : W22 m c main_arg8 = m ((c.tc : Thread nD τ).loc main_arg8) := (W22_of m c main_arg8 (by decide)).trans (W21_arg8 m c)
theorem W23_arg8 (c : Dev nD) : W23 m c main_arg8 = m ((c.tc : Thread nD τ).loc main_arg8) := (W23_of m c main_arg8 (by decide)).trans (W22_arg8 m c)
theorem W24_arg8 (c : Dev nD) : W24 m c main_arg8 = m ((c.tc : Thread nD τ).loc main_arg8) := (W24_of m c main_arg8 (by decide)).trans (W23_arg8 m c)
theorem W1_arg9 (c : Dev nD) : W1 m c main_arg9 = m ((c.tc : Thread nD τ).loc main_arg9) := W1_of m c main_arg9 (by decide)
theorem W2_arg9 (c : Dev nD) : W2 m c main_arg9 = m ((c.tc : Thread nD τ).loc main_arg9) := (W2_of m c main_arg9 (by decide)).trans (W1_arg9 m c)
theorem W3_arg9 (c : Dev nD) : W3 m c main_arg9 = m ((c.tc : Thread nD τ).loc main_arg9) := (W3_of m c main_arg9 (by decide)).trans (W2_arg9 m c)
theorem W4_arg9 (c : Dev nD) : W4 m c main_arg9 = m ((c.tc : Thread nD τ).loc main_arg9) := (W4_of m c main_arg9 (by decide)).trans (W3_arg9 m c)
theorem W5_arg9 (c : Dev nD) : W5 m c main_arg9 = m ((c.tc : Thread nD τ).loc main_arg9) := (W5_of m c main_arg9 (by decide)).trans (W4_arg9 m c)
theorem W6_arg9 (c : Dev nD) : W6 m c main_arg9 = m ((c.tc : Thread nD τ).loc main_arg9) := (W6_of m c main_arg9 (by decide)).trans (W5_arg9 m c)
theorem W7_arg9 (c : Dev nD) : W7 m c main_arg9 = m ((c.tc : Thread nD τ).loc main_arg9) := (W7_of m c main_arg9 (by decide)).trans (W6_arg9 m c)
theorem W8_arg9 (c : Dev nD) : W8 m c main_arg9 = m ((c.tc : Thread nD τ).loc main_arg9) := (W8_of m c main_arg9 (by decide)).trans (W7_arg9 m c)
theorem W9_arg9 (c : Dev nD) : W9 m c main_arg9 = m ((c.tc : Thread nD τ).loc main_arg9) := (W9_of m c main_arg9 (by decide)).trans (W8_arg9 m c)
theorem W10_arg9 (c : Dev nD) : W10 m c main_arg9 = m ((c.tc : Thread nD τ).loc main_arg9) := (W10_of m c main_arg9 (by decide)).trans (W9_arg9 m c)
theorem W11_arg9 (c : Dev nD) : W11 m c main_arg9 = m ((c.tc : Thread nD τ).loc main_arg9) := (W11_of m c main_arg9 (by decide)).trans (W10_arg9 m c)
theorem W12_arg9 (c : Dev nD) : W12 m c main_arg9 = m ((c.tc : Thread nD τ).loc main_arg9) := (W12_of m c main_arg9 (by decide)).trans (W11_arg9 m c)
theorem W13_arg9 (c : Dev nD) : W13 m c main_arg9 = m ((c.tc : Thread nD τ).loc main_arg9) := (W13_of m c main_arg9 (by decide)).trans (W12_arg9 m c)
theorem W14_arg9 (c : Dev nD) : W14 m c main_arg9 = m ((c.tc : Thread nD τ).loc main_arg9) := (W14_of m c main_arg9 (by decide)).trans (W13_arg9 m c)
theorem W15_arg9 (c : Dev nD) : W15 m c main_arg9 = m ((c.tc : Thread nD τ).loc main_arg9) := (W15_of m c main_arg9 (by decide)).trans (W14_arg9 m c)
theorem W16_arg9 (c : Dev nD) : W16 m c main_arg9 = m ((c.tc : Thread nD τ).loc main_arg9) := (W16_of m c main_arg9 (by decide)).trans (W15_arg9 m c)
theorem W17_arg9 (c : Dev nD) : W17 m c main_arg9 = m ((c.tc : Thread nD τ).loc main_arg9) := (W17_of m c main_arg9 (by decide)).trans (W16_arg9 m c)
theorem W18_arg9 (c : Dev nD) : W18 m c main_arg9 = m ((c.tc : Thread nD τ).loc main_arg9) := (W18_of m c main_arg9 (by decide)).trans (W17_arg9 m c)
theorem W19_arg9 (c : Dev nD) : W19 m c main_arg9 = m ((c.tc : Thread nD τ).loc main_arg9) := (W19_of m c main_arg9 (by decide)).trans (W18_arg9 m c)
theorem W20_arg9 (c : Dev nD) : W20 m c main_arg9 = m ((c.tc : Thread nD τ).loc main_arg9) := (W20_of m c main_arg9 (by decide)).trans (W19_arg9 m c)
theorem W21_arg9 (c : Dev nD) : W21 m c main_arg9 = m ((c.tc : Thread nD τ).loc main_arg9) := (W21_of m c main_arg9 (by decide)).trans (W20_arg9 m c)
theorem W22_arg9 (c : Dev nD) : W22 m c main_arg9 = m ((c.tc : Thread nD τ).loc main_arg9) := (W22_of m c main_arg9 (by decide)).trans (W21_arg9 m c)
theorem W23_arg9 (c : Dev nD) : W23 m c main_arg9 = m ((c.tc : Thread nD τ).loc main_arg9) := (W23_of m c main_arg9 (by decide)).trans (W22_arg9 m c)
theorem W24_arg9 (c : Dev nD) : W24 m c main_arg9 = m ((c.tc : Thread nD τ).loc main_arg9) := (W24_of m c main_arg9 (by decide)).trans (W23_arg9 m c)

/-! ## A region's output reaches its later readers unchanged -/
theorem W3_v1 (c : Dev nD) : W3 m c main_v1 = W2 m c main_v1 := W3_of m c main_v1 (by decide)
theorem W4_v1 (c : Dev nD) : W4 m c main_v1 = W2 m c main_v1 := (W4_of m c main_v1 (by decide)).trans (W3_v1 m c)
theorem W5_v1 (c : Dev nD) : W5 m c main_v1 = W2 m c main_v1 := (W5_of m c main_v1 (by decide)).trans (W4_v1 m c)
theorem W6_v1 (c : Dev nD) : W6 m c main_v1 = W2 m c main_v1 := (W6_of m c main_v1 (by decide)).trans (W5_v1 m c)
theorem W7_v1 (c : Dev nD) : W7 m c main_v1 = W2 m c main_v1 := (W7_of m c main_v1 (by decide)).trans (W6_v1 m c)
theorem W8_v1 (c : Dev nD) : W8 m c main_v1 = W2 m c main_v1 := (W8_of m c main_v1 (by decide)).trans (W7_v1 m c)
theorem W9_v1 (c : Dev nD) : W9 m c main_v1 = W2 m c main_v1 := (W9_of m c main_v1 (by decide)).trans (W8_v1 m c)
theorem W10_v1 (c : Dev nD) : W10 m c main_v1 = W2 m c main_v1 := (W10_of m c main_v1 (by decide)).trans (W9_v1 m c)
theorem W11_v1 (c : Dev nD) : W11 m c main_v1 = W2 m c main_v1 := (W11_of m c main_v1 (by decide)).trans (W10_v1 m c)
theorem W12_v1 (c : Dev nD) : W12 m c main_v1 = W2 m c main_v1 := (W12_of m c main_v1 (by decide)).trans (W11_v1 m c)
theorem W13_v1 (c : Dev nD) : W13 m c main_v1 = W2 m c main_v1 := (W13_of m c main_v1 (by decide)).trans (W12_v1 m c)
theorem W14_v1 (c : Dev nD) : W14 m c main_v1 = W2 m c main_v1 := (W14_of m c main_v1 (by decide)).trans (W13_v1 m c)
theorem W15_v1 (c : Dev nD) : W15 m c main_v1 = W2 m c main_v1 := (W15_of m c main_v1 (by decide)).trans (W14_v1 m c)
theorem W16_v1 (c : Dev nD) : W16 m c main_v1 = W2 m c main_v1 := (W16_of m c main_v1 (by decide)).trans (W15_v1 m c)
theorem W17_v1 (c : Dev nD) : W17 m c main_v1 = W2 m c main_v1 := (W17_of m c main_v1 (by decide)).trans (W16_v1 m c)
theorem W18_v1 (c : Dev nD) : W18 m c main_v1 = W2 m c main_v1 := (W18_of m c main_v1 (by decide)).trans (W17_v1 m c)
theorem W19_v1 (c : Dev nD) : W19 m c main_v1 = W2 m c main_v1 := (W19_of m c main_v1 (by decide)).trans (W18_v1 m c)
theorem W20_v1 (c : Dev nD) : W20 m c main_v1 = W2 m c main_v1 := (W20_of m c main_v1 (by decide)).trans (W19_v1 m c)
theorem W21_v1 (c : Dev nD) : W21 m c main_v1 = W2 m c main_v1 := (W21_of m c main_v1 (by decide)).trans (W20_v1 m c)
theorem W22_v1 (c : Dev nD) : W22 m c main_v1 = W2 m c main_v1 := (W22_of m c main_v1 (by decide)).trans (W21_v1 m c)
theorem W23_v1 (c : Dev nD) : W23 m c main_v1 = W2 m c main_v1 := (W23_of m c main_v1 (by decide)).trans (W22_v1 m c)
theorem W24_v1 (c : Dev nD) : W24 m c main_v1 = W2 m c main_v1 := (W24_of m c main_v1 (by decide)).trans (W23_v1 m c)
theorem W25_v1 (c : Dev nD) : W25 m c main_v1 = W2 m c main_v1 := (W25_of m c main_v1 (by decide)).trans (W24_v1 m c)
theorem W5_v14 (c : Dev nD) : W5 m c main_v14 = W4 m c main_v14 := W5_of m c main_v14 (by decide)
theorem W6_v14 (c : Dev nD) : W6 m c main_v14 = W4 m c main_v14 := (W6_of m c main_v14 (by decide)).trans (W5_v14 m c)
theorem W7_v14 (c : Dev nD) : W7 m c main_v14 = W4 m c main_v14 := (W7_of m c main_v14 (by decide)).trans (W6_v14 m c)
theorem W8_v14 (c : Dev nD) : W8 m c main_v14 = W4 m c main_v14 := (W8_of m c main_v14 (by decide)).trans (W7_v14 m c)
theorem W9_v14 (c : Dev nD) : W9 m c main_v14 = W4 m c main_v14 := (W9_of m c main_v14 (by decide)).trans (W8_v14 m c)
theorem W10_v14 (c : Dev nD) : W10 m c main_v14 = W4 m c main_v14 := (W10_of m c main_v14 (by decide)).trans (W9_v14 m c)
theorem W11_v14 (c : Dev nD) : W11 m c main_v14 = W4 m c main_v14 := (W11_of m c main_v14 (by decide)).trans (W10_v14 m c)
theorem W12_v14 (c : Dev nD) : W12 m c main_v14 = W4 m c main_v14 := (W12_of m c main_v14 (by decide)).trans (W11_v14 m c)
theorem W13_v14 (c : Dev nD) : W13 m c main_v14 = W4 m c main_v14 := (W13_of m c main_v14 (by decide)).trans (W12_v14 m c)
theorem W14_v14 (c : Dev nD) : W14 m c main_v14 = W4 m c main_v14 := (W14_of m c main_v14 (by decide)).trans (W13_v14 m c)
theorem W15_v14 (c : Dev nD) : W15 m c main_v14 = W4 m c main_v14 := (W15_of m c main_v14 (by decide)).trans (W14_v14 m c)
theorem W16_v14 (c : Dev nD) : W16 m c main_v14 = W4 m c main_v14 := (W16_of m c main_v14 (by decide)).trans (W15_v14 m c)
theorem W17_v14 (c : Dev nD) : W17 m c main_v14 = W4 m c main_v14 := (W17_of m c main_v14 (by decide)).trans (W16_v14 m c)
theorem W18_v14 (c : Dev nD) : W18 m c main_v14 = W4 m c main_v14 := (W18_of m c main_v14 (by decide)).trans (W17_v14 m c)
theorem W19_v14 (c : Dev nD) : W19 m c main_v14 = W4 m c main_v14 := (W19_of m c main_v14 (by decide)).trans (W18_v14 m c)
theorem W20_v14 (c : Dev nD) : W20 m c main_v14 = W4 m c main_v14 := (W20_of m c main_v14 (by decide)).trans (W19_v14 m c)
theorem W21_v14 (c : Dev nD) : W21 m c main_v14 = W4 m c main_v14 := (W21_of m c main_v14 (by decide)).trans (W20_v14 m c)
theorem W22_v14 (c : Dev nD) : W22 m c main_v14 = W4 m c main_v14 := (W22_of m c main_v14 (by decide)).trans (W21_v14 m c)
theorem W11_v43 (c : Dev nD) : W11 m c main_v43 = W10 m c main_v43 := W11_of m c main_v43 (by decide)
theorem W12_v43 (c : Dev nD) : W12 m c main_v43 = W10 m c main_v43 := (W12_of m c main_v43 (by decide)).trans (W11_v43 m c)
theorem W13_v43 (c : Dev nD) : W13 m c main_v43 = W10 m c main_v43 := (W13_of m c main_v43 (by decide)).trans (W12_v43 m c)
theorem W14_v43 (c : Dev nD) : W14 m c main_v43 = W10 m c main_v43 := (W14_of m c main_v43 (by decide)).trans (W13_v43 m c)
theorem W15_v43 (c : Dev nD) : W15 m c main_v43 = W10 m c main_v43 := (W15_of m c main_v43 (by decide)).trans (W14_v43 m c)
theorem W16_v43 (c : Dev nD) : W16 m c main_v43 = W10 m c main_v43 := (W16_of m c main_v43 (by decide)).trans (W15_v43 m c)
theorem W17_v43 (c : Dev nD) : W17 m c main_v43 = W10 m c main_v43 := (W17_of m c main_v43 (by decide)).trans (W16_v43 m c)
theorem W18_v43 (c : Dev nD) : W18 m c main_v43 = W10 m c main_v43 := (W18_of m c main_v43 (by decide)).trans (W17_v43 m c)
theorem W19_v43 (c : Dev nD) : W19 m c main_v43 = W10 m c main_v43 := (W19_of m c main_v43 (by decide)).trans (W18_v43 m c)
theorem W20_v43 (c : Dev nD) : W20 m c main_v43 = W10 m c main_v43 := (W20_of m c main_v43 (by decide)).trans (W19_v43 m c)
theorem W21_v43 (c : Dev nD) : W21 m c main_v43 = W10 m c main_v43 := (W21_of m c main_v43 (by decide)).trans (W20_v43 m c)
theorem W22_v43 (c : Dev nD) : W22 m c main_v43 = W10 m c main_v43 := (W22_of m c main_v43 (by decide)).trans (W21_v43 m c)
theorem W17_v72 (c : Dev nD) : W17 m c main_v72 = W16 m c main_v72 := W17_of m c main_v72 (by decide)
theorem W18_v72 (c : Dev nD) : W18 m c main_v72 = W16 m c main_v72 := (W18_of m c main_v72 (by decide)).trans (W17_v72 m c)
theorem W19_v72 (c : Dev nD) : W19 m c main_v72 = W16 m c main_v72 := (W19_of m c main_v72 (by decide)).trans (W18_v72 m c)
theorem W20_v72 (c : Dev nD) : W20 m c main_v72 = W16 m c main_v72 := (W20_of m c main_v72 (by decide)).trans (W19_v72 m c)
theorem W21_v72 (c : Dev nD) : W21 m c main_v72 = W16 m c main_v72 := (W21_of m c main_v72 (by decide)).trans (W20_v72 m c)
theorem W22_v72 (c : Dev nD) : W22 m c main_v72 = W16 m c main_v72 := (W22_of m c main_v72 (by decide)).trans (W21_v72 m c)

/-! ## The operand arrays of each region -/

/-- The input layer reads the node features, the input weights, and the bias as a `[1, 128]` row. -/
theorem in0_x (c : Dev nD) : W1 m c main_arg0 = m ((c.tc : Thread nD τ).loc main_arg0) := W1_arg0 m c
theorem in0_w (c : Dev nD) : W1 m c main_arg1 = m ((c.tc : Thread nD τ).loc main_arg1) := W1_arg1 m c
theorem in0_b (c : Dev nD) : W1 m c main_v0 = rowK (F := F) (m ((c.tc : Thread nD τ).loc main_arg2)) :=
  after0_row (F := F) (fun b => m (c, b))

/-- Layer 0's combine reads the propagation of the previous stage's output, the input layer's output, and the layer's weights. -/
theorem in1_msg (c : Dev nD) :
    W3 m c main_v11 = propagateK (F := F) (W2 m c main_v1) (m ((c.tc : Thread nD τ).loc main_arg8)) (m ((c.tc : Thread nD τ).loc main_arg9)) :=
  (after1_msg (F := F) (W2 m c)).trans (congrArg₂ (propagateK (W2 m c main_v1)) (W2_arg8 m c) (W2_arg9 m c))
theorem in1_x0 (c : Dev nD) : W3 m c main_v1 = W2 m c main_v1 := W3_v1 m c
theorem in1_w (c : Dev nD) :
    W3 m c main_v13 = convWeightK (F := F) 0 slices_S5x128x128_S1x128x128_0_0_0 (m ((c.tc : Thread nD τ).loc main_arg3)) :=
  (after1_w (F := F) (W2 m c)).trans (congrArg (convWeightK 0 slices_S5x128x128_S1x128x128_0_0_0) (W2_arg3 m c))

/-- Layer 0's normalisation reads the combine output and four `[1, 128]` rows: the column mean, the reciprocal
    square root of the column variance plus the small word, and row 0 of the scale and of the shift table. -/
theorem in2_z (c : Dev nD) : W7 m c main_v14 = W4 m c main_v14 := W7_v14 m c
theorem in2_mean (c : Dev nD) : W7 m c main_v26 = rowK (F := F) (colMeanK (W4 m c main_v14)) :=
  (after2_2_meanRow (F := F) (W6 m c)).trans
    (congrArg rowK ((W6_of m c main_v17 (by decide)).trans (after2_mean (F := F) (W4 m c))))
theorem in2_rstd (c : Dev nD) :
    W7 m c main_v27 = rowK (F := F) (rstdK (colVarK (W4 m c main_v14) (constantI S_ 32 0#32))) :=
  (after2_2_rstdRow (F := F) (W6 m c)).trans
    (congrArg (fun v => rowK (rstdK v))
      ((after2_1_var (F := F) (W5 m c)).trans (congrArg₂ colVarK (W5_v14 m c) (after2_ddof (F := F) (W4 m c)))))
theorem in2_scale (c : Dev nD) :
    W7 m c main_v28 = rowK (F := F) (rowOf4K 0 slices_S4x128_S1x128_0_0 (m ((c.tc : Thread nD τ).loc main_arg4))) :=
  (after2_2_scaleRow (F := F) (W6 m c)).trans
    (congrArg (fun g => rowK (rowOf4K 0 slices_S4x128_S1x128_0_0 g)) (W6_arg4 m c))
theorem in2_shift (c : Dev nD) :
    W7 m c main_v29 = rowK (F := F) (rowOf4K 0 slices_S4x128_S1x128_0_0 (m ((c.tc : Thread nD τ).loc main_arg5))) :=
  (after2_2_shiftRow (F := F) (W6 m c)).trans
    (congrArg (fun g => rowK (rowOf4K 0 slices_S4x128_S1x128_0_0 g)) (W6_arg5 m c))

/-- Layer 1's combine reads the propagation of the previous stage's output, the input layer's output, and the layer's weights. -/
theorem in3_msg (c : Dev nD) :
    W9 m c main_v40 = propagateK (F := F) (W8 m c main_v30) (m ((c.tc : Thread nD τ).loc main_arg8)) (m ((c.tc : Thread nD τ).loc main_arg9)) :=
  (after3_msg (F := F) (W8 m c)).trans (congrArg₂ (propagateK (W8 m c main_v30)) (W8_arg8 m c) (W8_arg9 m c))
theorem in3_x0 (c : Dev nD) : W9 m c main_v1 = W2 m c main_v1 := W9_v1 m c
theorem in3_w (c : Dev nD) :
    W9 m c main_v42 = convWeightK (F := F) 1 slices_S5x128x128_S1x128x128_1_0_0 (m ((c.tc : Thread nD τ).loc main_arg3)) :=
  (after3_w (F := F) (W8 m c)).trans (congrArg (convWeightK 1 slices_S5x128x128_S1x128x128_1_0_0) (W8_arg3 m c))

/-- Layer 1's normalisation reads the combine output and four `[1, 128]` rows: the column mean, the reciprocal
    square root of the column variance plus the small word, and row 1 of the scale and of the shift table. -/
theorem in4_z (c : Dev nD) : W13 m c main_v43 = W10 m c main_v43 := W13_v43 m c
theorem in4_mean (c : Dev nD) : W13 m c main_v55 = rowK (F := F) (colMeanK (W10 m c main_v43)) :=
  (after4_2_meanRow (F := F) (W12 m c)).trans
    (congrArg rowK ((W12_of m c main_v46 (by decide)).trans (after4_mean (F := F) (W10 m c))))
theorem in4_rstd (c : Dev nD) :
    W13 m c main_v56 = rowK (F := F) (rstdK (colVarK (W10 m c main_v43) (constantI S_ 32 0#32))) :=
  (after4_2_rstdRow (F := F) (W12 m c)).trans
    (congrArg (fun v => rowK (rstdK v))
      ((after4_1_var (F := F) (W11 m c)).trans (congrArg₂ colVarK (W11_v43 m c) (after4_ddof (F := F) (W10 m c)))))
theorem in4_scale (c : Dev nD) :
    W13 m c main_v57 = rowK (F := F) (rowOf4K 1 slices_S4x128_S1x128_1_0 (m ((c.tc : Thread nD τ).loc main_arg4))) :=
  (after4_2_scaleRow (F := F) (W12 m c)).trans
    (congrArg (fun g => rowK (rowOf4K 1 slices_S4x128_S1x128_1_0 g)) (W12_arg4 m c))
theorem in4_shift (c : Dev nD) :
    W13 m c main_v58 = rowK (F := F) (rowOf4K 1 slices_S4x128_S1x128_1_0 (m ((c.tc : Thread nD τ).loc main_arg5))) :=
  (after4_2_shiftRow (F := F) (W12 m c)).trans
    (congrArg (fun g => rowK (rowOf4K 1 slices_S4x128_S1x128_1_0 g)) (W12_arg5 m c))

/-- Layer 2's combine reads the propagation of the previous stage's output, the input layer's output, and the layer's weights. -/
theorem in5_msg (c : Dev nD) :
    W15 m c main_v69 = propagateK (F := F) (W14 m c main_v59) (m ((c.tc : Thread nD τ).loc main_arg8)) (m ((c.tc : Thread nD τ).loc main_arg9)) :=
  (after5_msg (F := F) (W14 m c)).trans (congrArg₂ (propagateK (W14 m c main_v59)) (W14_arg8 m c) (W14_arg9 m c))
theorem in5_x0 (c : Dev nD) : W15 m c main_v1 = W2 m c main_v1 := W15_v1 m c
theorem in5_w (c : Dev nD) :
    W15 m c main_v71 = convWeightK (F := F) 2 slices_S5x128x128_S1x128x128_2_0_0 (m ((c.tc : Thread nD τ).loc main_arg3)) :=
  (after5_w (F := F) (W14 m c)).trans (congrArg (convWeightK 2 slices_S5x128x128_S1x128x128_2_0_0) (W14_arg3 m c))

/-- Layer 2's normalisation reads the combine output and four `[1, 128]` rows: the column mean, the reciprocal
    square root of the column variance plus the small word, and row 2 of the scale and of the shift table. -/
theorem in6_z (c : Dev nD) : W19 m c main_v72 = W16 m c main_v72 := W19_v72 m c
theorem in6_mean (c : Dev nD) : W19 m c main_v84 = rowK (F := F) (colMeanK (W16 m c main_v72)) :=
  (after6_2_meanRow (F := F) (W18 m c)).trans
    (congrArg rowK ((W18_of m c main_v75 (by decide)).trans (after6_mean (F := F) (W16 m c))))
theorem in6_rstd (c : Dev nD) :
    W19 m c main_v85 = rowK (F := F) (rstdK (colVarK (W16 m c main_v72) (constantI S_ 32 0#32))) :=
  (after6_2_rstdRow (F := F) (W18 m c)).trans
    (congrArg (fun v => rowK (rstdK v))
      ((after6_1_var (F := F) (W17 m c)).trans (congrArg₂ colVarK (W17_v72 m c) (after6_ddof (F := F) (W16 m c)))))
theorem in6_scale (c : Dev nD) :
    W19 m c main_v86 = rowK (F := F) (rowOf4K 2 slices_S4x128_S1x128_2_0 (m ((c.tc : Thread nD τ).loc main_arg4))) :=
  (after6_2_scaleRow (F := F) (W18 m c)).trans
    (congrArg (fun g => rowK (rowOf4K 2 slices_S4x128_S1x128_2_0 g)) (W18_arg4 m c))
theorem in6_shift (c : Dev nD) :
    W19 m c main_v87 = rowK (F := F) (rowOf4K 2 slices_S4x128_S1x128_2_0 (m ((c.tc : Thread nD τ).loc main_arg5))) :=
  (after6_2_shiftRow (F := F) (W18 m c)).trans
    (congrArg (fun g => rowK (rowOf4K 2 slices_S4x128_S1x128_2_0 g)) (W18_arg5 m c))

/-- Layer 3's combine reads the propagation of the previous stage's output, the input layer's output, and the layer's weights. -/
theorem in7_msg (c : Dev nD) :
    W21 m c main_v98 = propagateK (F := F) (W20 m c main_v88) (m ((c.tc : Thread nD τ).loc main_arg8)) (m ((c.tc : Thread nD τ).loc main_arg9)) :=
  (after7_msg (F := F) (W20 m c)).trans (congrArg₂ (propagateK (W20 m c main_v88)) (W20_arg8 m c) (W20_arg9 m c))
theorem in7_x0 (c : Dev nD) : W21 m c main_v1 = W2 m c main_v1 := W21_v1 m c
theorem in7_w (c : Dev nD) :
    W21 m c main_v100 = convWeightK (F := F) 3 slices_S5x128x128_S1x128x128_3_0_0 (m ((c.tc : Thread nD τ).loc main_arg3)) :=
  (after7_w (F := F) (W20 m c)).trans (congrArg (convWeightK 3 slices_S5x128x128_S1x128x128_3_0_0) (W20_arg3 m c))

/-- The last projection reads the four combine outputs side by side, the projection weights, and its bias as a row. -/
theorem in8_c (c : Dev nD) :
    W23 m c main_v102
      = concat4K (F := F) (W4 m c main_v14) (W10 m c main_v43) (W16 m c main_v72) (W22 m c main_v101) := by
  refine (after8_concat (F := F) (W22 m c)).trans ?_
  rw [W22_v14 m c, W22_v43 m c, W22_v72 m c]
theorem in8_w (c : Dev nD) : W23 m c main_arg6 = m ((c.tc : Thread nD τ).loc main_arg6) := W23_arg6 m c
theorem in8_b (c : Dev nD) : W23 m c main_v103 = rowK (F := F) (m ((c.tc : Thread nD τ).loc main_arg7)) :=
  (after8_row (F := F) (W22 m c)).trans (congrArg rowK (W22_arg7 m c))

/-- Layer 4's combine reads the propagation of the previous stage's output, the input layer's output, and the layer's weights. -/
theorem in9_msg (c : Dev nD) :
    W25 m c main_v114 = propagateK (F := F) (W24 m c main_v104) (m ((c.tc : Thread nD τ).loc main_arg8)) (m ((c.tc : Thread nD τ).loc main_arg9)) :=
  (after9_msg (F := F) (W24 m c)).trans (congrArg₂ (propagateK (W24 m c main_v104)) (W24_arg8 m c) (W24_arg9 m c))
theorem in9_x0 (c : Dev nD) : W25 m c main_v1 = W2 m c main_v1 := W25_v1 m c
theorem in9_w (c : Dev nD) :
    W25 m c main_v116 = convWeightK (F := F) 4 slices_S5x128x128_S1x128x128_4_0_0 (m ((c.tc : Thread nD τ).loc main_arg3)) :=
  (after9_w (F := F) (W24 m c)).trans (congrArg (convWeightK 4 slices_S5x128x128_S1x128x128_4_0_0) (W24_arg3 m c))

end Cert.KernelIdeal.Values

end
-- ==== Proof.Values.HostKRef.lean ====
import proofs.«175281_j9964324127123_1_alg».proof.Proof.Values.HostKOps
import proofs.«175281_j9964324127123_1_alg».proof.Proof.Gen.ReferenceIdeal
import proofs.«175281_j9964324127123_1_alg».proof.Proof.Reference.Stages

/-!
# The host stages of the kernel program are the reference's stages

The kernel program and the reference apply the same whole-array operations between their dense steps. Their dimension
records (which axes a gather collapses, which a scatter inserts, which axis a sum removes, which rows a slice keeps) are
separate constants of the two programs with equal fields, so each named stage of the one is the stage of the other,
as functions of the arrays, without looking inside any array.
-/

noncomputable section

namespace Cert.KernelIdeal.Values

open Idealize.ShloMosaic
open Cert.KernelIdeal Cert.KernelIdeal.Gen

variable {F : FTy → Type} [FloatOps F]

/-- The edge propagation. -/
theorem propagateK_eq (z : FVec F S100000x128 .f32) (src dst : IVec S1600000 32) :
    propagateK z src dst = Cert.ReferenceIdeal.Hand.propagate z src dst := rfl

/-- A layer's weight matrix. -/
theorem convWeightK_eq (k : Nat) (hk : S5x128x128.Slices ![k, 0, 0] S1x128x128) (w : FVec F S5x128x128 .f32) :
    convWeightK k hk w = Cert.ReferenceIdeal.Hand.convWeight k hk w := rfl

/-- A row of a parameter table. -/
theorem rowOf4K_eq (k : Nat) (hk : S4x128.Slices ![k, 0] S1x128) (g : FVec F S4x128 .f32) :
    rowOf4K k hk g = Cert.ReferenceIdeal.Hand.rowOf4 k hk g := rfl

/-- The column means. -/
theorem colMeanK_eq (z : FVec F S100000x128 .f32) : colMeanK z = Cert.ReferenceIdeal.Hand.colMean z := rfl

/-- The column variances, no degree of freedom removed. -/
theorem colVarK_eq (z : FVec F S100000x128 .f32) :
    colVarK z (constantI S_ 32 0#32) = Cert.ReferenceIdeal.Hand.colVar z := rfl

/-- The reciprocal deviation is the one the reference's normalisation applies to the variance. -/
theorem rstdK_eq (v : FVec F S128 .f32) :
    rstdK v = Host.rsqrt (addf v (Cert.ReferenceIdeal.Hand.splatRow (F := F) 0x3727C5AC#32)) := rfl

/-- Four arrays side by side. -/
theorem concat4K_eq (a b c d : FVec F S100000x128 .f32) :
    concat4K a b c d = Cert.ReferenceIdeal.Hand.concat4 a b c d := rfl

end Cert.KernelIdeal.Values

end
-- ==== Proof.LibIndexOps.lean ====
import Idealize.ShloMosaic.PureOps.Ideal
import Idealize.ShloMosaic.PureOps.Ideal.Laws
import Idealize.ShloMosaic.Lib.ValueIdx
import Idealize.ShloMosaic.Lib.Pipeline.Value

/-!
# Host scatter-add, gather and concatenation read at an index, for flat arrays

For a flat array `x : [N]`, an integer array `idx : [M, 1]` and updates `upd : [M]`:
* `x.at[idx].add(upd)` at `n` is `x n` plus the sum of the `upd j` whose index word `idx[j, 0]`, read signed, is `n`
  (`scatterAddFlat_apply`; the one-column form `[N, 1]`, `[M, 1]`: `scatterAddCol_apply`);
* `x[idx]` at `j` is `x` at `idx[j, 0]` read signed and clamped into `[0, N − 1]` (`gatherFlat_apply`; whole rows of
  `x : [N, C]`: `gatherRows_apply`);
* a concatenation of two flat arrays at `j` is the first below its extent, else the second (`concatFlat_apply`), two
  one-column arrays side by side at `(n, c)` are the first in column 0 and the second in column 1
  (`concatCols_apply`), and a sum over `A + B` terms splits at `A` (`sum_fin_append`).
Each set of dimension numbers is an `abbrev` taking its conditions as a parameter, so a record with the same literal
lists is that `abbrev` by definition. No proof enumerates an extent.
-/

noncomputable section

open scoped BigOperators

namespace Cert.LibIndexOps

open Idealize.ShloMosaic Idealize.ShloMosaic.ValueIdx

/-! ## Sums over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## A scatter-add into a flat array: `x.at[idx].add(upd)` for `x : [N]`, `idx : [M, 1]`, `upd : [M]` -/

/-- The dimension numbers of a scatter of `M` scalar updates into a flat operand `[N]` at the scatter indices
    `[M, 1]`: no window axis, the operand's one axis inserted and named by the index vector's one component. -/
abbrev scatFlat (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- Update `j`'s window starts at its index word `idx[j, 0]`, read signed. -/
theorem scatFlat_start {N M w : Nat} (wf : ScatterDims.WF ⟨1, ![N]⟩ ⟨2, ![M, 1]⟩ ⟨1, ![M]⟩ [] [0] [0] 1)
    (idx : IVec ⟨2, ![M, 1]⟩ w) (j : Fin M) :
    (scatFlat N M wf).start (ix1 j) idx 0 = (idx (ix2 j 0)).toInt := by
  unfold ScatterDims.start
  rw [dif_pos (show (0 : Fin 1) ∈ (scatFlat N M wf).scatterDimsToOperandDims from List.mem_singleton.mpr rfl)]
  have hsi : (scatFlat N M wf).siIdx (ix1 j) ⟨List.idxOf (0 : Fin 1) (scatFlat N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- A scalar update has no window coordinate. -/
theorem scatFlat_window {N M : Nat} (wf : ScatterDims.WF ⟨1, ![N]⟩ ⟨2, ![M, 1]⟩ ⟨1, ![M]⟩ [] [0] [0] 1)
    (j : (⟨1, ![M]⟩ : Shape).Idx) : (scatFlat N M wf).window j 0 = 0 := by
  unfold ScatterDims.window
  rw [dif_neg]
  simp [ScatterDims.sKept, Shape.kept]

/-- Update `j` lands on element `n` exactly when its index word, read signed, is `n`. -/
theorem scatFlat_resultIdx_iff {N M w : Nat} (wf : ScatterDims.WF ⟨1, ![N]⟩ ⟨2, ![M, 1]⟩ ⟨1, ![M]⟩ [] [0] [0] 1)
    (idx : IVec ⟨2, ![M, 1]⟩ w) (j : Fin M) (n : Fin N) :
    (scatFlat N M wf).resultIdx? (ix1 j) idx = some (ix1 n) ↔ (idx (ix2 j 0)).toInt = (n.val : Int) := by
  have hs := scatFlat_start wf idx j
  have hw := scatFlat_window wf (ix1 j)
  unfold ScatterDims.resultIdx?
  split
  · next h =>
    have h0 := h 0
    rw [hs, hw] at h0
    rw [Option.some.injEq]
    constructor
    · intro e
      have e0 := congrArg (fun f => ((f 0).val : Nat)) e
      simp only [hs, hw] at e0
      change _ = n.val at e0
      omega
    · intro e
      funext a
      obtain rfl : a = 0 := Subsingleton.elim _ _
      refine Fin.ext ?_
      show ((scatFlat N M wf).start (ix1 j) idx 0 + ((scatFlat N M wf).window (ix1 j) 0 : Int)).toNat = n.val
      rw [hs, hw, e]; simp
  · next h =>
    constructor
    · intro e; cases e
    · intro e
      exfalso; apply h
      intro a
      obtain rfl : a = 0 := Subsingleton.elim _ _
      rw [hs, hw, e]
      have hn : (n.val : Int) < ((⟨1, ![N]⟩ : Shape).size 0 : Nat) := by
        have : n.val < N := n.isLt
        exact_mod_cast this
      constructor
      · simp
      · simpa using hn

/-- THE SCATTER-ADD READ AT `n`: the operand's element plus the sum of the updates whose index word, read signed, is
    `n`; an update whose word is negative or at least `N` lands on no element and is dropped. -/
theorem scatterAddFlat_apply {N M w : Nat} (wf : ScatterDims.WF ⟨1, ![N]⟩ ⟨2, ![M, 1]⟩ ⟨1, ![M]⟩ [] [0] [0] 1)
    (x : (⟨1, ![N]⟩ : Shape).Idx → EReal) (idx : IVec ⟨2, ![M, 1]⟩ w) (upd : (⟨1, ![M]⟩ : Shape).Idx → EReal)
    (n : Fin N) :
    Ideal.hostScatterAdd (scatFlat N M wf) x idx upd (ix1 n)
      = x (ix1 n) + ∑ j : Fin M, if (idx (ix2 j 0)).toInt = (n.val : Int) then upd (ix1 j) else 0 := by
  unfold Ideal.hostScatterAdd
  congr 1
  rw [Finset.sum_filter, sum_idx1]
  refine Finset.sum_congr rfl fun j _ => ?_
  exact if_congr (scatFlat_resultIdx_iff wf idx j n) rfl rfl

/-! ## A gather from a flat array: `x[idx]` for `x : [N]`, `idx : [M, 1]` -/

/-- The dimension numbers of a gather of `M` scalars out of a flat operand `[N]` at the start indices `[M, 1]`:
    no offset axis, the operand's one axis collapsed (slice size 1) and named by the index vector's one component. -/
abbrev gathFlat (N M : Nat) (wf : GatherDims.WF ⟨1, ![N]⟩ ⟨2, ![M, 1]⟩ ⟨1, ![M]⟩ [] [0] [] [0] [] 1 ![1]) :
    GatherDims ⟨1, ![N]⟩ ⟨2, ![M, 1]⟩ ⟨1, ![M]⟩ where
  offsetDims := []
  collapsedSliceDims := [0]
  operandBatchingDims := []
  startIndicesBatchingDims := []
  startIndexMap := [0]
  indexVectorDim := 1
  sliceSizes := ![1]
  wf := wf

/-- THE GATHER READ AT `j`: the operand at the start index `idx[j, 0]`, read signed and clamped into `[0, N − 1]`. -/
theorem gatherFlat_apply {α : Type} {N M w : Nat} (hN : 0 < N)
    (wf : GatherDims.WF ⟨1, ![N]⟩ ⟨2, ![M, 1]⟩ ⟨1, ![M]⟩ [] [0] [] [0] [] 1 ![1])
    (x : (⟨1, ![N]⟩ : Shape).Idx → α) (idx : IVec ⟨2, ![M, 1]⟩ w) (j : Fin M) :
    Host.gather (gathFlat N M wf) x idx (ix1 j)
      = x (ix1 ⟨min (idx (ix2 j 0)).toInt.toNat (N - 1), by omega⟩) := by
  unfold Host.gather
  congr 1
  funext a
  obtain rfl : a = 0 := Subsingleton.elim _ _
  refine Fin.ext ?_
  show (gathFlat N M wf).start (ix1 j) idx 0 + (gathFlat N M wf).batchCoord (ix1 j) 0
    + (gathFlat N M wf).offCoord (ix1 j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (gathFlat N M wf).startIndexMap from List.mem_singleton.mpr rfl)]
  have hsi : (gathFlat N M wf).siIdx (ix1 j) ⟨List.idxOf (0 : Fin 1) (gathFlat N M wf).startIndexMap,
      List.idxOf_lt_length_iff.2 (List.mem_singleton.mpr rfl)⟩ = ix2 j 0 := by
    funext b; refine Fin.ext ?_
    match b with
    | ⟨0, _⟩ => rfl
    | ⟨1, _⟩ => rfl
  rw [hsi]
  rfl

/-! ## A scatter-add into a one-column array: `x.at[idx].add(upd)` for `x : [N, 1]`, `idx : [M, 1]`, `upd : [M, 1]` -/

/-- The dimension numbers of a scatter of `M` one-element rows into an operand `[N, 1]` at the scatter indices
    `[M, 1]`: the updates' axis 1 is the window axis (onto the operand's axis 1), the operand's axis 0 is inserted
    and named by the index vector's one component. -/
abbrev scatCol (N M : Nat) (wf : ScatterDims.WF ⟨2, ![N, 1]⟩ ⟨2, ![M, 1]⟩ ⟨2, ![M, 1]⟩ [1] [0] [0] 1) :
    ScatterDims ⟨2, ![N, 1]⟩ ⟨2, ![M, 1]⟩ ⟨2, ![M, 1]⟩ where
  updateWindowDims := [1]
  insertedWindowDims := [0]
  scatterDimsToOperandDims := [0]
  indexVectorDim := 1
  wf := wf

/-- On the row axis update `(j, 0)`'s window starts at its index word `idx[j, 0]`, read signed. -/
theorem scatCol_start0 {N M w : Nat} (wf : ScatterDims.WF ⟨2, ![N, 1]⟩ ⟨2, ![M, 1]⟩ ⟨2, ![M, 1]⟩ [1] [0] [0] 1)
    (idx : IVec ⟨2, ![M, 1]⟩ w) (j : Fin M) :
    (scatCol N M wf).start (ix2 j 0) idx 0 = (idx (ix2 j 0)).toInt := by
  unfold ScatterDims.start
  rw [dif_pos (show (0 : Fin 2) ∈ (scatCol N M wf).scatterDimsToOperandDims from List.mem_singleton.mpr rfl)]
  have hsi : (scatCol N M wf).siIdx (ix2 j 0) ⟨List.idxOf (0 : Fin 2) (scatCol N M wf).scatterDimsToOperandDims,
      List.idxOf_lt_length_iff.2 (List.mem_singleton.mpr rfl)⟩ = ix2 j 0 := by
    funext b; refine Fin.ext ?_
    match b with
    | ⟨0, _⟩ => rfl
    | ⟨1, _⟩ => rfl
  rw [hsi]

/-- On the column axis, which the index vector does not name, the window starts at 0. -/
theorem scatCol_start1 {N M w : Nat} (wf : ScatterDims.WF ⟨2, ![N, 1]⟩ ⟨2, ![M, 1]⟩ ⟨2, ![M, 1]⟩ [1] [0] [0] 1)
    (idx : IVec ⟨2, ![M, 1]⟩ w) (j : (⟨2, ![M, 1]⟩ : Shape).Idx) :
    (scatCol N M wf).start j idx 1 = 0 := by
  unfold ScatterDims.start
  rw [dif_neg]
  simp

/-- The row axis is inserted: no window coordinate there. -/
theorem scatCol_window0 {N M : Nat} (wf : ScatterDims.WF ⟨2, ![N, 1]⟩ ⟨2, ![M, 1]⟩ ⟨2, ![M, 1]⟩ [1] [0] [0] 1)
    (j : (⟨2, ![M, 1]⟩ : Shape).Idx) : (scatCol N M wf).window j 0 = 0 := by
  unfold ScatterDims.window
  rw [dif_neg]
  simp [ScatterDims.sKept, Shape.kept]

/-- The column axis has extent 1: the window coordinate there is 0. -/
theorem scatCol_window1 {N M : Nat} (wf : ScatterDims.WF ⟨2, ![N, 1]⟩ ⟨2, ![M, 1]⟩ ⟨2, ![M, 1]⟩ [1] [0] [0] 1)
    (j : Fin M) : (scatCol N M wf).window (ix2 j 0) 1 = 0 := by
  unfold ScatterDims.window
  split
  · rfl
  · rfl

/-- Update `(j, 0)` lands on element `(n, 0)` exactly when its index word, read signed, is `n`. -/
theorem scatCol_resultIdx_iff {N M w : Nat} (wf : ScatterDims.WF ⟨2, ![N, 1]⟩ ⟨2, ![M, 1]⟩ ⟨2, ![M, 1]⟩ [1] [0] [0] 1)
    (idx : IVec ⟨2, ![M, 1]⟩ w) (j : Fin M) (n : Fin N) :
    (scatCol N M wf).resultIdx? (ix2 j 0) idx = some (ix2 n 0) ↔ (idx (ix2 j 0)).toInt = (n.val : Int) := by
  have hs0 := scatCol_start0 wf idx j
  have hs1 := scatCol_start1 wf idx (ix2 j 0)
  have hw0 := scatCol_window0 wf (ix2 j 0)
  have hw1 := scatCol_window1 wf j
  unfold ScatterDims.resultIdx?
  split
  · next h =>
    have h0 := h 0
    rw [hs0, hw0] at h0
    rw [Option.some.injEq]
    constructor
    · intro e
      have e0 := congrArg (fun f => ((f 0).val : Nat)) e
      simp only [hs0, hw0] at e0
      change _ = n.val at e0
      omega
    · intro e
      funext a
      revert a
      refine Fin.forall_fin_two.2 ⟨?_, ?_⟩
      · refine Fin.ext ?_
        show ((scatCol N M wf).start (ix2 j 0) idx 0 + ((scatCol N M wf).window (ix2 j 0) 0 : Int)).toNat = n.val
        rw [hs0, hw0, e]; simp
      · refine Fin.ext ?_
        show ((scatCol N M wf).start (ix2 j 0) idx 1 + ((scatCol N M wf).window (ix2 j 0) 1 : Int)).toNat = 0
        rw [hs1, hw1]; rfl
  · next h =>
    constructor
    · intro e; cases e
    · intro e
      exfalso; apply h
      refine Fin.forall_fin_two.2 ⟨?_, ?_⟩
      · rw [hs0, hw0, e]
        have hn : (n.val : Int) < ((⟨2, ![N, 1]⟩ : Shape).size 0 : Nat) := by
          have : n.val < N := n.isLt
          exact_mod_cast this
        constructor
        · simp
        · simpa using hn
      · rw [hs1, hw1]
        refine ⟨by simp, ?_⟩
        show (0 : Int) + ((0 : Nat) : Int) < ((1 : Nat) : Int)
        simp

/-- THE SCATTER-ADD READ AT `(n, 0)`: the operand's element plus the sum of the updates whose index word, read
    signed, is `n`; an update whose word is negative or at least `N` lands on no element and is dropped. -/
theorem scatterAddCol_apply {N M w : Nat} (wf : ScatterDims.WF ⟨2, ![N, 1]⟩ ⟨2, ![M, 1]⟩ ⟨2, ![M, 1]⟩ [1] [0] [0] 1)
    (x : (⟨2, ![N, 1]⟩ : Shape).Idx → EReal) (idx : IVec ⟨2, ![M, 1]⟩ w) (upd : (⟨2, ![M, 1]⟩ : Shape).Idx → EReal)
    (n : Fin N) :
    Ideal.hostScatterAdd (scatCol N M wf) x idx upd (ix2 n 0)
      = x (ix2 n 0) + ∑ j : Fin M, if (idx (ix2 j 0)).toInt = (n.val : Int) then upd (ix2 j 0) else 0 := by
  unfold Ideal.hostScatterAdd
  congr 1
  rw [Finset.sum_filter, sum_idx2]
  refine Finset.sum_congr rfl fun j _ => ?_
  rw [Fin.sum_univ_one]
  exact if_congr (scatCol_resultIdx_iff wf idx j n) rfl rfl

/-! ## A gather of rows: `x[idx]` for `x : [N, C]`, `idx : [M, 1]` -/

/-- The dimension numbers of a gather of `M` whole rows out of an operand `[N, C]` at the start indices `[M, 1]`:
    the result's axis 1 is the offset axis (the operand's axis 1, slice size `C`), the operand's axis 0 is collapsed
    (slice size 1) and named by the index vector's one component. -/
abbrev gathRows (N C M : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(j, c)`: column `c` of the operand's row at the start index `idx[j, 0]`, read signed and
    clamped into `[0, N − 1]`. -/
theorem gatherRows_apply {α : Type} {N C M w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (j : Fin M) (c : Fin C) :
    Host.gather (gathRows N C M wf) x idx (ix2 j c)
      = x (ix2 ⟨min (idx (ix2 j 0)).toInt.toNat (N - 1), by omega⟩ c) := by
  unfold Host.gather
  congr 1
  funext a
  revert a
  refine Fin.forall_fin_two.2 ⟨?_, ?_⟩
  · refine Fin.ext ?_
    show (gathRows N C M wf).start (ix2 j c) idx 0 + (gathRows N C M wf).batchCoord (ix2 j c) 0
      + (gathRows N C M wf).offCoord (ix2 j c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gathRows N C M wf).startIndexMap from List.mem_singleton.mpr rfl)]
    have hsi : (gathRows N C M wf).siIdx (ix2 j c) ⟨List.idxOf (0 : Fin 2) (gathRows N C M wf).startIndexMap,
        List.idxOf_lt_length_iff.2 (List.mem_singleton.mpr rfl)⟩ = ix2 j 0 := by
      funext b; refine Fin.ext ?_
      match b with
      | ⟨0, _⟩ => rfl
      | ⟨1, _⟩ => rfl
    rw [hsi]
    rfl
  · refine Fin.ext ?_
    show (gathRows N C M wf).start (ix2 j c) idx 1 + (gathRows N C M wf).batchCoord (ix2 j c) 1
      + (gathRows N C M wf).offCoord (ix2 j c) 1 = c.val
    rw [GatherDims.batchCoord_eq_zero _ _ _ List.not_mem_nil]
    have hst : (gathRows N C M wf).start (ix2 j c) idx 1 = 0 := by
      unfold GatherDims.start
      rw [dif_neg]
      simp
    have hoff : (gathRows N C M wf).offCoord (ix2 j c) 1 = c.val := by
      unfold GatherDims.offCoord
      split
      · rfl
      · next h => exact absurd ((GatherDims.mem_sKept _ _).2 ⟨by simp, List.not_mem_nil⟩) h
    rw [hst, hoff]
    simp

/-! ## Concatenations at an index, and a sum over a concatenated range -/

/-- The extents of two flat pieces laid end to end add up to the whole's. -/
theorem concatFlat_total {A B T : Nat} (h : Shape.Concatenates [⟨1, ![A]⟩, ⟨1, ![B]⟩] ⟨1, ![T]⟩ 0) : A + B = T := by
  have e : A + (B + 0) = T := h.2.2
  omega

/-- A CONCATENATION OF TWO FLAT ARRAYS READ AT `j`: the first piece at `j` below its extent `A`, else the second
    piece at `j − A`. -/
theorem concatFlat_apply {α : Type} (A B T : Nat) (a : (⟨1, ![A]⟩ : Shape).Idx → α) (b : (⟨1, ![B]⟩ : Shape).Idx → α)
    (h : Shape.Concatenates [⟨1, ![A]⟩, ⟨1, ![B]⟩] ⟨1, ![T]⟩ 0) (j : Fin T) :
    concatenate ⟨1, ![T]⟩ 0 [⟨⟨1, ![A]⟩, a⟩, ⟨⟨1, ![B]⟩, b⟩] h (ix1 j)
      = if hj : j.val < A then a (ix1 ⟨j.val, hj⟩)
        else b (ix1 ⟨j.val - A, by have := concatFlat_total h; have := j.isLt; omega⟩) := by
  by_cases hj : j.val < A
  · rw [dif_pos hj]
    refine concatenate_pair_apply_left 0 a b h (ix1 j) rfl (ix1 ⟨j.val, hj⟩) (fun k => ?_)
    obtain rfl : k = 0 := Subsingleton.elim _ _
    rfl
  · rw [dif_neg hj]
    refine concatenate_pair_apply_right 0 a b h (ix1 j) rfl rfl (ix1 ⟨j.val - A, _⟩)
      (fun k hk => absurd (Subsingleton.elim _ _) hk) ?_
    show j.val - A + A = j.val
    omega

/-- A sum over a range of `A + B` terms is the sum over the first `A` plus the sum over the last `B`. -/
theorem sum_fin_append (A B T : Nat) (hT : A + B = T) (f : Fin T → EReal) :
    ∑ j : Fin T, f j = ∑ j : Fin A, f ⟨j.val, by omega⟩ + ∑ n : Fin B, f ⟨A + n.val, by omega⟩ := by
  subst hT
  rw [Fin.sum_univ_add]
  rfl

/-- A CONCATENATION OF TWO ONE-COLUMN ARRAYS SIDE BY SIDE READ AT `(n, c)`: the first piece's row `n` in column 0,
    the second piece's in column 1. -/
theorem concatCols_apply {α : Type} (N : Nat) (a b : (⟨2, ![N, 1]⟩ : Shape).Idx → α)
    (h : Shape.Concatenates [⟨2, ![N, 1]⟩, ⟨2, ![N, 1]⟩] ⟨2, ![N, 2]⟩ 1) (n : Fin N) (c : Fin 2) :
    concatenate ⟨2, ![N, 2]⟩ 1 [⟨⟨2, ![N, 1]⟩, a⟩, ⟨⟨2, ![N, 1]⟩, b⟩] h (ix2 n c)
      = if c.val = 0 then a (ix2 n 0) else b (ix2 n 0) := by
  revert c
  refine Fin.forall_fin_two.2 ⟨?_, ?_⟩
  · rw [if_pos (show ((0 : Fin 2).val = 0) from rfl)]
    exact concatenate_pair_apply_left 1 a b h (ix2 n 0) rfl (ix2 n 0) (Fin.forall_fin_two.2 ⟨rfl, rfl⟩)
  · rw [if_neg (show ¬ ((1 : Fin 2).val = 0) by decide)]
    exact concatenate_pair_apply_right 1 a b h (ix2 n 1) rfl rfl (ix2 n 0)
      (Fin.forall_fin_two.2 ⟨fun _ => rfl, fun hk => absurd rfl hk⟩) rfl

/-! ## The lemmas instantiated at extents of tens of millions -/

/-- A record spelt with the literal lists and its own conditions is, by definition, `scatFlat` at those conditions. -/
example (wf : ScatterDims.WF ⟨1, ![5000000]⟩ ⟨2, ![85000000, 1]⟩ ⟨1, ![85000000]⟩ [] [0] [0] 1) :
    ({ updateWindowDims := [], insertedWindowDims := [0], scatterDimsToOperandDims := [0], indexVectorDim := 1,
       wf := wf } : ScatterDims ⟨1, ![5000000]⟩ ⟨2, ![85000000, 1]⟩ ⟨1, ![85000000]⟩)
      = scatFlat 5000000 85000000 wf := rfl

/-- The scatter-add read at 5 000 000 nodes and 85 000 000 updates. -/
example (wf : ScatterDims.WF ⟨1, ![5000000]⟩ ⟨2, ![85000000, 1]⟩ ⟨1, ![85000000]⟩ [] [0] [0] 1)
    (x : (⟨1, ![5000000]⟩ : Shape).Idx → EReal) (idx : IVec ⟨2, ![85000000, 1]⟩ 32)
    (upd : (⟨1, ![85000000]⟩ : Shape).Idx → EReal) (n : Fin 5000000) :
    Ideal.hostScatterAdd (scatFlat 5000000 85000000 wf) x idx upd (ix1 n)
      = x (ix1 n) + ∑ j : Fin 85000000, if (idx (ix2 j 0)).toInt = (n.val : Int) then upd (ix1 j) else 0 :=
  scatterAddFlat_apply wf x idx upd n

/-- The gather read at 5 000 000 nodes and 85 000 000 start indices. -/
example (wf : GatherDims.WF ⟨1, ![5000000]⟩ ⟨2, ![85000000, 1]⟩ ⟨1, ![85000000]⟩ [] [0] [] [0] [] 1 ![1])
    (x : (⟨1, ![5000000]⟩ : Shape).Idx → EReal) (idx : IVec ⟨2, ![85000000, 1]⟩ 32) (j : Fin 85000000) :
    Host.gather (gathFlat 5000000 85000000 wf) x idx (ix1 j)
      = x (ix1 ⟨min (idx (ix2 j 0)).toInt.toNat (5000000 - 1), by omega⟩) :=
  gatherFlat_apply (by norm_num) wf x idx j

/-- The sum over 85 000 000 terms split at 80 000 000. -/
example (f : Fin 85000000 → EReal) :
    ∑ j : Fin 85000000, f j
      = ∑ j : Fin 80000000, f ⟨j.val, by omega⟩ + ∑ n : Fin 5000000, f ⟨80000000 + n.val, by omega⟩ :=
  sum_fin_append 80000000 5000000 85000000 (by norm_num) f

end Cert.LibIndexOps

end
-- ==== Proof.LibMatmulRows.lean ====
import Idealize.ShloMosaic.PureOps.Ideal
import Idealize.ShloMosaic.PureOps.Ideal.Laws
import Idealize.ShloMosaic.Lib.ValueIdx
import Idealize.ShloMosaic.Lib.Pipeline.Value
import proofs.«175281_j9964324127123_1_alg».proof.Proof.LibIndexOps

/-!
# A rows-by-columns product read at an index, and a row gather through it

For `A : [N, K]` and `B : [K, M]` over the extended reals, `mmRows A B` is the array `[N, M]` whose entry `(n, c)` is
`∑ k, A (n, k) * B (k, c)`. With the dimension numbers of a plain product (the left operand's axis 1 contracted with the
right operand's axis 0, no batch axis):
* a `tpu.matmul` into the zero accumulator is `mmRows` of its operands (`matmulRows_eq`), whatever their formats;
* the host's `dot_general` is `mmRows` of its operands (`dotGeneralRows_eq`);
* gathering whole rows of a product is the product of the gathered rows (`gatherRows_mmRows`): row `j` of the result
  only reads row `idx j` of the left operand;
* a block of rows of a product is the product of that block of rows (`mmRows_rows`).
The dimension numbers are an `abbrev` taking their conditions as a parameter, so a record with the same literal lists is
that `abbrev` by definition. No proof enumerates an extent.
-/

noncomputable section

open scoped BigOperators

namespace Cert.LibMatmulRows

open Idealize.ShloMosaic Idealize.ShloMosaic.ValueIdx Cert.LibIndexOps

/-- The dimension numbers of `[N, K] × [K, M] → [N, M]`: axis 1 of the left operand contracted with axis 0 of the right. -/
abbrev dotRows (N K M : Nat) (wf : DotDims.WF ⟨2, ![N, K]⟩ ⟨2, ![K, M]⟩ ⟨2, ![N, M]⟩ [1] [0] [0] [1] [] []) :
    DotDims ⟨2, ![N, K]⟩ ⟨2, ![K, M]⟩ ⟨2, ![N, M]⟩ where
  lhsContracting := [1]
  rhsContracting := [0]
  lhsNonContracting := [0]
  rhsNonContracting := [1]
  lhsBatch := []
  rhsBatch := []
  wf := wf

/-- The product of `A : [N, K]` and `B : [K, M]`, entry by entry. -/
def mmRows {N K M : Nat} (A : (⟨2, ![N, K]⟩ : Shape).Idx → EReal) (B : (⟨2, ![K, M]⟩ : Shape).Idx → EReal) :
    (⟨2, ![N, M]⟩ : Shape).Idx → EReal :=
  fun i => ∑ k : Fin K, A (ix2 (n0 := N) (n1 := K) (i 0) k) * B (ix2 (n0 := K) (n1 := M) k (i 1))

theorem mmRows_apply {N K M : Nat} (A : (⟨2, ![N, K]⟩ : Shape).Idx → EReal) (B : (⟨2, ![K, M]⟩ : Shape).Idx → EReal)
    (n : Fin N) (c : Fin M) : mmRows A B (ix2 n c) = ∑ k : Fin K, A (ix2 n k) * B (ix2 k c) := rfl

section Dims
variable {N K M : Nat} (wf : DotDims.WF ⟨2, ![N, K]⟩ ⟨2, ![K, M]⟩ ⟨2, ![N, M]⟩ [1] [0] [0] [1] [] [])

/-- The left operand's row is the result's row. -/
theorem dotRows_lhs0 (j : (⟨2, ![N, M]⟩ : Shape).Idx) (q : (dotRows N K M wf).contr.Idx) :
    ((dotRows N K M wf).lhsIdx j q 0).val = (j 0).val := by
  unfold DotDims.lhsIdx
  rw [dif_neg (show ¬(0 : Fin 2) ∈ (dotRows N K M wf).lhsBatch from List.not_mem_nil),
    dif_pos (show (0 : Fin 2) ∈ (dotRows N K M wf).lhsNonContracting from List.mem_singleton.mpr rfl)]
  rfl

/-- The left operand's column is the contraction coordinate. -/
theorem dotRows_lhs1 (j : (⟨2, ![N, M]⟩ : Shape).Idx) (q : (dotRows N K M wf).contr.Idx) :
    ((dotRows N K M wf).lhsIdx j q 1).val = (q ⟨0, by rw [DotDims.rank_contr]; exact Nat.one_pos⟩).val :=
  (dotRows N K M wf).lhsIdx_val_of_single rfl j q

/-- The right operand's row is the contraction coordinate. -/
theorem dotRows_rhs0 (j : (⟨2, ![N, M]⟩ : Shape).Idx) (q : (dotRows N K M wf).contr.Idx) :
    ((dotRows N K M wf).rhsIdx j q 0).val = (q ⟨0, by rw [DotDims.rank_contr]; exact Nat.one_pos⟩).val :=
  (dotRows N K M wf).rhsIdx_val_of_single rfl j q

/-- The right operand's column is the result's column. -/
theorem dotRows_rhs1 (j : (⟨2, ![N, M]⟩ : Shape).Idx) (q : (dotRows N K M wf).contr.Idx) :
    ((dotRows N K M wf).rhsIdx j q 1).val = (j 1).val := by
  unfold DotDims.rhsIdx
  rw [dif_neg (show ¬(1 : Fin 2) ∈ (dotRows N K M wf).rhsBatch from List.not_mem_nil),
    dif_pos (show (1 : Fin 2) ∈ (dotRows N K M wf).rhsNonContracting from List.mem_singleton.mpr rfl)]
  rfl

/-- The contraction's sum over its one-axis index set is the sum over `k : Fin K` of row times column. -/
theorem sum_contr_dotRows (L : (⟨2, ![N, K]⟩ : Shape).Idx → EReal) (R : (⟨2, ![K, M]⟩ : Shape).Idx → EReal)
    (j : (⟨2, ![N, M]⟩ : Shape).Idx) :
    ∑ q : (dotRows N K M wf).contr.Idx, L ((dotRows N K M wf).lhsIdx j q) * R ((dotRows N K M wf).rhsIdx j q)
      = mmRows L R j := by
  unfold mmRows
  rw [← Equiv.sum_comp (contrEquiv1 (dotRows N K M wf) K rfl rfl).symm]
  refine Finset.sum_congr rfl fun k _ => ?_
  have hk := contrEquiv1_symm_val (dotRows N K M wf) K rfl rfl k
  have el : (dotRows N K M wf).lhsIdx j ((contrEquiv1 (dotRows N K M wf) K rfl rfl).symm k) = ix2 (n0 := N) (n1 := K) (j 0) k :=
    funext fun a => Fin.ext (by
      match a with
      | ⟨0, _⟩ => exact dotRows_lhs0 wf _ _
      | ⟨1, _⟩ => exact (dotRows_lhs1 wf _ _).trans hk)
  have er : (dotRows N K M wf).rhsIdx j ((contrEquiv1 (dotRows N K M wf) K rfl rfl).symm k) = ix2 (n0 := K) (n1 := M) k (j 1) :=
    funext fun a => Fin.ext (by
      match a with
      | ⟨0, _⟩ => exact (dotRows_rhs0 wf _ _).trans hk
      | ⟨1, _⟩ => exact dotRows_rhs1 wf _ _)
  rw [el, er]
  try rfl

/-- A `tpu.matmul` into the zero accumulator IS the product of its operands, whatever their float formats. -/
theorem matmulRows_eq {φ₁ φ₂ : FTy} (prec : Option ContractPrecision)
    (lhs : FVec Ideal ⟨2, ![N, K]⟩ φ₁) (rhs : FVec Ideal ⟨2, ![K, M]⟩ φ₂) :
    FloatOps.matmul (dotRows N K M wf) prec lhs rhs (constant (F := Ideal) ⟨2, ![N, M]⟩ .f32 0x00000000#32)
      = mmRows lhs rhs := by
  funext j
  rw [Ideal.matmul_constant_zero_apply]
  exact sum_contr_dotRows wf lhs rhs j

/-- The host's `dot_general` IS the product of its operands, whatever the schedule key. -/
theorem dotGeneralRows_eq {φ₁ φ₂ : FTy} (prec : Option ContractPrecision) (sched : HostSchedule)
    (lhs : FVec Ideal ⟨2, ![N, K]⟩ φ₁) (rhs : FVec Ideal ⟨2, ![K, M]⟩ φ₂) :
    FloatOps.dotGeneral (dotRows N K M wf) prec sched lhs rhs = mmRows lhs rhs := by
  funext j
  rw [Ideal.dotGeneral_apply]
  exact sum_contr_dotRows wf lhs rhs j

end Dims

/-- GATHERING ROWS OF A PRODUCT: row `j` of `(H · W)[idx]` is row `idx j` of `H` times `W`, that is row `j` of
    `H[idx] · W`. -/
theorem gatherRows_mmRows {N K C E w : Nat} (hN : 0 < N)
    (wfC : GatherDims.WF ⟨2, ![N, C]⟩ ⟨2, ![E, 1]⟩ ⟨2, ![E, C]⟩ [1] [0] [] [0] [] 1 ![1, C])
    (wfK : GatherDims.WF ⟨2, ![N, K]⟩ ⟨2, ![E, 1]⟩ ⟨2, ![E, K]⟩ [1] [0] [] [0] [] 1 ![1, K])
    (H : (⟨2, ![N, K]⟩ : Shape).Idx → EReal) (W : (⟨2, ![K, C]⟩ : Shape).Idx → EReal) (idx : IVec ⟨2, ![E, 1]⟩ w) :
    Host.gather (gathRows N C E wfC) (mmRows H W) idx = mmRows (Host.gather (gathRows N K E wfK) H idx) W := by
  funext i
  obtain ⟨e, c, rfl⟩ : ∃ (e : Fin E) (c : Fin C), i = ix2 e c := ⟨i 0, i 1, eq_ix2 i⟩
  rw [gatherRows_apply hN wfC, mmRows_apply, mmRows_apply]
  refine Finset.sum_congr rfl fun k _ => ?_
  rw [gatherRows_apply hN wfK]

end Cert.LibMatmulRows

end
-- ==== Proof.Values.Payloads.lean ====
import proofs.«175281_j9964324127123_1_alg».proof.Proof.Gen.KernelIdeal.Skeleton
import proofs.«175281_j9964324127123_1_alg».proof.Proof.LibMatmulRows
import Idealize.ShloMosaic.Lib.ValueLayout

/-!
# What each kernel body computes, entry by entry, over the extended reals

The ten kernel bodies are of four kinds. Each works on a tile of rows and every entry `(p, q)` of its result reads its
row-tiled operands in row `p` only; the small operands (a weight matrix, a `[1, 128]` row) are read whole. So each kind
is written once as a function of arrays with ANY number `n` of rows, and a body is that function at `n = 5000`:

* `linInRows x w b`: entry `(p, q)` is `∑ k, x (p, k) * w (k, q) + b (0, q)` (128 terms);
* `combineRows cA cB msg x0 w`: with `h (p, q) = c9 * msg (p, q) + c1 * x0 (p, q)` (`mixAt`; `c9`, `c1` the two words every
  layer shares), entry `(p, q)` is `cA * h (p, q) + cB * ∑ k, h (p, k) * w (k, q)`; `cA`, `cB` are the layer's two words;
* `bnReluRows z mu s g be`: entry `(p, q)` is `max (((z (p, q) - mu (0, q)) * s (0, q)) * g (0, q) + be (0, q)) zero`,
  `zero` the zero word's value;
* `jkRows c w b`: entry `(p, q)` is `∑ k, c (p, k) * w (k, q) + b (0, q)` (512 terms).

Over the extended reals a change of float format is the identity, a cast to the same shape is the identity, a product
into the zero accumulator is the rows-by-columns product, and a `[1, 128]` row broadcast over the rows reads its column.
No literal word is evaluated.
-/

noncomputable section

open scoped BigOperators

namespace Cert.KernelIdeal.Values

open Idealize.ShloMosaic Idealize.ShloMosaic.ValueIdx Cert.KernelIdeal Cert.KernelIdeal.Gen Cert.LibMatmulRows

/-! ## The four kinds, for any number of rows -/

/-- The input layer: a 128-deep product with the weight matrix plus the bias row. -/
def linInRows {n : Nat} (x : (⟨2, ![n, 128]⟩ : Shape).Idx → EReal) (w : (⟨2, ![128, 128]⟩ : Shape).Idx → EReal)
    (b : (⟨2, ![1, 128]⟩ : Shape).Idx → EReal) : (⟨2, ![n, 128]⟩ : Shape).Idx → EReal :=
  fun i => (∑ k : Fin 128, x (ix2 (n0 := n) (n1 := 128) (i 0) k) * w (ix2 (n0 := 128) (n1 := 128) k (i 1)))
    + b (ix2 (n0 := 1) (n1 := 128) (0 : Fin 1) (i 1))

theorem linInRows_apply {n : Nat} (x : (⟨2, ![n, 128]⟩ : Shape).Idx → EReal) (w : (⟨2, ![128, 128]⟩ : Shape).Idx → EReal)
    (b : (⟨2, ![1, 128]⟩ : Shape).Idx → EReal) (p : Fin n) (q : Fin 128) :
    linInRows x w b (ix2 p q) = (∑ k : Fin 128, x (ix2 p k) * w (ix2 k q)) + b (ix2 (0 : Fin 1) q) := rfl

/-- The initial-residual mix `c9 * msg + c1 * x0` at entry `(p, q)`; the two words are the same in every layer. -/
def mixAt {n : Nat} (msg x0 : (⟨2, ![n, 128]⟩ : Shape).Idx → EReal) (p : Fin n) (q : Fin 128) : EReal :=
  Ideal.ofBits .f32 0x3F666666#32 * msg (ix2 p q) + Ideal.ofBits .f32 0x3DCCCCCD#32 * x0 (ix2 p q)

/-- The layer combine: `cA * h + cB * (h · w)` with `h` the mix. -/
def combineRows {n : Nat} (cA cB : EReal) (msg x0 : (⟨2, ![n, 128]⟩ : Shape).Idx → EReal)
    (w : (⟨2, ![128, 128]⟩ : Shape).Idx → EReal) : (⟨2, ![n, 128]⟩ : Shape).Idx → EReal :=
  fun i => cA * mixAt msg x0 (i 0) (i 1)
    + cB * ∑ k : Fin 128, mixAt msg x0 (i 0) k * w (ix2 (n0 := 128) (n1 := 128) k (i 1))

theorem combineRows_apply {n : Nat} (cA cB : EReal) (msg x0 : (⟨2, ![n, 128]⟩ : Shape).Idx → EReal)
    (w : (⟨2, ![128, 128]⟩ : Shape).Idx → EReal) (p : Fin n) (q : Fin 128) :
    combineRows cA cB msg x0 w (ix2 p q)
      = cA * mixAt msg x0 p q + cB * ∑ k : Fin 128, mixAt msg x0 p k * w (ix2 k q) := rfl

/-- The normalisation's affine map followed by the maximum with zero. -/
def bnReluRows {n : Nat} (z : (⟨2, ![n, 128]⟩ : Shape).Idx → EReal) (mu s g be : (⟨2, ![1, 128]⟩ : Shape).Idx → EReal) :
    (⟨2, ![n, 128]⟩ : Shape).Idx → EReal :=
  fun i => max (((z (ix2 (n0 := n) (n1 := 128) (i 0) (i 1)) - mu (ix2 (n0 := 1) (n1 := 128) (0 : Fin 1) (i 1)))
      * s (ix2 (n0 := 1) (n1 := 128) (0 : Fin 1) (i 1))) * g (ix2 (n0 := 1) (n1 := 128) (0 : Fin 1) (i 1))
      + be (ix2 (n0 := 1) (n1 := 128) (0 : Fin 1) (i 1))) (Ideal.ofBits .f32 0x00000000#32)

theorem bnReluRows_apply {n : Nat} (z : (⟨2, ![n, 128]⟩ : Shape).Idx → EReal) (mu s g be : (⟨2, ![1, 128]⟩ : Shape).Idx → EReal)
    (p : Fin n) (q : Fin 128) :
    bnReluRows z mu s g be (ix2 p q)
      = max (((z (ix2 p q) - mu (ix2 (0 : Fin 1) q)) * s (ix2 (0 : Fin 1) q)) * g (ix2 (0 : Fin 1) q) + be (ix2 (0 : Fin 1) q))
          (Ideal.ofBits .f32 0x00000000#32) := rfl

/-- The last layer: a 512-deep product with the weight matrix plus the bias row. -/
def jkRows {n : Nat} (c : (⟨2, ![n, 512]⟩ : Shape).Idx → EReal) (w : (⟨2, ![512, 128]⟩ : Shape).Idx → EReal)
    (b : (⟨2, ![1, 128]⟩ : Shape).Idx → EReal) : (⟨2, ![n, 128]⟩ : Shape).Idx → EReal :=
  fun i => (∑ k : Fin 512, c (ix2 (n0 := n) (n1 := 512) (i 0) k) * w (ix2 (n0 := 512) (n1 := 128) k (i 1)))
    + b (ix2 (n0 := 1) (n1 := 128) (0 : Fin 1) (i 1))

theorem jkRows_apply {n : Nat} (c : (⟨2, ![n, 512]⟩ : Shape).Idx → EReal) (w : (⟨2, ![512, 128]⟩ : Shape).Idx → EReal)
    (b : (⟨2, ![1, 128]⟩ : Shape).Idx → EReal) (p : Fin n) (q : Fin 128) :
    jkRows c w b (ix2 p q) = (∑ k : Fin 512, c (ix2 p k) * w (ix2 k q)) + b (ix2 (0 : Fin 1) q) := rfl

/-! ## The two products and the row broadcast of the bodies -/

/-- The 128-deep product of a body, into the zero accumulator, is the rows-by-columns product of its operands. -/
theorem matmul128_eq {φ₁ φ₂ : FTy} (a : FVec Ideal S5000x128 φ₁) (c : FVec Ideal S128x128 φ₂) :
    matmul dot_S5000x128_S128x128_S5000x128_1_0_0_1_n_n none a c (constant (F := Ideal) S5000x128 .f32 0x00000000#32)
      = mmRows a c :=
  matmulRows_eq (N := 5000) (K := 128) (M := 128) Facts₀.dot_S5000x128_S128x128_S5000x128_1_0_0_1_n_n_wf none a c

/-- The 512-deep product of the last body likewise. -/
theorem matmul512_eq {φ₁ φ₂ : FTy} (a : FVec Ideal S5000x512 φ₁) (c : FVec Ideal S512x128 φ₂) :
    matmul dot_S5000x512_S512x128_S5000x128_1_0_0_1_n_n none a c (constant (F := Ideal) S5000x128 .f32 0x00000000#32)
      = mmRows a c :=
  matmulRows_eq (N := 5000) (K := 512) (M := 128) Facts₀.dot_S5000x512_S512x128_S5000x128_1_0_0_1_n_n_wf none a c

/-- A `[1, 128]` row, cast to its own shape and broadcast over 5000 rows, reads its column. -/
theorem rowOf_apply (b : Vec Ideal S1x128 .f32) (p : Fin 5000) (q : Fin 128) :
    broadcastTo S5000x128 (shapeCast S1x128 b shapeCasts_S1x128_S1x128) broadcasts_S1x128_S5000x128 (ix2 p q)
      = b (ix2 (0 : Fin 1) q) :=
  (broadcastTo_1b_ab_apply _ _ p q).trans (congrFun (shapeCast_self b _) _)

/-! ## The bodies -/

/-- Region 0's body: the input layer on a tile of rows. -/
theorem k0_pay1_eq (x : Vec Ideal S5000x128 .f32) (w : Vec Ideal S128x128 .f32) (b : Vec Ideal S1x128 .f32) :
    k0_pay1 (F := Ideal) x w b = linInRows x w b := by
  funext j
  obtain ⟨p, q, rfl⟩ : ∃ (p : Fin 5000) (q : Fin 128), j = ix2 p q := ⟨j 0, j 1, eq_ix2 j⟩
  unfold k0_pay1
  refine (addf_apply _ _ _).trans ?_
  refine congrArg₂ (· + ·) ?_ (rowOf_apply b p q)
  exact (congrFun (matmul128_eq _ _) (ix2 p q)).trans (mmRows_apply _ _ p q)

theorem k0_pay1_apply (x : Vec Ideal S5000x128 .f32) (w : Vec Ideal S128x128 .f32) (b : Vec Ideal S1x128 .f32)
    (p : Fin 5000) (q : Fin 128) :
    k0_pay1 (F := Ideal) x w b (ix2 p q) = (∑ k : Fin 128, x (ix2 p k) * w (ix2 k q)) + b (ix2 (0 : Fin 1) q) :=
  congrFun (k0_pay1_eq x w b) (ix2 p q)

/-- Region 1's body at an entry: the layer combine with the words `0x3F183370`, `0x3ECF991F`. -/
theorem k1_pay1_eq (msg x0 : Vec Ideal S5000x128 .f32) (w : Vec Ideal S128x128 .f32) :
    k1_pay1 (F := Ideal) msg x0 w
      = combineRows (Ideal.ofBits .f32 0x3F183370#32) (Ideal.ofBits .f32 0x3ECF991F#32) msg x0 w := by
  funext j
  obtain ⟨p, q, rfl⟩ : ∃ (p : Fin 5000) (q : Fin 128), j = ix2 p q := ⟨j 0, j 1, eq_ix2 j⟩
  unfold k1_pay1
  simp only [shapeCast_self]
  refine (addf_apply _ _ _).trans ?_
  refine congrArg₂ (· + ·) rfl ?_
  refine (mulf_apply _ _ _).trans (congrArg₂ (· * ·) rfl ?_)
  exact (congrFun (matmul128_eq _ _) (ix2 p q)).trans (mmRows_apply _ _ p q)

theorem k1_pay1_apply (msg x0 : Vec Ideal S5000x128 .f32) (w : Vec Ideal S128x128 .f32) (p : Fin 5000) (q : Fin 128) :
    k1_pay1 (F := Ideal) msg x0 w (ix2 p q)
      = Ideal.ofBits .f32 0x3F183370#32 * mixAt msg x0 p q
        + Ideal.ofBits .f32 0x3ECF991F#32 * ∑ k : Fin 128, mixAt msg x0 p k * w (ix2 k q) :=
  congrFun (k1_pay1_eq msg x0 w) (ix2 p q)

/-- Region 3's body at an entry: the layer combine with the words `0x3F46E010`, `0x3E647FBE`. -/
theorem k3_pay1_eq (msg x0 : Vec Ideal S5000x128 .f32) (w : Vec Ideal S128x128 .f32) :
    k3_pay1 (F := Ideal) msg x0 w
      = combineRows (Ideal.ofBits .f32 0x3F46E010#32) (Ideal.ofBits .f32 0x3E647FBE#32) msg x0 w := by
  funext j
  obtain ⟨p, q, rfl⟩ : ∃ (p : Fin 5000) (q : Fin 128), j = ix2 p q := ⟨j 0, j 1, eq_ix2 j⟩
  unfold k3_pay1
  simp only [shapeCast_self]
  refine (addf_apply _ _ _).trans ?_
  refine congrArg₂ (· + ·) rfl ?_
  refine (mulf_apply _ _ _).trans (congrArg₂ (· * ·) rfl ?_)
  exact (congrFun (matmul128_eq _ _) (ix2 p q)).trans (mmRows_apply _ _ p q)

theorem k3_pay1_apply (msg x0 : Vec Ideal S5000x128 .f32) (w : Vec Ideal S128x128 .f32) (p : Fin 5000) (q : Fin 128) :
    k3_pay1 (F := Ideal) msg x0 w (ix2 p q)
      = Ideal.ofBits .f32 0x3F46E010#32 * mixAt msg x0 p q
        + Ideal.ofBits .f32 0x3E647FBE#32 * ∑ k : Fin 128, mixAt msg x0 p k * w (ix2 k q) :=
  congrFun (k3_pay1_eq msg x0 w) (ix2 p q)

/-- Region 5's body at an entry: the layer combine with the words `0x3F588995`, `0x3E1DD9AD`. -/
theorem k5_pay1_eq (msg x0 : Vec Ideal S5000x128 .f32) (w : Vec Ideal S128x128 .f32) :
    k5_pay1 (F := Ideal) msg x0 w
      = combineRows (Ideal.ofBits .f32 0x3F588995#32) (Ideal.ofBits .f32 0x3E1DD9AD#32) msg x0 w := by
  funext j
  obtain ⟨p, q, rfl⟩ : ∃ (p : Fin 5000) (q : Fin 128), j = ix2 p q := ⟨j 0, j 1, eq_ix2 j⟩
  unfold k5_pay1
  simp only [shapeCast_self]
  refine (addf_apply _ _ _).trans ?_
  refine congrArg₂ (· + ·) rfl ?_
  refine (mulf_apply _ _ _).trans (congrArg₂ (· * ·) rfl ?_)
  exact (congrFun (matmul128_eq _ _) (ix2 p q)).trans (mmRows_apply _ _ p q)

theorem k5_pay1_apply (msg x0 : Vec Ideal S5000x128 .f32) (w : Vec Ideal S128x128 .f32) (p : Fin 5000) (q : Fin 128) :
    k5_pay1 (F := Ideal) msg x0 w (ix2 p q)
      = Ideal.ofBits .f32 0x3F588995#32 * mixAt msg x0 p q
        + Ideal.ofBits .f32 0x3E1DD9AD#32 * ∑ k : Fin 128, mixAt msg x0 p k * w (ix2 k q) :=
  congrFun (k5_pay1_eq msg x0 w) (ix2 p q)

/-- Region 7's body at an entry: the layer combine with the words `0x3F61D8F9`, `0x3DF1383B`. -/
theorem k7_pay1_eq (msg x0 : Vec Ideal S5000x128 .f32) (w : Vec Ideal S128x128 .f32) :
    k7_pay1 (F := Ideal) msg x0 w
      = combineRows (Ideal.ofBits .f32 0x3F61D8F9#32) (Ideal.ofBits .f32 0x3DF1383B#32) msg x0 w := by
  funext j
  obtain ⟨p, q, rfl⟩ : ∃ (p : Fin 5000) (q : Fin 128), j = ix2 p q := ⟨j 0, j 1, eq_ix2 j⟩
  unfold k7_pay1
  simp only [shapeCast_self]
  refine (addf_apply _ _ _).trans ?_
  refine congrArg₂ (· + ·) rfl ?_
  refine (mulf_apply _ _ _).trans (congrArg₂ (· * ·) rfl ?_)
  exact (congrFun (matmul128_eq _ _) (ix2 p q)).trans (mmRows_apply _ _ p q)

theorem k7_pay1_apply (msg x0 : Vec Ideal S5000x128 .f32) (w : Vec Ideal S128x128 .f32) (p : Fin 5000) (q : Fin 128) :
    k7_pay1 (F := Ideal) msg x0 w (ix2 p q)
      = Ideal.ofBits .f32 0x3F61D8F9#32 * mixAt msg x0 p q
        + Ideal.ofBits .f32 0x3DF1383B#32 * ∑ k : Fin 128, mixAt msg x0 p k * w (ix2 k q) :=
  congrFun (k7_pay1_eq msg x0 w) (ix2 p q)

/-- Region 9's body at an entry: the layer combine with the words `0x3F6799C1`, `0x3DC331FC`. -/
theorem k9_pay1_eq (msg x0 : Vec Ideal S5000x128 .f32) (w : Vec Ideal S128x128 .f32) :
    k9_pay1 (F := Ideal) msg x0 w
      = combineRows (Ideal.ofBits .f32 0x3F6799C1#32) (Ideal.ofBits .f32 0x3DC331FC#32) msg x0 w := by
  funext j
  obtain ⟨p, q, rfl⟩ : ∃ (p : Fin 5000) (q : Fin 128), j = ix2 p q := ⟨j 0, j 1, eq_ix2 j⟩
  unfold k9_pay1
  simp only [shapeCast_self]
  refine (addf_apply _ _ _).trans ?_
  refine congrArg₂ (· + ·) rfl ?_
  refine (mulf_apply _ _ _).trans (congrArg₂ (· * ·) rfl ?_)
  exact (congrFun (matmul128_eq _ _) (ix2 p q)).trans (mmRows_apply _ _ p q)

theorem k9_pay1_apply (msg x0 : Vec Ideal S5000x128 .f32) (w : Vec Ideal S128x128 .f32) (p : Fin 5000) (q : Fin 128) :
    k9_pay1 (F := Ideal) msg x0 w (ix2 p q)
      = Ideal.ofBits .f32 0x3F6799C1#32 * mixAt msg x0 p q
        + Ideal.ofBits .f32 0x3DC331FC#32 * ∑ k : Fin 128, mixAt msg x0 p k * w (ix2 k q) :=
  congrFun (k9_pay1_eq msg x0 w) (ix2 p q)

/-- Region 2's body at an entry: the normalisation's affine map, then the maximum with zero. -/
theorem k2_pay1_eq (z : Vec Ideal S5000x128 .f32) (mu s g be : Vec Ideal S1x128 .f32) :
    k2_pay1 (F := Ideal) z mu s g be = bnReluRows z mu s g be := by
  funext j
  obtain ⟨p, q, rfl⟩ : ∃ (p : Fin 5000) (q : Fin 128), j = ix2 p q := ⟨j 0, j 1, eq_ix2 j⟩
  unfold k2_pay1
  refine (maximumf_apply _ _ _).trans ?_
  refine congrArg₂ max ?_ rfl
  refine (addf_apply _ _ _).trans (congrArg₂ (· + ·) ?_ (rowOf_apply be p q))
  refine (mulf_apply _ _ _).trans (congrArg₂ (· * ·) ?_ (rowOf_apply g p q))
  refine (mulf_apply _ _ _).trans (congrArg₂ (· * ·) ?_ (rowOf_apply s p q))
  exact (subf_apply _ _ _).trans (congrArg₂ (· - ·) (congrFun (shapeCast_self z _) _) (rowOf_apply mu p q))

theorem k2_pay1_apply (z : Vec Ideal S5000x128 .f32) (mu s g be : Vec Ideal S1x128 .f32) (p : Fin 5000) (q : Fin 128) :
    k2_pay1 (F := Ideal) z mu s g be (ix2 p q)
      = max (((z (ix2 p q) - mu (ix2 (0 : Fin 1) q)) * s (ix2 (0 : Fin 1) q)) * g (ix2 (0 : Fin 1) q) + be (ix2 (0 : Fin 1) q))
          (Ideal.ofBits .f32 0x00000000#32) :=
  congrFun (k2_pay1_eq z mu s g be) (ix2 p q)

/-- Region 4's body at an entry: the normalisation's affine map, then the maximum with zero. -/
theorem k4_pay1_eq (z : Vec Ideal S5000x128 .f32) (mu s g be : Vec Ideal S1x128 .f32) :
    k4_pay1 (F := Ideal) z mu s g be = bnReluRows z mu s g be := by
  funext j
  obtain ⟨p, q, rfl⟩ : ∃ (p : Fin 5000) (q : Fin 128), j = ix2 p q := ⟨j 0, j 1, eq_ix2 j⟩
  unfold k4_pay1
  refine (maximumf_apply _ _ _).trans ?_
  refine congrArg₂ max ?_ rfl
  refine (addf_apply _ _ _).trans (congrArg₂ (· + ·) ?_ (rowOf_apply be p q))
  refine (mulf_apply _ _ _).trans (congrArg₂ (· * ·) ?_ (rowOf_apply g p q))
  refine (mulf_apply _ _ _).trans (congrArg₂ (· * ·) ?_ (rowOf_apply s p q))
  exact (subf_apply _ _ _).trans (congrArg₂ (· - ·) (congrFun (shapeCast_self z _) _) (rowOf_apply mu p q))

theorem k4_pay1_apply (z : Vec Ideal S5000x128 .f32) (mu s g be : Vec Ideal S1x128 .f32) (p : Fin 5000) (q : Fin 128) :
    k4_pay1 (F := Ideal) z mu s g be (ix2 p q)
      = max (((z (ix2 p q) - mu (ix2 (0 : Fin 1) q)) * s (ix2 (0 : Fin 1) q)) * g (ix2 (0 : Fin 1) q) + be (ix2 (0 : Fin 1) q))
          (Ideal.ofBits .f32 0x00000000#32) :=
  congrFun (k4_pay1_eq z mu s g be) (ix2 p q)

/-- Region 6's body at an entry: the normalisation's affine map, then the maximum with zero. -/
theorem k6_pay1_eq (z : Vec Ideal S5000x128 .f32) (mu s g be : Vec Ideal S1x128 .f32) :
    k6_pay1 (F := Ideal) z mu s g be = bnReluRows z mu s g be := by
  funext j
  obtain ⟨p, q, rfl⟩ : ∃ (p : Fin 5000) (q : Fin 128), j = ix2 p q := ⟨j 0, j 1, eq_ix2 j⟩
  unfold k6_pay1
  refine (maximumf_apply _ _ _).trans ?_
  refine congrArg₂ max ?_ rfl
  refine (addf_apply _ _ _).trans (congrArg₂ (· + ·) ?_ (rowOf_apply be p q))
  refine (mulf_apply _ _ _).trans (congrArg₂ (· * ·) ?_ (rowOf_apply g p q))
  refine (mulf_apply _ _ _).trans (congrArg₂ (· * ·) ?_ (rowOf_apply s p q))
  exact (subf_apply _ _ _).trans (congrArg₂ (· - ·) (congrFun (shapeCast_self z _) _) (rowOf_apply mu p q))

theorem k6_pay1_apply (z : Vec Ideal S5000x128 .f32) (mu s g be : Vec Ideal S1x128 .f32) (p : Fin 5000) (q : Fin 128) :
    k6_pay1 (F := Ideal) z mu s g be (ix2 p q)
      = max (((z (ix2 p q) - mu (ix2 (0 : Fin 1) q)) * s (ix2 (0 : Fin 1) q)) * g (ix2 (0 : Fin 1) q) + be (ix2 (0 : Fin 1) q))
          (Ideal.ofBits .f32 0x00000000#32) :=
  congrFun (k6_pay1_eq z mu s g be) (ix2 p q)

/-- Region 8's body: the last layer on a tile of rows. -/
theorem k8_pay1_eq (c : Vec Ideal S5000x512 .f32) (w : Vec Ideal S512x128 .f32) (b : Vec Ideal S1x128 .f32) :
    k8_pay1 (F := Ideal) c w b = jkRows c w b := by
  funext j
  obtain ⟨p, q, rfl⟩ : ∃ (p : Fin 5000) (q : Fin 128), j = ix2 p q := ⟨j 0, j 1, eq_ix2 j⟩
  unfold k8_pay1
  simp only [shapeCast_self]
  refine (addf_apply _ _ _).trans ?_
  refine congrArg₂ (· + ·) ?_ (broadcastTo_1b_ab_apply _ _ p q)
  exact (congrFun (matmul512_eq _ _) (ix2 p q)).trans (mmRows_apply _ _ p q)

theorem k8_pay1_apply (c : Vec Ideal S5000x512 .f32) (w : Vec Ideal S512x128 .f32) (b : Vec Ideal S1x128 .f32)
    (p : Fin 5000) (q : Fin 128) :
    k8_pay1 (F := Ideal) c w b (ix2 p q) = (∑ k : Fin 512, c (ix2 p k) * w (ix2 k q)) + b (ix2 (0 : Fin 1) q) :=
  congrFun (k8_pay1_eq c w b) (ix2 p q)

end Cert.KernelIdeal.Values

end
-- ==== Proof.LibColumnLayout.lean ====
import Idealize.ShloMosaic.Lib.ValueIdx
import Idealize.ShloMosaic.Lib.Pipeline.Value

/-!
# Columns and rows read at an index

Layout operations between a flat array `[a]`, a column `[a, 1]`, a row `[1, b]` and a matrix `[a, b]`, each read at an
index given by its coordinates as its operand at one index. No proof enumerates an extent; where an extent may be 1 the
operation reads coordinate 0 on that axis, which is then the only coordinate there is.
* `broadcastTo_a1_ab_apply`: a column `[a, 1]` broadcast to `[a, b]` reads, at `(p, c)`, the column at `(p, 0)`.
* `broadcastInDim_a_a1_apply`: a flat `[a]` array placed on axis 0 of `[a, 1]` reads, at `(p, u)`, the array at `p`.
* `broadcastInDim_a1_ab_apply`: a column `[a, 1]` placed on axes 0 and 1 of `[a, b]` reads, at `(p, c)`, the column
  at `(p, 0)`.
* `broadcastInDim_b_1b_apply`: a flat `[b]` array placed on axis 1 of `[1, b]` reads, at `(u, c)`, the array at `c`.
* `broadcastInDim_1b_ab_apply`: a row `[1, b]` placed on axes 0 and 1 of `[a, b]` reads, at `(p, c)`, the row at
  `(0, c)`.
* `shapeCast_a_a1_apply`: a flat `[a]` array cast to a column `[a, 1]` reads, at `(p, u)`, the array at `p`: both have
  row-major position `p`.
-/

namespace Cert.LibColumnLayout

open Idealize.ShloMosaic Idealize.ShloMosaic.ValueIdx

section Layout
variable {α : Type}

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[a]` array placed on axis 0 of `[a, 1]` reads, at `(p, u)`, the array at `p`. -/
theorem broadcastInDim_a_a1_apply {a : ℕ} (v : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h v (ix2 p u) = v (ix1 p) := by
  refine broadcastInDim_apply _ h v (ix2 p u) (ix1 p) fun ax => ?_
  match ax with
  | ⟨0, _⟩ =>
    show p.val = if a = 1 then 0 else p.val
    split
    · have := p.isLt; omega
    · rfl

/-- A column `[a, 1]` placed on both axes of `[a, b]` reads, at `(p, c)`, the column's entry of row `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ => rfl

/-- A flat `[b]` array placed on axis 1 of `[1, b]` reads, at `(u, c)`, the array at `c`. -/
theorem broadcastInDim_b_1b_apply {b : ℕ} (v : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h v (ix2 u c) = v (ix1 c) := by
  refine broadcastInDim_apply _ h v (ix2 u c) (ix1 c) fun ax => ?_
  match ax with
  | ⟨0, _⟩ =>
    show c.val = if b = 1 then 0 else c.val
    split
    · have := c.isLt; omega
    · rfl

/-- A row `[1, b]` placed on both axes of `[a, b]` reads, at `(p, c)`, the row's entry of column `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ => rfl
  | ⟨1, _⟩ =>
    show c.val = if b = 1 then 0 else c.val
    split
    · have := c.isLt; omega
    · rfl

/-- A flat `[a]` array cast to a column `[a, 1]` reads, at `(p, u)`, the array at `p`: both positions are `p` in row-major order. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

end Layout

end Cert.LibColumnLayout
-- ==== Proof.Values.StageBridge.lean ====
import proofs.«175281_j9964324127123_1_alg».proof.Proof.Reference.Stages
import proofs.«175281_j9964324127123_1_alg».proof.Proof.Values.Payloads
import proofs.«175281_j9964324127123_1_alg».proof.Proof.LibColumnLayout
import proofs.«175281_j9964324127123_1_alg».proof.Proof.Values.HostKOps
import Idealize.ShloMosaic.Lib.IdealHost

/-!
# The row-wise functions are the reference's stages

Over the extended reals each dense stage of the reference network, read at entry `(n, q)` of the node-by-feature array,
is the matching row-wise function: the host's product is the rows-by-columns product, a feature row repeated down the
node axis reads its column, and a scalar literal broadcast over an array reads the literal's value. The kernel side
holds its feature rows as `[1, 128]` arrays; a stage's flat `[128]` row `r` and a `[1, 128]` array `r1` are matched by
the hypothesis `∀ q, r1 (0, q) = r q`.
-/

noncomputable section

open scoped BigOperators

namespace Cert.KernelIdeal.Values

open Idealize.ShloMosaic Idealize.ShloMosaic.ValueIdx Cert.LibMatmulRows Cert.LibColumnLayout
open Cert.ReferenceIdeal.Hand

variable [Cert.ReferenceIdeal.Facts₀]

/-- A feature row repeated down the node axis reads its column. -/
theorem rowsOf_apply (r : FVec Ideal Cert.ReferenceIdeal.S128 .f32) (n : Fin 100000) (q : Fin 128) :
    rowsOf (F := Ideal) r (ix2 n q) = r (ix1 q) :=
  (broadcastInDim_1b_ab_apply _ _ n q).trans (broadcastInDim_b_1b_apply _ _ (0 : Fin 1) q)

/-- A scalar literal broadcast over the node-by-feature array reads the literal's value. -/
theorem splatNF_apply (w : BitVec 32) (i : Cert.ReferenceIdeal.S100000x128.Idx) :
    splatNF (F := Ideal) w i = Ideal.ofBits .f32 w :=
  broadcastInDim_scalar_apply _ _ i

/-- The host's 128-deep product is the rows-by-columns product. -/
theorem hostDot128_eq (x : FVec Ideal Cert.ReferenceIdeal.S100000x128 .f32) (W : FVec Ideal Cert.ReferenceIdeal.S128x128 .f32) :
    Host.dotGeneral Cert.ReferenceIdeal.dot_S100000x128_S128x128_S100000x128_1_0_0_1_n_n none x W = mmRows x W :=
  dotGeneralRows_eq (N := 100000) (K := 128) (M := 128)
    Cert.ReferenceIdeal.Facts₀.dot_S100000x128_S128x128_S100000x128_1_0_0_1_n_n_wf none _ x W

/-- The host's 512-deep product likewise. -/
theorem hostDot512_eq (c : FVec Ideal Cert.ReferenceIdeal.S100000x512 .f32) (W : FVec Ideal Cert.ReferenceIdeal.S512x128 .f32) :
    Host.dotGeneral Cert.ReferenceIdeal.dot_S100000x512_S512x128_S100000x128_1_0_0_1_n_n none c W = mmRows c W :=
  dotGeneralRows_eq (N := 100000) (K := 512) (M := 128)
    Cert.ReferenceIdeal.Facts₀.dot_S100000x512_S512x128_S100000x128_1_0_0_1_n_n_wf none _ c W

/-- The input layer. -/
theorem linInRows_eq_linIn (x : FVec Ideal Cert.ReferenceIdeal.S100000x128 .f32) (W : FVec Ideal Cert.ReferenceIdeal.S128x128 .f32)
    (b : FVec Ideal Cert.ReferenceIdeal.S128 .f32) (b1 : (⟨2, ![1, 128]⟩ : Shape).Idx → EReal)
    (hb : ∀ q : Fin 128, b1 (ix2 (0 : Fin 1) q) = b (ix1 q)) :
    linInRows (n := 100000) x W b1 = linIn (F := Ideal) x W b := by
  funext i
  obtain ⟨n, q, rfl⟩ : ∃ (n : Fin 100000) (q : Fin 128), i = ix2 n q := ⟨i 0, i 1, eq_ix2 i⟩
  unfold linIn
  refine (linInRows_apply x W b1 n q).trans ((addf_apply _ _ _).trans ?_).symm
  refine congrArg₂ (· + ·) ?_ ((rowsOf_apply b n q).trans (hb q).symm)
  exact (congrFun (hostDot128_eq x W) (ix2 n q)).trans (mmRows_apply _ _ n q)

/-- The residual mix at an entry. -/
theorem hmix_apply (msg x0 : FVec Ideal Cert.ReferenceIdeal.S100000x128 .f32) (n : Fin 100000) (q : Fin 128) :
    hmix (F := Ideal) 0x3F666666#32 0x3DCCCCCD#32 msg x0 (ix2 n q) = mixAt msg x0 n q := by
  unfold hmix mixAt
  refine (addf_apply _ _ _).trans (congrArg₂ (· + ·) ?_ ?_)
  · exact (mulf_apply _ _ _).trans (congrArg (· * _) (splatNF_apply _ _))
  · exact (mulf_apply _ _ _).trans (congrArg (· * _) (splatNF_apply _ _))

/-- The layer combine, for any two layer words. -/
theorem combineRows_eq_combine (wa wb : BitVec 32) (msg x0 : FVec Ideal Cert.ReferenceIdeal.S100000x128 .f32)
    (Wi : FVec Ideal Cert.ReferenceIdeal.S128x128 .f32) :
    combineRows (n := 100000) (Ideal.ofBits .f32 wa) (Ideal.ofBits .f32 wb) msg x0 Wi
      = combine (F := Ideal) 0x3F666666#32 0x3DCCCCCD#32 wa wb msg x0 Wi := by
  funext i
  obtain ⟨n, q, rfl⟩ : ∃ (n : Fin 100000) (q : Fin 128), i = ix2 n q := ⟨i 0, i 1, eq_ix2 i⟩
  unfold combine gateMix
  refine (combineRows_apply _ _ msg x0 Wi n q).trans ((addf_apply _ _ _).trans ?_).symm
  refine congrArg₂ (· + ·) ?_ ?_
  · exact (mulf_apply _ _ _).trans (congrArg₂ (· * ·) (splatNF_apply _ _) (hmix_apply msg x0 n q))
  · refine (mulf_apply _ _ _).trans (congrArg₂ (· * ·) (splatNF_apply _ _) ?_)
    refine (congrFun (hostDot128_eq _ Wi) (ix2 n q)).trans ((mmRows_apply _ _ n q).trans ?_)
    exact Finset.sum_congr rfl fun k _ => congrArg (· * _) (hmix_apply msg x0 n k)

/-- The normalisation's affine map and the maximum with zero; `s1` holds the reciprocal square root the host took. -/
theorem bnReluRows_eq_relu_normalize (z : FVec Ideal Cert.ReferenceIdeal.S100000x128 .f32)
    (mean var gamma beta : FVec Ideal Cert.ReferenceIdeal.S128 .f32) (mu1 s1 g1 be1 : (⟨2, ![1, 128]⟩ : Shape).Idx → EReal)
    (hmu : ∀ q : Fin 128, mu1 (ix2 (0 : Fin 1) q) = mean (ix1 q))
    (hs : ∀ q : Fin 128, s1 (ix2 (0 : Fin 1) q)
      = Host.rsqrt (addf var (splatRow (F := Ideal) 0x3727C5AC#32)) (ix1 q))
    (hg : ∀ q : Fin 128, g1 (ix2 (0 : Fin 1) q) = gamma (ix1 q))
    (hbe : ∀ q : Fin 128, be1 (ix2 (0 : Fin 1) q) = beta (ix1 q)) :
    bnReluRows (n := 100000) z mu1 s1 g1 be1 = relu (F := Ideal) (Cert.ReferenceIdeal.Hand.normalize z mean var gamma beta) := by
  funext i
  obtain ⟨n, q, rfl⟩ : ∃ (n : Fin 100000) (q : Fin 128), i = ix2 n q := ⟨i 0, i 1, eq_ix2 i⟩
  unfold relu Cert.ReferenceIdeal.Hand.normalize
  refine (bnReluRows_apply z mu1 s1 g1 be1 n q).trans ((maximumf_apply _ _ _).trans ?_).symm
  refine congrArg₂ max ?_ (splatNF_apply _ _)
  refine (addf_apply _ _ _).trans (congrArg₂ (· + ·) ?_ ((rowsOf_apply beta n q).trans (hbe q).symm))
  refine (mulf_apply _ _ _).trans (congrArg₂ (· * ·) ?_ ((rowsOf_apply gamma n q).trans (hg q).symm))
  refine (mulf_apply _ _ _).trans (congrArg₂ (· * ·) ?_ ((rowsOf_apply _ n q).trans (hs q).symm))
  exact (subf_apply _ _ _).trans (congrArg (_ - ·) ((rowsOf_apply mean n q).trans (hmu q).symm))

/-- The last projection. -/
theorem jkRows_eq_jk (zc : FVec Ideal Cert.ReferenceIdeal.S100000x512 .f32) (W : FVec Ideal Cert.ReferenceIdeal.S512x128 .f32)
    (b : FVec Ideal Cert.ReferenceIdeal.S128 .f32) (b1 : (⟨2, ![1, 128]⟩ : Shape).Idx → EReal)
    (hb : ∀ q : Fin 128, b1 (ix2 (0 : Fin 1) q) = b (ix1 q)) :
    jkRows (n := 100000) zc W b1 = jk (F := Ideal) zc W b := by
  funext i
  obtain ⟨n, q, rfl⟩ : ∃ (n : Fin 100000) (q : Fin 128), i = ix2 n q := ⟨i 0, i 1, eq_ix2 i⟩
  unfold jk
  refine (jkRows_apply zc W b1 n q).trans ((addf_apply _ _ _).trans ?_).symm
  refine congrArg₂ (· + ·) ?_ ((rowsOf_apply b n q).trans (hb q).symm)
  exact (congrFun (hostDot512_eq zc W) (ix2 n q)).trans (mmRows_apply _ _ n q)

/-- A flat feature row reshaped to `[1, 128]` reads, at `(0, q)`, the row at `q`: the hypothesis of the theorems above for
    a row the host reshaped. -/
theorem reshape_row_apply (r : (⟨1, ![128]⟩ : Shape).Idx → EReal) (h : (⟨1, ![128]⟩ : Shape).ShapeCasts ⟨2, ![1, 128]⟩)
    (q : Fin 128) : shapeCast ⟨2, ![1, 128]⟩ r h (ix2 (0 : Fin 1) q) = r (ix1 q) :=
  shapeCast_a_1a_apply r h (0 : Fin 1) q

/-! ## With the `[1, 128]` rows the kernel program's host side makes

The host side of the kernel program reshapes each feature row to `[1, 128]` (`rowK`), and takes the reciprocal square
root of the variance plus the small word before reshaping it (`rstdK`); the reference takes it inside its normalisation. -/

/-- The input layer on the reshaped bias row. -/
theorem linInRows_rowK (x : FVec Ideal Cert.KernelIdeal.S100000x128 .f32) (w : FVec Ideal Cert.KernelIdeal.S128x128 .f32)
    (b : FVec Ideal Cert.KernelIdeal.S128 .f32) :
    linInRows (n := 100000) x w (rowK (F := Ideal) b) = linIn (F := Ideal) x w b :=
  linInRows_eq_linIn x w b (rowK (F := Ideal) b) fun q => reshape_row_apply b _ q

/-- The normalisation on the four reshaped rows. -/
theorem bnReluRows_rowK (z : FVec Ideal Cert.KernelIdeal.S100000x128 .f32) (mean var g b : FVec Ideal Cert.KernelIdeal.S128 .f32) :
    bnReluRows (n := 100000) z (rowK (F := Ideal) mean) (rowK (F := Ideal) (rstdK var)) (rowK (F := Ideal) g) (rowK (F := Ideal) b)
      = relu (F := Ideal) (Cert.ReferenceIdeal.Hand.normalize z mean var g b) :=
  bnReluRows_eq_relu_normalize z mean var g b _ _ _ _ (fun q => reshape_row_apply mean _ q)
    (fun q => reshape_row_apply (rstdK (F := Ideal) var) _ q) (fun q => reshape_row_apply g _ q) (fun q => reshape_row_apply b _ q)

/-- The last projection on the reshaped bias row. -/
theorem jkRows_rowK (c : FVec Ideal Cert.KernelIdeal.S100000x512 .f32) (w : FVec Ideal Cert.KernelIdeal.S512x128 .f32)
    (b : FVec Ideal Cert.KernelIdeal.S128 .f32) :
    jkRows (n := 100000) c w (rowK (F := Ideal) b) = jk (F := Ideal) c w b :=
  jkRows_eq_jk c w b (rowK (F := Ideal) b) fun q => reshape_row_apply b _ q

end Cert.KernelIdeal.Values

end
-- ==== Proof.Values.Locality.lean ====
import proofs.«175281_j9964324127123_1_alg».proof.Proof.Values.Payloads

/-!
# Each entry reads one row of the row-tiled operands

Entry `i` of each of the four row-wise functions reads its row-tiled operands only in row `i 0`, and the small operands
whole. So two instances of the same function — with different numbers of rows — agree at two entries `i`, `i'` of the
same column as soon as row `i 0` of the first instance's row-tiled operands is row `i' 0` of the second's, and the small
operands are equal. That is how a tile of the result is a tile of the whole result array.
-/

noncomputable section

open scoped BigOperators

namespace Cert.KernelIdeal.Values

open Idealize.ShloMosaic Idealize.ShloMosaic.ValueIdx

/-- The offset of a whole-buffer access, as the constant zero function. -/
theorem hz2 : (![0, 0] : Fin 2 → Nat) = fun _ => 0 := funext fun a => by fin_cases a <;> rfl

theorem linInRows_congr {n n' : Nat} {x : (⟨2, ![n, 128]⟩ : Shape).Idx → EReal} {x' : (⟨2, ![n', 128]⟩ : Shape).Idx → EReal}
    {w w' : (⟨2, ![128, 128]⟩ : Shape).Idx → EReal} {b b' : (⟨2, ![1, 128]⟩ : Shape).Idx → EReal}
    (i : (⟨2, ![n, 128]⟩ : Shape).Idx) (i' : (⟨2, ![n', 128]⟩ : Shape).Idx) (hq : (i 1).val = (i' 1).val)
    (hx : ∀ k : Fin 128, x (ix2 (n0 := n) (n1 := 128) (i 0) k) = x' (ix2 (n0 := n') (n1 := 128) (i' 0) k))
    (hw : w = w') (hb : b = b') : linInRows x w b i = linInRows x' w' b' i' := by
  subst hw hb
  have h1 : (i 1 : Fin 128) = (i' 1 : Fin 128) := Fin.ext hq
  show (∑ k : Fin 128, x (ix2 (n0 := n) (n1 := 128) (i 0) k) * w (ix2 (n0 := 128) (n1 := 128) k (i 1)))
      + b (ix2 (n0 := 1) (n1 := 128) (0 : Fin 1) (i 1))
    = (∑ k : Fin 128, x' (ix2 (n0 := n') (n1 := 128) (i' 0) k) * w (ix2 (n0 := 128) (n1 := 128) k (i' 1)))
      + b (ix2 (n0 := 1) (n1 := 128) (0 : Fin 1) (i' 1))
  exact congrArg₂ (· + ·)
    (Finset.sum_congr rfl fun k _ => congrArg₂ (· * ·) (hx k) (congrArg (fun z : Fin 128 => w (ix2 k z)) h1))
    (congrArg (fun z : Fin 128 => b (ix2 (0 : Fin 1) z)) h1)

theorem mixAt_congr {n n' : Nat} {msg x0 : (⟨2, ![n, 128]⟩ : Shape).Idx → EReal} {msg' x0' : (⟨2, ![n', 128]⟩ : Shape).Idx → EReal}
    (p : Fin n) (p' : Fin n') (k : Fin 128) (hm : msg (ix2 p k) = msg' (ix2 p' k)) (hx : x0 (ix2 p k) = x0' (ix2 p' k)) :
    mixAt msg x0 p k = mixAt msg' x0' p' k := by
  unfold mixAt
  rw [hm, hx]

theorem combineRows_congr {n n' : Nat} (cA cB : EReal) {msg x0 : (⟨2, ![n, 128]⟩ : Shape).Idx → EReal}
    {msg' x0' : (⟨2, ![n', 128]⟩ : Shape).Idx → EReal} {w w' : (⟨2, ![128, 128]⟩ : Shape).Idx → EReal}
    (i : (⟨2, ![n, 128]⟩ : Shape).Idx) (i' : (⟨2, ![n', 128]⟩ : Shape).Idx) (hq : (i 1).val = (i' 1).val)
    (hm : ∀ k : Fin 128, msg (ix2 (n0 := n) (n1 := 128) (i 0) k) = msg' (ix2 (n0 := n') (n1 := 128) (i' 0) k))
    (hx : ∀ k : Fin 128, x0 (ix2 (n0 := n) (n1 := 128) (i 0) k) = x0' (ix2 (n0 := n') (n1 := 128) (i' 0) k))
    (hw : w = w') : combineRows cA cB msg x0 w i = combineRows cA cB msg' x0' w' i' := by
  subst hw
  have h1 : (i 1 : Fin 128) = (i' 1 : Fin 128) := Fin.ext hq
  have hmix : ∀ k : Fin 128, mixAt msg x0 (i 0) k = mixAt msg' x0' (i' 0) k := fun k => mixAt_congr _ _ k (hm k) (hx k)
  show cA * mixAt msg x0 (i 0) (i 1) + cB * ∑ k : Fin 128, mixAt msg x0 (i 0) k * w (ix2 (n0 := 128) (n1 := 128) k (i 1))
    = cA * mixAt msg' x0' (i' 0) (i' 1) + cB * ∑ k : Fin 128, mixAt msg' x0' (i' 0) k * w (ix2 (n0 := 128) (n1 := 128) k (i' 1))
  exact congrArg₂ (· + ·)
    (congrArg (cA * ·) ((hmix (i 1)).trans (congrArg (fun z : Fin 128 => mixAt msg' x0' (i' 0) z) h1)))
    (congrArg (cB * ·) (Finset.sum_congr rfl fun k _ =>
      congrArg₂ (· * ·) (hmix k) (congrArg (fun z : Fin 128 => w (ix2 k z)) h1)))

theorem bnReluRows_congr {n n' : Nat} {z : (⟨2, ![n, 128]⟩ : Shape).Idx → EReal} {z' : (⟨2, ![n', 128]⟩ : Shape).Idx → EReal}
    {mu s g be mu' s' g' be' : (⟨2, ![1, 128]⟩ : Shape).Idx → EReal}
    (i : (⟨2, ![n, 128]⟩ : Shape).Idx) (i' : (⟨2, ![n', 128]⟩ : Shape).Idx) (hq : (i 1).val = (i' 1).val)
    (hz : ∀ k : Fin 128, z (ix2 (n0 := n) (n1 := 128) (i 0) k) = z' (ix2 (n0 := n') (n1 := 128) (i' 0) k))
    (hmu : mu = mu') (hs : s = s') (hg : g = g') (hbe : be = be') :
    bnReluRows z mu s g be i = bnReluRows z' mu' s' g' be' i' := by
  subst hmu hs hg hbe
  have h1 : (i 1 : Fin 128) = (i' 1 : Fin 128) := Fin.ext hq
  have e : ∀ (r : (⟨2, ![1, 128]⟩ : Shape).Idx → EReal),
      r (ix2 (n0 := 1) (n1 := 128) (0 : Fin 1) (i 1)) = r (ix2 (n0 := 1) (n1 := 128) (0 : Fin 1) (i' 1)) :=
    fun r => congrArg (fun y : Fin 128 => r (ix2 (0 : Fin 1) y)) h1
  have ez : z (ix2 (n0 := n) (n1 := 128) (i 0) (i 1)) = z' (ix2 (n0 := n') (n1 := 128) (i' 0) (i' 1)) :=
    (hz (i 1)).trans (congrArg (fun y : Fin 128 => z' (ix2 (n0 := n') (n1 := 128) (i' 0) y)) h1)
  show max (((z (ix2 (n0 := n) (n1 := 128) (i 0) (i 1)) - mu (ix2 (n0 := 1) (n1 := 128) (0 : Fin 1) (i 1)))
        * s (ix2 (n0 := 1) (n1 := 128) (0 : Fin 1) (i 1))) * g (ix2 (n0 := 1) (n1 := 128) (0 : Fin 1) (i 1))
        + be (ix2 (n0 := 1) (n1 := 128) (0 : Fin 1) (i 1))) (Ideal.ofBits .f32 0x00000000#32)
    = max (((z' (ix2 (n0 := n') (n1 := 128) (i' 0) (i' 1)) - mu (ix2 (n0 := 1) (n1 := 128) (0 : Fin 1) (i' 1)))
        * s (ix2 (n0 := 1) (n1 := 128) (0 : Fin 1) (i' 1))) * g (ix2 (n0 := 1) (n1 := 128) (0 : Fin 1) (i' 1))
        + be (ix2 (n0 := 1) (n1 := 128) (0 : Fin 1) (i' 1))) (Ideal.ofBits .f32 0x00000000#32)
  rw [ez, e mu, e s, e g, e be]

theorem jkRows_congr {n n' : Nat} {c : (⟨2, ![n, 512]⟩ : Shape).Idx → EReal} {c' : (⟨2, ![n', 512]⟩ : Shape).Idx → EReal}
    {w w' : (⟨2, ![512, 128]⟩ : Shape).Idx → EReal} {b b' : (⟨2, ![1, 128]⟩ : Shape).Idx → EReal}
    (i : (⟨2, ![n, 128]⟩ : Shape).Idx) (i' : (⟨2, ![n', 128]⟩ : Shape).Idx) (hq : (i 1).val = (i' 1).val)
    (hc : ∀ k : Fin 512, c (ix2 (n0 := n) (n1 := 512) (i 0) k) = c' (ix2 (n0 := n') (n1 := 512) (i' 0) k))
    (hw : w = w') (hb : b = b') : jkRows c w b i = jkRows c' w' b' i' := by
  subst hw hb
  have h1 : (i 1 : Fin 128) = (i' 1 : Fin 128) := Fin.ext hq
  show (∑ k : Fin 512, c (ix2 (n0 := n) (n1 := 512) (i 0) k) * w (ix2 (n0 := 512) (n1 := 128) k (i 1)))
      + b (ix2 (n0 := 1) (n1 := 128) (0 : Fin 1) (i 1))
    = (∑ k : Fin 512, c' (ix2 (n0 := n') (n1 := 512) (i' 0) k) * w (ix2 (n0 := 512) (n1 := 128) k (i' 1)))
      + b (ix2 (n0 := 1) (n1 := 128) (0 : Fin 1) (i' 1))
  exact congrArg₂ (· + ·)
    (Finset.sum_congr rfl fun k _ => congrArg₂ (· * ·) (hc k) (congrArg (fun z : Fin 128 => w (ix2 k z)) h1))
    (congrArg (fun z : Fin 128 => b (ix2 (0 : Fin 1) z)) h1)

end Cert.KernelIdeal.Values

end
-- ==== Proof.Values.Final0.lean ====
import proofs.«175281_j9964324127123_1_alg».proof.Proof.KernelIdeal.Region0
import proofs.«175281_j9964324127123_1_alg».proof.Proof.Values.Locality
import Idealize.ShloMosaic.Lib.Pipeline.Value

/-!
# Region 0: the array the input layer leaves

The grid has 20 points; point `t` works on rows `5000 t … 5000 t + 4999`. The input `x` and the result are tiled by these rows; the weight matrix and the bias row are one block each, the same at every point. A tile of the result is the input layer of the matching tile of `x`, and each entry reads only its own row of `x`, so tile `t` of the result is tile
`t` of the same function of the whole arrays. The 20 tiles cover the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the others at block `(0, 0)`. -/
theorem idx0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0 :=
  (by decide +kernel : ∀ t : Fin grid0.N, _)

/-- Every tile index below 20 is some point's. -/
theorem onto0 : ∀ q : Fin 20, ∃ t : Fin cfg0.N, t.val = q.val :=
  (by decide +kernel : ∀ q : Fin 20, ∃ t : Fin grid0.N, t.val = q.val)

/-- WHAT POINT `t` WRITES BACK is tile `t` of the region's function of the arrays as the region finds them. -/
theorem flushed0_eq (c : Dev nD) (t : Fin cfg0.N) :
    (dat0 (F := Ideal) V c).flushed 3 t = ((cfg0.win 3).blk t).view.read (Elt Ideal)
      (linInRows (n := 100000) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz2]
  simp only [View.ld_unit_zero (S := S5000x128) hz2, View.ld_unit_zero (S := S128x128) hz2, View.ld_unit_zero (S := S1x128) hz2]
  rw [k0_pay1_eq]
  obtain ⟨e0_0, e0_1, e1_0, e1_1, e2_0, e2_1, eo_0, eo_1⟩ := idx0 t
  funext j
  show linInRows (n := 5000) (iblk0 V c 0 t) (iblk0 V c 1 t) (iblk0 V c 2 t) j
    = linInRows (n := 100000) (V c (Pipeline.arrRef spec0 0)) (V c (Pipeline.arrRef spec0 1)) (V c (Pipeline.arrRef spec0 2))
        (((cfg0.win 3).blk t).view.emb j)
  refine linInRows_congr j (((cfg0.win 3).blk t).view.emb j) ?_ (fun k => ?_) ?_ ?_
  · show (j 1).val = win0_3.index t (1 : Fin 2) * 128 + 1 * (j 1).val
    omega
  · show (V c (Pipeline.arrRef spec0 0)) (((cfg0.win 0).blk t).view.emb (ix2 (n0 := 5000) (n1 := 128) (j 0) k)) = _
    refine congrArg _ (funext fun a => Fin.ext ?_)
    match a with
    | ⟨0, _⟩ => show win0_0.index t (0 : Fin 2) * 5000 + 1 * (j 0).val = win0_3.index t (0 : Fin 2) * 5000 + 1 * (j 0).val; omega
    | ⟨1, _⟩ => show win0_0.index t (1 : Fin 2) * 128 + 1 * k.val = k.val; omega
  · funext y
    show (V c (Pipeline.arrRef spec0 1)) (((cfg0.win 1).blk t).view.emb y) = (V c (Pipeline.arrRef spec0 1)) y
    refine congrArg _ (funext fun a => Fin.ext ?_)
    match a with
    | ⟨0, _⟩ => show win0_1.index t (0 : Fin 2) * 128 + 1 * (y 0).val = (y 0).val; omega
    | ⟨1, _⟩ => show win0_1.index t (1 : Fin 2) * 128 + 1 * (y 1).val = (y 1).val; omega
  · funext y
    show (V c (Pipeline.arrRef spec0 2)) (((cfg0.win 2).blk t).view.emb y) = (V c (Pipeline.arrRef spec0 2)) y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 128 + 1 * (y 1).val = (y 1).val; omega

/-- An index of the result array is in point `t`'s tile iff each coordinate is in the tile's range on its axis. -/
theorem mem_blk0 (t : Fin cfg0.N) (i : S100000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v1).slice (win0_3.rect t)).set ↔ _
  rw [View.set_slice_whole, Rect.mem_set_unit]
  exact Iff.rfl

/-- Every index of the result array is in some point's tile: row `r` in tile `r / 5000`. -/
theorem cover0 (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := onto0 ⟨(i 0).val / 5000, by omega⟩
  have ht' : t.val = (i 0).val / 5000 := ht
  obtain ⟨-, -, -, -, -, -, eo_0, eo_1⟩ := idx0 t
  refine ⟨t, flush0_3 t, ?_⟩
  rw [mem_blk0]
  intro a
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- THE ARRAY after region 0: the region's function of the arrays as the region finds them. -/
theorem final0 (c : Dev nD) : (dat0 (F := Ideal) V c).arrAt 3 cfg0.N
    = linInRows (n := 100000) (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.Values

end
-- ==== Proof.Values.Final1.lean ====
import proofs.«175281_j9964324127123_1_alg».proof.Proof.KernelIdeal.Region1
import proofs.«175281_j9964324127123_1_alg».proof.Proof.Values.Locality
import Idealize.ShloMosaic.Lib.Pipeline.Value

/-!
# Region 1: the array a layer combine leaves

The grid has 20 points; point `t` works on rows `5000 t … 5000 t + 4999`. The propagated messages, the initial features and the result are tiled by these rows; the layer's weight matrix is one block, the same at every point. A tile of the result is the combine of the matching tiles, and each entry reads only its own row of the two row-tiled operands, so tile `t` of the result is tile
`t` of the same function of the whole arrays. The 20 tiles cover the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the others at block `(0, 0)`. -/
theorem idx1 : ∀ t : Fin cfg1.N,
    win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 2) = t.val
    ∧ win1_3.index t (1 : Fin 2) = 0 :=
  (by decide +kernel : ∀ t : Fin grid1.N, _)

/-- Every tile index below 20 is some point's. -/
theorem onto1 : ∀ q : Fin 20, ∃ t : Fin cfg1.N, t.val = q.val :=
  (by decide +kernel : ∀ q : Fin 20, ∃ t : Fin grid1.N, t.val = q.val)

/-- WHAT POINT `t` WRITES BACK is tile `t` of the region's function of the arrays as the region finds them. -/
theorem flushed1_eq (c : Dev nD) (t : Fin cfg1.N) :
    (dat1 (F := Ideal) V c).flushed 3 t = ((cfg1.win 3).blk t).view.read (Elt Ideal)
      (combineRows (n := 100000) (Ideal.ofBits .f32 0x3F183370#32) (Ideal.ofBits .f32 0x3ECF991F#32) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz2]
  simp only [View.ld_unit_zero (S := S5000x128) hz2, View.ld_unit_zero (S := S128x128) hz2]
  rw [k1_pay1_eq]
  obtain ⟨e0_0, e0_1, e1_0, e1_1, e2_0, e2_1, eo_0, eo_1⟩ := idx1 t
  funext j
  show combineRows (n := 5000) (Ideal.ofBits .f32 0x3F183370#32) (Ideal.ofBits .f32 0x3ECF991F#32) (iblk1 V c 0 t) (iblk1 V c 1 t) (iblk1 V c 2 t) j
    = combineRows (n := 100000) (Ideal.ofBits .f32 0x3F183370#32) (Ideal.ofBits .f32 0x3ECF991F#32) (V c (Pipeline.arrRef spec1 0)) (V c (Pipeline.arrRef spec1 1)) (V c (Pipeline.arrRef spec1 2))
        (((cfg1.win 3).blk t).view.emb j)
  refine combineRows_congr (Ideal.ofBits .f32 0x3F183370#32) (Ideal.ofBits .f32 0x3ECF991F#32) j (((cfg1.win 3).blk t).view.emb j) ?_ (fun k => ?_) (fun k => ?_) ?_
  · show (j 1).val = win1_3.index t (1 : Fin 2) * 128 + 1 * (j 1).val
    omega
  · show (V c (Pipeline.arrRef spec1 0)) (((cfg1.win 0).blk t).view.emb (ix2 (n0 := 5000) (n1 := 128) (j 0) k)) = _
    refine congrArg _ (funext fun a => Fin.ext ?_)
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 128 + 1 * k.val = k.val; omega
  · show (V c (Pipeline.arrRef spec1 1)) (((cfg1.win 1).blk t).view.emb (ix2 (n0 := 5000) (n1 := 128) (j 0) k)) = _
    refine congrArg _ (funext fun a => Fin.ext ?_)
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 128 + 1 * k.val = k.val; omega
  · funext y
    show (V c (Pipeline.arrRef spec1 2)) (((cfg1.win 2).blk t).view.emb y) = (V c (Pipeline.arrRef spec1 2)) y
    refine congrArg _ (funext fun a => Fin.ext ?_)
    match a with
    | ⟨0, _⟩ => show win1_2.index t (0 : Fin 2) * 128 + 1 * (y 0).val = (y 0).val; omega
    | ⟨1, _⟩ => show win1_2.index t (1 : Fin 2) * 128 + 1 * (y 1).val = (y 1).val; omega

/-- An index of the result array is in point `t`'s tile iff each coordinate is in the tile's range on its axis. -/
theorem mem_blk1 (t : Fin cfg1.N) (i : S100000x128.Idx) :
    i ∈ ((cfg1.win 3).blk t).view.set ↔ ∀ a : Fin 2, win1_3.index t a * S5000x128.size a ≤ (i a).val
      ∧ (i a).val < win1_3.index t a * S5000x128.size a + S5000x128.size a := by
  show i ∈ ((View.whole main_v14).slice (win1_3.rect t)).set ↔ _
  rw [View.set_slice_whole, Rect.mem_set_unit]
  exact Iff.rfl

/-- Every index of the result array is in some point's tile: row `r` in tile `r / 5000`. -/
theorem cover1 (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := onto1 ⟨(i 0).val / 5000, by omega⟩
  have ht' : t.val = (i 0).val / 5000 := ht
  obtain ⟨-, -, -, -, -, -, eo_0, eo_1⟩ := idx1 t
  refine ⟨t, flush1_3 t, ?_⟩
  rw [mem_blk1]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 128 ≤ (i 1).val ∧ (i 1).val < win1_3.index t (1 : Fin 2) * 128 + 128; omega

/-- THE ARRAY after region 1: the region's function of the arrays as the region finds them. -/
theorem final1 (c : Dev nD) : (dat1 (F := Ideal) V c).arrAt 3 cfg1.N
    = combineRows (n := 100000) (Ideal.ofBits .f32 0x3F183370#32) (Ideal.ofBits .f32 0x3ECF991F#32) (V c (Pipeline.arrRef spec1 0)) (V c (Pipeline.arrRef spec1 1)) (V c (Pipeline.arrRef spec1 2)) :=
  (dat1 (F := Ideal) V c).arrAt_eq_of_cover 3 _ (fun t _ => flushed1_eq V c t) cover1

end Cert.KernelIdeal.Values

end
-- ==== Proof.Values.Final2.lean ====
import proofs.«175281_j9964324127123_1_alg».proof.Proof.KernelIdeal.Region2
import proofs.«175281_j9964324127123_1_alg».proof.Proof.Values.Locality
import Idealize.ShloMosaic.Lib.Pipeline.Value

/-!
# Region 2: the array the normalisation's affine map and the maximum with zero leave

The grid has 20 points; point `t` works on rows `5000 t … 5000 t + 4999`. The input `z` and the result are tiled by these
rows; the four `[1, 128]` rows (mean, reciprocal deviation, scale, shift) are one block each, the same at every point. A
tile of the result is the map applied to the matching tile of `z`, and each entry reads only its own entry of `z` and its
column of the four rows, so tile `t` of the result is tile `t` of the same function of the whole arrays. The 20 tiles cover
the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the four rows at block `(0, 0)`. -/
theorem idx2 : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0 :=
  (by decide +kernel : ∀ t : Fin grid2.N, _)

/-- Every tile index below 20 is some point's. -/
theorem onto2 : ∀ q : Fin 20, ∃ t : Fin cfg2.N, t.val = q.val :=
  (by decide +kernel : ∀ q : Fin 20, ∃ t : Fin grid2.N, t.val = q.val)

/-- The mean row's block is the whole row, at every point. -/
theorem row2_1 (c : Dev nD) (t : Fin cfg2.N) (y : S1x128.Idx) :
    iblk2 V c 1 t y = (V c (Pipeline.arrRef spec2 1)) y := by
  obtain ⟨-, -, e1_0, e1_1, -, -, -, -, -, -, -, -⟩ := idx2 t
  show (V c (Pipeline.arrRef spec2 1)) (((cfg2.win 1).blk t).view.emb y) = (V c (Pipeline.arrRef spec2 1)) y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- The reciprocal deviation row's block is the whole row, at every point. -/
theorem row2_2 (c : Dev nD) (t : Fin cfg2.N) (y : S1x128.Idx) :
    iblk2 V c 2 t y = (V c (Pipeline.arrRef spec2 2)) y := by
  obtain ⟨-, -, -, -, e2_0, e2_1, -, -, -, -, -, -⟩ := idx2 t
  show (V c (Pipeline.arrRef spec2 2)) (((cfg2.win 2).blk t).view.emb y) = (V c (Pipeline.arrRef spec2 2)) y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- The scale row's block is the whole row, at every point. -/
theorem row2_3 (c : Dev nD) (t : Fin cfg2.N) (y : S1x128.Idx) :
    iblk2 V c 3 t y = (V c (Pipeline.arrRef spec2 3)) y := by
  obtain ⟨-, -, -, -, -, -, e3_0, e3_1, -, -, -, -⟩ := idx2 t
  show (V c (Pipeline.arrRef spec2 3)) (((cfg2.win 3).blk t).view.emb y) = (V c (Pipeline.arrRef spec2 3)) y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- The shift row's block is the whole row, at every point. -/
theorem row2_4 (c : Dev nD) (t : Fin cfg2.N) (y : S1x128.Idx) :
    iblk2 V c 4 t y = (V c (Pipeline.arrRef spec2 4)) y := by
  obtain ⟨-, -, -, -, -, -, -, -, e4_0, e4_1, -, -⟩ := idx2 t
  show (V c (Pipeline.arrRef spec2 4)) (((cfg2.win 4).blk t).view.emb y) = (V c (Pipeline.arrRef spec2 4)) y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Row `p` of tile `t` of `z` is row `p` of tile `t` of the result array's rows. -/
theorem tile2_0 (c : Dev nD) (t : Fin cfg2.N) (j : S5000x128.Idx) (k : Fin 128) :
    iblk2 V c 0 t (ix2 (n0 := 5000) (n1 := 128) (j 0) k)
      = (V c (Pipeline.arrRef spec2 0)) (ix2 (n0 := 100000) (n1 := 128) ((((cfg2.win 5).blk t).view.emb j) 0) k) := by
  obtain ⟨e0_0, e0_1, -, -, -, -, -, -, -, -, eo_0, eo_1⟩ := idx2 t
  show (V c (Pipeline.arrRef spec2 0)) (((cfg2.win 0).blk t).view.emb (ix2 (n0 := 5000) (n1 := 128) (j 0) k)) = _
  refine congrArg _ (funext fun a => Fin.ext ?_)
  match a with
  | ⟨0, _⟩ => show win2_0.index t (0 : Fin 2) * 5000 + 1 * (j 0).val = win2_5.index t (0 : Fin 2) * 5000 + 1 * (j 0).val; omega
  | ⟨1, _⟩ => show win2_0.index t (1 : Fin 2) * 128 + 1 * k.val = k.val; omega

/-- The body's value on any five blocks: the whole-buffer reads are the blocks themselves and the one whole-buffer store is
    its value, so the output buffer holds the row-wise map of the blocks. -/
theorem body2_eq (x0 : Vec Ideal S5000x128 .f32) (x1 x2 x3 x4 : Vec Ideal S1x128 .f32) :
    out2_5 x0 x1 x2 x3 x4 = bnReluRows (n := 5000) x0 x1 x2 x3 x4 := by
  unfold out2_5
  rw [View.canon_unit_zero hz2]
  simp only [View.ld_unit_zero (S := S5000x128) hz2, View.ld_unit_zero (S := S1x128) hz2]
  exact k2_pay1_eq x0 x1 x2 x3 x4
set_option maxHeartbeats 400000 in
/-- WHAT POINT `t` WRITES BACK is tile `t` of the region's function of the arrays as the region finds them. -/
theorem flushed2_eq (c : Dev nD) (t : Fin cfg2.N) :
    (dat2 (F := Ideal) V c).flushed 5 t = ((cfg2.win 5).blk t).view.read (Elt Ideal)
      (bnReluRows (n := 100000) (V c (Pipeline.arrRef spec2 0)) (V c (Pipeline.arrRef spec2 1)) (V c (Pipeline.arrRef spec2 2)) (V c (Pipeline.arrRef spec2 3)) (V c (Pipeline.arrRef spec2 4))) := by
  show (cfg2.win 5).cut (grid2.coords t) ((dat2 V c).after 5 t) = _
  rw [after2_5, body2_eq]
  obtain ⟨-, -, -, -, -, -, -, -, -, -, eo_0, eo_1⟩ := idx2 t
  funext j
  show bnReluRows (n := 5000) (iblk2 V c 0 t) (iblk2 V c 1 t) (iblk2 V c 2 t) (iblk2 V c 3 t) (iblk2 V c 4 t) j
    = bnReluRows (n := 100000) (V c (Pipeline.arrRef spec2 0)) (V c (Pipeline.arrRef spec2 1)) (V c (Pipeline.arrRef spec2 2)) (V c (Pipeline.arrRef spec2 3)) (V c (Pipeline.arrRef spec2 4))
        (((cfg2.win 5).blk t).view.emb j)
  refine bnReluRows_congr j (((cfg2.win 5).blk t).view.emb j) ?_ (fun k => tile2_0 V c t j k)
    (funext (row2_1 V c t)) (funext (row2_2 V c t)) (funext (row2_3 V c t)) (funext (row2_4 V c t))
  show (j 1).val = win2_5.index t (1 : Fin 2) * 128 + 1 * (j 1).val
  omega

/-- An index of the result array is in point `t`'s tile iff each coordinate is in the tile's range on its axis. -/
theorem mem_blk2 (t : Fin cfg2.N) (i : S100000x128.Idx) :
    i ∈ ((cfg2.win 5).blk t).view.set ↔ ∀ a : Fin 2, win2_5.index t a * S5000x128.size a ≤ (i a).val
      ∧ (i a).val < win2_5.index t a * S5000x128.size a + S5000x128.size a := by
  show i ∈ ((View.whole main_v30).slice (win2_5.rect t)).set ↔ _
  rw [View.set_slice_whole, Rect.mem_set_unit]
  exact Iff.rfl

/-- Every index of the result array is in some point's tile: row `r` in tile `r / 5000`. -/
theorem cover2 (i : S100000x128.Idx) :
    ∃ t : Fin cfg2.N, (cfg2.win 5).flush t = true ∧ i ∈ ((cfg2.win 5).blk t).view.set := by
  have hi0 : (i 0).val < 100000 := (i 0).isLt
  have hi1 : (i 1).val < 128 := (i 1).isLt
  obtain ⟨t, ht⟩ := onto2 ⟨(i 0).val / 5000, by omega⟩
  have ht' : t.val = (i 0).val / 5000 := ht
  obtain ⟨-, -, -, -, -, -, -, -, -, -, eo_0, eo_1⟩ := idx2 t
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 128 ≤ (i 1).val ∧ (i 1).val < win2_5.index t (1 : Fin 2) * 128 + 128; omega

/-- THE ARRAY after region 2: the region's function of the arrays as the region finds them. -/
theorem final2 (c : Dev nD) : (dat2 (F := Ideal) V c).arrAt 5 cfg2.N
    = bnReluRows (n := 100000) (V c (Pipeline.arrRef spec2 0)) (V c (Pipeline.arrRef spec2 1)) (V c (Pipeline.arrRef spec2 2)) (V c (Pipeline.arrRef spec2 3)) (V c (Pipeline.arrRef spec2 4)) :=
  (dat2 (F := Ideal) V c).arrAt_eq_of_cover 5 _ (fun t _ => flushed2_eq V c t) cover2

end Cert.KernelIdeal.Values

end
-- ==== Proof.Values.Final3.lean ====
import proofs.«175281_j9964324127123_1_alg».proof.Proof.KernelIdeal.Region3
import proofs.«175281_j9964324127123_1_alg».proof.Proof.Values.Locality
import Idealize.ShloMosaic.Lib.Pipeline.Value

/-!
# Region 3: the array a layer combine leaves

The grid has 20 points; point `t` works on rows `5000 t … 5000 t + 4999`. The propagated messages, the initial features and the result are tiled by these rows; the layer's weight matrix is one block, the same at every point. A tile of the result is the combine of the matching tiles, and each entry reads only its own row of the two row-tiled operands, so tile `t` of the result is tile
`t` of the same function of the whole arrays. The 20 tiles cover the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the others at block `(0, 0)`. -/
theorem idx3 : ∀ t : Fin cfg3.N,
    win3_0.index t (0 : Fin 2) = t.val
    ∧ win3_0.index t (1 : Fin 2) = 0
    ∧ win3_1.index t (0 : Fin 2) = t.val
    ∧ win3_1.index t (1 : Fin 2) = 0
    ∧ win3_2.index t (0 : Fin 2) = 0
    ∧ win3_2.index t (1 : Fin 2) = 0
    ∧ win3_3.index t (0 : Fin 2) = t.val
    ∧ win3_3.index t (1 : Fin 2) = 0 :=
  (by decide +kernel : ∀ t : Fin grid3.N, _)

/-- Every tile index below 20 is some point's. -/
theorem onto3 : ∀ q : Fin 20, ∃ t : Fin cfg3.N, t.val = q.val :=
  (by decide +kernel : ∀ q : Fin 20, ∃ t : Fin grid3.N, t.val = q.val)

set_option maxHeartbeats 1000000 in
/-- WHAT POINT `t` WRITES BACK is tile `t` of the region's function of the arrays as the region finds them. -/
theorem flushed3_eq (c : Dev nD) (t : Fin cfg3.N) :
    (dat3 (F := Ideal) V c).flushed 3 t = ((cfg3.win 3).blk t).view.read (Elt Ideal)
      (combineRows (n := 100000) (Ideal.ofBits .f32 0x3F46E010#32) (Ideal.ofBits .f32 0x3E647FBE#32) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz2]
  simp only [View.ld_unit_zero (S := S5000x128) hz2, View.ld_unit_zero (S := S128x128) hz2]
  rw [k3_pay1_eq]
  obtain ⟨e0_0, e0_1, e1_0, e1_1, e2_0, e2_1, eo_0, eo_1⟩ := idx3 t
  funext j
  show combineRows (n := 5000) (Ideal.ofBits .f32 0x3F46E010#32) (Ideal.ofBits .f32 0x3E647FBE#32) (iblk3 V c 0 t) (iblk3 V c 1 t) (iblk3 V c 2 t) j
    = combineRows (n := 100000) (Ideal.ofBits .f32 0x3F46E010#32) (Ideal.ofBits .f32 0x3E647FBE#32) (V c (Pipeline.arrRef spec3 0)) (V c (Pipeline.arrRef spec3 1)) (V c (Pipeline.arrRef spec3 2))
        (((cfg3.win 3).blk t).view.emb j)
  refine combineRows_congr (Ideal.ofBits .f32 0x3F46E010#32) (Ideal.ofBits .f32 0x3E647FBE#32) j (((cfg3.win 3).blk t).view.emb j) ?_ (fun k => ?_) (fun k => ?_) ?_
  · show (j 1).val = win3_3.index t (1 : Fin 2) * 128 + 1 * (j 1).val
    omega
  · show (V c (Pipeline.arrRef spec3 0)) (((cfg3.win 0).blk t).view.emb (ix2 (n0 := 5000) (n1 := 128) (j 0) k)) = _
    refine congrArg _ (funext fun a => Fin.ext ?_)
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 128 + 1 * k.val = k.val; omega
  · show (V c (Pipeline.arrRef spec3 1)) (((cfg3.win 1).blk t).view.emb (ix2 (n0 := 5000) (n1 := 128) (j 0) k)) = _
    refine congrArg _ (funext fun a => Fin.ext ?_)
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 128 + 1 * k.val = k.val; omega
  · funext y
    show (V c (Pipeline.arrRef spec3 2)) (((cfg3.win 2).blk t).view.emb y) = (V c (Pipeline.arrRef spec3 2)) y
    refine congrArg _ (funext fun a => Fin.ext ?_)
    match a with
    | ⟨0, _⟩ => show win3_2.index t (0 : Fin 2) * 128 + 1 * (y 0).val = (y 0).val; omega
    | ⟨1, _⟩ => show win3_2.index t (1 : Fin 2) * 128 + 1 * (y 1).val = (y 1).val; omega

/-- An index of the result array is in point `t`'s tile iff each coordinate is in the tile's range on its axis. -/
theorem mem_blk3 (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole main_v43).slice (win3_3.rect t)).set ↔ _
  rw [View.set_slice_whole, Rect.mem_set_unit]
  exact Iff.rfl

/-- Every index of the result array is in some point's tile: row `r` in tile `r / 5000`. -/
theorem cover3 (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := onto3 ⟨(i 0).val / 5000, by omega⟩
  have ht' : t.val = (i 0).val / 5000 := ht
  obtain ⟨-, -, -, -, -, -, eo_0, eo_1⟩ := idx3 t
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 128 ≤ (i 1).val ∧ (i 1).val < win3_3.index t (1 : Fin 2) * 128 + 128; omega

/-- THE ARRAY after region 3: the region's function of the arrays as the region finds them. -/
theorem final3 (c : Dev nD) : (dat3 (F := Ideal) V c).arrAt 3 cfg3.N
    = combineRows (n := 100000) (Ideal.ofBits .f32 0x3F46E010#32) (Ideal.ofBits .f32 0x3E647FBE#32) (V c (Pipeline.arrRef spec3 0)) (V c (Pipeline.arrRef spec3 1)) (V c (Pipeline.arrRef spec3 2)) :=
  (dat3 (F := Ideal) V c).arrAt_eq_of_cover 3 _ (fun t _ => flushed3_eq V c t) cover3

end Cert.KernelIdeal.Values

end
-- ==== Proof.Values.Final4.lean ====
import proofs.«175281_j9964324127123_1_alg».proof.Proof.KernelIdeal.Region4
import proofs.«175281_j9964324127123_1_alg».proof.Proof.Values.Locality
import Idealize.ShloMosaic.Lib.Pipeline.Value

/-!
# Region 4: the array the normalisation's affine map and the maximum with zero leave

The grid has 20 points; point `t` works on rows `5000 t … 5000 t + 4999`. The input `z` and the result are tiled by these
rows; the four `[1, 128]` rows (mean, reciprocal deviation, scale, shift) are one block each, the same at every point. A
tile of the result is the map applied to the matching tile of `z`, and each entry reads only its own entry of `z` and its
column of the four rows, so tile `t` of the result is tile `t` of the same function of the whole arrays. The 20 tiles cover
the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the four rows at block `(0, 0)`. -/
theorem idx4 : ∀ t : Fin cfg4.N,
    win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0 :=
  (by decide +kernel : ∀ t : Fin grid4.N, _)

/-- Every tile index below 20 is some point's. -/
theorem onto4 : ∀ q : Fin 20, ∃ t : Fin cfg4.N, t.val = q.val :=
  (by decide +kernel : ∀ q : Fin 20, ∃ t : Fin grid4.N, t.val = q.val)

/-- The mean row's block is the whole row, at every point. -/
theorem row4_1 (c : Dev nD) (t : Fin cfg4.N) (y : S1x128.Idx) :
    iblk4 V c 1 t y = (V c (Pipeline.arrRef spec4 1)) y := by
  obtain ⟨-, -, e1_0, e1_1, -, -, -, -, -, -, -, -⟩ := idx4 t
  show (V c (Pipeline.arrRef spec4 1)) (((cfg4.win 1).blk t).view.emb y) = (V c (Pipeline.arrRef spec4 1)) y
  refine congrArg _ (funext fun a => Fin.ext ?_)
  match a with
  | ⟨0, _⟩ => show win4_1.index t (0 : Fin 2) * 1 + 1 * (y 0).val = (y 0).val; omega
  | ⟨1, _⟩ => show win4_1.index t (1 : Fin 2) * 128 + 1 * (y 1).val = (y 1).val; omega

/-- The reciprocal deviation row's block is the whole row, at every point. -/
theorem row4_2 (c : Dev nD) (t : Fin cfg4.N) (y : S1x128.Idx) :
    iblk4 V c 2 t y = (V c (Pipeline.arrRef spec4 2)) y := by
  obtain ⟨-, -, -, -, e2_0, e2_1, -, -, -, -, -, -⟩ := idx4 t
  show (V c (Pipeline.arrRef spec4 2)) (((cfg4.win 2).blk t).view.emb y) = (V c (Pipeline.arrRef spec4 2)) y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 128 + 1 * (y 1).val = (y 1).val; omega

/-- The scale row's block is the whole row, at every point. -/
theorem row4_3 (c : Dev nD) (t : Fin cfg4.N) (y : S1x128.Idx) :
    iblk4 V c 3 t y = (V c (Pipeline.arrRef spec4 3)) y := by
  obtain ⟨-, -, -, -, -, -, e3_0, e3_1, -, -, -, -⟩ := idx4 t
  show (V c (Pipeline.arrRef spec4 3)) (((cfg4.win 3).blk t).view.emb y) = (V c (Pipeline.arrRef spec4 3)) y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- The shift row's block is the whole row, at every point. -/
theorem row4_4 (c : Dev nD) (t : Fin cfg4.N) (y : S1x128.Idx) :
    iblk4 V c 4 t y = (V c (Pipeline.arrRef spec4 4)) y := by
  obtain ⟨-, -, -, -, -, -, -, -, e4_0, e4_1, -, -⟩ := idx4 t
  show (V c (Pipeline.arrRef spec4 4)) (((cfg4.win 4).blk t).view.emb y) = (V c (Pipeline.arrRef spec4 4)) y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 128 + 1 * (y 1).val = (y 1).val; omega

/-- Row `p` of tile `t` of `z` is row `p` of tile `t` of the result array's rows. -/
theorem tile4_0 (c : Dev nD) (t : Fin cfg4.N) (j : S5000x128.Idx) (k : Fin 128) :
    iblk4 V c 0 t (ix2 (n0 := 5000) (n1 := 128) (j 0) k)
      = (V c (Pipeline.arrRef spec4 0)) (ix2 (n0 := 100000) (n1 := 128) ((((cfg4.win 5).blk t).view.emb j) 0) k) := by
  obtain ⟨e0_0, e0_1, -, -, -, -, -, -, -, -, eo_0, eo_1⟩ := idx4 t
  show (V c (Pipeline.arrRef spec4 0)) (((cfg4.win 0).blk t).view.emb (ix2 (n0 := 5000) (n1 := 128) (j 0) k)) = _
  refine congrArg _ (funext fun a => Fin.ext ?_)
  match a with
  | ⟨0, _⟩ => show win4_0.index t (0 : Fin 2) * 5000 + 1 * (j 0).val = win4_5.index t (0 : Fin 2) * 5000 + 1 * (j 0).val; omega
  | ⟨1, _⟩ => show win4_0.index t (1 : Fin 2) * 128 + 1 * k.val = k.val; omega

/-- The body's value on any five blocks: the whole-buffer reads are the blocks themselves and the one whole-buffer store is
    its value, so the output buffer holds the row-wise map of the blocks. -/
theorem body4_eq (x0 : Vec Ideal S5000x128 .f32) (x1 x2 x3 x4 : Vec Ideal S1x128 .f32) :
    out4_5 x0 x1 x2 x3 x4 = bnReluRows (n := 5000) x0 x1 x2 x3 x4 := by
  unfold out4_5
  rw [View.canon_unit_zero hz2]
  simp only [View.ld_unit_zero (S := S5000x128) hz2, View.ld_unit_zero (S := S1x128) hz2]
  exact k4_pay1_eq x0 x1 x2 x3 x4
set_option maxHeartbeats 400000 in
/-- WHAT POINT `t` WRITES BACK is tile `t` of the region's function of the arrays as the region finds them. -/
theorem flushed4_eq (c : Dev nD) (t : Fin cfg4.N) :
    (dat4 (F := Ideal) V c).flushed 5 t = ((cfg4.win 5).blk t).view.read (Elt Ideal)
      (bnReluRows (n := 100000) (V c (Pipeline.arrRef spec4 0)) (V c (Pipeline.arrRef spec4 1)) (V c (Pipeline.arrRef spec4 2)) (V c (Pipeline.arrRef spec4 3)) (V c (Pipeline.arrRef spec4 4))) := by
  show (cfg4.win 5).cut (grid4.coords t) ((dat4 V c).after 5 t) = _
  rw [after4_5, body4_eq]
  obtain ⟨-, -, -, -, -, -, -, -, -, -, eo_0, eo_1⟩ := idx4 t
  funext j
  show bnReluRows (n := 5000) (iblk4 V c 0 t) (iblk4 V c 1 t) (iblk4 V c 2 t) (iblk4 V c 3 t) (iblk4 V c 4 t) j
    = bnReluRows (n := 100000) (V c (Pipeline.arrRef spec4 0)) (V c (Pipeline.arrRef spec4 1)) (V c (Pipeline.arrRef spec4 2)) (V c (Pipeline.arrRef spec4 3)) (V c (Pipeline.arrRef spec4 4))
        (((cfg4.win 5).blk t).view.emb j)
  refine bnReluRows_congr j (((cfg4.win 5).blk t).view.emb j) ?_ (fun k => tile4_0 V c t j k)
    (funext (row4_1 V c t)) (funext (row4_2 V c t)) (funext (row4_3 V c t)) (funext (row4_4 V c t))
  show (j 1).val = win4_5.index t (1 : Fin 2) * 128 + 1 * (j 1).val
  omega

/-- An index of the result array is in point `t`'s tile iff each coordinate is in the tile's range on its axis. -/
theorem mem_blk4 (t : Fin cfg4.N) (i : S100000x128.Idx) :
    i ∈ ((cfg4.win 5).blk t).view.set ↔ ∀ a : Fin 2, win4_5.index t a * S5000x128.size a ≤ (i a).val
      ∧ (i a).val < win4_5.index t a * S5000x128.size a + S5000x128.size a := by
  show i ∈ ((View.whole main_v59).slice (win4_5.rect t)).set ↔ _
  rw [View.set_slice_whole, Rect.mem_set_unit]
  exact Iff.rfl

/-- Every index of the result array is in some point's tile: row `r` in tile `r / 5000`. -/
theorem cover4 (i : S100000x128.Idx) :
    ∃ t : Fin cfg4.N, (cfg4.win 5).flush t = true ∧ i ∈ ((cfg4.win 5).blk t).view.set := by
  have hi0 : (i 0).val < 100000 := (i 0).isLt
  have hi1 : (i 1).val < 128 := (i 1).isLt
  obtain ⟨t, ht⟩ := onto4 ⟨(i 0).val / 5000, by omega⟩
  have ht' : t.val = (i 0).val / 5000 := ht
  obtain ⟨-, -, -, -, -, -, -, -, -, -, eo_0, eo_1⟩ := idx4 t
  refine ⟨t, flush4_5 t, ?_⟩
  rw [mem_blk4]
  intro a
  match a with
  | ⟨0, _⟩ => show win4_5.index t (0 : Fin 2) * 5000 ≤ (i 0).val ∧ (i 0).val < win4_5.index t (0 : Fin 2) * 5000 + 5000; omega
  | ⟨1, _⟩ => show win4_5.index t (1 : Fin 2) * 128 ≤ (i 1).val ∧ (i 1).val < win4_5.index t (1 : Fin 2) * 128 + 128; omega

/-- THE ARRAY after region 4: the region's function of the arrays as the region finds them. -/
theorem final4 (c : Dev nD) : (dat4 (F := Ideal) V c).arrAt 5 cfg4.N
    = bnReluRows (n := 100000) (V c (Pipeline.arrRef spec4 0)) (V c (Pipeline.arrRef spec4 1)) (V c (Pipeline.arrRef spec4 2)) (V c (Pipeline.arrRef spec4 3)) (V c (Pipeline.arrRef spec4 4)) :=
  (dat4 (F := Ideal) V c).arrAt_eq_of_cover 5 _ (fun t _ => flushed4_eq V c t) cover4

end Cert.KernelIdeal.Values

end
-- ==== Proof.Values.Final5.lean ====
import proofs.«175281_j9964324127123_1_alg».proof.Proof.KernelIdeal.Region5
import proofs.«175281_j9964324127123_1_alg».proof.Proof.Values.Locality
import Idealize.ShloMosaic.Lib.Pipeline.Value

/-!
# Region 5: the array a layer combine leaves

The grid has 20 points; point `t` works on rows `5000 t … 5000 t + 4999`. The propagated messages, the initial features and the result are tiled by these rows; the layer's weight matrix is one block, the same at every point. A tile of the result is the combine of the matching tiles, and each entry reads only its own row of the two row-tiled operands, so tile `t` of the result is tile
`t` of the same function of the whole arrays. The 20 tiles cover the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the others at block `(0, 0)`. -/
theorem idx5 : ∀ t : Fin cfg5.N,
    win5_0.index t (0 : Fin 2) = t.val
    ∧ win5_0.index t (1 : Fin 2) = 0
    ∧ win5_1.index t (0 : Fin 2) = t.val
    ∧ win5_1.index t (1 : Fin 2) = 0
    ∧ win5_2.index t (0 : Fin 2) = 0
    ∧ win5_2.index t (1 : Fin 2) = 0
    ∧ win5_3.index t (0 : Fin 2) = t.val
    ∧ win5_3.index t (1 : Fin 2) = 0 :=
  (by decide +kernel : ∀ t : Fin grid5.N, _)

/-- Every tile index below 20 is some point's. -/
theorem onto5 : ∀ q : Fin 20, ∃ t : Fin cfg5.N, t.val = q.val :=
  (by decide +kernel : ∀ q : Fin 20, ∃ t : Fin grid5.N, t.val = q.val)

/-- WHAT POINT `t` WRITES BACK is tile `t` of the region's function of the arrays as the region finds them. -/
theorem flushed5_eq (c : Dev nD) (t : Fin cfg5.N) :
    (dat5 (F := Ideal) V c).flushed 3 t = ((cfg5.win 3).blk t).view.read (Elt Ideal)
      (combineRows (n := 100000) (Ideal.ofBits .f32 0x3F588995#32) (Ideal.ofBits .f32 0x3E1DD9AD#32) (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz2]
  simp only [View.ld_unit_zero (S := S5000x128) hz2, View.ld_unit_zero (S := S128x128) hz2]
  rw [k5_pay1_eq]
  obtain ⟨e0_0, e0_1, e1_0, e1_1, e2_0, e2_1, eo_0, eo_1⟩ := idx5 t
  funext j
  show combineRows (n := 5000) (Ideal.ofBits .f32 0x3F588995#32) (Ideal.ofBits .f32 0x3E1DD9AD#32) (iblk5 V c 0 t) (iblk5 V c 1 t) (iblk5 V c 2 t) j
    = combineRows (n := 100000) (Ideal.ofBits .f32 0x3F588995#32) (Ideal.ofBits .f32 0x3E1DD9AD#32) (V c (Pipeline.arrRef spec5 0)) (V c (Pipeline.arrRef spec5 1)) (V c (Pipeline.arrRef spec5 2))
        (((cfg5.win 3).blk t).view.emb j)
  refine combineRows_congr (Ideal.ofBits .f32 0x3F588995#32) (Ideal.ofBits .f32 0x3E1DD9AD#32) j (((cfg5.win 3).blk t).view.emb j) ?_ (fun k => ?_) (fun k => ?_) ?_
  · show (j 1).val = win5_3.index t (1 : Fin 2) * 128 + 1 * (j 1).val
    omega
  · show (V c (Pipeline.arrRef spec5 0)) (((cfg5.win 0).blk t).view.emb (ix2 (n0 := 5000) (n1 := 128) (j 0) k)) = _
    refine congrArg _ (funext fun a => Fin.ext ?_)
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 128 + 1 * k.val = k.val; omega
  · show (V c (Pipeline.arrRef spec5 1)) (((cfg5.win 1).blk t).view.emb (ix2 (n0 := 5000) (n1 := 128) (j 0) k)) = _
    refine congrArg _ (funext fun a => Fin.ext ?_)
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 128 + 1 * k.val = k.val; omega
  · funext y
    show (V c (Pipeline.arrRef spec5 2)) (((cfg5.win 2).blk t).view.emb y) = (V c (Pipeline.arrRef spec5 2)) y
    refine congrArg _ (funext fun a => Fin.ext ?_)
    match a with
    | ⟨0, _⟩ => show win5_2.index t (0 : Fin 2) * 128 + 1 * (y 0).val = (y 0).val; omega
    | ⟨1, _⟩ => show win5_2.index t (1 : Fin 2) * 128 + 1 * (y 1).val = (y 1).val; omega

/-- An index of the result array is in point `t`'s tile iff each coordinate is in the tile's range on its axis. -/
theorem mem_blk5 (t : Fin cfg5.N) (i : S100000x128.Idx) :
    i ∈ ((cfg5.win 3).blk t).view.set ↔ ∀ a : Fin 2, win5_3.index t a * S5000x128.size a ≤ (i a).val
      ∧ (i a).val < win5_3.index t a * S5000x128.size a + S5000x128.size a := by
  show i ∈ ((View.whole main_v72).slice (win5_3.rect t)).set ↔ _
  rw [View.set_slice_whole, Rect.mem_set_unit]
  exact Iff.rfl

/-- Every index of the result array is in some point's tile: row `r` in tile `r / 5000`. -/
theorem cover5 (i : S100000x128.Idx) :
    ∃ t : Fin cfg5.N, (cfg5.win 3).flush t = true ∧ i ∈ ((cfg5.win 3).blk t).view.set := by
  have hi0 : (i 0).val < 100000 := (i 0).isLt
  have hi1 : (i 1).val < 128 := (i 1).isLt
  obtain ⟨t, ht⟩ := onto5 ⟨(i 0).val / 5000, by omega⟩
  have ht' : t.val = (i 0).val / 5000 := ht
  obtain ⟨-, -, -, -, -, -, eo_0, eo_1⟩ := idx5 t
  refine ⟨t, flush5_3 t, ?_⟩
  rw [mem_blk5]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 128 ≤ (i 1).val ∧ (i 1).val < win5_3.index t (1 : Fin 2) * 128 + 128; omega

/-- THE ARRAY after region 5: the region's function of the arrays as the region finds them. -/
theorem final5 (c : Dev nD) : (dat5 (F := Ideal) V c).arrAt 3 cfg5.N
    = combineRows (n := 100000) (Ideal.ofBits .f32 0x3F588995#32) (Ideal.ofBits .f32 0x3E1DD9AD#32) (V c (Pipeline.arrRef spec5 0)) (V c (Pipeline.arrRef spec5 1)) (V c (Pipeline.arrRef spec5 2)) :=
  (dat5 (F := Ideal) V c).arrAt_eq_of_cover 3 _ (fun t _ => flushed5_eq V c t) cover5

end Cert.KernelIdeal.Values

end
-- ==== Proof.Values.Final6.lean ====
import proofs.«175281_j9964324127123_1_alg».proof.Proof.KernelIdeal.Region6
import proofs.«175281_j9964324127123_1_alg».proof.Proof.Values.Locality
import Idealize.ShloMosaic.Lib.Pipeline.Value

/-!
# Region 6: the array the normalisation's affine map and the maximum with zero leave

The grid has 20 points; point `t` works on rows `5000 t … 5000 t + 4999`. The input `z` and the result are tiled by these
rows; the four `[1, 128]` rows (mean, reciprocal deviation, scale, shift) are one block each, the same at every point. A
tile of the result is the map applied to the matching tile of `z`, and each entry reads only its own entry of `z` and its
column of the four rows, so tile `t` of the result is tile `t` of the same function of the whole arrays. The 20 tiles cover
the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the four rows at block `(0, 0)`. -/
theorem idx6 : ∀ t : Fin cfg6.N,
    win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = 0
    ∧ win6_3.index t (1 : Fin 2) = 0
    ∧ win6_4.index t (0 : Fin 2) = 0
    ∧ win6_4.index t (1 : Fin 2) = 0
    ∧ win6_5.index t (0 : Fin 2) = t.val
    ∧ win6_5.index t (1 : Fin 2) = 0 :=
  (by decide +kernel : ∀ t : Fin grid6.N, _)

/-- Every tile index below 20 is some point's. -/
theorem onto6 : ∀ q : Fin 20, ∃ t : Fin cfg6.N, t.val = q.val :=
  (by decide +kernel : ∀ q : Fin 20, ∃ t : Fin grid6.N, t.val = q.val)

/-- The mean row's block is the whole row, at every point. -/
theorem row6_1 (c : Dev nD) (t : Fin cfg6.N) (y : S1x128.Idx) :
    iblk6 V c 1 t y = (V c (Pipeline.arrRef spec6 1)) y := by
  obtain ⟨-, -, e1_0, e1_1, -, -, -, -, -, -, -, -⟩ := idx6 t
  show (V c (Pipeline.arrRef spec6 1)) (((cfg6.win 1).blk t).view.emb y) = (V c (Pipeline.arrRef spec6 1)) y
  refine congrArg _ (funext fun a => Fin.ext ?_)
  match a with
  | ⟨0, _⟩ => show win6_1.index t (0 : Fin 2) * 1 + 1 * (y 0).val = (y 0).val; omega
  | ⟨1, _⟩ => show win6_1.index t (1 : Fin 2) * 128 + 1 * (y 1).val = (y 1).val; omega

/-- The reciprocal deviation row's block is the whole row, at every point. -/
theorem row6_2 (c : Dev nD) (t : Fin cfg6.N) (y : S1x128.Idx) :
    iblk6 V c 2 t y = (V c (Pipeline.arrRef spec6 2)) y := by
  obtain ⟨-, -, -, -, e2_0, e2_1, -, -, -, -, -, -⟩ := idx6 t
  show (V c (Pipeline.arrRef spec6 2)) (((cfg6.win 2).blk t).view.emb y) = (V c (Pipeline.arrRef spec6 2)) y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- The scale row's block is the whole row, at every point. -/
theorem row6_3 (c : Dev nD) (t : Fin cfg6.N) (y : S1x128.Idx) :
    iblk6 V c 3 t y = (V c (Pipeline.arrRef spec6 3)) y := by
  obtain ⟨-, -, -, -, -, -, e3_0, e3_1, -, -, -, -⟩ := idx6 t
  show (V c (Pipeline.arrRef spec6 3)) (((cfg6.win 3).blk t).view.emb y) = (V c (Pipeline.arrRef spec6 3)) y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- The shift row's block is the whole row, at every point. -/
theorem row6_4 (c : Dev nD) (t : Fin cfg6.N) (y : S1x128.Idx) :
    iblk6 V c 4 t y = (V c (Pipeline.arrRef spec6 4)) y := by
  obtain ⟨-, -, -, -, -, -, -, -, e4_0, e4_1, -, -⟩ := idx6 t
  show (V c (Pipeline.arrRef spec6 4)) (((cfg6.win 4).blk t).view.emb y) = (V c (Pipeline.arrRef spec6 4)) y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- Row `p` of tile `t` of `z` is row `p` of tile `t` of the result array's rows. -/
theorem tile6_0 (c : Dev nD) (t : Fin cfg6.N) (j : S5000x128.Idx) (k : Fin 128) :
    iblk6 V c 0 t (ix2 (n0 := 5000) (n1 := 128) (j 0) k)
      = (V c (Pipeline.arrRef spec6 0)) (ix2 (n0 := 100000) (n1 := 128) ((((cfg6.win 5).blk t).view.emb j) 0) k) := by
  obtain ⟨e0_0, e0_1, -, -, -, -, -, -, -, -, eo_0, eo_1⟩ := idx6 t
  show (V c (Pipeline.arrRef spec6 0)) (((cfg6.win 0).blk t).view.emb (ix2 (n0 := 5000) (n1 := 128) (j 0) k)) = _
  refine congrArg _ (funext fun a => Fin.ext ?_)
  match a with
  | ⟨0, _⟩ => show win6_0.index t (0 : Fin 2) * 5000 + 1 * (j 0).val = win6_5.index t (0 : Fin 2) * 5000 + 1 * (j 0).val; omega
  | ⟨1, _⟩ => show win6_0.index t (1 : Fin 2) * 128 + 1 * k.val = k.val; omega

/-- The body's value on any five blocks: the whole-buffer reads are the blocks themselves and the one whole-buffer store is
    its value, so the output buffer holds the row-wise map of the blocks. -/
theorem body6_eq (x0 : Vec Ideal S5000x128 .f32) (x1 x2 x3 x4 : Vec Ideal S1x128 .f32) :
    out6_5 x0 x1 x2 x3 x4 = bnReluRows (n := 5000) x0 x1 x2 x3 x4 := by
  unfold out6_5
  rw [View.canon_unit_zero hz2]
  simp only [View.ld_unit_zero (S := S5000x128) hz2, View.ld_unit_zero (S := S1x128) hz2]
  exact k6_pay1_eq x0 x1 x2 x3 x4
set_option maxHeartbeats 400000 in
/-- WHAT POINT `t` WRITES BACK is tile `t` of the region's function of the arrays as the region finds them. -/
theorem flushed6_eq (c : Dev nD) (t : Fin cfg6.N) :
    (dat6 (F := Ideal) V c).flushed 5 t = ((cfg6.win 5).blk t).view.read (Elt Ideal)
      (bnReluRows (n := 100000) (V c (Pipeline.arrRef spec6 0)) (V c (Pipeline.arrRef spec6 1)) (V c (Pipeline.arrRef spec6 2)) (V c (Pipeline.arrRef spec6 3)) (V c (Pipeline.arrRef spec6 4))) := by
  show (cfg6.win 5).cut (grid6.coords t) ((dat6 V c).after 5 t) = _
  rw [after6_5, body6_eq]
  obtain ⟨-, -, -, -, -, -, -, -, -, -, eo_0, eo_1⟩ := idx6 t
  funext j
  show bnReluRows (n := 5000) (iblk6 V c 0 t) (iblk6 V c 1 t) (iblk6 V c 2 t) (iblk6 V c 3 t) (iblk6 V c 4 t) j
    = bnReluRows (n := 100000) (V c (Pipeline.arrRef spec6 0)) (V c (Pipeline.arrRef spec6 1)) (V c (Pipeline.arrRef spec6 2)) (V c (Pipeline.arrRef spec6 3)) (V c (Pipeline.arrRef spec6 4))
        (((cfg6.win 5).blk t).view.emb j)
  refine bnReluRows_congr j (((cfg6.win 5).blk t).view.emb j) ?_ (fun k => tile6_0 V c t j k)
    (funext (row6_1 V c t)) (funext (row6_2 V c t)) (funext (row6_3 V c t)) (funext (row6_4 V c t))
  show (j 1).val = win6_5.index t (1 : Fin 2) * 128 + 1 * (j 1).val
  omega

/-- An index of the result array is in point `t`'s tile iff each coordinate is in the tile's range on its axis. -/
theorem mem_blk6 (t : Fin cfg6.N) (i : S100000x128.Idx) :
    i ∈ ((cfg6.win 5).blk t).view.set ↔ ∀ a : Fin 2, win6_5.index t a * S5000x128.size a ≤ (i a).val
      ∧ (i a).val < win6_5.index t a * S5000x128.size a + S5000x128.size a := by
  show i ∈ ((View.whole main_v88).slice (win6_5.rect t)).set ↔ _
  rw [View.set_slice_whole, Rect.mem_set_unit]
  exact Iff.rfl

/-- Every index of the result array is in some point's tile: row `r` in tile `r / 5000`. -/
theorem cover6 (i : S100000x128.Idx) :
    ∃ t : Fin cfg6.N, (cfg6.win 5).flush t = true ∧ i ∈ ((cfg6.win 5).blk t).view.set := by
  have hi0 : (i 0).val < 100000 := (i 0).isLt
  have hi1 : (i 1).val < 128 := (i 1).isLt
  obtain ⟨t, ht⟩ := onto6 ⟨(i 0).val / 5000, by omega⟩
  have ht' : t.val = (i 0).val / 5000 := ht
  obtain ⟨-, -, -, -, -, -, -, -, -, -, eo_0, eo_1⟩ := idx6 t
  refine ⟨t, flush6_5 t, ?_⟩
  rw [mem_blk6]
  intro a
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-- THE ARRAY after region 6: the region's function of the arrays as the region finds them. -/
theorem final6 (c : Dev nD) : (dat6 (F := Ideal) V c).arrAt 5 cfg6.N
    = bnReluRows (n := 100000) (V c (Pipeline.arrRef spec6 0)) (V c (Pipeline.arrRef spec6 1)) (V c (Pipeline.arrRef spec6 2)) (V c (Pipeline.arrRef spec6 3)) (V c (Pipeline.arrRef spec6 4)) :=
  (dat6 (F := Ideal) V c).arrAt_eq_of_cover 5 _ (fun t _ => flushed6_eq V c t) cover6

end Cert.KernelIdeal.Values

end
-- ==== Proof.Values.Final7.lean ====
import proofs.«175281_j9964324127123_1_alg».proof.Proof.KernelIdeal.Region7
import proofs.«175281_j9964324127123_1_alg».proof.Proof.Values.Locality
import Idealize.ShloMosaic.Lib.Pipeline.Value

/-!
# Region 7: the array a layer combine leaves

The grid has 20 points; point `t` works on rows `5000 t … 5000 t + 4999`. The propagated messages, the initial features and the result are tiled by these rows; the layer's weight matrix is one block, the same at every point. A tile of the result is the combine of the matching tiles, and each entry reads only its own row of the two row-tiled operands, so tile `t` of the result is tile
`t` of the same function of the whole arrays. The 20 tiles cover the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the others at block `(0, 0)`. -/
theorem idx7 : ∀ t : Fin cfg7.N,
    win7_0.index t (0 : Fin 2) = t.val
    ∧ win7_0.index t (1 : Fin 2) = 0
    ∧ win7_1.index t (0 : Fin 2) = t.val
    ∧ win7_1.index t (1 : Fin 2) = 0
    ∧ win7_2.index t (0 : Fin 2) = 0
    ∧ win7_2.index t (1 : Fin 2) = 0
    ∧ win7_3.index t (0 : Fin 2) = t.val
    ∧ win7_3.index t (1 : Fin 2) = 0 :=
  (by decide +kernel : ∀ t : Fin grid7.N, _)

/-- Every tile index below 20 is some point's. -/
theorem onto7 : ∀ q : Fin 20, ∃ t : Fin cfg7.N, t.val = q.val :=
  (by decide +kernel : ∀ q : Fin 20, ∃ t : Fin grid7.N, t.val = q.val)

/-- WHAT POINT `t` WRITES BACK is tile `t` of the region's function of the arrays as the region finds them. -/
theorem flushed7_eq (c : Dev nD) (t : Fin cfg7.N) :
    (dat7 (F := Ideal) V c).flushed 3 t = ((cfg7.win 3).blk t).view.read (Elt Ideal)
      (combineRows (n := 100000) (Ideal.ofBits .f32 0x3F61D8F9#32) (Ideal.ofBits .f32 0x3DF1383B#32) (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz2]
  simp only [View.ld_unit_zero (S := S5000x128) hz2, View.ld_unit_zero (S := S128x128) hz2]
  rw [k7_pay1_eq]
  obtain ⟨e0_0, e0_1, e1_0, e1_1, e2_0, e2_1, eo_0, eo_1⟩ := idx7 t
  funext j
  show combineRows (n := 5000) (Ideal.ofBits .f32 0x3F61D8F9#32) (Ideal.ofBits .f32 0x3DF1383B#32) (iblk7 V c 0 t) (iblk7 V c 1 t) (iblk7 V c 2 t) j
    = combineRows (n := 100000) (Ideal.ofBits .f32 0x3F61D8F9#32) (Ideal.ofBits .f32 0x3DF1383B#32) (V c (Pipeline.arrRef spec7 0)) (V c (Pipeline.arrRef spec7 1)) (V c (Pipeline.arrRef spec7 2))
        (((cfg7.win 3).blk t).view.emb j)
  refine combineRows_congr (Ideal.ofBits .f32 0x3F61D8F9#32) (Ideal.ofBits .f32 0x3DF1383B#32) j (((cfg7.win 3).blk t).view.emb j) ?_ (fun k => ?_) (fun k => ?_) ?_
  · show (j 1).val = win7_3.index t (1 : Fin 2) * 128 + 1 * (j 1).val
    omega
  · show (V c (Pipeline.arrRef spec7 0)) (((cfg7.win 0).blk t).view.emb (ix2 (n0 := 5000) (n1 := 128) (j 0) k)) = _
    refine congrArg _ (funext fun a => Fin.ext ?_)
    match a with
    | ⟨0, _⟩ => show win7_0.index t (0 : Fin 2) * 5000 + 1 * (j 0).val = win7_3.index t (0 : Fin 2) * 5000 + 1 * (j 0).val; omega
    | ⟨1, _⟩ => show win7_0.index t (1 : Fin 2) * 128 + 1 * k.val = k.val; omega
  · show (V c (Pipeline.arrRef spec7 1)) (((cfg7.win 1).blk t).view.emb (ix2 (n0 := 5000) (n1 := 128) (j 0) k)) = _
    refine congrArg _ (funext fun a => Fin.ext ?_)
    match a with
    | ⟨0, _⟩ => show win7_1.index t (0 : Fin 2) * 5000 + 1 * (j 0).val = win7_3.index t (0 : Fin 2) * 5000 + 1 * (j 0).val; omega
    | ⟨1, _⟩ => show win7_1.index t (1 : Fin 2) * 128 + 1 * k.val = k.val; omega
  · funext y
    show (V c (Pipeline.arrRef spec7 2)) (((cfg7.win 2).blk t).view.emb y) = (V c (Pipeline.arrRef spec7 2)) y
    refine congrArg _ (funext fun a => Fin.ext ?_)
    match a with
    | ⟨0, _⟩ => show win7_2.index t (0 : Fin 2) * 128 + 1 * (y 0).val = (y 0).val; omega
    | ⟨1, _⟩ => show win7_2.index t (1 : Fin 2) * 128 + 1 * (y 1).val = (y 1).val; omega

/-- An index of the result array is in point `t`'s tile iff each coordinate is in the tile's range on its axis. -/
theorem mem_blk7 (t : Fin cfg7.N) (i : S100000x128.Idx) :
    i ∈ ((cfg7.win 3).blk t).view.set ↔ ∀ a : Fin 2, win7_3.index t a * S5000x128.size a ≤ (i a).val
      ∧ (i a).val < win7_3.index t a * S5000x128.size a + S5000x128.size a := by
  show i ∈ ((View.whole main_v101).slice (win7_3.rect t)).set ↔ _
  rw [View.set_slice_whole, Rect.mem_set_unit]
  exact Iff.rfl

/-- Every index of the result array is in some point's tile: row `r` in tile `r / 5000`. -/
theorem cover7 (i : S100000x128.Idx) :
    ∃ t : Fin cfg7.N, (cfg7.win 3).flush t = true ∧ i ∈ ((cfg7.win 3).blk t).view.set := by
  have hi0 : (i 0).val < 100000 := (i 0).isLt
  have hi1 : (i 1).val < 128 := (i 1).isLt
  obtain ⟨t, ht⟩ := onto7 ⟨(i 0).val / 5000, by omega⟩
  have ht' : t.val = (i 0).val / 5000 := ht
  obtain ⟨-, -, -, -, -, -, eo_0, eo_1⟩ := idx7 t
  refine ⟨t, flush7_3 t, ?_⟩
  rw [mem_blk7]
  intro a
  match a with
  | ⟨0, _⟩ => show win7_3.index t (0 : Fin 2) * 5000 ≤ (i 0).val ∧ (i 0).val < win7_3.index t (0 : Fin 2) * 5000 + 5000; omega
  | ⟨1, _⟩ => show win7_3.index t (1 : Fin 2) * 128 ≤ (i 1).val ∧ (i 1).val < win7_3.index t (1 : Fin 2) * 128 + 128; omega

/-- THE ARRAY after region 7: the region's function of the arrays as the region finds them. -/
theorem final7 (c : Dev nD) : (dat7 (F := Ideal) V c).arrAt 3 cfg7.N
    = combineRows (n := 100000) (Ideal.ofBits .f32 0x3F61D8F9#32) (Ideal.ofBits .f32 0x3DF1383B#32) (V c (Pipeline.arrRef spec7 0)) (V c (Pipeline.arrRef spec7 1)) (V c (Pipeline.arrRef spec7 2)) :=
  (dat7 (F := Ideal) V c).arrAt_eq_of_cover 3 _ (fun t _ => flushed7_eq V c t) cover7

end Cert.KernelIdeal.Values

end
-- ==== Proof.Values.Final8.lean ====
import proofs.«175281_j9964324127123_1_alg».proof.Proof.KernelIdeal.Region8
import proofs.«175281_j9964324127123_1_alg».proof.Proof.Values.Locality
import Idealize.ShloMosaic.Lib.Pipeline.Value

/-!
# Region 8: the array the last layer leaves

The grid has 20 points; point `t` works on rows `5000 t … 5000 t + 4999`. The 512-column input (the four layers' features
side by side) and the result are tiled by these rows; the `[512, 128]` weight matrix and the bias row are one block each,
the same at every point. A tile of the result is the last layer of the matching tile of the input, and each entry reads
only its own row of the input, so tile `t` of the result is tile `t` of the same function of the whole arrays. The 20
tiles cover the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the others at block `(0, 0)`. -/
theorem idx8 : ∀ t : Fin cfg8.N,
    win8_0.index t (0 : Fin 2) = t.val
    ∧ win8_0.index t (1 : Fin 2) = 0
    ∧ win8_1.index t (0 : Fin 2) = 0
    ∧ win8_1.index t (1 : Fin 2) = 0
    ∧ win8_2.index t (0 : Fin 2) = 0
    ∧ win8_2.index t (1 : Fin 2) = 0
    ∧ win8_3.index t (0 : Fin 2) = t.val
    ∧ win8_3.index t (1 : Fin 2) = 0 :=
  (by decide +kernel : ∀ t : Fin grid8.N, _)

/-- Every tile index below 20 is some point's. -/
theorem onto8 : ∀ q : Fin 20, ∃ t : Fin cfg8.N, t.val = q.val :=
  (by decide +kernel : ∀ q : Fin 20, ∃ t : Fin grid8.N, t.val = q.val)

/-- The weight matrix's block is the whole matrix, at every point. -/
theorem whole8_1 (c : Dev nD) (t : Fin cfg8.N) (y : S512x128.Idx) :
    iblk8 V c 1 t y = (V c (Pipeline.arrRef spec8 1)) y := by
  obtain ⟨-, -, e1_0, e1_1, -, -, -, -⟩ := idx8 t
  show (V c (Pipeline.arrRef spec8 1)) (((cfg8.win 1).blk t).view.emb y) = (V c (Pipeline.arrRef spec8 1)) y
  refine congrArg _ (funext fun a => Fin.ext ?_)
  match a with
  | ⟨0, _⟩ => show win8_1.index t (0 : Fin 2) * 512 + 1 * (y 0).val = (y 0).val; omega
  | ⟨1, _⟩ => show win8_1.index t (1 : Fin 2) * 128 + 1 * (y 1).val = (y 1).val; omega

/-- The bias row's block is the whole row, at every point. -/
theorem whole8_2 (c : Dev nD) (t : Fin cfg8.N) (y : S1x128.Idx) :
    iblk8 V c 2 t y = (V c (Pipeline.arrRef spec8 2)) y := by
  obtain ⟨-, -, -, -, e2_0, e2_1, -, -⟩ := idx8 t
  show (V c (Pipeline.arrRef spec8 2)) (((cfg8.win 2).blk t).view.emb y) = (V c (Pipeline.arrRef spec8 2)) y
  refine congrArg _ (funext fun a => Fin.ext ?_)
  match a with
  | ⟨0, _⟩ => show win8_2.index t (0 : Fin 2) * 1 + 1 * (y 0).val = (y 0).val; omega
  | ⟨1, _⟩ => show win8_2.index t (1 : Fin 2) * 128 + 1 * (y 1).val = (y 1).val; omega

/-- Row `p` of tile `t` of the 512-column input is row `p` of tile `t` of the result array's rows. -/
theorem tile8_0 (c : Dev nD) (t : Fin cfg8.N) (j : S5000x128.Idx) (k : Fin 512) :
    iblk8 V c 0 t (ix2 (n0 := 5000) (n1 := 512) (j 0) k)
      = (V c (Pipeline.arrRef spec8 0)) (ix2 (n0 := 100000) (n1 := 512) ((((cfg8.win 3).blk t).view.emb j) 0) k) := by
  obtain ⟨e0_0, e0_1, -, -, -, -, eo_0, eo_1⟩ := idx8 t
  show (V c (Pipeline.arrRef spec8 0)) (((cfg8.win 0).blk t).view.emb (ix2 (n0 := 5000) (n1 := 512) (j 0) k)) = _
  refine congrArg _ (funext fun a => Fin.ext ?_)
  match a with
  | ⟨0, _⟩ => show win8_0.index t (0 : Fin 2) * 5000 + 1 * (j 0).val = win8_3.index t (0 : Fin 2) * 5000 + 1 * (j 0).val; omega
  | ⟨1, _⟩ => show win8_0.index t (1 : Fin 2) * 512 + 1 * k.val = k.val; omega

/-- The body's value on any three blocks: the whole-buffer reads are the blocks themselves and the one whole-buffer store is
    its value, so the output buffer holds the last layer of the blocks. -/
theorem body8_eq (x0 : Vec Ideal S5000x512 .f32) (x1 : Vec Ideal S512x128 .f32) (x2 : Vec Ideal S1x128 .f32) :
    out8_3 x0 x1 x2 = jkRows (n := 5000) x0 x1 x2 := by
  unfold out8_3
  rw [View.canon_unit_zero hz2]
  simp only [View.ld_unit_zero (S := S5000x512) hz2, View.ld_unit_zero (S := S512x128) hz2, View.ld_unit_zero (S := S1x128) hz2]
  exact k8_pay1_eq x0 x1 x2
set_option maxHeartbeats 400000 in
/-- WHAT POINT `t` WRITES BACK is tile `t` of the region's function of the arrays as the region finds them. -/
theorem flushed8_eq (c : Dev nD) (t : Fin cfg8.N) :
    (dat8 (F := Ideal) V c).flushed 3 t = ((cfg8.win 3).blk t).view.read (Elt Ideal)
      (jkRows (n := 100000) (V c (Pipeline.arrRef spec8 0)) (V c (Pipeline.arrRef spec8 1)) (V c (Pipeline.arrRef spec8 2))) := by
  show (cfg8.win 3).cut (grid8.coords t) ((dat8 V c).after 3 t) = _
  rw [after8_3, body8_eq]
  obtain ⟨-, -, -, -, -, -, eo_0, eo_1⟩ := idx8 t
  funext j
  show jkRows (n := 5000) (iblk8 V c 0 t) (iblk8 V c 1 t) (iblk8 V c 2 t) j
    = jkRows (n := 100000) (V c (Pipeline.arrRef spec8 0)) (V c (Pipeline.arrRef spec8 1)) (V c (Pipeline.arrRef spec8 2))
        (((cfg8.win 3).blk t).view.emb j)
  refine jkRows_congr j (((cfg8.win 3).blk t).view.emb j) ?_ (fun k => tile8_0 V c t j k)
    (funext (whole8_1 V c t)) (funext (whole8_2 V c t))
  show (j 1).val = win8_3.index t (1 : Fin 2) * 128 + 1 * (j 1).val
  omega

/-- An index of the result array is in point `t`'s tile iff each coordinate is in the tile's range on its axis. -/
theorem mem_blk8 (t : Fin cfg8.N) (i : S100000x128.Idx) :
    i ∈ ((cfg8.win 3).blk t).view.set ↔ ∀ a : Fin 2, win8_3.index t a * S5000x128.size a ≤ (i a).val
      ∧ (i a).val < win8_3.index t a * S5000x128.size a + S5000x128.size a := by
  show i ∈ ((View.whole main_v104).slice (win8_3.rect t)).set ↔ _
  rw [View.set_slice_whole, Rect.mem_set_unit]
  exact Iff.rfl

/-- Every index of the result array is in some point's tile: row `r` in tile `r / 5000`. -/
theorem cover8 (i : S100000x128.Idx) :
    ∃ t : Fin cfg8.N, (cfg8.win 3).flush t = true ∧ i ∈ ((cfg8.win 3).blk t).view.set := by
  have hi0 : (i 0).val < 100000 := (i 0).isLt
  have hi1 : (i 1).val < 128 := (i 1).isLt
  obtain ⟨t, ht⟩ := onto8 ⟨(i 0).val / 5000, by omega⟩
  have ht' : t.val = (i 0).val / 5000 := ht
  obtain ⟨-, -, -, -, -, -, eo_0, eo_1⟩ := idx8 t
  refine ⟨t, flush8_3 t, ?_⟩
  rw [mem_blk8]
  intro a
  match a with
  | ⟨0, _⟩ => show win8_3.index t (0 : Fin 2) * 5000 ≤ (i 0).val ∧ (i 0).val < win8_3.index t (0 : Fin 2) * 5000 + 5000; omega
  | ⟨1, _⟩ => show win8_3.index t (1 : Fin 2) * 128 ≤ (i 1).val ∧ (i 1).val < win8_3.index t (1 : Fin 2) * 128 + 128; omega

/-- THE ARRAY after region 8: the region's function of the arrays as the region finds them. -/
theorem final8 (c : Dev nD) : (dat8 (F := Ideal) V c).arrAt 3 cfg8.N
    = jkRows (n := 100000) (V c (Pipeline.arrRef spec8 0)) (V c (Pipeline.arrRef spec8 1)) (V c (Pipeline.arrRef spec8 2)) :=
  (dat8 (F := Ideal) V c).arrAt_eq_of_cover 3 _ (fun t _ => flushed8_eq V c t) cover8

end Cert.KernelIdeal.Values

end
-- ==== Proof.Values.Final9.lean ====
import proofs.«175281_j9964324127123_1_alg».proof.Proof.KernelIdeal.Region9
import proofs.«175281_j9964324127123_1_alg».proof.Proof.Values.Locality
import Idealize.ShloMosaic.Lib.Pipeline.Value

/-!
# Region 9: the array a layer combine leaves

The grid has 20 points; point `t` works on rows `5000 t … 5000 t + 4999`. The propagated messages, the initial features and the result are tiled by these rows; the layer's weight matrix is one block, the same at every point. A tile of the result is the combine of the matching tiles, and each entry reads only its own row of the two row-tiled operands, so tile `t` of the result is tile
`t` of the same function of the whole arrays. The 20 tiles cover the 100000 rows: row `r` is in tile `r / 5000`.
-/

noncomputable section

open scoped BigOperators

namespace Cert.KernelIdeal.Values

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.Hand

variable (V : (c : Dev nD) → (b : Ref sig .tc) → Buf (Elt Ideal) ((c : Thread nD τ).loc b))

/-- The block indices over the grid: the row-tiled windows are at block `(t, 0)`, the others at block `(0, 0)`. -/
theorem idx9 : ∀ t : Fin cfg9.N,
    win9_0.index t (0 : Fin 2) = t.val
    ∧ win9_0.index t (1 : Fin 2) = 0
    ∧ win9_1.index t (0 : Fin 2) = t.val
    ∧ win9_1.index t (1 : Fin 2) = 0
    ∧ win9_2.index t (0 : Fin 2) = 0
    ∧ win9_2.index t (1 : Fin 2) = 0
    ∧ win9_3.index t (0 : Fin 2) = t.val
    ∧ win9_3.index t (1 : Fin 2) = 0 :=
  (by decide +kernel : ∀ t : Fin grid9.N, _)

/-- Every tile index below 20 is some point's. -/
theorem onto9 : ∀ q : Fin 20, ∃ t : Fin cfg9.N, t.val = q.val :=
  (by decide +kernel : ∀ q : Fin 20, ∃ t : Fin grid9.N, t.val = q.val)

set_option maxHeartbeats 1000000 in
/-- WHAT POINT `t` WRITES BACK is tile `t` of the region's function of the arrays as the region finds them. -/
theorem flushed9_eq (c : Dev nD) (t : Fin cfg9.N) :
    (dat9 (F := Ideal) V c).flushed 3 t = ((cfg9.win 3).blk t).view.read (Elt Ideal)
      (combineRows (n := 100000) (Ideal.ofBits .f32 0x3F6799C1#32) (Ideal.ofBits .f32 0x3DC331FC#32) (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero hz2]
  simp only [View.ld_unit_zero (S := S5000x128) hz2, View.ld_unit_zero (S := S128x128) hz2]
  rw [k9_pay1_eq]
  obtain ⟨e0_0, e0_1, e1_0, e1_1, e2_0, e2_1, eo_0, eo_1⟩ := idx9 t
  funext j
  show combineRows (n := 5000) (Ideal.ofBits .f32 0x3F6799C1#32) (Ideal.ofBits .f32 0x3DC331FC#32) (iblk9 V c 0 t) (iblk9 V c 1 t) (iblk9 V c 2 t) j
    = combineRows (n := 100000) (Ideal.ofBits .f32 0x3F6799C1#32) (Ideal.ofBits .f32 0x3DC331FC#32) (V c (Pipeline.arrRef spec9 0)) (V c (Pipeline.arrRef spec9 1)) (V c (Pipeline.arrRef spec9 2))
        (((cfg9.win 3).blk t).view.emb j)
  refine combineRows_congr (Ideal.ofBits .f32 0x3F6799C1#32) (Ideal.ofBits .f32 0x3DC331FC#32) j (((cfg9.win 3).blk t).view.emb j) ?_ (fun k => ?_) (fun k => ?_) ?_
  · show (j 1).val = win9_3.index t (1 : Fin 2) * 128 + 1 * (j 1).val
    omega
  · show (V c (Pipeline.arrRef spec9 0)) (((cfg9.win 0).blk t).view.emb (ix2 (n0 := 5000) (n1 := 128) (j 0) k)) = _
    refine congrArg _ (funext fun a => Fin.ext ?_)
    match a with
    | ⟨0, _⟩ => show win9_0.index t (0 : Fin 2) * 5000 + 1 * (j 0).val = win9_3.index t (0 : Fin 2) * 5000 + 1 * (j 0).val; omega
    | ⟨1, _⟩ => show win9_0.index t (1 : Fin 2) * 128 + 1 * k.val = k.val; omega
  · show (V c (Pipeline.arrRef spec9 1)) (((cfg9.win 1).blk t).view.emb (ix2 (n0 := 5000) (n1 := 128) (j 0) k)) = _
    refine congrArg _ (funext fun a => Fin.ext ?_)
    match a with
    | ⟨0, _⟩ => show win9_1.index t (0 : Fin 2) * 5000 + 1 * (j 0).val = win9_3.index t (0 : Fin 2) * 5000 + 1 * (j 0).val; omega
    | ⟨1, _⟩ => show win9_1.index t (1 : Fin 2) * 128 + 1 * k.val = k.val; omega
  · funext y
    show (V c (Pipeline.arrRef spec9 2)) (((cfg9.win 2).blk t).view.emb y) = (V c (Pipeline.arrRef spec9 2)) y
    refine congrArg _ (funext fun a => Fin.ext ?_)
    match a with
    | ⟨0, _⟩ => show win9_2.index t (0 : Fin 2) * 128 + 1 * (y 0).val = (y 0).val; omega
    | ⟨1, _⟩ => show win9_2.index t (1 : Fin 2) * 128 + 1 * (y 1).val = (y 1).val; omega

/-- An index of the result array is in point `t`'s tile iff each coordinate is in the tile's range on its axis. -/
theorem mem_blk9 (t : Fin cfg9.N) (i : S100000x128.Idx) :
    i ∈ ((cfg9.win 3).blk t).view.set ↔ ∀ a : Fin 2, win9_3.index t a * S5000x128.size a ≤ (i a).val
      ∧ (i a).val < win9_3.index t a * S5000x128.size a + S5000x128.size a := by
  show i ∈ ((View.whole main_v117).slice (win9_3.rect t)).set ↔ _
  rw [View.set_slice_whole, Rect.mem_set_unit]
  exact Iff.rfl

/-- Every index of the result array is in some point's tile: row `r` in tile `r / 5000`. -/
theorem cover9 (i : S100000x128.Idx) :
    ∃ t : Fin cfg9.N, (cfg9.win 3).flush t = true ∧ i ∈ ((cfg9.win 3).blk t).view.set := by
  have hi0 : (i 0).val < 100000 := (i 0).isLt
  have hi1 : (i 1).val < 128 := (i 1).isLt
  obtain ⟨t, ht⟩ := onto9 ⟨(i 0).val / 5000, by omega⟩
  have ht' : t.val = (i 0).val / 5000 := ht
  obtain ⟨-, -, -, -, -, -, eo_0, eo_1⟩ := idx9 t
  refine ⟨t, flush9_3 t, ?_⟩
  rw [mem_blk9]
  intro a
  match a with
  | ⟨0, _⟩ => show win9_3.index t (0 : Fin 2) * 5000 ≤ (i 0).val ∧ (i 0).val < win9_3.index t (0 : Fin 2) * 5000 + 5000; omega
  | ⟨1, _⟩ => show win9_3.index t (1 : Fin 2) * 128 ≤ (i 1).val ∧ (i 1).val < win9_3.index t (1 : Fin 2) * 128 + 128; omega

/-- THE ARRAY after region 9: the region's function of the arrays as the region finds them. -/
theorem final9 (c : Dev nD) : (dat9 (F := Ideal) V c).arrAt 3 cfg9.N
    = combineRows (n := 100000) (Ideal.ofBits .f32 0x3F6799C1#32) (Ideal.ofBits .f32 0x3DC331FC#32) (V c (Pipeline.arrRef spec9 0)) (V c (Pipeline.arrRef spec9 1)) (V c (Pipeline.arrRef spec9 2)) :=
  (dat9 (F := Ideal) V c).arrAt_eq_of_cover 3 _ (fun t _ => flushed9_eq V c t) cover9

end Cert.KernelIdeal.Values

end
-- ==== Proof.Values.Bridge.lean ====
import proofs.«175281_j9964324127123_1_alg».proof.Proof.Values.HostKFold
import proofs.«175281_j9964324127123_1_alg».proof.Proof.Values.HostKRef
import proofs.«175281_j9964324127123_1_alg».proof.Proof.Values.StageBridge
import proofs.«175281_j9964324127123_1_alg».proof.Proof.Values.Final0
import proofs.«175281_j9964324127123_1_alg».proof.Proof.Values.Final1
import proofs.«175281_j9964324127123_1_alg».proof.Proof.Values.Final2
import proofs.«175281_j9964324127123_1_alg».proof.Proof.Values.Final3
import proofs.«175281_j9964324127123_1_alg».proof.Proof.Values.Final4
import proofs.«175281_j9964324127123_1_alg».proof.Proof.Values.Final5
import proofs.«175281_j9964324127123_1_alg».proof.Proof.Values.Final6
import proofs.«175281_j9964324127123_1_alg».proof.Proof.Values.Final7
import proofs.«175281_j9964324127123_1_alg».proof.Proof.Values.Final8
import proofs.«175281_j9964324127123_1_alg».proof.Proof.Values.Final9

/-!
# The idealized kernel program computes the reference network

Region by region, in the order the main function runs them: a region's output array is its row-wise function of its
operand arrays; the operand arrays hold the host stages of earlier outputs and of the arguments; the row-wise function
of those is the reference's dense stage; and the host stages are the reference's. So the input layer's output is the
reference's input projection, each layer's combine output is the reference's, each normalisation output is the
reference's batch normalisation and relu of the combine output before it, the last projection is the reference's
jumping-knowledge projection of the four combine outputs, and the result buffer holds the reference's result.
-/

set_option maxRecDepth 1668

noncomputable section

namespace Cert.KernelIdeal.Values

open Idealize.ShloMosaic Idealize.ShloMosaic.TcCoe
open Idealize.SL Idealize.SL.Sem
open Cert.KernelIdeal Cert.KernelIdeal.Gen Cert.KernelIdeal.Hand
open Cert.ReferenceIdeal.Hand

variable (m : (ℓ : Loc nD τ sig) → Buf (Elt Ideal) ℓ) (c : Dev nD)

/-! ## The reference's intermediate arrays, of the launch contents of the arguments -/

/-- The input projection. -/
def refX : FVec Ideal S100000x128 .f32 := refX0 (F := Ideal) (m ((c.tc : Thread nD τ).loc main_arg0)) (m ((c.tc : Thread nD τ).loc main_arg1)) (m ((c.tc : Thread nD τ).loc main_arg2))
/-- Layer 0's combine output. -/
def refA0 : FVec Ideal S100000x128 .f32 := refZ0 (F := Ideal) (refX m c) (m ((c.tc : Thread nD τ).loc main_arg3)) (m ((c.tc : Thread nD τ).loc main_arg8)) (m ((c.tc : Thread nD τ).loc main_arg9))
/-- Layer 0's normalisation and relu. -/
def refB0 : FVec Ideal S100000x128 .f32 := bnRelu (F := Ideal) 0 Cert.ReferenceIdeal.Facts₀.slices_S4x128_S1x128_0_0 (refA0 m c) (m ((c.tc : Thread nD τ).loc main_arg4)) (m ((c.tc : Thread nD τ).loc main_arg5))
/-- Layer 1's combine output. -/
def refA1 : FVec Ideal S100000x128 .f32 := refZ1 (F := Ideal) (refA0 m c) (refX m c) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
/-- Layer 1's normalisation and relu. -/
def refB1 : FVec Ideal S100000x128 .f32 := bnRelu (F := Ideal) 1 Cert.ReferenceIdeal.Facts₀.slices_S4x128_S1x128_1_0 (refA1 m c) (m ((c.tc : Thread nD τ).loc main_arg4)) (m ((c.tc : Thread nD τ).loc main_arg5))
/-- Layer 2's combine output. -/
def refA2 : FVec Ideal S100000x128 .f32 := refZ2 (F := Ideal) (refA1 m c) (refX m c) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
/-- Layer 2's normalisation and relu. -/
def refB2 : FVec Ideal S100000x128 .f32 := bnRelu (F := Ideal) 2 Cert.ReferenceIdeal.Facts₀.slices_S4x128_S1x128_2_0 (refA2 m c) (m ((c.tc : Thread nD τ).loc main_arg4)) (m ((c.tc : Thread nD τ).loc main_arg5))
/-- Layer 3's combine output. -/
def refA3 : FVec Ideal S100000x128 .f32 := refZ3 (F := Ideal) (refA2 m c) (refX m c) (m ((c.tc : Thread nD τ).loc main_arg3)) (m ((c.tc : Thread nD τ).loc main_arg4)) (m ((c.tc : Thread nD τ).loc main_arg5)) (m ((c.tc : Thread nD τ).loc main_arg8)) (m ((c.tc : Thread nD τ).loc main_arg9))
/-- The jumping-knowledge projection of the four combine outputs. -/
def refJ : FVec Ideal S100000x128 .f32 :=
  jk (F := Ideal) (concat4 (refA0 m c) (refA1 m c) (refA2 m c) (refA3 m c)) (m ((c.tc : Thread nD τ).loc main_arg6)) (m ((c.tc : Thread nD τ).loc main_arg7))
/-- Layer 4's combine output: the result. -/
def refA4 : FVec Ideal S100000x128 .f32 :=
  refZ4 (F := Ideal) (refA0 m c) (refA1 m c) (refA2 m c) (refA3 m c) (refX m c) (m ((c.tc : Thread nD τ).loc main_arg3)) (m ((c.tc : Thread nD τ).loc main_arg6)) (m ((c.tc : Thread nD τ).loc main_arg7)) (m ((c.tc : Thread nD τ).loc main_arg8)) (m ((c.tc : Thread nD τ).loc main_arg9))

/-! ## Region by region -/

/-- The input layer's output is the reference's input projection. -/
theorem x_eq : W2 (F := Ideal) m c main_v1 = refX m c := by
  refine (out0 m c).trans ((final0 (atTc (W1 m)) c).trans ?_)
  show linInRows (n := 100000) (W1 m c main_arg0) (W1 m c main_arg1) (W1 m c main_v0) = _
  rw [in0_x m c, in0_w m c, in0_b m c]
  exact linInRows_rowK _ _ _

/-- Layer 0's combine output is the reference's. -/
theorem refA0_eq : W4 (F := Ideal) m c main_v14 = refA0 m c := by
  refine (out1 m c).trans ((final1 (atTc (W3 m)) c).trans ?_)
  show combineRows (n := 100000) (Ideal.ofBits .f32 0x3F183370#32) (Ideal.ofBits .f32 0x3ECF991F#32)
    (W3 m c main_v11) (W3 m c main_v1) (W3 m c main_v13) = _
  rw [in1_msg m c, in1_x0 m c, in1_w m c, x_eq m c, propagateK_eq, convWeightK_eq]
  exact combineRows_eq_combine _ _ _ _ _

/-- Layer 0's normalisation output is the reference's batch normalisation and relu of the combine output. -/
theorem refB0_eq : W8 (F := Ideal) m c main_v30 = refB0 m c := by
  refine (out2 m c).trans ((final2 (atTc (W7 m)) c).trans ?_)
  show bnReluRows (n := 100000) (W7 m c main_v14) (W7 m c main_v26) (W7 m c main_v27) (W7 m c main_v28) (W7 m c main_v29) = _
  rw [in2_z m c, in2_mean m c, in2_rstd m c, in2_scale m c, in2_shift m c, refA0_eq m c,
    colMeanK_eq, colVarK_eq, rowOf4K_eq, rowOf4K_eq]
  exact bnReluRows_rowK _ _ _ _ _

/-- Layer 1's combine output is the reference's. -/
theorem refA1_eq : W10 (F := Ideal) m c main_v43 = refA1 m c := by
  refine (out3 m c).trans ((final3 (atTc (W9 m)) c).trans ?_)
  show combineRows (n := 100000) (Ideal.ofBits .f32 0x3F46E010#32) (Ideal.ofBits .f32 0x3E647FBE#32)
    (W9 m c main_v40) (W9 m c main_v1) (W9 m c main_v42) = _
  rw [in3_msg m c, in3_x0 m c, in3_w m c, refB0_eq m c, x_eq m c, propagateK_eq, convWeightK_eq]
  exact combineRows_eq_combine _ _ _ _ _

/-- Layer 1's normalisation output. -/
theorem refB1_eq : W14 (F := Ideal) m c main_v59 = refB1 m c := by
  refine (out4 m c).trans ((final4 (atTc (W13 m)) c).trans ?_)
  show bnReluRows (n := 100000) (W13 m c main_v43) (W13 m c main_v55) (W13 m c main_v56) (W13 m c main_v57) (W13 m c main_v58) = _
  rw [in4_z m c, in4_mean m c, in4_rstd m c, in4_scale m c, in4_shift m c, refA1_eq m c,
    colMeanK_eq, colVarK_eq, rowOf4K_eq, rowOf4K_eq]
  exact bnReluRows_rowK _ _ _ _ _

/-- Layer 2's combine output is the reference's. -/
theorem refA2_eq : W16 (F := Ideal) m c main_v72 = refA2 m c := by
  refine (out5 m c).trans ((final5 (atTc (W15 m)) c).trans ?_)
  show combineRows (n := 100000) (Ideal.ofBits .f32 0x3F588995#32) (Ideal.ofBits .f32 0x3E1DD9AD#32)
    (W15 m c main_v69) (W15 m c main_v1) (W15 m c main_v71) = _
  rw [in5_msg m c, in5_x0 m c, in5_w m c, refB1_eq m c, x_eq m c, propagateK_eq, convWeightK_eq]
  exact combineRows_eq_combine _ _ _ _ _

/-- Layer 2's normalisation output. -/
theorem refB2_eq : W20 (F := Ideal) m c main_v88 = refB2 m c := by
  refine (out6 m c).trans ((final6 (atTc (W19 m)) c).trans ?_)
  show bnReluRows (n := 100000) (W19 m c main_v72) (W19 m c main_v84) (W19 m c main_v85) (W19 m c main_v86) (W19 m c main_v87) = _
  rw [in6_z m c, in6_mean m c, in6_rstd m c, in6_scale m c, in6_shift m c, refA2_eq m c,
    colMeanK_eq, colVarK_eq, rowOf4K_eq, rowOf4K_eq]
  exact bnReluRows_rowK _ _ _ _ _

/-- Layer 3's combine output is the reference's. -/
theorem refA3_eq : W22 (F := Ideal) m c main_v101 = refA3 m c := by
  refine (out7 m c).trans ((final7 (atTc (W21 m)) c).trans ?_)
  show combineRows (n := 100000) (Ideal.ofBits .f32 0x3F61D8F9#32) (Ideal.ofBits .f32 0x3DF1383B#32)
    (W21 m c main_v98) (W21 m c main_v1) (W21 m c main_v100) = _
  rw [in7_msg m c, in7_x0 m c, in7_w m c, refB2_eq m c, x_eq m c, propagateK_eq, convWeightK_eq]
  exact combineRows_eq_combine _ _ _ _ _

/-- The last projection's output is the reference's jumping-knowledge projection. -/
theorem refJ_eq : W24 (F := Ideal) m c main_v104 = refJ m c := by
  refine (out8 m c).trans ((final8 (atTc (W23 m)) c).trans ?_)
  show jkRows (n := 100000) (W23 m c main_v102) (W23 m c main_arg6) (W23 m c main_v103) = _
  rw [in8_c m c, in8_w m c, in8_b m c, refA0_eq m c, refA1_eq m c, refA2_eq m c, refA3_eq m c, concat4K_eq]
  exact jkRows_rowK _ _ _

/-- Layer 4's combine output is the reference's. -/
theorem refA4_eq : W26 (F := Ideal) m c main_v117 = refA4 m c := by
  refine (out9 m c).trans ((final9 (atTc (W25 m)) c).trans ?_)
  show combineRows (n := 100000) (Ideal.ofBits .f32 0x3F6799C1#32) (Ideal.ofBits .f32 0x3DC331FC#32)
    (W25 m c main_v114) (W25 m c main_v1) (W25 m c main_v116) = _
  rw [in9_msg m c, in9_x0 m c, in9_w m c, refJ_eq m c, x_eq m c, propagateK_eq, convWeightK_eq]
  exact combineRows_eq_combine _ _ _ _ _

/-- The result buffer at the end of the main function holds the reference network's result of the launch contents of
    the ten arguments. -/
theorem result_eq :
    W26 (F := Ideal) m c main_v117
      = refOut (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  refA4_eq m c

end Cert.KernelIdeal.Values

end
-- ==== Proof.lean ====
/-
  The certificate of a five-layer graph network whose dense steps run as ten tiled kernels (the input projection, five
  layer combines, three batch-norm-and-relu steps, the 512-wide jumping-knowledge projection) between host stretches
  (row gather and scatter-add along the edges, column means and variances, a four-way concatenate), against the same
  network written with whole-array operations.

  Frames: each printed program runs as its list of items — a host stretch applies its operations, a kernel region
  replaces its one output array by what its twenty row-tile write-backs leave — so every argument array ends as launched;
  the reference is a straight line of host operations.
  Values, over the extended reals: a tile's product into a zero accumulator is the rows of the whole product, a row
  vector lifted to a [1,128] block and broadcast down a tile is the reference's row broadcast, the formats' changes
  are the identity; so every region's output array is the reference's stage of the same operands, and the host
  stretches of the two programs are the same operations.  No law of arithmetic beyond this is used, and the inputs'
  finiteness is never opened.
-/
import proofs.«175281_j9964324127123_1_alg».proof.Defs
import proofs.«175281_j9964324127123_1_alg».proof.Proof.Gen.Kernel
import proofs.«175281_j9964324127123_1_alg».proof.Proof.Gen.KernelIdeal
import proofs.«175281_j9964324127123_1_alg».proof.Proof.Gen.ReferenceIdeal
import proofs.«175281_j9964324127123_1_alg».proof.Proof.Gen.Pre_finite_inputs
import proofs.«175281_j9964324127123_1_alg».proof.Proof.Kernel.Run
import proofs.«175281_j9964324127123_1_alg».proof.Proof.KernelIdeal.Run
import proofs.«175281_j9964324127123_1_alg».proof.Proof.Reference.Run
import proofs.«175281_j9964324127123_1_alg».proof.Proof.Values.Bridge

noncomputable section

namespace Cert.Proof

open Idealize.ShloMosaic Idealize.ShloMosaic.TcCoe Idealize.SL.Sem

namespace Claims

theorem frame_p : Cert.frame_Kernel := fun m ρ _ =>
  (θ_run Cert.Kernel.defs _ _).mono (fun _ h c => (h c).2) (Cert.Kernel.Hand.run (F := Bits) m ρ)

theorem frame_pi : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Hand.run (F := Ideal) m ρ)

/-- The two idealized programs end with one result: the kernel program's is the last contents of its fold, which is the
    reference's composed stages of the arguments. -/
theorem algebraic : Cert.algebraic_KernelIdeal_ReferenceIdeal := by
  intro m ρ m' ρ' _ hagree
  refine ⟨fun c => Cert.KernelIdeal.Hand.W26 (F := Ideal) m c Cert.KernelIdeal.main_v117, Cert.KernelIdeal.Hand.run (F := Ideal) m ρ, ?_⟩
  refine (θ_run Cert.ReferenceIdeal.defs _ _).mono (fun _ h c => ⟨(h c).1.trans ?_, (h c).2⟩)
    (Cert.ReferenceIdeal.Hand.run (F := Ideal) m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2]
  exact (Cert.KernelIdeal.Values.result_eq m c).symm

end Claims

theorem claim : Cert.Claim := ⟨Cert.Kernel.Gen.facts, Cert.KernelIdeal.Gen.facts, Cert.ReferenceIdeal.Gen.facts, Cert.Pre_finite_inputs.Gen.facts,
  Claims.frame_p, Claims.frame_pi, Claims.frame_ri, trivial, Claims.algebraic⟩

end Cert.Proof

end
